-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x2048 : Shape := ⟨2, ![1024, 2048]⟩
abbrev S2048 : Shape := ⟨1, ![2048]⟩
abbrev S2048x2048 : Shape := ⟨2, ![2048, 2048]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S2048x1024 .f32) (main_arg12 : FVec F S1024 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x1024 .f32 := Host.absf main_arg11
  let main_cst_20 : FVec F S_ .f32 := constant S_ .f32 0x7F800000#32
  let main_v55 : FVec F S2048x1024 .f32 := broadcastInDim S2048x1024 ![] bcast_S_S2048x1024 main_cst_20
  let main_v56 : IVec S2048x1024 1 := cmpf .olt main_v54 main_v55
  let main_c_21 : IVec S_ 1 := constantI S_ 1 1#1
  let main_v57 : IVec S_ 1 := (fun x v => Host.reduce IntOp.andi x v reducesTo_S2048x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S2048x2048 .f32) (main_arg8 : FVec F S2048 .f32) (main_arg9 : FVec F S2048 .f32) (main_arg10 : FVec F S2048 .f32) (main_arg11 : FVec F S2048x1024 .f32) (main_arg12 : FVec F S1024 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048 .f32) (main_arg10 : FVec F S2048 .f32) (main_arg11 : FVec F S2048x1024 .f32) (main_arg12 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x1024 .f32) (main_arg1 : FVec F S1024x2048 .f32) (main_arg2 : FVec F S2048 .f32) (main_arg3 : FVec F S1024x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048 .f32) (main_arg10 : FVec F S2048 .f32) (main_arg11 : FVec F S2048x1024 .f32) (main_arg12 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_arg11 main_arg12 main_v13 main_v16
-- ==== Kernel.lean ====
abbrev S2048x1024 : Shape := ⟨2, ![2048, 1024]⟩
abbrev S1024x2048 : Shape := ⟨2, ![1024, 2048]⟩
abbrev S2048 : Shape := ⟨1, ![2048]⟩
abbrev S2048x2048 : Shape := ⟨2, ![2048, 2048]⟩
abbrev S1024 : Shape := ⟨1, ![1024]⟩
abbrev S1x2048 : Shape := ⟨2, ![1, 2048]⟩
abbrev S512x512 : Shape := ⟨2, ![512, 512]⟩
abbrev S1x512 : Shape := ⟨2, ![1, 512]⟩
abbrev S2048x512 : Shape := ⟨2, ![2048, 512]⟩
abbrev S512 : Shape := ⟨1, ![512]⟩
abbrev S512x1 : Shape := ⟨2, ![512, 1]⟩
abbrev S2048x1 : Shape := ⟨2, ![2048, 1]⟩
abbrev S512x2048 : Shape := ⟨2, ![512, 2048]⟩
abbrev S1x1024 : Shape := ⟨2, ![1, 1024]⟩
abbrev S4x2048x2048 : Shape := ⟨3, ![4, 2048, 2048]⟩
abbrev S1x512x512 : Shape := ⟨3, ![1, 512, 512]⟩

abbrev nBuf : Space → Nat
  | .hbm => 32
  | .vmem => 60
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048, .f32⟩
  | .hbm, ⟨3, _⟩ => ⟨S1024x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048x1024, .f32⟩
  | .hbm, ⟨12, _⟩ => ⟨S1024, .f32⟩
  | .hbm, ⟨13, _⟩ => ⟨S1024x2048, .bf16⟩
  | .hbm, ⟨14, _⟩ => ⟨S1024x2048, .bf16⟩
  | .hbm, ⟨15, _⟩ => ⟨S2048x2048, .bf16⟩
  | .hbm, ⟨16, _⟩ => ⟨S2048x2048, .bf16⟩
  | .hbm, ⟨17, _⟩ => ⟨S2048x1024, .bf16⟩
  | .hbm, ⟨18, _⟩ => ⟨S1x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S1x1024, .f32⟩
  | .hbm, ⟨28, _⟩ => ⟨S1x2048, .f32⟩
  | .hbm, ⟨29, _⟩ => ⟨S1x2048, .f32⟩
  | .hbm, ⟨30, _⟩ => ⟨S2048x1024, .f32⟩
  | .hbm, ⟨31, _⟩ => ⟨S4x2048x2048, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S1x512, .f32⟩
  | .local _ .vmem, ⟨23, _⟩ => ⟨S1x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .bf16⟩
  | .local _ .vmem, ⟨30, _⟩ => ⟨S512x512, .bf16⟩
  | .local _ .vmem, ⟨31, _⟩ => ⟨S1x512, .f32⟩
  | .local _ .vmem, ⟨32, _⟩ => ⟨S1x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S2048x512, .f32⟩
  | .local _ .vmem, ⟨39, _⟩ => ⟨S2048x512, .f32⟩
  | .local _ .vmem, ⟨40, _⟩ => ⟨S2048x512, .f32⟩
  | .local _ .vmem, ⟨41, _⟩ => ⟨S2048x512, .f32⟩
  | .local _ .vmem, ⟨42, _⟩ => ⟨S512x512, .f32⟩
  | .local _ .vmem, ⟨43, _⟩ => ⟨S512x512, .f32⟩
  | .local _ .vmem, ⟨44, _⟩ => ⟨S512x2048, .f32⟩
  | .local _ .vmem, ⟨45, _⟩ => ⟨S512x2048, .f32⟩
  | .local _ .vmem, ⟨46, _⟩ => ⟨S2048x512, .bf16⟩
  | .local _ .vmem, ⟨47, _⟩ => ⟨S2048x512, .bf16⟩
  | .local _ .vmem, ⟨48, _⟩ => ⟨S1x512, .f32⟩
  | .local _ .vmem, ⟨49, _⟩ => ⟨S1x512, .f32⟩
  | .local _ .vmem, ⟨50, _⟩ => ⟨S1x2048, .f32⟩
  | .local _ .vmem, ⟨51, _⟩ => ⟨S1x2048, .f32⟩
  | .local _ .vmem, ⟨52, _⟩ => ⟨S512x512, .f32⟩
  | .local _ .vmem, ⟨53, _⟩ => ⟨S512x512, .f32⟩
  | .local _ .vmem, ⟨54, _⟩ => ⟨S512x512, .f32⟩
  | .local _ .vmem, ⟨55, _⟩ => ⟨S512x512, .f32⟩
  | .local _ .vmem, ⟨56, _⟩ => ⟨S512x512, .f32⟩
  | .local _ .vmem, ⟨57, _⟩ => ⟨S512x512, .f32⟩
  | .local _ .vmem, ⟨58, _⟩ => ⟨S1x512x512, .f32⟩
  | .local _ .vmem, ⟨59, _⟩ => ⟨S1x512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg2_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem4_0 : DmaSem sig := 47
abbrev cc5_sem5_0 : DmaSem sig := 48
abbrev cc5_sem5_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem2_1 : DmaSem sig := 55

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 4, 4], ![false, false, false]⟩

def k3_cond2 (i : grid3.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2048x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S512x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![4, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 1 → Memref sig .tc .vmem S1x2048 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x2048 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S512x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨3, ![4, 4, 4], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage6_0 : Fin 2 → Memref sig .tc .vmem S512x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true, false]

abbrev stage6_1 : Fin 2 → Memref sig .tc .vmem S512x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true]

abbrev stage6_2 : Fin 2 → Memref sig .tc .vmem S1x512x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, true]

class Facts₀ : Prop where
  bitsLt_bf16_f32 : FTy.bits .bf16 < FTy.bits .f32
  shapeCasts_S2048_S1x2048 : S2048.ShapeCasts S1x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S512x512_S512 : S512x512.Reduces [1] S512
  shapeCasts_S512_S512x1 : S512.ShapeCasts S512x1
  broadcasts_S512x1_S512x512 : S512x1.Broadcasts S512x512
  reduces_S2048x512_S2048 : S2048x512.Reduces [1] S2048
  shapeCasts_S2048_S2048x1 : S2048.ShapeCasts S2048x1
  broadcasts_S2048x1_S2048x512 : S2048x1.Broadcasts S2048x512
  transposes_S2048x512_p1_0_S512x2048 : S2048x512.Transposes [1, 0] S512x2048
  reduces_S512x2048_S512 : S512x2048.Reduces [1] S512
  broadcasts_S512x1_S512x2048 : S512x1.Broadcasts S512x2048
  shapeCasts_S1024_S1x1024 : S1024.ShapeCasts S1x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  transposes_S512x512_p1_0_S512x512 : S512x512.Transposes [1, 0] S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x512_S512x512_S512x512_1_0_0_1_n_n_wf : DotDims.WF S512x512 S512x512 S512x512 [1] [0] [0] [1] [] []
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x1024.size a
  hwx0_0 : ∀ i : grid0.Coords, EltTy.bits .f32 = 32 ∨ (Rect.block (s := S2048x1024) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S1024x2048.size a
  hwx0_1 : ∀ i : grid0.Coords, EltTy.bits .bf16 = 32 ∨ (Rect.block (s := S1024x2048) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x2048.size a
  hwx0_3 : ∀ i : grid0.Coords, EltTy.bits .f32 = 32 ∨ (Rect.block (s := S2048x2048) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S2048x1024.size a
  hwx1_0 : ∀ i : grid1.Coords, EltTy.bits .f32 = 32 ∨ (Rect.block (s := S2048x1024) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S1024x2048.size a
  hwx1_1 : ∀ i : grid1.Coords, EltTy.bits .bf16 = 32 ∨ (Rect.block (s := S1024x2048) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S2048x2048.size a
  hwx1_3 : ∀ i : grid1.Coords, EltTy.bits .f32 = 32 ∨ (Rect.block (s := S2048x2048) S512x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S2048x2048.size a
  hwx2_0 : ∀ i : grid2.Coords, EltTy.bits .f32 = 32 ∨ (Rect.block (s := S2048x2048) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S2048x2048.size a
  hwx2_1 : ∀ i : grid2.Coords, EltTy.bits .bf16 = 32 ∨ (Rect.block (s := S2048x2048) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x2048.size a
  hwx2_2 : ∀ i : grid2.Coords, EltTy.bits .f32 = 32 ∨ (Rect.block (s := S1x2048) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S2048x2048.size a
  hwx2_3 : ∀ i : grid2.Coords, EltTy.bits .f32 = 32 ∨ (Rect.block (s := S2048x2048) S512x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S2048x2048.size a
  hwx3_0 : ∀ i : grid3.Coords, EltTy.bits .f32 = 32 ∨ (Rect.block (s := S2048x2048) S512x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S2048x2048.size a
  hwx3_1 : ∀ i : grid3.Coords, EltTy.bits .bf16 = 32 ∨ (Rect.block (s := S2048x2048) S512x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x2048.size a
  hwx3_2 : ∀ i : grid3.Coords, EltTy.bits .f32 = 32 ∨ (Rect.block (s := S1x2048) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S2048x2048.size a
  hwx3_3 : ∀ i : grid3.Coords, EltTy.bits .f32 = 32 ∨ (Rect.block (s := S2048x2048) S512x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S2048x2048.size a
  hwx4_0 : ∀ i : grid4.Coords, EltTy.bits .f32 = 32 ∨ (Rect.block (s := S2048x2048) S512x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x512.size a ≤ S2048x2048.size a
  hwx4_1 : ∀ i : grid4.Coords, EltTy.bits .f32 = 32 ∨ (Rect.block (s := S2048x2048) S2048x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x512.size a ≤ S2048x2048.size a
  hwx4_2 : ∀ i : grid4.Coords, EltTy.bits .f32 = 32 ∨ (Rect.block (s := S2048x2048) S2048x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S2048x2048.size a
  hwx4_3 : ∀ i : grid4.Coords, EltTy.bits .f32 = 32 ∨ (Rect.block (s := S2048x2048) S512x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x2048.size a ≤ S2048x2048.size a
  hwx5_0 : ∀ i : grid5.Coords, EltTy.bits .f32 = 32 ∨ (Rect.block (s := S2048x2048) S512x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x512.size a ≤ S2048x1024.size a
  hwx5_1 : ∀ i : grid5.Coords, EltTy.bits .bf16 = 32 ∨ (Rect.block (s := S2048x1024) S2048x512.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x1024.size a
  hwx5_2 : ∀ i : grid5.Coords, EltTy.bits .f32 = 32 ∨ (Rect.block (s := S1x1024) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2048.size a ≤ S1x2048.size a
  hwx5_3 : ∀ i : grid5.Coords, EltTy.bits .f32 = 32 ∨ (Rect.block (s := S1x2048) S1x2048.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x2048.size a ≤ S1x2048.size a
  hwx5_4 : ∀ i : grid5.Coords, EltTy.bits .f32 = 32 ∨ (Rect.block (s := S1x2048) S1x2048.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x512.size a ≤ S2048x1024.size a
  hwx5_5 : ∀ i : grid5.Coords, EltTy.bits .f32 = 32 ∨ (Rect.block (s := S2048x1024) S512x512.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x512.size a ≤ S2048x2048.size a
  hwx6_0 : ∀ i : grid6.Coords, EltTy.bits .f32 = 32 ∨ (Rect.block (s := S2048x2048) S512x512.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S2048x2048.size a
  hwx6_1 : ∀ i : grid6.Coords, EltTy.bits .f32 = 32 ∨ (Rect.block (s := S2048x2048) S512x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x512x512.size a ≤ S4x2048x2048.size a
  hwx6_2 : ∀ i : grid6.Coords, EltTy.bits .f32 = 32 ∨ (Rect.block (s := S4x2048x2048) S1x512x512.size (cc6_transform_2 i) (hinb6_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v6) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v6) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S512x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S512x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v8) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S2048x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S2048x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v13) S512x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v13) S512x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S2048x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v14) S1x512.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v15) S1x2048.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v16) S1x2048.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v17) S512x512.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v10) S512x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v12) S512x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v18) S1x512x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S2048x1024 : Shape := ⟨2, ![2048, 1024]⟩
abbrev S1024x2048 : Shape := ⟨2, ![1024, 2048]⟩
abbrev S2048 : Shape := ⟨1, ![2048]⟩
abbrev S2048x2048 : Shape := ⟨2, ![2048, 2048]⟩
abbrev S1024 : Shape := ⟨1, ![1024]⟩
abbrev S1x2048 : Shape := ⟨2, ![1, 2048]⟩
abbrev S2048x4x512 : Shape := ⟨3, ![2048, 4, 512]⟩
abbrev S4x2048x512 : Shape := ⟨3, ![4, 2048, 512]⟩
abbrev S_ : Shape := ⟨0, ![]⟩
abbrev S4x2048 : Shape := ⟨2, ![4, 2048]⟩
abbrev S4x2048x1 : Shape := ⟨3, ![4, 2048, 1]⟩
abbrev S4x2048x2048 : Shape := ⟨3, ![4, 2048, 2048]⟩
abbrev S2048x1 : Shape := ⟨2, ![2048, 1]⟩
abbrev S1x1024 : Shape := ⟨2, ![1, 1024]⟩

abbrev nBuf : Space → Nat
  | .hbm => 122
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048, .f32⟩
  | .hbm, ⟨3, _⟩ => ⟨S1024x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048x1024, .f32⟩
  | .hbm, ⟨12, _⟩ => ⟨S1024, .f32⟩
  | .hbm, ⟨13, _⟩ => ⟨S2048x2048, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x4x512, .f32⟩
  | .hbm, ⟨23, _⟩ => ⟨S4x2048x512, .f32⟩
  | .hbm, ⟨24, _⟩ => ⟨S2048x2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x4x512, .f32⟩
  | .hbm, ⟨29, _⟩ => ⟨S4x2048x512, .f32⟩
  | .hbm, ⟨30, _⟩ => ⟨S2048x2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x4x512, .f32⟩
  | .hbm, ⟨35, _⟩ => ⟨S4x2048x512, .f32⟩
  | .hbm, ⟨36, _⟩ => ⟨S4x2048x512, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S4x2048x1, .f32⟩
  | .hbm, ⟨44, _⟩ => ⟨S4x2048x512, .f32⟩
  | .hbm, ⟨45, _⟩ => ⟨S4x2048x512, .f32⟩
  | .hbm, ⟨46, _⟩ => ⟨S4x2048x512, .f32⟩
  | .hbm, ⟨47, _⟩ => ⟨S_, .f32⟩
  | .hbm, ⟨48, _⟩ => ⟨S4x2048, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x1, .f32⟩
  | .hbm, ⟨54, _⟩ => ⟨S4x2048x512, .f32⟩
  | .hbm, ⟨55, _⟩ => ⟨S4x2048x512, .f32⟩
  | .hbm, ⟨56, _⟩ => ⟨S4x2048x2048, .f32⟩
  | .hbm, ⟨57, _⟩ => ⟨S_, .f32⟩
  | .hbm, ⟨58, _⟩ => ⟨S4x2048x2048, .f32⟩
  | .hbm, ⟨59, _⟩ => ⟨S4x2048x2048, .f32⟩
  | .hbm, ⟨60, _⟩ => ⟨S_, .f32⟩
  | .hbm, ⟨61, _⟩ => ⟨S4x2048, .f32⟩
  | .hbm, ⟨62, _⟩ => ⟨S4x2048x1, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S4x2048x512, .f32⟩
  | .hbm, ⟨67, _⟩ => ⟨S_, .f32⟩
  | .hbm, ⟨68, _⟩ => ⟨S4x2048, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S4x2048x512, .f32⟩
  | .hbm, ⟨74, _⟩ => ⟨S4x2048x512, .f32⟩
  | .hbm, ⟨75, _⟩ => ⟨S2048x4x512, .f32⟩
  | .hbm, ⟨76, _⟩ => ⟨S2048x2048, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S2048x2048, .f32⟩
  | .hbm, ⟨93, _⟩ => ⟨S2048x2048, .f32⟩
  | .hbm, ⟨94, _⟩ => ⟨S1x2048, .f32⟩
  | .hbm, ⟨95, _⟩ => ⟨S2048x2048, .f32⟩
  | .hbm, ⟨96, _⟩ => ⟨S2048x2048, .f32⟩
  | .hbm, ⟨97, _⟩ => ⟨S_, .f32⟩
  | .hbm, ⟨98, _⟩ => ⟨S2048x1, .f32⟩
  | .hbm, ⟨99, _⟩ => ⟨S2048x1, .f32⟩
  | .hbm, ⟨100, _⟩ => ⟨S2048x1, .f32⟩
  | .hbm, ⟨101, _⟩ => ⟨S2048x2048, .f32⟩
  | .hbm, ⟨102, _⟩ => ⟨S2048x2048, .f32⟩
  | .hbm, ⟨103, _⟩ => ⟨S1x2048, .f32⟩
  | .hbm, ⟨104, _⟩ => ⟨S2048x2048, .f32⟩
  | .hbm, ⟨105, _⟩ => ⟨S2048x2048, .f32⟩
  | .hbm, ⟨106, _⟩ => ⟨S2048x1024, .f32⟩
  | .hbm, ⟨107, _⟩ => ⟨S1x1024, .f32⟩
  | .hbm, ⟨108, _⟩ => ⟨S2048x1024, .f32⟩
  | .hbm, ⟨109, _⟩ => ⟨S2048x1024, .f32⟩
  | .hbm, ⟨110, _⟩ => ⟨S2048x1024, .f32⟩
  | .hbm, ⟨111, _⟩ => ⟨S4x2048x512, .f32⟩
  | .hbm, ⟨112, _⟩ => ⟨S_, .f32⟩
  | .hbm, ⟨113, _⟩ => ⟨S4x2048, .f32⟩
  | .hbm, ⟨114, _⟩ => ⟨S4x2048x1, .f32⟩
  | .hbm, ⟨115, _⟩ => ⟨S_, .f32⟩
  | .hbm, ⟨116, _⟩ => ⟨S4x2048x1, .f32⟩
  | .hbm, ⟨117, _⟩ => ⟨S4x2048x1, .f32⟩
  | .hbm, ⟨118, _⟩ => ⟨S4x2048x1, .f32⟩
  | .hbm, ⟨119, _⟩ => ⟨S4x2048x512, .f32⟩
  | .hbm, ⟨120, _⟩ => ⟨S4x2048x512, .f32⟩
  | .hbm, ⟨121, _⟩ => ⟨S4x2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_1 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_12 : Ref sig .tc := ⟨.hbm, 112, rfl⟩
abbrev main_v86 : Ref sig .tc := ⟨.hbm, 113, rfl⟩
abbrev main_v87 : Ref sig .tc := ⟨.hbm, 114, rfl⟩
abbrev main_cst_13 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  shapeCasts_S2048x2048_S2048x4x512 : S2048x2048.ShapeCasts S2048x4x512
  transposes_S2048x4x512_S4x2048x512_1_0_2 : S2048x4x512.Transposes [1, 0, 2] S4x2048x512
  reducesTo_S4x2048x512_S4x2048_d2 : S4x2048x512.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x512_0_1_2 : S4x2048x1.BroadcastsInDim S4x2048x512 (![0, 1, 2] : Fin 3 → Fin S4x2048x512.rank)
  bcast_S_S4x2048x2048 : S_.BroadcastsInDim S4x2048x2048 (![] : Fin 0 → Fin S4x2048x2048.rank)
  reducesTo_S4x2048x2048_S4x2048_d2 : S4x2048x2048.ReducesTo [2] S4x2048
  bcast_S4x2048x1_S4x2048x2048_0_1_2 : S4x2048x1.BroadcastsInDim S4x2048x2048 (![0, 1, 2] : Fin 3 → Fin S4x2048x2048.rank)
  transposes_S4x2048x512_S2048x4x512_1_0_2 : S4x2048x512.Transposes [1, 0, 2] S2048x4x512
  shapeCasts_S2048x4x512_S2048x2048 : S2048x4x512.ShapeCasts S2048x2048
  reducesTo_S2048x2048_S2048_d1 : S2048x2048.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  dot_S2048x1024_S1024x2048_S2048x2048_1_0_0_1_n_n_wf : DotDims.WF S2048x1024 S1024x2048 S2048x2048 [1] [0] [0] [1] [] []
  dot_S2048x2048_S2048x2048_S2048x2048_1_0_0_1_n_n_wf : DotDims.WF S2048x2048 S2048x2048 S2048x2048 [1] [0] [0] [1] [] []
  dot_S4x2048x512_S4x2048x512_S4x2048x2048_2_2_1_1_0_0_wf : DotDims.WF S4x2048x512 S4x2048x512 S4x2048x2048 [2] [2] [1] [1] [0] [0]
  dot_S4x2048x2048_S4x2048x512_S4x2048x512_2_1_1_2_0_0_wf : DotDims.WF S4x2048x2048 S4x2048x512 S4x2048x512 [2] [1] [1] [2] [0] [0]
  dot_S2048x2048_S2048x1024_S2048x1024_1_0_0_1_n_n_wf : DotDims.WF S2048x2048 S2048x1024 S2048x1024 [1] [0] [0] [1] [] []

variable [Facts₀]

def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S4x2048x512_S4x2048x512_S4x2048x2048_2_2_1_1_0_0 : DotDims S4x2048x512 S4x2048x512 S4x2048x2048 where
  lhsContracting := [2]
  rhsContracting := [2]
  lhsNonContracting := [1]
  rhsNonContracting := [1]
  lhsBatch := [0]
  rhsBatch := [0]
  wf := dot_S4x2048x512_S4x2048x512_S4x2048x2048_2_2_1_1_0_0_wf
def dot_S4x2048x2048_S4x2048x512_S4x2048x512_2_1_1_2_0_0 : DotDims S4x2048x2048 S4x2048x512 S4x2048x512 where
  lhsContracting := [2]
  rhsContracting := [1]
  lhsNonContracting := [1]
  rhsNonContracting := [2]
  lhsBatch := [0]
  rhsBatch := [0]
  wf := dot_S4x2048x2048_S4x2048x512_S4x2048x512_2_1_1_2_0_0_wf
def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf

class Facts : Prop extends Facts₀ where

variable [Facts]
-- ==== Proof.K.Reg0.lean ====
import proofs.«115712_j50027779064181_2_alg».proof.Proof.Gen.Kernel.Launch
import proofs.«115712_j50027779064181_2_alg».proof.Proof.Gen.Kernel.Skeleton
import proofs.«115712_j50027779064181_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER of everything below
variable (V : (c : Dev nD) → (b : Ref sig .tc) → Buf (Elt F) ((c : Thread nD τ).loc b))

/-! # Region 0: the tiled matrix product with bias and tanh, its accumulator carried along the reduction axis -/

/-- The offsets of a whole-buffer access are zero. -/
theorem hzA0 : (![0, 0] : Fin 2 → Nat) = fun _ => 0 := funext fun a => by fin_cases a <;> rfl

/-! ## The body's branch conditions -/

/-- The reduction coordinate is 0 (the body's first `scf.if`, the skeleton's scalar chain substituted). -/
abbrev cond0_1 (i : grid0.Coords) : Prop := (Scalar.cmpi .ne (Scalar.extui (Scalar.cmpi .eq (BitVec.ofNat 32 (i 2).val) 0#32)) 0#32) = 1#1
/-- The reduction coordinate is the last (the body's second `scf.if`). -/
abbrev cond0_2 (i : grid0.Coords) : Prop := k0_cond2 i = 1#1

set_option maxHeartbeats 1000000 in
/-- The body at a point where the reduction coordinate is 0: the accumulator, whatever it held, is zeroed and
    then holds the product of the point's two blocks added to zero; the inputs and the output buffer are as they were. -/
theorem sound_kernel0_A (c : Dev nD) (E : Set ℕ) (i : grid0.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : cond0_1 i) (hc2 : ¬cond0_2 i)
    (x : Vec F S512x512 .f32) (w : Vec F S512x512 .bf16) (b : Vec F S1x512 .f32) (o : Vec F S512x512 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k0_pay2 x w (k0_pay1 (F := F)))) -∗ K ⟨⟩))
      ⊢ wp frame (wpE (defs₀ (F := F)) Variants.none c none) E (cc0__matmul_bias_kernel i arg3 harg3 arg4 harg4 arg5 harg5 arg6 harg6 arg7 harg7) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero hzA0 inb_S512x512_S512x512_0_0 y⟩)]
  rw [View.canon_cons_unit_zero (S := S512x512) hzA0, View.readCov_unit_zero (S := S512x512) _ hzA0]
  simp only [View.readAt_eq_ld, harg3.read_unread, harg4.read_unread, View.ld_unit_zero (S := S512x512) hzA0]

set_option maxHeartbeats 1000000 in
/-- The body at a point where the reduction coordinate is the last (and not 0): the accumulator, holding `s`, ends holding
    `s` plus the product of the point's two blocks, and the output buffer, whatever it held, ends holding that sum
    plus the bias row on every row, under tanh; the inputs are as they were. -/
theorem sound_kernel0_C (c : Dev nD) (E : Set ℕ) (i : grid0.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : ¬cond0_1 i) (hc2 : cond0_2 i)
    (x : Vec F S512x512 .f32) (w : Vec F S512x512 .bf16) (b : Vec F S1x512 .f32) (s : Vec F S512x512 .f32)
    (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k0_pay3 (k0_pay2 x w s) b) ∗ owns (c : Thread nD τ) arg7 fullShare (k0_pay2 x w s)) -∗ K ⟨⟩))
      ⊢ wp frame (wpE (defs₀ (F := F)) Variants.none c none) E (cc0__matmul_bias_kernel i arg3 harg3 arg4 harg4 arg5 harg5 arg6 harg6 arg7 harg7) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero hzA0 inb_S512x512_S512x512_0_0 y⟩)]
    rw [View.canon_cons_unit_zero (S := S512x512) hzA0, View.readCov_unit_zero (S := S512x512) _ hzA0]
    simp only [View.readAt_eq_ld, harg3.read_unread, harg4.read_unread, harg5.read_unread, harg7.read_unread,
      View.ld_unit_zero (S := S512x512) hzA0, View.ld_unit_zero (S := S1x512) hzA0]
  iexists _; isplitr
  swap; · iexact H7
  ipureintro
  rw [View.read_writes_eq_canon _ _ _ (fun y => ⟨_, List.mem_cons_self, View.mem_set_unit_zero hzA0 inb_S512x512_S512x512_0_0 y⟩)]
  rw [View.canon_cons_unit_zero (S := S512x512) hzA0]
  simp only [View.readAt_eq_ld, harg3.read_unread, harg4.read_unread, harg7.read_unread, View.ld_unit_zero (S := S512x512) hzA0]

/-- Over the grid the first condition holds where the point's position is 0 modulo 2 — the reduction axis is the
    innermost —, -/
theorem hcond0_1 : ∀ t : Fin cfg0.N, cond0_1 (grid0.coords t) ↔ t.val % 2 = 0 :=
  (by decide +kernel : ∀ t : Fin grid0.N, cond0_1 (grid0.coords t) ↔ t.val % 2 = 0)
/-- and the second where it is 1. -/
theorem hcond0_2 : ∀ t : Fin cfg0.N, cond0_2 (grid0.coords t) ↔ t.val % 2 = 1 :=
  (by decide +kernel : ∀ t : Fin grid0.N, cond0_2 (grid0.coords t) ↔ t.val % 2 = 1)

/-! ## Where the windows are idle -/

/-- The input windows are never idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
/-- The output window is idle, and not written back, at every point but the last of the reduction axis; -/
theorem idleAt0_3 : ∀ t : Fin cfg0.N, ¬cond0_2 (grid0.coords t) → cfg0.idle 3 (grid0.coords t) = true := by decide +kernel
theorem noFlush0_3 : ∀ t : Fin cfg0.N, ¬cond0_2 (grid0.coords t) → (cfg0.win 3).flush t = false := by decide +kernel
/-- there it is live. -/
theorem liveAt0_3 : ∀ t : Fin cfg0.N, cond0_2 (grid0.coords t) → cfg0.idle 3 (grid0.coords t) = false := by decide +kernel

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the block
    index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the block
    index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator and the output, point by point -/

/-- The accumulator: the kernel's scratch operand, a whole scoped buffer passed beside the windows. -/
abbrev scM0 : Memref sig .tc .vmem S512x512 .f32 := Memref.whole cc0_scratch0

/-- The class invariant with the accumulator apart, as a memref owned at some contents. -/
theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- THE ACCUMULATION. What the accumulator holds after the body at position `n`: where the reduction coordinate is 0
    the product of the point's blocks added to the zero block, elsewhere added to what the point before left. -/
def acc0 (c : Dev nD) : (n : ℕ) → n < cfg0.N → Vec F S512x512 .f32
  | 0, hn => k0_pay2 (iblk0 V c 0 ⟨0, hn⟩) (iblk0 V c 1 ⟨0, hn⟩) (k0_pay1 (F := F))
  | n + 1, hn =>
    if (n + 1) % 2 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At the first point of a reduction: the product added to zero. -/
theorem acc0_first (c : Dev nD) (t : Fin cfg0.N) (h : t.val % 2 = 0) :
    acc0 V c t.val t.isLt = k0_pay2 (iblk0 V c 0 t) (iblk0 V c 1 t) (k0_pay1 (F := F)) := by
  obtain ⟨n, hn⟩ := t
  cases n with
  | zero => rfl
  | succ n => exact if_pos h

/-- At a later point of a reduction: the product added to what the point before left. -/
theorem acc0_next (c : Dev nD) (t : Fin cfg0.N) (h : ¬t.val % 2 = 0) :
    acc0 V c t.val t.isLt
      = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- What the output's staging buffer holds after the body at a point that ends a reduction: the accumulated sum plus
    the bias row, under tanh. (At the other points the window is idle and this names nothing that is read.) -/
def out0_3 (c : Dev nD) (t : Fin cfg0.N) : Vec F S512x512 .f32 :=
  k0_pay3 (acc0 V c t.val t.isLt) (iblk0 V c 2 t)

/-- The region invariant before position `n`: before the first point the class's; afterwards the accumulator owned at
    what the point before left in it, beside the rest of the scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the pipeline on core `c`: the arrays as the region finds them; after the body each input's buffer
    at its block and the output's at `out0_3`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 V c t := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- An input's buffer is handed back at its block. -/
theorem leaves0_0 (c : Dev nD) (t : Fin cfg0.N) :
    (dat0 V c).leavesExact 0 t = owns (c : Thread nD τ) (st0_0 t) fullShare (iblk0 V c 0 t) := by
  rw [show (dat0 V c).leavesExact 0 t = owns (c : Thread nD τ) (st0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (st0_1 t) fullShare (iblk0 V c 1 t) := by
  rw [show (dat0 V c).leavesExact 1 t = owns (c : Thread nD τ) (st0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (st0_2 t) fullShare (iblk0 V c 2 t) := by
  rw [show (dat0 V c).leavesExact 2 t = owns (c : Thread nD τ) (st0_2 t) fullShare ((dat0 V c).after 2 t) from by
    unfold Dat.leavesExact; rw [liveAt0_2 t], after0_2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the position modulo 2 says which case the point is
    in; the invariant hands the body the accumulator at what the point before left (at anything before the first
    point) and takes it back at this point's contents; where the reduction does not end the output's buffer is
    handed back untouched, where it ends it holds the sum plus the bias under tanh; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 32 := lt_of_lt_of_eq t.isLt (show cfg0.N = 32 from N_0)
  by_cases h1 : t.val % 2 = 0
  · have h2 : ¬t.val % 2 = 1 := by omega
    rw [Dat.leavesExact_idle (dat0 V c) 3 t (idleAt0_3 t (fun h => h2 ((hcond0_2 t).mp h))) (noFlush0_3 t (fun h => h2 ((hcond0_2 t).mp h)))]
    rw [acc0_first V c t h1]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply (sound_kernel0_A c Set.univ (grid0.coords t) _ _ _ _ _ _ _ _ _ _ ((hcond0_1 t).mpr h1) (fun h => h2 ((hcond0_2 t).mp h)) (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (sound_kernel0_A c Set.univ (grid0.coords t) _ _ _ _ _ _ _ _ _ _ ((hcond0_1 t).mpr h1) (fun h => h2 ((hcond0_2 t).mp h)) (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have h2 : t.val % 2 = 1 := by omega
    rw [show (dat0 V c).leavesExact 3 t = owns (c : Thread nD τ) (st0_3 t) fullShare ((dat0 V c).after 3 t) from by
      unfold Dat.leavesExact; rw [liveAt0_3 t ((hcond0_2 t).mpr h2)], after0_3]
    unfold out0_3
    rw [acc0_next V c t h1]
    have hz : t.val ≠ 0 := by omega
    rw [PhiS0_castSucc V c t, PhiS0_pos V c _ _ hz]
    iintro ⟨⟨⟨HS, Hr⟩, Hg⟩, Ho, ⟨%d0, H0⟩, ⟨%d1, H1⟩, ⟨%d2, H2⟩, ⟨%d3, H3⟩⟩
    iapply (sound_kernel0_C c Set.univ (grid0.coords t) _ _ _ _ _ _ _ _ _ _ (fun h => h1 ((hcond0_1 t).mp h)) ((hcond0_2 t).mpr h2) (iblk0 V c 0 t) (iblk0 V c 1 t) (iblk0 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand
end
-- ==== Proof.K.Reg1.lean ====
import proofs.«115712_j50027779064181_2_alg».proof.Proof.Gen.Kernel.Launch
import proofs.«115712_j50027779064181_2_alg».proof.Proof.Gen.Kernel.Skeleton
import proofs.«115712_j50027779064181_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER of everything below
variable (V : (c : Dev nD) → (b : Ref sig .tc) → Buf (Elt F) ((c : Thread nD τ).loc b))

/-! # Region 1: the tiled matrix product with bias, its accumulator carried along the reduction axis -/

/-- The offsets of a whole-buffer access are zero. -/
theorem hzA1 : (![0, 0] : Fin 2 → Nat) = fun _ => 0 := funext fun a => by fin_cases a <;> rfl

/-! ## The body's branch conditions -/

/-- The reduction coordinate is 0 (the body's first `scf.if`, the skeleton's scalar chain substituted). -/
abbrev cond1_1 (i : grid1.Coords) : Prop := (Scalar.cmpi .ne (Scalar.extui (Scalar.cmpi .eq (BitVec.ofNat 32 (i 2).val) 0#32)) 0#32) = 1#1
/-- The reduction coordinate is the last (the body's second `scf.if`). -/
abbrev cond1_2 (i : grid1.Coords) : Prop := k1_cond2 i = 1#1

set_option maxHeartbeats 1000000 in
/-- The body at a point where the reduction coordinate is 0: the accumulator, whatever it held, is zeroed and
    then holds the product of the point's two blocks added to zero; the inputs and the output buffer are as they were. -/
theorem sound_kernel1_A (c : Dev nD) (E : Set ℕ) (i : grid1.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : cond1_1 i) (hc2 : ¬cond1_2 i)
    (x : Vec F S512x512 .f32) (w : Vec F S512x512 .bf16) (b : Vec F S1x512 .f32) (o : Vec F S512x512 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 x w (k1_pay1 (F := F)))) -∗ K ⟨⟩))
      ⊢ wp frame (wpE (defs₀ (F := F)) Variants.none c none) E (cc1__matmul_bias_kernel i arg3 harg3 arg4 harg4 arg5 harg5 arg6 harg6 arg7 harg7) K := by
  simp only [cc1__matmul_bias_kernel_eq_skeleton]; unfold cc1__matmul_bias_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero hzA1 inb_S512x512_S512x512_0_0 y⟩)]
  rw [View.canon_cons_unit_zero (S := S512x512) hzA1, View.readCov_unit_zero (S := S512x512) _ hzA1]
  simp only [View.readAt_eq_ld, harg3.read_unread, harg4.read_unread, View.ld_unit_zero (S := S512x512) hzA1]

set_option maxHeartbeats 1000000 in
/-- The body at a point where the reduction coordinate is the last (and not 0): the accumulator, holding `s`, ends holding
    `s` plus the product of the point's two blocks, and the output buffer, whatever it held, ends holding that sum
    plus the bias row on every row; the inputs are as they were. -/
theorem sound_kernel1_C (c : Dev nD) (E : Set ℕ) (i : grid1.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : ¬cond1_1 i) (hc2 : cond1_2 i)
    (x : Vec F S512x512 .f32) (w : Vec F S512x512 .bf16) (b : Vec F S1x512 .f32) (s : Vec F S512x512 .f32)
    (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w s) b) ∗ owns (c : Thread nD τ) arg7 fullShare (k1_pay2 x w s)) -∗ K ⟨⟩))
      ⊢ wp frame (wpE (defs₀ (F := F)) Variants.none c none) E (cc1__matmul_bias_kernel i arg3 harg3 arg4 harg4 arg5 harg5 arg6 harg6 arg7 harg7) K := by
  simp only [cc1__matmul_bias_kernel_eq_skeleton]; unfold cc1__matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero hzA1 inb_S512x512_S512x512_0_0 y⟩)]
    rw [View.canon_cons_unit_zero (S := S512x512) hzA1, View.readCov_unit_zero (S := S512x512) _ hzA1]
    simp only [View.readAt_eq_ld, harg3.read_unread, harg4.read_unread, harg5.read_unread, harg7.read_unread,
      View.ld_unit_zero (S := S512x512) hzA1, View.ld_unit_zero (S := S1x512) hzA1]
  iexists _; isplitr
  swap; · iexact H7
  ipureintro
  rw [View.read_writes_eq_canon _ _ _ (fun y => ⟨_, List.mem_cons_self, View.mem_set_unit_zero hzA1 inb_S512x512_S512x512_0_0 y⟩)]
  rw [View.canon_cons_unit_zero (S := S512x512) hzA1]
  simp only [View.readAt_eq_ld, harg3.read_unread, harg4.read_unread, harg7.read_unread, View.ld_unit_zero (S := S512x512) hzA1]

/-- Over the grid the first condition holds where the point's position is 0 modulo 2 — the reduction axis is the
    innermost —, -/
theorem hcond1_1 : ∀ t : Fin cfg1.N, cond1_1 (grid1.coords t) ↔ t.val % 2 = 0 :=
  (by decide +kernel : ∀ t : Fin grid1.N, cond1_1 (grid1.coords t) ↔ t.val % 2 = 0)
/-- and the second where it is 1. -/
theorem hcond1_2 : ∀ t : Fin cfg1.N, cond1_2 (grid1.coords t) ↔ t.val % 2 = 1 :=
  (by decide +kernel : ∀ t : Fin grid1.N, cond1_2 (grid1.coords t) ↔ t.val % 2 = 1)

/-! ## Where the windows are idle -/

/-- The input windows are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- The output window is idle, and not written back, at every point but the last of the reduction axis; -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- there it is live. -/
theorem liveAt1_3 : ∀ t : Fin cfg1.N, cond1_2 (grid1.coords t) → cfg1.idle 3 (grid1.coords t) = false := by decide +kernel

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the output, point by point -/

/-- The accumulator: the kernel's scratch operand, a whole scoped buffer passed beside the windows. -/
abbrev scM1 : Memref sig .tc .vmem S512x512 .f32 := Memref.whole cc1_scratch0

/-- The class invariant with the accumulator apart, as a memref owned at some contents. -/
theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- THE ACCUMULATION. What the accumulator holds after the body at position `n`: where the reduction coordinate is 0
    the product of the point's blocks added to the zero block, elsewhere added to what the point before left. -/
def acc1 (c : Dev nD) : (n : ℕ) → n < cfg1.N → Vec F S512x512 .f32
  | 0, hn => k1_pay2 (iblk1 V c 0 ⟨0, hn⟩) (iblk1 V c 1 ⟨0, hn⟩) (k1_pay1 (F := F))
  | n + 1, hn =>
    if (n + 1) % 2 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At the first point of a reduction: the product added to zero. -/
theorem acc1_first (c : Dev nD) (t : Fin cfg1.N) (h : t.val % 2 = 0) :
    acc1 V c t.val t.isLt = k1_pay2 (iblk1 V c 0 t) (iblk1 V c 1 t) (k1_pay1 (F := F)) := by
  obtain ⟨n, hn⟩ := t
  cases n with
  | zero => rfl
  | succ n => exact if_pos h

/-- At a later point of a reduction: the product added to what the point before left. -/
theorem acc1_next (c : Dev nD) (t : Fin cfg1.N) (h : ¬t.val % 2 = 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- What the output's staging buffer holds after the body at a point that ends a reduction: the accumulated sum plus
    the bias row. (At the other points the window is idle and this names nothing that is read.) -/
def out1_3 (c : Dev nD) (t : Fin cfg1.N) : Vec F S512x512 .f32 :=
  k1_pay3 (acc1 V c t.val t.isLt) (iblk1 V c 2 t)

/-- The region invariant before position `n`: before the first point the class's; afterwards the accumulator owned at
    what the point before left in it, beside the rest of the scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the pipeline on core `c`: the arrays as the region finds them; after the body each input's buffer
    at its block and the output's at `out1_3`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 V c t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- An input's buffer is handed back at its block. -/
theorem leaves1_0 (c : Dev nD) (t : Fin cfg1.N) :
    (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (st1_2 t) fullShare (iblk1 V c 2 t) := by
  rw [show (dat1 V c).leavesExact 2 t = owns (c : Thread nD τ) (st1_2 t) fullShare ((dat1 V c).after 2 t) from by
    unfold Dat.leavesExact; rw [liveAt1_2 t], after1_2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the position modulo 2 says which case the point is
    in; the invariant hands the body the accumulator at what the point before left (at anything before the first
    point) and takes it back at this point's contents; where the reduction does not end the output's buffer is
    handed back untouched, where it ends it holds the sum plus the bias; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 32 := lt_of_lt_of_eq t.isLt (show cfg1.N = 32 from N_1)
  by_cases h1 : t.val % 2 = 0
  · have h2 : ¬t.val % 2 = 1 := by omega
    rw [Dat.leavesExact_idle (dat1 V c) 3 t (idleAt1_3 t (fun h => h2 ((hcond1_2 t).mp h))) (noFlush1_3 t (fun h => h2 ((hcond1_2 t).mp h)))]
    rw [acc1_first V c t h1]
    by_cases hz : t.val = 0
    · rw [PhiS1_castSucc V c t, PhiS1_zero V c _ _ hz, PhiA1_eq]
      iintro ⟨⟨⟨HS, Hr⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_1 t).mpr h1) (fun h => h2 ((hcond1_2 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_1 t).mpr h1) (fun h => h2 ((hcond1_2 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have h2 : t.val % 2 = 1 := by omega
    rw [show (dat1 V c).leavesExact 3 t = owns (c : Thread nD τ) (st1_3 t) fullShare ((dat1 V c).after 3 t) from by
      unfold Dat.leavesExact; rw [liveAt1_3 t ((hcond1_2 t).mpr h2)], after1_3]
    unfold out1_3
    rw [acc1_next V c t h1]
    have hz : t.val ≠ 0 := by omega
    rw [PhiS1_castSucc V c t, PhiS1_pos V c _ _ hz]
    iintro ⟨⟨⟨HS, Hr⟩, Hg⟩, Ho, ⟨%d0, H0⟩, ⟨%d1, H1⟩, ⟨%d2, H2⟩, ⟨%d3, H3⟩⟩
    iapply (sound_kernel1_C c Set.univ (grid1.coords t) _ _ _ _ _ _ _ _ _ _ (fun h => h1 ((hcond1_1 t).mp h)) ((hcond1_2 t).mpr h2) (iblk1 V c 0 t) (iblk1 V c 1 t) (iblk1 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]
    · iexists _; iexact HS
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand
end
-- ==== Proof.K.Reg2.lean ====
import proofs.«115712_j50027779064181_2_alg».proof.Proof.Gen.Kernel.Launch
import proofs.«115712_j50027779064181_2_alg».proof.Proof.Gen.Kernel.Skeleton
import proofs.«115712_j50027779064181_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER of everything below
variable (V : (c : Dev nD) → (b : Ref sig .tc) → Buf (Elt F) ((c : Thread nD τ).loc b))

/-! # Region 2: the tiled matrix product with bias, its accumulator carried along the reduction axis -/

/-- The offsets of a whole-buffer access are zero. -/
theorem hzA2 : (![0, 0] : Fin 2 → Nat) = fun _ => 0 := funext fun a => by fin_cases a <;> rfl

/-! ## The body's branch conditions -/

/-- The reduction coordinate is 0 (the body's first `scf.if`, the skeleton's scalar chain substituted). -/
abbrev cond2_1 (i : grid2.Coords) : Prop := (Scalar.cmpi .ne (Scalar.extui (Scalar.cmpi .eq (BitVec.ofNat 32 (i 2).val) 0#32)) 0#32) = 1#1
/-- The reduction coordinate is the last (the body's second `scf.if`). -/
abbrev cond2_2 (i : grid2.Coords) : Prop := k2_cond2 i = 1#1

set_option maxHeartbeats 1000000 in
/-- The body at a point where the reduction coordinate is 0 (and not the last): the accumulator, whatever it held, is zeroed and
    then holds the product of the point's two blocks added to zero; the inputs and the output buffer are as they were. -/
theorem sound_kernel2_A (c : Dev nD) (E : Set ℕ) (i : grid2.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : cond2_1 i) (hc2 : ¬cond2_2 i)
    (x : Vec F S512x512 .f32) (w : Vec F S512x512 .bf16) (b : Vec F S1x512 .f32) (o : Vec F S512x512 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k2_pay2 x w (k2_pay1 (F := F)))) -∗ K ⟨⟩))
      ⊢ wp frame (wpE (defs₀ (F := F)) Variants.none c none) E (cc2__matmul_bias_kernel i arg3 harg3 arg4 harg4 arg5 harg5 arg6 harg6 arg7 harg7) K := by
  simp only [cc2__matmul_bias_kernel_eq_skeleton]; unfold cc2__matmul_bias_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero hzA2 inb_S512x512_S512x512_0_0 y⟩)]
  rw [View.canon_cons_unit_zero (S := S512x512) hzA2, View.readCov_unit_zero (S := S512x512) _ hzA2]
  simp only [View.readAt_eq_ld, harg3.read_unread, harg4.read_unread, View.ld_unit_zero (S := S512x512) hzA2]

set_option maxHeartbeats 1000000 in
/-- The body at a point where the reduction coordinate is neither 0 nor the last: the accumulator, holding `s`, ends
    holding `s` plus the product of the point's two blocks; the inputs and the output buffer are as they were. -/
theorem sound_kernel2_B (c : Dev nD) (E : Set ℕ) (i : grid2.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : ¬cond2_1 i) (hc2 : ¬cond2_2 i)
    (x : Vec F S512x512 .f32) (w : Vec F S512x512 .bf16) (b : Vec F S1x512 .f32) (o : Vec F S512x512 .f32) (s : Vec F S512x512 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k2_pay2 x w s)) -∗ K ⟨⟩))
      ⊢ wp frame (wpE (defs₀ (F := F)) Variants.none c none) E (cc2__matmul_bias_kernel i arg3 harg3 arg4 harg4 arg5 harg5 arg6 harg6 arg7 harg7) K := by
  simp only [cc2__matmul_bias_kernel_eq_skeleton]; unfold cc2__matmul_bias_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5; obtain rfl := harg6.eq_unread hf6
  obtain rfl := harg7.eq_unread hf7
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero hzA2 inb_S512x512_S512x512_0_0 y⟩)]
  rw [View.canon_cons_unit_zero (S := S512x512) hzA2]
  simp only [View.readAt_eq_ld, harg3.read_unread, harg4.read_unread, harg7.read_unread, View.ld_unit_zero (S := S512x512) hzA2]

set_option maxHeartbeats 1000000 in
/-- The body at a point where the reduction coordinate is the last: the accumulator, holding `s`, ends holding
    `s` plus the product of the point's two blocks, and the output buffer, whatever it held, ends holding that sum
    plus the bias row on every row; the inputs are as they were. -/
theorem sound_kernel2_C (c : Dev nD) (E : Set ℕ) (i : grid2.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : ¬cond2_1 i) (hc2 : cond2_2 i)
    (x : Vec F S512x512 .f32) (w : Vec F S512x512 .bf16) (b : Vec F S1x512 .f32) (s : Vec F S512x512 .f32)
    (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k2_pay3 (k2_pay2 x w s) b) ∗ owns (c : Thread nD τ) arg7 fullShare (k2_pay2 x w s)) -∗ K ⟨⟩))
      ⊢ wp frame (wpE (defs₀ (F := F)) Variants.none c none) E (cc2__matmul_bias_kernel i arg3 harg3 arg4 harg4 arg5 harg5 arg6 harg6 arg7 harg7) K := by
  simp only [cc2__matmul_bias_kernel_eq_skeleton]; unfold cc2__matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero hzA2 inb_S512x512_S512x512_0_0 y⟩)]
    rw [View.canon_cons_unit_zero (S := S512x512) hzA2, View.readCov_unit_zero (S := S512x512) _ hzA2]
    simp only [View.readAt_eq_ld, harg3.read_unread, harg4.read_unread, harg5.read_unread, harg7.read_unread,
      View.ld_unit_zero (S := S512x512) hzA2, View.ld_unit_zero (S := S1x512) hzA2]
  iexists _; isplitr
  swap; · iexact H7
  ipureintro
  rw [View.read_writes_eq_canon _ _ _ (fun y => ⟨_, List.mem_cons_self, View.mem_set_unit_zero hzA2 inb_S512x512_S512x512_0_0 y⟩)]
  rw [View.canon_cons_unit_zero (S := S512x512) hzA2]
  simp only [View.readAt_eq_ld, harg3.read_unread, harg4.read_unread, harg7.read_unread, View.ld_unit_zero (S := S512x512) hzA2]

/-- Over the grid the first condition holds where the point's position is 0 modulo 4 — the reduction axis is the
    innermost —, -/
theorem hcond2_1 : ∀ t : Fin cfg2.N, cond2_1 (grid2.coords t) ↔ t.val % 4 = 0 :=
  (by decide +kernel : ∀ t : Fin grid2.N, cond2_1 (grid2.coords t) ↔ t.val % 4 = 0)
/-- and the second where it is 3. -/
theorem hcond2_2 : ∀ t : Fin cfg2.N, cond2_2 (grid2.coords t) ↔ t.val % 4 = 3 :=
  (by decide +kernel : ∀ t : Fin grid2.N, cond2_2 (grid2.coords t) ↔ t.val % 4 = 3)

/-! ## Where the windows are idle -/

/-- The input windows are never idle. -/
theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
/-- The output window is idle, and not written back, at every point but the last of the reduction axis; -/
theorem idleAt2_3 : ∀ t : Fin cfg2.N, ¬cond2_2 (grid2.coords t) → cfg2.idle 3 (grid2.coords t) = true := by decide +kernel
theorem noFlush2_3 : ∀ t : Fin cfg2.N, ¬cond2_2 (grid2.coords t) → (cfg2.win 3).flush t = false := by decide +kernel
/-- there it is live. -/
theorem liveAt2_3 : ∀ t : Fin cfg2.N, cond2_2 (grid2.coords t) → cfg2.idle 3 (grid2.coords t) = false := by decide +kernel

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the block
    index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the block
    index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the block
    index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator and the output, point by point -/

/-- The accumulator: the kernel's scratch operand, a whole scoped buffer passed beside the windows. -/
abbrev scM2 : Memref sig .tc .vmem S512x512 .f32 := Memref.whole cc2_scratch0

/-- The class invariant with the accumulator apart, as a memref owned at some contents. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- THE ACCUMULATION. What the accumulator holds after the body at position `n`: where the reduction coordinate is 0
    the product of the point's blocks added to the zero block, elsewhere added to what the point before left. -/
def acc2 (c : Dev nD) : (n : ℕ) → n < cfg2.N → Vec F S512x512 .f32
  | 0, hn => k2_pay2 (iblk2 V c 0 ⟨0, hn⟩) (iblk2 V c 1 ⟨0, hn⟩) (k2_pay1 (F := F))
  | n + 1, hn =>
    if (n + 1) % 4 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

/-- At the first point of a reduction: the product added to zero. -/
theorem acc2_first (c : Dev nD) (t : Fin cfg2.N) (h : t.val % 4 = 0) :
    acc2 V c t.val t.isLt = k2_pay2 (iblk2 V c 0 t) (iblk2 V c 1 t) (k2_pay1 (F := F)) := by
  obtain ⟨n, hn⟩ := t
  cases n with
  | zero => rfl
  | succ n => exact if_pos h

/-- At a later point of a reduction: the product added to what the point before left. -/
theorem acc2_next (c : Dev nD) (t : Fin cfg2.N) (h : ¬t.val % 4 = 0) :
    acc2 V c t.val t.isLt
      = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

/-- What the output's staging buffer holds after the body at a point that ends a reduction: the accumulated sum plus
    the bias row. (At the other points the window is idle and this names nothing that is read.) -/
def out2_3 (c : Dev nD) (t : Fin cfg2.N) : Vec F S512x512 .f32 :=
  k2_pay3 (acc2 V c t.val t.isLt) (iblk2 V c 2 t)

/-- The region invariant before position `n`: before the first point the class's; afterwards the accumulator owned at
    what the point before left in it, beside the rest of the scoped buffers and the generator register. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the pipeline on core `c`: the arrays as the region finds them; after the body each input's buffer
    at its block and the output's at `out2_3`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 V c t := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- An input's buffer is handed back at its block. -/
theorem leaves2_0 (c : Dev nD) (t : Fin cfg2.N) :
    (dat2 V c).leavesExact 0 t = owns (c : Thread nD τ) (st2_0 t) fullShare (iblk2 V c 0 t) := by
  rw [show (dat2 V c).leavesExact 0 t = owns (c : Thread nD τ) (st2_0 t) fullShare ((dat2 V c).after 0 t) from by
    unfold Dat.leavesExact; rw [liveAt2_0 t], after2_0]
theorem leaves2_1 (c : Dev nD) (t : Fin cfg2.N) :
    (dat2 V c).leavesExact 1 t = owns (c : Thread nD τ) (st2_1 t) fullShare (iblk2 V c 1 t) := by
  rw [show (dat2 V c).leavesExact 1 t = owns (c : Thread nD τ) (st2_1 t) fullShare ((dat2 V c).after 1 t) from by
    unfold Dat.leavesExact; rw [liveAt2_1 t], after2_1]
theorem leaves2_2 (c : Dev nD) (t : Fin cfg2.N) :
    (dat2 V c).leavesExact 2 t = owns (c : Thread nD τ) (st2_2 t) fullShare (iblk2 V c 2 t) := by
  rw [show (dat2 V c).leavesExact 2 t = owns (c : Thread nD τ) (st2_2 t) fullShare ((dat2 V c).after 2 t) from by
    unfold Dat.leavesExact; rw [liveAt2_2 t], after2_2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the position modulo 4 says which case the point is
    in; the invariant hands the body the accumulator at what the point before left (at anything before the first
    point) and takes it back at this point's contents; where the reduction does not end the output's buffer is
    handed back untouched, where it ends it holds the sum plus the bias; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 64 := lt_of_lt_of_eq t.isLt (show cfg2.N = 64 from N_2)
  by_cases h1 : t.val % 4 = 0
  · have h2 : ¬t.val % 4 = 3 := by omega
    rw [Dat.leavesExact_idle (dat2 V c) 3 t (idleAt2_3 t (fun h => h2 ((hcond2_2 t).mp h))) (noFlush2_3 t (fun h => h2 ((hcond2_2 t).mp h)))]
    rw [acc2_first V c t h1]
    by_cases hz : t.val = 0
    · rw [PhiS2_castSucc V c t, PhiS2_zero V c _ _ hz, PhiA2_eq]
      iintro ⟨⟨⟨HS, Hr⟩, Hg⟩, Ho, ⟨%d0, H0⟩, ⟨%d1, H1⟩, ⟨%d2, H2⟩, ⟨%d3, H3⟩⟩
      iapply (sound_kernel2_A c Set.univ (grid2.coords t) _ _ _ _ _ _ _ _ _ _ ((hcond2_1 t).mpr h1) (fun h => h2 ((hcond2_2 t).mp h)) (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (sound_kernel2_A c Set.univ (grid2.coords t) _ _ _ _ _ _ _ _ _ _ ((hcond2_1 t).mpr h1) (fun h => h2 ((hcond2_2 t).mp h)) (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · by_cases h2 : t.val % 4 = 3
    · rw [show (dat2 V c).leavesExact 3 t = owns (c : Thread nD τ) (st2_3 t) fullShare ((dat2 V c).after 3 t) from by
        unfold Dat.leavesExact; rw [liveAt2_3 t ((hcond2_2 t).mpr h2)], after2_3]
      unfold out2_3
      rw [acc2_next V c t h1]
      have hz : t.val ≠ 0 := by omega
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (sound_kernel2_C c Set.univ (grid2.coords t) _ _ _ _ _ _ _ _ _ _ (fun h => h1 ((hcond2_1 t).mp h)) ((hcond2_2 t).mpr h2) (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t (fun h => h2 ((hcond2_2 t).mp h))) (noFlush2_3 t (fun h => h2 ((hcond2_2 t).mp h)))]
      rw [acc2_next V c t h1]
      have hz : t.val ≠ 0 := by omega
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (sound_kernel2_B c Set.univ (grid2.coords t) _ _ _ _ _ _ _ _ _ _ (fun h => h1 ((hcond2_1 t).mp h)) (fun h => h2 ((hcond2_2 t).mp h)) (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hr⟩, Hg⟩
  isplitl [HS Hr]
  · isplitl [HS]
    · iexists _; iexact HS
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.Kernel.Hand
end
-- ==== Proof.K.Reg3.lean ====
import proofs.«115712_j50027779064181_2_alg».proof.Proof.Gen.Kernel.Launch
import proofs.«115712_j50027779064181_2_alg».proof.Proof.Gen.Kernel.Skeleton
import proofs.«115712_j50027779064181_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER of everything below
variable (V : (c : Dev nD) → (b : Ref sig .tc) → Buf (Elt F) ((c : Thread nD τ).loc b))

/-! # Region 3: the tiled matrix product with bias, its accumulator carried along the reduction axis -/

/-- The offsets of a whole-buffer access are zero. -/
theorem hzA3 : (![0, 0] : Fin 2 → Nat) = fun _ => 0 := funext fun a => by fin_cases a <;> rfl

/-! ## The body's branch conditions -/

/-- The reduction coordinate is 0 (the body's first `scf.if`, the skeleton's scalar chain substituted). -/
abbrev cond3_1 (i : grid3.Coords) : Prop := (Scalar.cmpi .ne (Scalar.extui (Scalar.cmpi .eq (BitVec.ofNat 32 (i 2).val) 0#32)) 0#32) = 1#1
/-- The reduction coordinate is the last (the body's second `scf.if`). -/
abbrev cond3_2 (i : grid3.Coords) : Prop := k3_cond2 i = 1#1

set_option maxHeartbeats 1000000 in
/-- The body at a point where the reduction coordinate is 0 (and not the last): the accumulator, whatever it held, is zeroed and
    then holds the product of the point's two blocks added to zero; the inputs and the output buffer are as they were. -/
theorem sound_kernel3_A (c : Dev nD) (E : Set ℕ) (i : grid3.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : cond3_1 i) (hc2 : ¬cond3_2 i)
    (x : Vec F S512x512 .f32) (w : Vec F S512x512 .bf16) (b : Vec F S1x512 .f32) (o : Vec F S512x512 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k3_pay2 x w (k3_pay1 (F := F)))) -∗ K ⟨⟩))
      ⊢ wp frame (wpE (defs₀ (F := F)) Variants.none c none) E (cc3__matmul_bias_kernel i arg3 harg3 arg4 harg4 arg5 harg5 arg6 harg6 arg7 harg7) K := by
  simp only [cc3__matmul_bias_kernel_eq_skeleton]; unfold cc3__matmul_bias_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero hzA3 inb_S512x512_S512x512_0_0 y⟩)]
  rw [View.canon_cons_unit_zero (S := S512x512) hzA3, View.readCov_unit_zero (S := S512x512) _ hzA3]
  simp only [View.readAt_eq_ld, harg3.read_unread, harg4.read_unread, View.ld_unit_zero (S := S512x512) hzA3]

set_option maxHeartbeats 1000000 in
/-- The body at a point where the reduction coordinate is neither 0 nor the last: the accumulator, holding `s`, ends
    holding `s` plus the product of the point's two blocks; the inputs and the output buffer are as they were. -/
theorem sound_kernel3_B (c : Dev nD) (E : Set ℕ) (i : grid3.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : ¬cond3_1 i) (hc2 : ¬cond3_2 i)
    (x : Vec F S512x512 .f32) (w : Vec F S512x512 .bf16) (b : Vec F S1x512 .f32) (o : Vec F S512x512 .f32) (s : Vec F S512x512 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k3_pay2 x w s)) -∗ K ⟨⟩))
      ⊢ wp frame (wpE (defs₀ (F := F)) Variants.none c none) E (cc3__matmul_bias_kernel i arg3 harg3 arg4 harg4 arg5 harg5 arg6 harg6 arg7 harg7) K := by
  simp only [cc3__matmul_bias_kernel_eq_skeleton]; unfold cc3__matmul_bias_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5; obtain rfl := harg6.eq_unread hf6
  obtain rfl := harg7.eq_unread hf7
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero hzA3 inb_S512x512_S512x512_0_0 y⟩)]
  rw [View.canon_cons_unit_zero (S := S512x512) hzA3]
  simp only [View.readAt_eq_ld, harg3.read_unread, harg4.read_unread, harg7.read_unread, View.ld_unit_zero (S := S512x512) hzA3]

set_option maxHeartbeats 1000000 in
/-- The body at a point where the reduction coordinate is the last: the accumulator, holding `s`, ends holding
    `s` plus the product of the point's two blocks, and the output buffer, whatever it held, ends holding that sum
    plus the bias row on every row; the inputs are as they were. -/
theorem sound_kernel3_C (c : Dev nD) (E : Set ℕ) (i : grid3.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : ¬cond3_1 i) (hc2 : cond3_2 i)
    (x : Vec F S512x512 .f32) (w : Vec F S512x512 .bf16) (b : Vec F S1x512 .f32) (s : Vec F S512x512 .f32)
    (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k3_pay3 (k3_pay2 x w s) b) ∗ owns (c : Thread nD τ) arg7 fullShare (k3_pay2 x w s)) -∗ K ⟨⟩))
      ⊢ wp frame (wpE (defs₀ (F := F)) Variants.none c none) E (cc3__matmul_bias_kernel i arg3 harg3 arg4 harg4 arg5 harg5 arg6 harg6 arg7 harg7) K := by
  simp only [cc3__matmul_bias_kernel_eq_skeleton]; unfold cc3__matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero hzA3 inb_S512x512_S512x512_0_0 y⟩)]
    rw [View.canon_cons_unit_zero (S := S512x512) hzA3, View.readCov_unit_zero (S := S512x512) _ hzA3]
    simp only [View.readAt_eq_ld, harg3.read_unread, harg4.read_unread, harg5.read_unread, harg7.read_unread,
      View.ld_unit_zero (S := S512x512) hzA3, View.ld_unit_zero (S := S1x512) hzA3]
  iexists _; isplitr
  swap; · iexact H7
  ipureintro
  rw [View.read_writes_eq_canon _ _ _ (fun y => ⟨_, List.mem_cons_self, View.mem_set_unit_zero hzA3 inb_S512x512_S512x512_0_0 y⟩)]
  rw [View.canon_cons_unit_zero (S := S512x512) hzA3]
  simp only [View.readAt_eq_ld, harg3.read_unread, harg4.read_unread, harg7.read_unread, View.ld_unit_zero (S := S512x512) hzA3]

/-- Over the grid the first condition holds where the point's position is 0 modulo 4 — the reduction axis is the
    innermost —, -/
theorem hcond3_1 : ∀ t : Fin cfg3.N, cond3_1 (grid3.coords t) ↔ t.val % 4 = 0 :=
  (by decide +kernel : ∀ t : Fin grid3.N, cond3_1 (grid3.coords t) ↔ t.val % 4 = 0)
/-- and the second where it is 3. -/
theorem hcond3_2 : ∀ t : Fin cfg3.N, cond3_2 (grid3.coords t) ↔ t.val % 4 = 3 :=
  (by decide +kernel : ∀ t : Fin grid3.N, cond3_2 (grid3.coords t) ↔ t.val % 4 = 3)

/-! ## Where the windows are idle -/

/-- The input windows are never idle. -/
theorem liveAt3_0 (t : Fin cfg3.N) : cfg3.idle 0 (grid3.coords t) = false := rfl
theorem liveAt3_1 (t : Fin cfg3.N) : cfg3.idle 1 (grid3.coords t) = false := rfl
theorem liveAt3_2 (t : Fin cfg3.N) : cfg3.idle 2 (grid3.coords t) = false := rfl
/-- The output window is idle, and not written back, at every point but the last of the reduction axis; -/
theorem idleAt3_3 : ∀ t : Fin cfg3.N, ¬cond3_2 (grid3.coords t) → cfg3.idle 3 (grid3.coords t) = true := by decide +kernel
theorem noFlush3_3 : ∀ t : Fin cfg3.N, ¬cond3_2 (grid3.coords t) → (cfg3.win 3).flush t = false := by decide +kernel
/-- there it is live. -/
theorem liveAt3_3 : ∀ t : Fin cfg3.N, cond3_2 (grid3.coords t) → cfg3.idle 3 (grid3.coords t) = false := by decide +kernel

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the block
    index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the block
    index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the block
    index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator and the output, point by point -/

/-- The accumulator: the kernel's scratch operand, a whole scoped buffer passed beside the windows. -/
abbrev scM3 : Memref sig .tc .vmem S512x512 .f32 := Memref.whole cc3_scratch0

/-- The class invariant with the accumulator apart, as a memref owned at some contents. -/
theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- THE ACCUMULATION. What the accumulator holds after the body at position `n`: where the reduction coordinate is 0
    the product of the point's blocks added to the zero block, elsewhere added to what the point before left. -/
def acc3 (c : Dev nD) : (n : ℕ) → n < cfg3.N → Vec F S512x512 .f32
  | 0, hn => k3_pay2 (iblk3 V c 0 ⟨0, hn⟩) (iblk3 V c 1 ⟨0, hn⟩) (k3_pay1 (F := F))
  | n + 1, hn =>
    if (n + 1) % 4 = 0 then k3_pay2 (iblk3 V c 0 ⟨n + 1, hn⟩) (iblk3 V c 1 ⟨n + 1, hn⟩) (k3_pay1 (F := F))
    else k3_pay2 (iblk3 V c 0 ⟨n + 1, hn⟩) (iblk3 V c 1 ⟨n + 1, hn⟩) (acc3 c n (Nat.lt_of_succ_lt hn))

/-- At the first point of a reduction: the product added to zero. -/
theorem acc3_first (c : Dev nD) (t : Fin cfg3.N) (h : t.val % 4 = 0) :
    acc3 V c t.val t.isLt = k3_pay2 (iblk3 V c 0 t) (iblk3 V c 1 t) (k3_pay1 (F := F)) := by
  obtain ⟨n, hn⟩ := t
  cases n with
  | zero => rfl
  | succ n => exact if_pos h

/-- At a later point of a reduction: the product added to what the point before left. -/
theorem acc3_next (c : Dev nD) (t : Fin cfg3.N) (h : ¬t.val % 4 = 0) :
    acc3 V c t.val t.isLt
      = k3_pay2 (iblk3 V c 0 t) (iblk3 V c 1 t) (acc3 V c (t.val - 1) (Nat.lt_of_le_of_lt (Nat.sub_le _ _) t.isLt)) := by
  obtain ⟨n, hn⟩ := t
  cases n with
  | zero => exact absurd (Nat.zero_mod _) h
  | succ n => exact if_neg h

/-- What the output's staging buffer holds after the body at a point that ends a reduction: the accumulated sum plus
    the bias row. (At the other points the window is idle and this names nothing that is read.) -/
def out3_3 (c : Dev nD) (t : Fin cfg3.N) : Vec F S512x512 .f32 :=
  k3_pay3 (acc3 V c t.val t.isLt) (iblk3 V c 2 t)

/-- The region invariant before position `n`: before the first point the class's; afterwards the accumulator owned at
    what the point before left in it, beside the rest of the scoped buffers and the generator register. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of the pipeline on core `c`: the arrays as the region finds them; after the body each input's buffer
    at its block and the output's at `out3_3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 V c t := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- An input's buffer is handed back at its block. -/
theorem leaves3_0 (c : Dev nD) (t : Fin cfg3.N) :
    (dat3 V c).leavesExact 0 t = owns (c : Thread nD τ) (st3_0 t) fullShare (iblk3 V c 0 t) := by
  rw [show (dat3 V c).leavesExact 0 t = owns (c : Thread nD τ) (st3_0 t) fullShare ((dat3 V c).after 0 t) from by
    unfold Dat.leavesExact; rw [liveAt3_0 t], after3_0]
theorem leaves3_1 (c : Dev nD) (t : Fin cfg3.N) :
    (dat3 V c).leavesExact 1 t = owns (c : Thread nD τ) (st3_1 t) fullShare (iblk3 V c 1 t) := by
  rw [show (dat3 V c).leavesExact 1 t = owns (c : Thread nD τ) (st3_1 t) fullShare ((dat3 V c).after 1 t) from by
    unfold Dat.leavesExact; rw [liveAt3_1 t], after3_1]
theorem leaves3_2 (c : Dev nD) (t : Fin cfg3.N) :
    (dat3 V c).leavesExact 2 t = owns (c : Thread nD τ) (st3_2 t) fullShare (iblk3 V c 2 t) := by
  rw [show (dat3 V c).leavesExact 2 t = owns (c : Thread nD τ) (st3_2 t) fullShare ((dat3 V c).after 2 t) from by
    unfold Dat.leavesExact; rw [liveAt3_2 t], after3_2]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' buffers hold their blocks; the position modulo 4 says which case the point is
    in; the invariant hands the body the accumulator at what the point before left (at anything before the first
    point) and takes it back at this point's contents; where the reduction does not end the output's buffer is
    handed back untouched, where it ends it holds the sum plus the bias; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 64 := lt_of_lt_of_eq t.isLt (show cfg3.N = 64 from N_3)
  by_cases h1 : t.val % 4 = 0
  · have h2 : ¬t.val % 4 = 3 := by omega
    rw [Dat.leavesExact_idle (dat3 V c) 3 t (idleAt3_3 t (fun h => h2 ((hcond3_2 t).mp h))) (noFlush3_3 t (fun h => h2 ((hcond3_2 t).mp h)))]
    rw [acc3_first V c t h1]
    by_cases hz : t.val = 0
    · rw [PhiS3_castSucc V c t, PhiS3_zero V c _ _ hz, PhiA3_eq]
      iintro ⟨⟨⟨HS, Hr⟩, Hg⟩, Ho, ⟨%d0, H0⟩, ⟨%d1, H1⟩, ⟨%d2, H2⟩, ⟨%d3, H3⟩⟩
      iapply (sound_kernel3_A c Set.univ (grid3.coords t) _ _ _ _ _ _ _ _ _ _ ((hcond3_1 t).mpr h1) (fun h => h2 ((hcond3_2 t).mp h)) (iblk3 V c 0 t) (iblk3 V c 1 t) (iblk3 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩⟩
      iapply (sound_kernel3_A c Set.univ (grid3.coords t) _ _ _ _ _ _ _ _ _ _ ((hcond3_1 t).mpr h1) (fun h => h2 ((hcond3_2 t).mp h)) (iblk3 V c 0 t) (iblk3 V c 1 t) (iblk3 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · by_cases h2 : t.val % 4 = 3
    · rw [show (dat3 V c).leavesExact 3 t = owns (c : Thread nD τ) (st3_3 t) fullShare ((dat3 V c).after 3 t) from by
        unfold Dat.leavesExact; rw [liveAt3_3 t ((hcond3_2 t).mpr h2)], after3_3]
      unfold out3_3
      rw [acc3_next V c t h1]
      have hz : t.val ≠ 0 := by omega
      rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩⟩
      iapply (sound_kernel3_C c Set.univ (grid3.coords t) _ _ _ _ _ _ _ _ _ _ (fun h => h1 ((hcond3_1 t).mp h)) ((hcond3_2 t).mpr h2) (iblk3 V c 0 t) (iblk3 V c 1 t) (iblk3 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat3 V c) 3 t (idleAt3_3 t (fun h => h2 ((hcond3_2 t).mp h))) (noFlush3_3 t (fun h => h2 ((hcond3_2 t).mp h)))]
      rw [acc3_next V c t h1]
      have hz : t.val ≠ 0 := by omega
      rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩⟩
      iapply (sound_kernel3_B c Set.univ (grid3.coords t) _ _ _ _ _ _ _ _ _ _ (fun h => h1 ((hcond3_1 t).mp h)) (fun h => h2 ((hcond3_2 t).mp h)) (iblk3 V c 0 t) (iblk3 V c 1 t) (iblk3 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the class's back: what the accumulator holds is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]
    · iexists _; iexact HS
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.Kernel.Hand
end
-- ==== Proof.K.Reg4.lean ====
import proofs.«115712_j50027779064181_2_alg».proof.Proof.Gen.Kernel.Launch
import proofs.«115712_j50027779064181_2_alg».proof.Proof.Gen.Kernel.Skeleton
import proofs.«115712_j50027779064181_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a parameter of everything below
variable (V : (c : Dev nD) → (b : Ref sig .tc) → Buf (Elt F) ((c : Thread nD τ).loc b))

/-! # Region 4: the cosine-normalised softmax attention body, at the entry contents `V` -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the pipeline fetched it
    there or not: where it is not fetched its block index has not moved, so the buffer still holds the block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the pipeline fetched it
    there or not: where it is not fetched its block index has not moved, so the buffer still holds the block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the pipeline fetched it
    there or not: where it is not fetched its block index has not moved, so the buffer still holds the block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_q : Rect S512x512 := Rect.unit (s := S512x512) ![0, 0] S512x512.size inb_S512x512_S512x512_0_0
abbrev r4_kv : Rect S2048x512 := Rect.unit (s := S2048x512) ![0, 0] S2048x512.size inb_S2048x512_S2048x512_0_0

/-- The output window's staging buffer after the body, from the three input blocks: its one store, of the
    attention payload over what the three loads read. -/
def out4_3 (x0 : Vec F S512x512 .f32) (x1 : Vec F S2048x512 .f32) (x2 : Vec F S2048x512 .f32) : Vec F S512x512 .f32 :=
  View.canon [⟨r4_q, k4_pay1 (View.ld x0 r4_q) (View.ld x1 r4_kv) (View.ld x2 r4_kv)⟩]

/-- The one store is of the whole buffer, so it covers it. -/
theorem cover4_3 (p0 : Vec F S512x512 .f32) (y : S512x512.Idx) :
    ∃ pc ∈ ([⟨r4_q, p0⟩] : List (View.Piece (Elt F) S512x512 .f32)), y ∈ pc.1.set :=
  View.cover_of_tiled [⟨r4_q, p0⟩] S512x512.size (by rfl) y

set_option maxHeartbeats 4000000 in
/-- The body on whole staging memrefs, the inputs' at read contents `x0 x1 x2` and the output's at anything, runs
    to the continuation holding the inputs' as they were and the output's at `out4_3` of the inputs'. -/
theorem sound_kernel4 (c : Dev nD) (E : Set ℕ) (i : grid4.Coords)
    (arg2 : Memref sig .tc .vmem S512x512 .f32) (harg2 : arg2.IsWhole)
    (arg3 : Memref sig .tc .vmem S2048x512 .f32) (harg3 : arg3.IsWhole)
    (arg4 : Memref sig .tc .vmem S2048x512 .f32) (harg4 : arg4.IsWhole)
    (arg5 : Memref sig .tc .vmem S512x512 .f32) (harg5 : arg5.IsWhole)
    (x0 : Vec F S512x512 .f32) (x1 : Vec F S2048x512 .f32) (x2 : Vec F S2048x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out4_3 x0 x1 x2)) -∗ K ⟨⟩))
      ⊢ wp frame (wpE (defs₀ (F := F)) Variants.none c none) E (cc4__attn_kernel i arg2 harg2 arg3 harg3 arg4 harg4 arg5 harg5) K := by
  simp only [cc4__attn_kernel_eq_skeleton]; unfold cc4__attn_kernel_skel
  simp only [k4_part1_eq_skeleton]; unfold k4_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the region on core `c`: the arrays as the region finds them; after the body at point `t`
    each input's buffer at its block and the output's at `out4_3` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and
    the core's owed count pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- Nothing is carried between points: the invariant is the region's own at both ends. -/
theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Cert.Kernel.Hand
end
-- ==== Proof.K.Reg5.lean ====
import proofs.«115712_j50027779064181_2_alg».proof.Proof.Gen.Kernel.Launch
import proofs.«115712_j50027779064181_2_alg».proof.Proof.Gen.Kernel.Skeleton
import proofs.«115712_j50027779064181_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a parameter of everything below
variable (V : (c : Dev nD) → (b : Ref sig .tc) → Buf (Elt F) ((c : Thread nD τ).loc b))

/-! # Region 5: the layer normalisation fused into the decode matmul, at the entry contents `V` -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the pipeline fetched it
    there or not: where it is not fetched its block index has not moved, so the buffer still holds the block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the pipeline fetched it
    there or not: where it is not fetched its block index has not moved, so the buffer still holds the block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the pipeline fetched it
    there or not: where it is not fetched its block index has not moved, so the buffer still holds the block. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the pipeline fetched it
    there or not: where it is not fetched its block index has not moved, so the buffer still holds the block. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the pipeline fetched it
    there or not: where it is not fetched its block index has not moved, so the buffer still holds the block. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_a : Rect S512x2048 := Rect.unit (s := S512x2048) ![0, 0] S512x2048.size inb_S512x2048_S512x2048_0_0
abbrev r5_w : Rect S2048x512 := Rect.unit (s := S2048x512) ![0, 0] S2048x512.size inb_S2048x512_S2048x512_0_0
abbrev r5_b : Rect S1x512 := Rect.unit (s := S1x512) ![0, 0] S1x512.size inb_S1x512_S1x512_0_0
abbrev r5_g : Rect S1x2048 := Rect.unit (s := S1x2048) ![0, 0] S1x2048.size inb_S1x2048_S1x2048_0_0
abbrev r5_o : Rect S512x512 := Rect.unit (s := S512x512) ![0, 0] S512x512.size inb_S512x512_S512x512_0_0

/-- The output window's staging buffer after the body, from the five input blocks (activations, weight, bias,
    scale, shift): its one store, of the payload over what the five loads read. -/
def out5_5 (x0 : Vec F S512x2048 .f32) (x1 : Vec F S2048x512 .bf16) (x2 : Vec F S1x512 .f32)
    (x3 : Vec F S1x2048 .f32) (x4 : Vec F S1x2048 .f32) : Vec F S512x512 .f32 :=
  View.canon [⟨r5_o, k5_pay1 (View.ld x0 r5_a) (View.ld x3 r5_g) (View.ld x4 r5_g) (View.ld x1 r5_w) (View.ld x2 r5_b)⟩]

/-- The one store is of the whole buffer, so it covers it. -/
theorem cover5_5 (p0 : Vec F S512x512 .f32) (y : S512x512.Idx) :
    ∃ pc ∈ ([⟨r5_o, p0⟩] : List (View.Piece (Elt F) S512x512 .f32)), y ∈ pc.1.set :=
  View.cover_of_tiled [⟨r5_o, p0⟩] S512x512.size (by rfl) y

set_option maxHeartbeats 4000000 in
/-- The body on whole staging memrefs, the inputs' at read contents `x0 … x4` and the output's at anything, runs
    to the continuation holding the inputs' as they were and the output's at `out5_5` of the inputs'. -/
theorem sound_kernel5 (c : Dev nD) (E : Set ℕ) (i : grid5.Coords)
    (arg2 : Memref sig .tc .vmem S512x2048 .f32) (harg2 : arg2.IsWhole)
    (arg3 : Memref sig .tc .vmem S2048x512 .bf16) (harg3 : arg3.IsWhole)
    (arg4 : Memref sig .tc .vmem S1x512 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S512x512 .f32) (harg7 : arg7.IsWhole)
    (x0 : Vec F S512x2048 .f32) (x1 : Vec F S2048x512 .bf16) (x2 : Vec F S1x512 .f32)
    (x3 : Vec F S1x2048 .f32) (x4 : Vec F S1x2048 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare (out5_5 x0 x1 x2 x3 x4)) -∗ K ⟨⟩))
      ⊢ wp frame (wpE (defs₀ (F := F)) Variants.none c none) E (cc5__decode_ln_kernel i arg2 harg2 arg3 harg3 arg4 harg4 arg5 harg5 arg6 harg6 arg7 harg7) K := by
  simp only [cc5__decode_ln_kernel_eq_skeleton]; unfold cc5__decode_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the region on core `c`: the arrays as the region finds them; after the body at point `t`
    each input's buffer at its block and the output's at `out5_5` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by
  dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and
    the core's owed count pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- Nothing is carried between points: the invariant is the region's own at both ends. -/
theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Cert.Kernel.Hand
end
-- ==== Proof.K.Reg6.lean ====
/-
  The seventh kernel region: the correlation of normalised key rows with normalised value rows, one head at a time.
  Its grid is (head p, row block i, row block j), 4 x 4 x 4. At a point the body reads the 512 x 512 block of the key
  projection at rows 512 i and columns 512 p, and the 512 x 512 block of the value projection at rows 512 j and columns
  512 p; divides every row of each by the square root of (its sum of squares + 1e-10); and stores the 512 x 512 matrix
  of inner products of the normalised key rows with the normalised value rows as block (p, i, j) of the result.
  Nothing is carried from one point to the next, every access is a whole staging buffer, and the one store covers the
  output's buffer. This module states what the region's buffers hold point by point and proves the body's obligation,
  for any float instance and any contents `V` the region is entered with.
-/
import proofs.«115712_j50027779064181_2_alg».proof.Proof.Gen.Kernel.Launch
import proofs.«115712_j50027779064181_2_alg».proof.Proof.Gen.Kernel.Skeleton
import proofs.«115712_j50027779064181_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks the region reads -/

/-- Window `w`'s block at grid position `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The key window's current staging buffer holds the key block of the point, also at the points where the pipeline
    does not fetch it again (the block index moves only with the head and the first row block), for any proof data
    that reads its array off `V` and whose body leaves that buffer as found. -/
theorem keyBuf6_of {c : Dev nD} (dat : Dat τ (Elt F) Unit ℕ (UR sig nD τ) ℕ cfg6 c) (hA : dat.A 0 = V c (Pipeline.arrRef spec6 0))
    (hkept : ∀ t, dat.after 0 t = iblk6 V c 0 t) (t : Fin cfg6.N) (d) : dat.before 0 t d = iblk6 V c 0 t :=
  (dat.before_in_eq_fetched 0 rfl (fun _ => rfl) (fun _ _ _ => rfl)
      (fun t => by rw [hkept]; unfold Dat.blockOf iblk6; rw [hA]; try rfl) t d).trans
    (by unfold Dat.fetched Dat.blockOf iblk6; rw [hA]; try rfl)

/-- The same for the value window, whose block index moves with the head and the second row block. -/
theorem valBuf6_of {c : Dev nD} (dat : Dat τ (Elt F) Unit ℕ (UR sig nD τ) ℕ cfg6 c) (hA : dat.A 1 = V c (Pipeline.arrRef spec6 1))
    (hkept : ∀ t, dat.after 1 t = iblk6 V c 1 t) (t : Fin cfg6.N) (d) : dat.before 1 t d = iblk6 V c 1 t :=
  (dat.before_in_eq_fetched 1 rfl (fun _ => rfl) (fun _ _ _ => rfl)
      (fun t => by rw [hkept]; unfold Dat.blockOf iblk6; rw [hA]; try rfl) t d).trans
    (by unfold Dat.fetched Dat.blockOf iblk6; rw [hA]; try rfl)

/-! ## What the body stores -/

/-- The rectangle of each of the body's two loads: a whole 512 x 512 staging buffer. -/
abbrev rIn6 : Rect S512x512 := Rect.unit (s := S512x512) ![0, 0] S512x512.size inb_S512x512_S512x512_0_0
/-- The rectangle of its one store: the whole 1 x 512 x 512 staging buffer of the result. -/
abbrev rOut6 : Rect S1x512x512 := Rect.unit (s := S1x512x512) ![0, 0, 0] S1x512x512.size inb_S1x512x512_S1x512x512_0_0_0

/-- The result window's staging buffer after the body, from the key block `k` and the value block `v`: the one stored
    piece, whose value is the body's arithmetic on the two loaded blocks (the skeleton's payload). -/
def corrBlock6 (k v : Vec F S512x512 .f32) : Vec F S1x512x512 .f32 :=
  View.canon [⟨rOut6, k6_pay1 (View.ld k rIn6) (View.ld v rIn6)⟩]

/-- That piece is the whole buffer, so every index of the buffer lies in it. -/
theorem corrCover6 (p : Vec F S1x512x512 .f32) (y : S1x512x512.Idx) :
    ∃ pc ∈ ([⟨rOut6, p⟩] : List (View.Piece (Elt F) S1x512x512 .f32)), y ∈ pc.1.set :=
  View.cover_of_tiled [⟨rOut6, p⟩] S1x512x512.size (by rfl) y

/-! ## The body's triple -/

set_option maxHeartbeats 1000000 in
/-- The body on three whole staging memrefs — the key's holding `k`, the value's holding `v`, the result's holding
    anything — runs to its end leaving the first two as they were and the result's at `corrBlock6 k v`. -/
theorem sound_kernel6 (c : Dev nD) (E : Set ℕ) (i : grid6.Coords)
    (a3 : Memref sig .tc .vmem S512x512 .f32) (h3 : a3.IsWhole) (a4 : Memref sig .tc .vmem S512x512 .f32) (h4 : a4.IsWhole)
    (a5 : Memref sig .tc .vmem S1x512x512 .f32) (h5 : a5.IsWhole)
    (k v : Vec F S512x512 .f32) (K : PUnit → sProp 𝕄) :
    iprop(owns (c : Thread nD τ) a3 fullShare k ∗ owns (c : Thread nD τ) a4 fullShare v ∗ (∃ d, owns (c : Thread nD τ) a5 fullShare d)
        ∗ (iprop(owns (c : Thread nD τ) a3 fullShare k ∗ owns (c : Thread nD τ) a4 fullShare v
            ∗ owns (c : Thread nD τ) a5 fullShare (corrBlock6 k v)) -∗ K ⟨⟩))
      ⊢ wp frame (wpE (defs₀ (F := F)) Variants.none c none) E (cc6__corr_kernel i a3 h3 a4 h4 a5 h5) K := by
  simp only [cc6__corr_kernel_eq_skeleton]; unfold cc6__corr_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (corrCover6 _)

/-! ## The proof data -/

/-- What the pipeline's buffers hold around the body on core `c`: the arrays as the region finds them; after the body at
    position `t` the two input buffers still at their blocks and the result's at `corrBlock6` of those blocks; the
    invariant is the scoped rest beside the generator register, untouched; nothing is owed; every share is whole. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => corrBlock6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
/-- The result block of position `t` is the correlation of that position's key block with its value block. -/
theorem after6_2 (c : Dev nD) (t : Fin cfg6.N) :
    (dat6 V c).after 2 t = corrBlock6 (iblk6 V c 0 t) (iblk6 V c 1 t) := by dsimp only [dat6]

theorem before6_0 (c : Dev nD) (t : Fin cfg6.N) (d) : (dat6 V c).before 0 t d = iblk6 V c 0 t :=
  keyBuf6_of V (dat6 V c) (A_eq6 V c 0) (after6_0 V c) t d
theorem before6_1 (c : Dev nD) (t : Fin cfg6.N) (d) : (dat6 V c).before 1 t d = iblk6 V c 1 t :=
  valBuf6_of V (dat6 V c) (A_eq6 V c 1) (after6_1 V c) t d

/-- The invariant does not move: it is what the launch hands the region, and what the region hands back. -/
theorem hin6 (c : Dev nD) : Pipeline.ΦA spec6 c ⊢ (dat6 V c).Φ 0 := .rfl
theorem hout6 (c : Dev nD) : (dat6 V c).Φ (Fin.last cfg6.N) ⊢ Pipeline.ΦA spec6 c := .rfl

/-! ## The body's obligation at every position -/

/-- What the body is entered with at position `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it leaves. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- At any position the two input memrefs hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Run.lean ====
/- The run of @main through its twelve items: five stretches of host operations (the weights' change of float format, the
  bias and scale vectors set up as rows) and seven kernel regions. Between two items every unscoped buffer of a core is
  held whole at contents named here (bnd0 at launch, bnd12 at the return): a host stretch applies its operations to them; a
  region replaces its windows' arrays by what its write-backs leave and keeps every other buffer. Each region is entered
  with those buffers, the generator register at some state and nothing owed, and is left the same way, so the items chain;
  at the return the machine's memory is read against bnd12. What follows from that: every argument array ends as launched
  (no item writes one), and the two results end at the last write-backs of regions 5 and 6. -/
import proofs.«115712_j50027779064181_2_alg».proof.Proof.Gen.Kernel.Regions
import proofs.«115712_j50027779064181_2_alg».proof.Proof.K.Reg0
import proofs.«115712_j50027779064181_2_alg».proof.Proof.K.Reg1
import proofs.«115712_j50027779064181_2_alg».proof.Proof.K.Reg2
import proofs.«115712_j50027779064181_2_alg».proof.Proof.K.Reg3
import proofs.«115712_j50027779064181_2_alg».proof.Proof.K.Reg4
import proofs.«115712_j50027779064181_2_alg».proof.Proof.K.Reg5
import proofs.«115712_j50027779064181_2_alg».proof.Proof.K.Reg6
import Idealize.ShloMosaic.Lib.Pipeline.Kit
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the thirteen boundaries -/

/-- A core's buffers at launch. -/
abbrev bnd0 : Dev nD → Valuation τ sig (Elt F) := fun c b => m (c, b)
/-- The same, read at the TensorCore's references. -/
abbrev ent0 : (c : Dev nD) → (b : Ref sig .tc) → Buf (Elt F) ((c : Thread nD τ).loc b) := fun c b => bnd0 m c b

/-- After the host stretch hostOps0: its operations applied. -/
abbrev bnd1 : Dev nD → Valuation τ sig (Elt F) := fun c => StableHlo.after hostOps0 (bnd0 m c)
/-- A buffer the stretch does not write keeps its contents. -/
theorem bnd1_keep (c : Dev nD) (r : Ref sig .tc) (h : r ∉ hostOps0_W) : bnd1 m c r = bnd0 m c r :=
  StableHlo.after_of_writes_sub hostOps0 _ hostOps0_writes h
/-- The same, read at the TensorCore's references. -/
abbrev ent1 : (c : Dev nD) → (b : Ref sig .tc) → Buf (Elt F) ((c : Thread nD τ).loc b) := fun c b => bnd1 m c b

/-- After region 0: its windows' arrays at what the write-backs leave, every other buffer as the region was entered. -/
def bnd2 (c : Dev nD) : Valuation τ sig (Elt F) :=
  Pipeline.withArrays spec0 c (bnd1 m c) fun w => (dat0 (ent1 m) c).arrAt w cfg0.N
theorem bnd2_arr (c : Dev nD) (w : Fin cfg0.W) :
    bnd2 m c (Proc.devRef .tc (Pipeline.arrRef spec0 w)) = (dat0 (ent1 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
/-- Every window of region 0 whose array is not the result main_v6 is an input. -/
theorem inputs0 : ∀ w : Fin cfg0.W, Pipeline.arrRef spec0 w ≠ main_v6 → (cfg0.win w).isOut = false := by decide
/-- Region 0 changes no buffer but its result array: an input window's array is never written back, and a buffer
    that is no window's array is not touched. -/
theorem bnd2_keep (c : Dev nD) (b : Ref sig .tc) (hb : b ≠ main_v6) :
    bnd2 m c (Proc.devRef .tc b) = bnd1 m c (Proc.devRef .tc b) := by
  by_cases h : ∃ w, Pipeline.arrRef spec0 w = b
  · obtain ⟨w, rfl⟩ := h
    exact (bnd2_arr m c w).trans (((dat0 (ent1 m) c).arrAt_in w (inputs0 w hb) _).trans (A_eq0 (ent1 m) c w))
  · exact bnd2_of_ne m c b fun w e => h ⟨w, e⟩
/-- The same, read at the TensorCore's references. -/
abbrev ent2 : (c : Dev nD) → (b : Ref sig .tc) → Buf (Elt F) ((c : Thread nD τ).loc b) := fun c b => bnd2 m c b
theorem hF0 (c : Dev nD) (w : Fin cfg0.W) : (dat0 (ent1 m) c).arrAt w cfg0.N = ent2 m c (Pipeline.arrRef spec0 w) :=
  (bnd2_arr m c w).symm
theorem hrest0 (c : Dev nD) : ∀ b, b ∉ Finset.univ.image (Pipeline.arrRef spec0) → ent2 m c b = ent1 m c b :=
  fun b hb => bnd2_of_ne m c b fun w e => hb (Finset.mem_image.mpr ⟨w, Finset.mem_univ _, e⟩)

/-- After the host stretch hostOps1: its operations applied. -/
abbrev bnd3 : Dev nD → Valuation τ sig (Elt F) := fun c => StableHlo.after hostOps1 (bnd2 m c)
/-- A buffer the stretch does not write keeps its contents. -/
theorem bnd3_keep (c : Dev nD) (r : Ref sig .tc) (h : r ∉ hostOps1_W) : bnd3 m c r = bnd2 m c r :=
  StableHlo.after_of_writes_sub hostOps1 _ hostOps1_writes h
/-- The same, read at the TensorCore's references. -/
abbrev ent3 : (c : Dev nD) → (b : Ref sig .tc) → Buf (Elt F) ((c : Thread nD τ).loc b) := fun c b => bnd3 m c b

/-- After region 1: its windows' arrays at what the write-backs leave, every other buffer as the region was entered. -/
def bnd4 (c : Dev nD) : Valuation τ sig (Elt F) :=
  Pipeline.withArrays spec1 c (bnd3 m c) fun w => (dat1 (ent3 m) c).arrAt w cfg1.N
theorem bnd4_arr (c : Dev nD) (w : Fin cfg1.W) :
    bnd4 m c (Proc.devRef .tc (Pipeline.arrRef spec1 w)) = (dat1 (ent3 m) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m c (Proc.devRef .tc b) = bnd3 m c (Proc.devRef .tc b) := by
  unfold bnd4; exact Pipeline.withArrays_of_ne spec1 c _ _ b hb
/-- Every window of region 1 whose array is not the result main_v8 is an input. -/
theorem inputs1 : ∀ w : Fin cfg1.W, Pipeline.arrRef spec1 w ≠ main_v8 → (cfg1.win w).isOut = false := by decide
/-- Region 1 changes no buffer but its result array: an input window's array is never written back, and a buffer
    that is no window's array is not touched. -/
theorem bnd4_keep (c : Dev nD) (b : Ref sig .tc) (hb : b ≠ main_v8) :
    bnd4 m c (Proc.devRef .tc b) = bnd3 m c (Proc.devRef .tc b) := by
  by_cases h : ∃ w, Pipeline.arrRef spec1 w = b
  · obtain ⟨w, rfl⟩ := h
    exact (bnd4_arr m c w).trans (((dat1 (ent3 m) c).arrAt_in w (inputs1 w hb) _).trans (A_eq1 (ent3 m) c w))
  · exact bnd4_of_ne m c b fun w e => h ⟨w, e⟩
/-- The same, read at the TensorCore's references. -/
abbrev ent4 : (c : Dev nD) → (b : Ref sig .tc) → Buf (Elt F) ((c : Thread nD τ).loc b) := fun c b => bnd4 m c b
theorem hF1 (c : Dev nD) (w : Fin cfg1.W) : (dat1 (ent3 m) c).arrAt w cfg1.N = ent4 m c (Pipeline.arrRef spec1 w) :=
  (bnd4_arr m c w).symm
theorem hrest1 (c : Dev nD) : ∀ b, b ∉ Finset.univ.image (Pipeline.arrRef spec1) → ent4 m c b = ent3 m c b :=
  fun b hb => bnd4_of_ne m c b fun w e => hb (Finset.mem_image.mpr ⟨w, Finset.mem_univ _, e⟩)

/-- After the host stretch hostOps2: its operations applied. -/
abbrev bnd5 : Dev nD → Valuation τ sig (Elt F) := fun c => StableHlo.after hostOps2 (bnd4 m c)
/-- A buffer the stretch does not write keeps its contents. -/
theorem bnd5_keep (c : Dev nD) (r : Ref sig .tc) (h : r ∉ hostOps2_W) : bnd5 m c r = bnd4 m c r :=
  StableHlo.after_of_writes_sub hostOps2 _ hostOps2_writes h
/-- The same, read at the TensorCore's references. -/
abbrev ent5 : (c : Dev nD) → (b : Ref sig .tc) → Buf (Elt F) ((c : Thread nD τ).loc b) := fun c b => bnd5 m c b

/-- After region 2: its windows' arrays at what the write-backs leave, every other buffer as the region was entered. -/
def bnd6 (c : Dev nD) : Valuation τ sig (Elt F) :=
  Pipeline.withArrays spec2 c (bnd5 m c) fun w => (dat2 (ent5 m) c).arrAt w cfg2.N
theorem bnd6_arr (c : Dev nD) (w : Fin cfg2.W) :
    bnd6 m c (Proc.devRef .tc (Pipeline.arrRef spec2 w)) = (dat2 (ent5 m) c).arrAt w cfg2.N := by
  unfold bnd6; exact Pipeline.withArrays_arr spec2 launch2.win.arr_inj c _ _ w
theorem bnd6_of_ne (c : Dev nD) (b : Ref sig .tc) (hb : ∀ w, Pipeline.arrRef spec2 w ≠ b) :
    bnd6 m c (Proc.devRef .tc b) = bnd5 m c (Proc.devRef .tc b) := by
  unfold bnd6; exact Pipeline.withArrays_of_ne spec2 c _ _ b hb
/-- Every window of region 2 whose array is not the result main_v10 is an input. -/
theorem inputs2 : ∀ w : Fin cfg2.W, Pipeline.arrRef spec2 w ≠ main_v10 → (cfg2.win w).isOut = false := by decide
/-- Region 2 changes no buffer but its result array: an input window's array is never written back, and a buffer
    that is no window's array is not touched. -/
theorem bnd6_keep (c : Dev nD) (b : Ref sig .tc) (hb : b ≠ main_v10) :
    bnd6 m c (Proc.devRef .tc b) = bnd5 m c (Proc.devRef .tc b) := by
  by_cases h : ∃ w, Pipeline.arrRef spec2 w = b
  · obtain ⟨w, rfl⟩ := h
    exact (bnd6_arr m c w).trans (((dat2 (ent5 m) c).arrAt_in w (inputs2 w hb) _).trans (A_eq2 (ent5 m) c w))
  · exact bnd6_of_ne m c b fun w e => h ⟨w, e⟩
/-- The same, read at the TensorCore's references. -/
abbrev ent6 : (c : Dev nD) → (b : Ref sig .tc) → Buf (Elt F) ((c : Thread nD τ).loc b) := fun c b => bnd6 m c b
theorem hF2 (c : Dev nD) (w : Fin cfg2.W) : (dat2 (ent5 m) c).arrAt w cfg2.N = ent6 m c (Pipeline.arrRef spec2 w) :=
  (bnd6_arr m c w).symm
theorem hrest2 (c : Dev nD) : ∀ b, b ∉ Finset.univ.image (Pipeline.arrRef spec2) → ent6 m c b = ent5 m c b :=
  fun b hb => bnd6_of_ne m c b fun w e => hb (Finset.mem_image.mpr ⟨w, Finset.mem_univ _, e⟩)

/-- After the host stretch hostOps3: its operations applied. -/
abbrev bnd7 : Dev nD → Valuation τ sig (Elt F) := fun c => StableHlo.after hostOps3 (bnd6 m c)
/-- A buffer the stretch does not write keeps its contents. -/
theorem bnd7_keep (c : Dev nD) (r : Ref sig .tc) (h : r ∉ hostOps3_W) : bnd7 m c r = bnd6 m c r :=
  StableHlo.after_of_writes_sub hostOps3 _ hostOps3_writes h
/-- The same, read at the TensorCore's references. -/
abbrev ent7 : (c : Dev nD) → (b : Ref sig .tc) → Buf (Elt F) ((c : Thread nD τ).loc b) := fun c b => bnd7 m c b

/-- After region 3: its windows' arrays at what the write-backs leave, every other buffer as the region was entered. -/
def bnd8 (c : Dev nD) : Valuation τ sig (Elt F) :=
  Pipeline.withArrays spec3 c (bnd7 m c) fun w => (dat3 (ent7 m) c).arrAt w cfg3.N
theorem bnd8_arr (c : Dev nD) (w : Fin cfg3.W) :
    bnd8 m c (Proc.devRef .tc (Pipeline.arrRef spec3 w)) = (dat3 (ent7 m) c).arrAt w cfg3.N := by
  unfold bnd8; exact Pipeline.withArrays_arr spec3 launch3.win.arr_inj c _ _ w
theorem bnd8_of_ne (c : Dev nD) (b : Ref sig .tc) (hb : ∀ w, Pipeline.arrRef spec3 w ≠ b) :
    bnd8 m c (Proc.devRef .tc b) = bnd7 m c (Proc.devRef .tc b) := by
  unfold bnd8; exact Pipeline.withArrays_of_ne spec3 c _ _ b hb
/-- Every window of region 3 whose array is not the result main_v12 is an input. -/
theorem inputs3 : ∀ w : Fin cfg3.W, Pipeline.arrRef spec3 w ≠ main_v12 → (cfg3.win w).isOut = false := by decide
/-- Region 3 changes no buffer but its result array: an input window's array is never written back, and a buffer
    that is no window's array is not touched. -/
theorem bnd8_keep (c : Dev nD) (b : Ref sig .tc) (hb : b ≠ main_v12) :
    bnd8 m c (Proc.devRef .tc b) = bnd7 m c (Proc.devRef .tc b) := by
  by_cases h : ∃ w, Pipeline.arrRef spec3 w = b
  · obtain ⟨w, rfl⟩ := h
    exact (bnd8_arr m c w).trans (((dat3 (ent7 m) c).arrAt_in w (inputs3 w hb) _).trans (A_eq3 (ent7 m) c w))
  · exact bnd8_of_ne m c b fun w e => h ⟨w, e⟩
/-- The same, read at the TensorCore's references. -/
abbrev ent8 : (c : Dev nD) → (b : Ref sig .tc) → Buf (Elt F) ((c : Thread nD τ).loc b) := fun c b => bnd8 m c b
theorem hF3 (c : Dev nD) (w : Fin cfg3.W) : (dat3 (ent7 m) c).arrAt w cfg3.N = ent8 m c (Pipeline.arrRef spec3 w) :=
  (bnd8_arr m c w).symm
theorem hrest3 (c : Dev nD) : ∀ b, b ∉ Finset.univ.image (Pipeline.arrRef spec3) → ent8 m c b = ent7 m c b :=
  fun b hb => bnd8_of_ne m c b fun w e => hb (Finset.mem_image.mpr ⟨w, Finset.mem_univ _, e⟩)

/-- After region 4: its windows' arrays at what the write-backs leave, every other buffer as the region was entered. -/
def bnd9 (c : Dev nD) : Valuation τ sig (Elt F) :=
  Pipeline.withArrays spec4 c (bnd8 m c) fun w => (dat4 (ent8 m) c).arrAt w cfg4.N
theorem bnd9_arr (c : Dev nD) (w : Fin cfg4.W) :
    bnd9 m c (Proc.devRef .tc (Pipeline.arrRef spec4 w)) = (dat4 (ent8 m) c).arrAt w cfg4.N := by
  unfold bnd9; exact Pipeline.withArrays_arr spec4 launch4.win.arr_inj c _ _ w
theorem bnd9_of_ne (c : Dev nD) (b : Ref sig .tc) (hb : ∀ w, Pipeline.arrRef spec4 w ≠ b) :
    bnd9 m c (Proc.devRef .tc b) = bnd8 m c (Proc.devRef .tc b) := by
  unfold bnd9; exact Pipeline.withArrays_of_ne spec4 c _ _ b hb
/-- Every window of region 4 whose array is not the result main_v13 is an input. -/
theorem inputs4 : ∀ w : Fin cfg4.W, Pipeline.arrRef spec4 w ≠ main_v13 → (cfg4.win w).isOut = false := by decide
/-- Region 4 changes no buffer but its result array: an input window's array is never written back, and a buffer
    that is no window's array is not touched. -/
theorem bnd9_keep (c : Dev nD) (b : Ref sig .tc) (hb : b ≠ main_v13) :
    bnd9 m c (Proc.devRef .tc b) = bnd8 m c (Proc.devRef .tc b) := by
  by_cases h : ∃ w, Pipeline.arrRef spec4 w = b
  · obtain ⟨w, rfl⟩ := h
    exact (bnd9_arr m c w).trans (((dat4 (ent8 m) c).arrAt_in w (inputs4 w hb) _).trans (A_eq4 (ent8 m) c w))
  · exact bnd9_of_ne m c b fun w e => h ⟨w, e⟩
/-- The same, read at the TensorCore's references. -/
abbrev ent9 : (c : Dev nD) → (b : Ref sig .tc) → Buf (Elt F) ((c : Thread nD τ).loc b) := fun c b => bnd9 m c b
theorem hF4 (c : Dev nD) (w : Fin cfg4.W) : (dat4 (ent8 m) c).arrAt w cfg4.N = ent9 m c (Pipeline.arrRef spec4 w) :=
  (bnd9_arr m c w).symm
theorem hrest4 (c : Dev nD) : ∀ b, b ∉ Finset.univ.image (Pipeline.arrRef spec4) → ent9 m c b = ent8 m c b :=
  fun b hb => bnd9_of_ne m c b fun w e => hb (Finset.mem_image.mpr ⟨w, Finset.mem_univ _, e⟩)

/-- After the host stretch hostOps5: its operations applied. -/
abbrev bnd10 : Dev nD → Valuation τ sig (Elt F) := fun c => StableHlo.after hostOps5 (bnd9 m c)
/-- A buffer the stretch does not write keeps its contents. -/
theorem bnd10_keep (c : Dev nD) (r : Ref sig .tc) (h : r ∉ hostOps5_W) : bnd10 m c r = bnd9 m c r :=
  StableHlo.after_of_writes_sub hostOps5 _ hostOps5_writes h
/-- The same, read at the TensorCore's references. -/
abbrev ent10 : (c : Dev nD) → (b : Ref sig .tc) → Buf (Elt F) ((c : Thread nD τ).loc b) := fun c b => bnd10 m c b

/-- After region 5: its windows' arrays at what the write-backs leave, every other buffer as the region was entered. -/
def bnd11 (c : Dev nD) : Valuation τ sig (Elt F) :=
  Pipeline.withArrays spec5 c (bnd10 m c) fun w => (dat5 (ent10 m) c).arrAt w cfg5.N
theorem bnd11_arr (c : Dev nD) (w : Fin cfg5.W) :
    bnd11 m c (Proc.devRef .tc (Pipeline.arrRef spec5 w)) = (dat5 (ent10 m) c).arrAt w cfg5.N := by
  unfold bnd11; exact Pipeline.withArrays_arr spec5 launch5.win.arr_inj c _ _ w
theorem bnd11_of_ne (c : Dev nD) (b : Ref sig .tc) (hb : ∀ w, Pipeline.arrRef spec5 w ≠ b) :
    bnd11 m c (Proc.devRef .tc b) = bnd10 m c (Proc.devRef .tc b) := by
  unfold bnd11; exact Pipeline.withArrays_of_ne spec5 c _ _ b hb
/-- Every window of region 5 whose array is not the result main_v17 is an input. -/
theorem inputs5 : ∀ w : Fin cfg5.W, Pipeline.arrRef spec5 w ≠ main_v17 → (cfg5.win w).isOut = false := by decide
/-- Region 5 changes no buffer but its result array: an input window's array is never written back, and a buffer
    that is no window's array is not touched. -/
theorem bnd11_keep (c : Dev nD) (b : Ref sig .tc) (hb : b ≠ main_v17) :
    bnd11 m c (Proc.devRef .tc b) = bnd10 m c (Proc.devRef .tc b) := by
  by_cases h : ∃ w, Pipeline.arrRef spec5 w = b
  · obtain ⟨w, rfl⟩ := h
    exact (bnd11_arr m c w).trans (((dat5 (ent10 m) c).arrAt_in w (inputs5 w hb) _).trans (A_eq5 (ent10 m) c w))
  · exact bnd11_of_ne m c b fun w e => h ⟨w, e⟩
/-- The same, read at the TensorCore's references. -/
abbrev ent11 : (c : Dev nD) → (b : Ref sig .tc) → Buf (Elt F) ((c : Thread nD τ).loc b) := fun c b => bnd11 m c b
theorem hF5 (c : Dev nD) (w : Fin cfg5.W) : (dat5 (ent10 m) c).arrAt w cfg5.N = ent11 m c (Pipeline.arrRef spec5 w) :=
  (bnd11_arr m c w).symm
theorem hrest5 (c : Dev nD) : ∀ b, b ∉ Finset.univ.image (Pipeline.arrRef spec5) → ent11 m c b = ent10 m c b :=
  fun b hb => bnd11_of_ne m c b fun w e => hb (Finset.mem_image.mpr ⟨w, Finset.mem_univ _, e⟩)

/-- After region 6: its windows' arrays at what the write-backs leave, every other buffer as the region was entered. -/
def bnd12 (c : Dev nD) : Valuation τ sig (Elt F) :=
  Pipeline.withArrays spec6 c (bnd11 m c) fun w => (dat6 (ent11 m) c).arrAt w cfg6.N
theorem bnd12_arr (c : Dev nD) (w : Fin cfg6.W) :
    bnd12 m c (Proc.devRef .tc (Pipeline.arrRef spec6 w)) = (dat6 (ent11 m) c).arrAt w cfg6.N := by
  unfold bnd12; exact Pipeline.withArrays_arr spec6 launch6.win.arr_inj c _ _ w
theorem bnd12_of_ne (c : Dev nD) (b : Ref sig .tc) (hb : ∀ w, Pipeline.arrRef spec6 w ≠ b) :
    bnd12 m c (Proc.devRef .tc b) = bnd11 m c (Proc.devRef .tc b) := by
  unfold bnd12; exact Pipeline.withArrays_of_ne spec6 c _ _ b hb
/-- Every window of region 6 whose array is not the result main_v18 is an input. -/
theorem inputs6 : ∀ w : Fin cfg6.W, Pipeline.arrRef spec6 w ≠ main_v18 → (cfg6.win w).isOut = false := by decide
/-- Region 6 changes no buffer but its result array: an input window's array is never written back, and a buffer
    that is no window's array is not touched. -/
theorem bnd12_keep (c : Dev nD) (b : Ref sig .tc) (hb : b ≠ main_v18) :
    bnd12 m c (Proc.devRef .tc b) = bnd11 m c (Proc.devRef .tc b) := by
  by_cases h : ∃ w, Pipeline.arrRef spec6 w = b
  · obtain ⟨w, rfl⟩ := h
    exact (bnd12_arr m c w).trans (((dat6 (ent11 m) c).arrAt_in w (inputs6 w hb) _).trans (A_eq6 (ent11 m) c w))
  · exact bnd12_of_ne m c b fun w e => h ⟨w, e⟩
/-- The same, read at the TensorCore's references. -/
abbrev ent12 : (c : Dev nD) → (b : Ref sig .tc) → Buf (Elt F) ((c : Thread nD τ).loc b) := fun c b => bnd12 m c b
theorem hF6 (c : Dev nD) (w : Fin cfg6.W) : (dat6 (ent11 m) c).arrAt w cfg6.N = ent12 m c (Pipeline.arrRef spec6 w) :=
  (bnd12_arr m c w).symm
theorem hrest6 (c : Dev nD) : ∀ b, b ∉ Finset.univ.image (Pipeline.arrRef spec6) → ent12 m c b = ent11 m c b :=
  fun b hb => bnd12_of_ne m c b fun w e => hb (Finset.mem_image.mpr ⟨w, Finset.mem_univ _, e⟩)

/-! ## The seven pipelines' proof data, and what rides beside the buffers -/

/-- No pipeline has a prefetched table. -/
abbrev admH : (p : Fin 7) → (pcfgs (F := F) p).Adm := fun p => (cfgs p).toPCfg_adm
/-- Each pipeline's proof data, at the contents its region is entered with. -/
def pdats : (p : Fin 7) → (c : Dev nD) → Dat τ (Elt F) Unit ℕ (UR sig nD τ) ℕ (Pipeline.pin (pcfgs (F := F)) admH p) c
  | ⟨0, _⟩ => fun c => dat0 (ent1 m) c
  | ⟨1, _⟩ => fun c => dat1 (ent3 m) c
  | ⟨2, _⟩ => fun c => dat2 (ent5 m) c
  | ⟨3, _⟩ => fun c => dat3 (ent7 m) c
  | ⟨4, _⟩ => fun c => dat4 (ent8 m) c
  | ⟨5, _⟩ => fun c => dat5 (ent10 m) c
  | ⟨6, _⟩ => fun c => dat6 (ent11 m) c
abbrev vnone : Variants := Variants.none
/-- No core owes another anything: no pair has a level. -/
abbrev Lz : GSem nD τ sig → Finset Unit := fun _ => ∅
abbrev lvz : GSem nD τ sig → Unit → ℕ := fun _ _ => 0
/-- Beside the buffers, through every item: the core's generator register at some state, and the core owing nothing. -/
abbrev Rd (c : Dev nD) : sProp 𝕄 := iprop((∃ r, prngReg c r) ∗ ∃ W, owes (c : Thread nD τ) (0 : CellTallies nD τ sig Unit) W)
/-- A stretch of host operations as an item: from every unscoped buffer at the contents W to the operations applied to them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vnone Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every unscoped buffer at the last boundary's contents, the generator register. -/
abbrev Tend (c : Dev nD) : sProp 𝕄 := iprop(StableHlo.held (c : Thread nD τ) (Pipeline.ucRefs τ sig) (bnd12 m c) ∗ ∃ r, prngReg c r)

/-! ## The regions as items -/

set_option backward.isDefEq.respectTransparency.types false in
/-- Region 0 as an item: entered from every unscoped buffer at bnd1, left at bnd2. Its windows' arrays are split out of
    the unscoped buffers at entry and put back at their final contents at exit; the generator register goes into the
    region's invariant and comes back; nothing is owed; the kernel has no semaphore of its own. -/
def reg0 : Pipeline.RegionSeg (pcfgs (F := F)) admH (pdats m) () defs₀ vnone Lz lvz 0 where
  win := launch0.win.to₀
  block_pos := launch0.block_pos
  stage_whole := launch0.stage_whole
  K := PEmpty
  osem k := k.elim
  ho := Pipeline.OwnSemFacts.none _
  hbody c := (body_obligation0 (ent1 m) c).loose
  hwaits := Pipeline.hwaits_of_owed_zero _ _ _ _ Lz lvz 0 fun _ _ => rfl
  pre c := iprop(StableHlo.held (c : Thread nD τ) (Pipeline.ucRefs τ sig) (bnd1 m c) ∗ Rd c)
  post c := iprop(StableHlo.held (c : Thread nD τ) (Pipeline.ucRefs τ sig) (bnd2 m c) ∗ Rd c)
  X c := iprop(∃ r, prngReg c r)
  Y c := iprop(∃ r, prngReg c r)
  Z c := Pipeline.unscopedRest (Ix := Unit) (Name := ℕ) (U := UR sig nD τ) (Lvl := ℕ) spec0 c (ent1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (ent1 m) c)
    unfold Pipeline.ΦA
    iintro ⟨Hp, -, Hr⟩
    isplitl [Hr]; · iexact Hr
    iexact Hp
  hout c := by
    rw [Pipeline.ownSems0_none]
    refine (hout0 (ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (ent1 m c) (ent2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as an item: entered from every unscoped buffer at bnd3, left at bnd4. Its windows' arrays are split out of
    the unscoped buffers at entry and put back at their final contents at exit; the generator register goes into the
    region's invariant and comes back; nothing is owed; the kernel has no semaphore of its own. -/
def reg1 : Pipeline.RegionSeg (pcfgs (F := F)) admH (pdats m) () defs₀ vnone Lz lvz 1 where
  win := launch1.win.to₀
  block_pos := launch1.block_pos
  stage_whole := launch1.stage_whole
  K := PEmpty
  osem k := k.elim
  ho := Pipeline.OwnSemFacts.none _
  hbody c := (body_obligation1 (ent3 m) c).loose
  hwaits := Pipeline.hwaits_of_owed_zero _ _ _ _ Lz lvz 1 fun _ _ => rfl
  pre c := iprop(StableHlo.held (c : Thread nD τ) (Pipeline.ucRefs τ sig) (bnd3 m c) ∗ Rd c)
  post c := iprop(StableHlo.held (c : Thread nD τ) (Pipeline.ucRefs τ sig) (bnd4 m c) ∗ Rd c)
  X c := iprop(∃ r, prngReg c r)
  Y c := iprop(∃ r, prngReg c r)
  Z c := Pipeline.unscopedRest (Ix := Unit) (Name := ℕ) (U := UR sig nD τ) (Lvl := ℕ) spec1 c (ent3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (ent3 m) c)
    unfold Pipeline.ΦA
    iintro ⟨Hp, -, Hr⟩
    isplitl [Hr]; · iexact Hr
    iexact Hp
  hout c := by
    rw [Pipeline.ownSems0_none]
    refine (hout1 (ent3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (ent3 m c) (ent4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as an item: entered from every unscoped buffer at bnd5, left at bnd6. Its windows' arrays are split out of
    the unscoped buffers at entry and put back at their final contents at exit; the generator register goes into the
    region's invariant and comes back; nothing is owed; the kernel has no semaphore of its own. -/
def reg2 : Pipeline.RegionSeg (pcfgs (F := F)) admH (pdats m) () defs₀ vnone Lz lvz 2 where
  win := launch2.win.to₀
  block_pos := launch2.block_pos
  stage_whole := launch2.stage_whole
  K := PEmpty
  osem k := k.elim
  ho := Pipeline.OwnSemFacts.none _
  hbody c := (body_obligation2 (ent5 m) c).loose
  hwaits := Pipeline.hwaits_of_owed_zero _ _ _ _ Lz lvz 2 fun _ _ => rfl
  pre c := iprop(StableHlo.held (c : Thread nD τ) (Pipeline.ucRefs τ sig) (bnd5 m c) ∗ Rd c)
  post c := iprop(StableHlo.held (c : Thread nD τ) (Pipeline.ucRefs τ sig) (bnd6 m c) ∗ Rd c)
  X c := iprop(∃ r, prngReg c r)
  Y c := iprop(∃ r, prngReg c r)
  Z c := Pipeline.unscopedRest (Ix := Unit) (Name := ℕ) (U := UR sig nD τ) (Lvl := ℕ) spec2 c (ent5 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (hin2 (ent5 m) c)
    unfold Pipeline.ΦA
    iintro ⟨Hp, -, Hr⟩
    isplitl [Hr]; · iexact Hr
    iexact Hp
  hout c := by
    rw [Pipeline.ownSems0_none]
    refine (hout2 (ent5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (ent5 m c) (ent6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as an item: entered from every unscoped buffer at bnd7, left at bnd8. Its windows' arrays are split out of
    the unscoped buffers at entry and put back at their final contents at exit; the generator register goes into the
    region's invariant and comes back; nothing is owed; the kernel has no semaphore of its own. -/
def reg3 : Pipeline.RegionSeg (pcfgs (F := F)) admH (pdats m) () defs₀ vnone Lz lvz 3 where
  win := launch3.win.to₀
  block_pos := launch3.block_pos
  stage_whole := launch3.stage_whole
  K := PEmpty
  osem k := k.elim
  ho := Pipeline.OwnSemFacts.none _
  hbody c := (body_obligation3 (ent7 m) c).loose
  hwaits := Pipeline.hwaits_of_owed_zero _ _ _ _ Lz lvz 3 fun _ _ => rfl
  pre c := iprop(StableHlo.held (c : Thread nD τ) (Pipeline.ucRefs τ sig) (bnd7 m c) ∗ Rd c)
  post c := iprop(StableHlo.held (c : Thread nD τ) (Pipeline.ucRefs τ sig) (bnd8 m c) ∗ Rd c)
  X c := iprop(∃ r, prngReg c r)
  Y c := iprop(∃ r, prngReg c r)
  Z c := Pipeline.unscopedRest (Ix := Unit) (Name := ℕ) (U := UR sig nD τ) (Lvl := ℕ) spec3 c (ent7 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (ent7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (hin3 (ent7 m) c)
    unfold Pipeline.ΦA
    iintro ⟨Hp, -, Hr⟩
    isplitl [Hr]; · iexact Hr
    iexact Hp
  hout c := by
    rw [Pipeline.ownSems0_none]
    refine (hout3 (ent7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (ent7 m c) (ent8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as an item: entered from every unscoped buffer at bnd8, left at bnd9. Its windows' arrays are split out of
    the unscoped buffers at entry and put back at their final contents at exit; the generator register goes into the
    region's invariant and comes back; nothing is owed; the kernel has no semaphore of its own. -/
def reg4 : Pipeline.RegionSeg (pcfgs (F := F)) admH (pdats m) () defs₀ vnone Lz lvz 4 where
  win := launch4.win.to₀
  block_pos := launch4.block_pos
  stage_whole := launch4.stage_whole
  K := PEmpty
  osem k := k.elim
  ho := Pipeline.OwnSemFacts.none _
  hbody c := (body_obligation4 (ent8 m) c).loose
  hwaits := Pipeline.hwaits_of_owed_zero _ _ _ _ Lz lvz 4 fun _ _ => rfl
  pre c := iprop(StableHlo.held (c : Thread nD τ) (Pipeline.ucRefs τ sig) (bnd8 m c) ∗ Rd c)
  post c := iprop(StableHlo.held (c : Thread nD τ) (Pipeline.ucRefs τ sig) (bnd9 m c) ∗ Rd c)
  X c := iprop(∃ r, prngReg c r)
  Y c := iprop(∃ r, prngReg c r)
  Z c := Pipeline.unscopedRest (Ix := Unit) (Name := ℕ) (U := UR sig nD τ) (Lvl := ℕ) spec4 c (ent8 m c)
  hentry c := by
    rw [Pipeline.ownSems0_none]
    have hsplit := Pipeline.arrays_of_unscopedBufs (p := 4) (pcfgs (F := F)) admH (pdats m) launch4.win launch4.arr_whole c
      ((pdats m 4 c).share_full fun _ => rfl) (ent8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec4 c from ?_).trans (hin4 (ent8 m) c)
    unfold Pipeline.ΦA
    iintro ⟨Hp, -, Hr⟩
    isplitl [Hr]; · iexact Hr
    iexact Hp
  hout c := by
    rw [Pipeline.ownSems0_none]
    refine (hout4 (ent8 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m) ((pdats m 4 c).share_full fun _ => rfl)
      (ent8 m c) (ent9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as an item: entered from every unscoped buffer at bnd10, left at bnd11. Its windows' arrays are split out of
    the unscoped buffers at entry and put back at their final contents at exit; the generator register goes into the
    region's invariant and comes back; nothing is owed; the kernel has no semaphore of its own. -/
def reg5 : Pipeline.RegionSeg (pcfgs (F := F)) admH (pdats m) () defs₀ vnone Lz lvz 5 where
  win := launch5.win.to₀
  block_pos := launch5.block_pos
  stage_whole := launch5.stage_whole
  K := PEmpty
  osem k := k.elim
  ho := Pipeline.OwnSemFacts.none _
  hbody c := (body_obligation5 (ent10 m) c).loose
  hwaits := Pipeline.hwaits_of_owed_zero _ _ _ _ Lz lvz 5 fun _ _ => rfl
  pre c := iprop(StableHlo.held (c : Thread nD τ) (Pipeline.ucRefs τ sig) (bnd10 m c) ∗ Rd c)
  post c := iprop(StableHlo.held (c : Thread nD τ) (Pipeline.ucRefs τ sig) (bnd11 m c) ∗ Rd c)
  X c := iprop(∃ r, prngReg c r)
  Y c := iprop(∃ r, prngReg c r)
  Z c := Pipeline.unscopedRest (Ix := Unit) (Name := ℕ) (U := UR sig nD τ) (Lvl := ℕ) spec5 c (ent10 m c)
  hentry c := by
    rw [Pipeline.ownSems0_none]
    have hsplit := Pipeline.arrays_of_unscopedBufs (p := 5) (pcfgs (F := F)) admH (pdats m) launch5.win launch5.arr_whole c
      ((pdats m 5 c).share_full fun _ => rfl) (ent10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec5 c from ?_).trans (hin5 (ent10 m) c)
    unfold Pipeline.ΦA
    iintro ⟨Hp, -, Hr⟩
    isplitl [Hr]; · iexact Hr
    iexact Hp
  hout c := by
    rw [Pipeline.ownSems0_none]
    refine (hout5 (ent10 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m) ((pdats m 5 c).share_full fun _ => rfl)
      (ent10 m c) (ent11 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as an item: entered from every unscoped buffer at bnd11, left at bnd12. Its windows' arrays are split out of
    the unscoped buffers at entry and put back at their final contents at exit; the generator register goes into the
    region's invariant and comes back; nothing is owed; the kernel has no semaphore of its own. -/
def reg6 : Pipeline.RegionSeg (pcfgs (F := F)) admH (pdats m) () defs₀ vnone Lz lvz 6 where
  win := launch6.win.to₀
  block_pos := launch6.block_pos
  stage_whole := launch6.stage_whole
  K := PEmpty
  osem k := k.elim
  ho := Pipeline.OwnSemFacts.none _
  hbody c := (body_obligation6 (ent11 m) c).loose
  hwaits := Pipeline.hwaits_of_owed_zero _ _ _ _ Lz lvz 6 fun _ _ => rfl
  pre c := iprop(StableHlo.held (c : Thread nD τ) (Pipeline.ucRefs τ sig) (bnd11 m c) ∗ Rd c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (ent11 m c)
  hentry c := by
    rw [Pipeline.ownSems0_none]
    have hsplit := Pipeline.arrays_of_unscopedBufs (p := 6) (pcfgs (F := F)) admH (pdats m) launch6.win launch6.arr_whole c
      ((pdats m 6 c).share_full fun _ => rfl) (ent11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec6 c from ?_).trans (hin6 (ent11 m) c)
    unfold Pipeline.ΦA
    iintro ⟨Hp, -, Hr⟩
    isplitl [Hr]; · iexact Hr
    iexact Hp
  hout c := by
    rw [Pipeline.ownSems0_none]
    refine (hout6 (ent11 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdats m) ((pdats m 6 c).share_full fun _ => rfl)
      (ent11 m c) (ent12 m c) ((pdats m 6 c).arrAt · cfg6.N) (hF6 m c) (hrest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

/-- @main's twelve items in order. -/
abbrev segs : List (Pipeline.Seg (pcfgs (F := F)) admH (pdats m) () defs₀ vnone Lz lvz) :=
  [ .host (hseg hostOps0 hostOps0_sub hostOps0_fresh (bnd0 m)),
    .region (reg0 m),
    .host (hseg hostOps1 hostOps1_sub hostOps1_fresh (bnd2 m)),
    .region (reg1 m),
    .host (hseg hostOps2 hostOps2_sub hostOps2_fresh (bnd4 m)),
    .region (reg2 m),
    .host (hseg hostOps3 hostOps3_sub hostOps3_fresh (bnd6 m)),
    .region (reg3 m),
    .region (reg4 m),
    .host (hseg hostOps5 hostOps5_sub hostOps5_fresh (bnd9 m)),
    .region (reg5 m),
    .region (reg6 m) ]
/-- @main is the run of those items. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    in every final state each unscoped buffer of each core holds the last boundary's contents. -/
theorem run_bufs (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = bnd12 m c b) :=
  Pipeline.θ_run_regions_kit (pcfgs (F := F)) admH (pdats m) () cellOf_inj emb₁ defs₀ vnone Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ Rd c)) (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd12 m c b)
    (hfin := fun c s' => by
      iintro ⟨⟨Hh, -⟩, HSI⟩
      unfold StableHlo.held
      imodintro
      iapply (pointsTo_read_all (Pipeline.ucRefs τ sig) (fun b => (((c : Thread nD τ)).1, b)) (bnd12 m c) s')
      isplitl [Hh] <;> iassumption)
    (hQ := fun _ h => h)

/-! ## What the last boundary holds -/

/-- A buffer that no host stretch writes and that is no region's result ends as launched. -/
theorem bnd12_launch (c : Dev nD) (b : Ref sig .tc) (h0 : b ∉ hostOps0_W) (h1 : b ≠ main_v6) (h2 : b ∉ hostOps1_W) (h3 : b ≠ main_v8)
    (h4 : b ∉ hostOps2_W) (h5 : b ≠ main_v10) (h6 : b ∉ hostOps3_W) (h7 : b ≠ main_v12) (h8 : b ≠ main_v13) (h9 : b ∉ hostOps5_W)
    (h10 : b ≠ main_v17) (h11 : b ≠ main_v18) :
    bnd12 m c (Proc.devRef .tc b) = m ((c : Thread nD τ).loc b) :=
  (bnd12_keep m c b h11).trans <| (bnd11_keep m c b h10).trans <| (bnd10_keep m c b h9).trans <| (bnd9_keep m c b h8).trans <|
  (bnd8_keep m c b h7).trans <| (bnd7_keep m c b h6).trans <| (bnd6_keep m c b h5).trans <| (bnd5_keep m c b h4).trans <|
  (bnd4_keep m c b h3).trans <| (bnd3_keep m c b h2).trans <| (bnd2_keep m c b h1).trans <| (bnd1_keep m c b h0).trans rfl

/-- The first result's array ends at what region 5's write-backs leave in it: region 6 does not touch it. -/
theorem bnd12_out (c : Dev nD) : bnd12 m c (Proc.devRef .tc main_v17) = (dat5 (ent10 m) c).arrAt 5 cfg5.N :=
  (bnd12_keep m c main_v17 (by decide)).trans (bnd11_arr m c 5)
/-- The second result's array ends at what region 6's write-backs leave in it. -/
theorem bnd12_corr (c : Dev nD) : bnd12 m c (Proc.devRef .tc main_v18) = (dat6 (ent11 m) c).arrAt 2 cfg6.N :=
  bnd12_arr m c 2

/-- THE FRAME, with the results named: every execution terminates without a fault, the two results end at the last
    write-backs of regions 5 and 6, and every argument array ends as launched. -/
theorem run_main (ρ : Dev nD → PrngReg) :
    θ_run defs (onTc (τ := τ) (main (F := F))) ⟨m, fun _ => 0, ρ⟩ (fun r => ∀ c : Dev nD,
      r.2.mem ((c.tc : Thread nD τ).loc main_v17) = (dat5 (ent10 m) c).arrAt 5 cfg5.N
      ∧ r.2.mem ((c.tc : Thread nD τ).loc main_v18) = (dat6 (ent11 m) c).arrAt 2 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v17 (by decide))).trans (bnd12_out m c),
     (h c _ (mem_uc main_v18 (by decide))).trans (bnd12_corr m c),
     (h c _ (mem_uc main_arg0 (by decide))).trans (bnd12_launch m c main_arg0 (by decide) (by decide) (by decide) (by decide) (by decide) (by decide) (by decide) (by decide) (by decide) (by decide) (by decide) (by decide)),
     (h c _ (mem_uc main_arg1 (by decide))).trans (bnd12_launch m c main_arg1 (by decide) (by decide) (by decide) (by decide) (by decide) (by decide) (by decide) (by decide) (by decide) (by decide) (by decide) (by decide)),
     (h c _ (mem_uc main_arg2 (by decide))).trans (bnd12_launch m c main_arg2 (by decide) (by decide) (by decide) (by decide) (by decide) (by decide) (by decide) (by decide) (by decide) (by decide) (by decide) (by decide)),
     (h c _ (mem_uc main_arg3 (by decide))).trans (bnd12_launch m c main_arg3 (by decide) (by decide) (by decide) (by decide) (by decide) (by decide) (by decide) (by decide) (by decide) (by decide) (by decide) (by decide)),
     (h c _ (mem_uc main_arg4 (by decide))).trans (bnd12_launch m c main_arg4 (by decide) (by decide) (by decide) (by decide) (by decide) (by decide) (by decide) (by decide) (by decide) (by decide) (by decide) (by decide)),
     (h c _ (mem_uc main_arg5 (by decide))).trans (bnd12_launch m c main_arg5 (by decide) (by decide) (by decide) (by decide) (by decide) (by decide) (by decide) (by decide) (by decide) (by decide) (by decide) (by decide)),
     (h c _ (mem_uc main_arg6 (by decide))).trans (bnd12_launch m c main_arg6 (by decide) (by decide) (by decide) (by decide) (by decide) (by decide) (by decide) (by decide) (by decide) (by decide) (by decide) (by decide)),
     (h c _ (mem_uc main_arg7 (by decide))).trans (bnd12_launch m c main_arg7 (by decide) (by decide) (by decide) (by decide) (by decide) (by decide) (by decide) (by decide) (by decide) (by decide) (by decide) (by decide)),
     (h c _ (mem_uc main_arg8 (by decide))).trans (bnd12_launch m c main_arg8 (by decide) (by decide) (by decide) (by decide) (by decide) (by decide) (by decide) (by decide) (by decide) (by decide) (by decide) (by decide)),
     (h c _ (mem_uc main_arg9 (by decide))).trans (bnd12_launch m c main_arg9 (by decide) (by decide) (by decide) (by decide) (by decide) (by decide) (by decide) (by decide) (by decide) (by decide) (by decide) (by decide)),
     (h c _ (mem_uc main_arg10 (by decide))).trans (bnd12_launch m c main_arg10 (by decide) (by decide) (by decide) (by decide) (by decide) (by decide) (by decide) (by decide) (by decide) (by decide) (by decide) (by decide)),
     (h c _ (mem_uc main_arg11 (by decide))).trans (bnd12_launch m c main_arg11 (by decide) (by decide) (by decide) (by decide) (by decide) (by decide) (by decide) (by decide) (by decide) (by decide) (by decide) (by decide)),
     (h c _ (mem_uc main_arg12 (by decide))).trans (bnd12_launch m c main_arg12 (by decide) (by decide) (by decide) (by decide) (by decide) (by decide) (by decide) (by decide) (by decide) (by decide) (by decide) (by decide))⟩)
    (run_bufs m ρ)

/-- The frame claim's post alone. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2.2) (run_main m ρ)

end Cert.Kernel.Hand

end
-- ==== Proof.KI.Reg0.lean ====
import proofs.«115712_j50027779064181_2_alg».proof.Proof.Gen.KernelIdeal.Launch
import proofs.«115712_j50027779064181_2_alg».proof.Proof.Gen.KernelIdeal.Skeleton
import proofs.«115712_j50027779064181_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER of everything below
variable (V : (c : Dev nD) → (b : Ref sig .tc) → Buf (Elt F) ((c : Thread nD τ).loc b))

/-! # Region 0: the tiled matrix product with bias and tanh, its accumulator carried along the reduction axis -/

/-- The offsets of a whole-buffer access are zero. -/
theorem hzA0 : (![0, 0] : Fin 2 → Nat) = fun _ => 0 := funext fun a => by fin_cases a <;> rfl

/-! ## The body's branch conditions -/

/-- The reduction coordinate is 0 (the body's first `scf.if`, the skeleton's scalar chain substituted). -/
abbrev cond0_1 (i : grid0.Coords) : Prop := (Scalar.cmpi .ne (Scalar.extui (Scalar.cmpi .eq (BitVec.ofNat 32 (i 2).val) 0#32)) 0#32) = 1#1
/-- The reduction coordinate is the last (the body's second `scf.if`). -/
abbrev cond0_2 (i : grid0.Coords) : Prop := k0_cond2 i = 1#1

set_option maxHeartbeats 1000000 in
/-- The body at a point where the reduction coordinate is 0: the accumulator, whatever it held, is zeroed and
    then holds the product of the point's two blocks added to zero; the inputs and the output buffer are as they were. -/
theorem sound_kernel0_A (c : Dev nD) (E : Set ℕ) (i : grid0.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : cond0_1 i) (hc2 : ¬cond0_2 i)
    (x : Vec F S512x512 .f32) (w : Vec F S512x512 .bf16) (b : Vec F S1x512 .f32) (o : Vec F S512x512 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k0_pay2 x w (k0_pay1 (F := F)))) -∗ K ⟨⟩))
      ⊢ wp frame (wpE (defs₀ (F := F)) Variants.none c none) E (cc0__matmul_bias_kernel i arg3 harg3 arg4 harg4 arg5 harg5 arg6 harg6 arg7 harg7) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero hzA0 inb_S512x512_S512x512_0_0 y⟩)]
  rw [View.canon_cons_unit_zero (S := S512x512) hzA0, View.readCov_unit_zero (S := S512x512) _ hzA0]
  simp only [View.readAt_eq_ld, harg3.read_unread, harg4.read_unread, View.ld_unit_zero (S := S512x512) hzA0]

set_option maxHeartbeats 1000000 in
/-- The body at a point where the reduction coordinate is the last (and not 0): the accumulator, holding `s`, ends holding
    `s` plus the product of the point's two blocks, and the output buffer, whatever it held, ends holding that sum
    plus the bias row on every row, under tanh; the inputs are as they were. -/
theorem sound_kernel0_C (c : Dev nD) (E : Set ℕ) (i : grid0.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : ¬cond0_1 i) (hc2 : cond0_2 i)
    (x : Vec F S512x512 .f32) (w : Vec F S512x512 .bf16) (b : Vec F S1x512 .f32) (s : Vec F S512x512 .f32)
    (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k0_pay3 (k0_pay2 x w s) b) ∗ owns (c : Thread nD τ) arg7 fullShare (k0_pay2 x w s)) -∗ K ⟨⟩))
      ⊢ wp frame (wpE (defs₀ (F := F)) Variants.none c none) E (cc0__matmul_bias_kernel i arg3 harg3 arg4 harg4 arg5 harg5 arg6 harg6 arg7 harg7) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero hzA0 inb_S512x512_S512x512_0_0 y⟩)]
    rw [View.canon_cons_unit_zero (S := S512x512) hzA0, View.readCov_unit_zero (S := S512x512) _ hzA0]
    simp only [View.readAt_eq_ld, harg3.read_unread, harg4.read_unread, harg5.read_unread, harg7.read_unread,
      View.ld_unit_zero (S := S512x512) hzA0, View.ld_unit_zero (S := S1x512) hzA0]
  iexists _; isplitr
  swap; · iexact H7
  ipureintro
  rw [View.read_writes_eq_canon _ _ _ (fun y => ⟨_, List.mem_cons_self, View.mem_set_unit_zero hzA0 inb_S512x512_S512x512_0_0 y⟩)]
  rw [View.canon_cons_unit_zero (S := S512x512) hzA0]
  simp only [View.readAt_eq_ld, harg3.read_unread, harg4.read_unread, harg7.read_unread, View.ld_unit_zero (S := S512x512) hzA0]

/-- Over the grid the first condition holds where the point's position is 0 modulo 2 — the reduction axis is the
    innermost —, -/
theorem hcond0_1 : ∀ t : Fin cfg0.N, cond0_1 (grid0.coords t) ↔ t.val % 2 = 0 :=
  (by decide +kernel : ∀ t : Fin grid0.N, cond0_1 (grid0.coords t) ↔ t.val % 2 = 0)
/-- and the second where it is 1. -/
theorem hcond0_2 : ∀ t : Fin cfg0.N, cond0_2 (grid0.coords t) ↔ t.val % 2 = 1 :=
  (by decide +kernel : ∀ t : Fin grid0.N, cond0_2 (grid0.coords t) ↔ t.val % 2 = 1)

/-! ## Where the windows are idle -/

/-- The input windows are never idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
/-- The output window is idle, and not written back, at every point but the last of the reduction axis; -/
theorem idleAt0_3 : ∀ t : Fin cfg0.N, ¬cond0_2 (grid0.coords t) → cfg0.idle 3 (grid0.coords t) = true := by decide +kernel
theorem noFlush0_3 : ∀ t : Fin cfg0.N, ¬cond0_2 (grid0.coords t) → (cfg0.win 3).flush t = false := by decide +kernel
/-- there it is live. -/
theorem liveAt0_3 : ∀ t : Fin cfg0.N, cond0_2 (grid0.coords t) → cfg0.idle 3 (grid0.coords t) = false := by decide +kernel

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the block
    index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the block
    index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator and the output, point by point -/

/-- The accumulator: the kernel's scratch operand, a whole scoped buffer passed beside the windows. -/
abbrev scM0 : Memref sig .tc .vmem S512x512 .f32 := Memref.whole cc0_scratch0

/-- The class invariant with the accumulator apart, as a memref owned at some contents. -/
theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- THE ACCUMULATION. What the accumulator holds after the body at position `n`: where the reduction coordinate is 0
    the product of the point's blocks added to the zero block, elsewhere added to what the point before left. -/
def acc0 (c : Dev nD) : (n : ℕ) → n < cfg0.N → Vec F S512x512 .f32
  | 0, hn => k0_pay2 (iblk0 V c 0 ⟨0, hn⟩) (iblk0 V c 1 ⟨0, hn⟩) (k0_pay1 (F := F))
  | n + 1, hn =>
    if (n + 1) % 2 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At the first point of a reduction: the product added to zero. -/
theorem acc0_first (c : Dev nD) (t : Fin cfg0.N) (h : t.val % 2 = 0) :
    acc0 V c t.val t.isLt = k0_pay2 (iblk0 V c 0 t) (iblk0 V c 1 t) (k0_pay1 (F := F)) := by
  obtain ⟨n, hn⟩ := t
  cases n with
  | zero => rfl
  | succ n => exact if_pos h

/-- At a later point of a reduction: the product added to what the point before left. -/
theorem acc0_next (c : Dev nD) (t : Fin cfg0.N) (h : ¬t.val % 2 = 0) :
    acc0 V c t.val t.isLt
      = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- What the output's staging buffer holds after the body at a point that ends a reduction: the accumulated sum plus
    the bias row, under tanh. (At the other points the window is idle and this names nothing that is read.) -/
def out0_3 (c : Dev nD) (t : Fin cfg0.N) : Vec F S512x512 .f32 :=
  k0_pay3 (acc0 V c t.val t.isLt) (iblk0 V c 2 t)

/-- The region invariant before position `n`: before the first point the class's; afterwards the accumulator owned at
    what the point before left in it, beside the rest of the scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the pipeline on core `c`: the arrays as the region finds them; after the body each input's buffer
    at its block and the output's at `out0_3`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 V c t := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- An input's buffer is handed back at its block. -/
theorem leaves0_0 (c : Dev nD) (t : Fin cfg0.N) :
    (dat0 V c).leavesExact 0 t = owns (c : Thread nD τ) (st0_0 t) fullShare (iblk0 V c 0 t) := by
  rw [show (dat0 V c).leavesExact 0 t = owns (c : Thread nD τ) (st0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (st0_1 t) fullShare (iblk0 V c 1 t) := by
  rw [show (dat0 V c).leavesExact 1 t = owns (c : Thread nD τ) (st0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (st0_2 t) fullShare (iblk0 V c 2 t) := by
  rw [show (dat0 V c).leavesExact 2 t = owns (c : Thread nD τ) (st0_2 t) fullShare ((dat0 V c).after 2 t) from by
    unfold Dat.leavesExact; rw [liveAt0_2 t], after0_2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the position modulo 2 says which case the point is
    in; the invariant hands the body the accumulator at what the point before left (at anything before the first
    point) and takes it back at this point's contents; where the reduction does not end the output's buffer is
    handed back untouched, where it ends it holds the sum plus the bias under tanh; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 32 := lt_of_lt_of_eq t.isLt (show cfg0.N = 32 from N_0)
  by_cases h1 : t.val % 2 = 0
  · have h2 : ¬t.val % 2 = 1 := by omega
    rw [Dat.leavesExact_idle (dat0 V c) 3 t (idleAt0_3 t (fun h => h2 ((hcond0_2 t).mp h))) (noFlush0_3 t (fun h => h2 ((hcond0_2 t).mp h)))]
    rw [acc0_first V c t h1]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply (sound_kernel0_A c Set.univ (grid0.coords t) _ _ _ _ _ _ _ _ _ _ ((hcond0_1 t).mpr h1) (fun h => h2 ((hcond0_2 t).mp h)) (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (sound_kernel0_A c Set.univ (grid0.coords t) _ _ _ _ _ _ _ _ _ _ ((hcond0_1 t).mpr h1) (fun h => h2 ((hcond0_2 t).mp h)) (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have h2 : t.val % 2 = 1 := by omega
    rw [show (dat0 V c).leavesExact 3 t = owns (c : Thread nD τ) (st0_3 t) fullShare ((dat0 V c).after 3 t) from by
      unfold Dat.leavesExact; rw [liveAt0_3 t ((hcond0_2 t).mpr h2)], after0_3]
    unfold out0_3
    rw [acc0_next V c t h1]
    have hz : t.val ≠ 0 := by omega
    rw [PhiS0_castSucc V c t, PhiS0_pos V c _ _ hz]
    iintro ⟨⟨⟨HS, Hr⟩, Hg⟩, Ho, ⟨%d0, H0⟩, ⟨%d1, H1⟩, ⟨%d2, H2⟩, ⟨%d3, H3⟩⟩
    iapply (sound_kernel0_C c Set.univ (grid0.coords t) _ _ _ _ _ _ _ _ _ _ (fun h => h1 ((hcond0_1 t).mp h)) ((hcond0_2 t).mpr h2) (iblk0 V c 0 t) (iblk0 V c 1 t) (iblk0 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand
end
-- ==== Proof.KI.Reg1.lean ====
import proofs.«115712_j50027779064181_2_alg».proof.Proof.Gen.KernelIdeal.Launch
import proofs.«115712_j50027779064181_2_alg».proof.Proof.Gen.KernelIdeal.Skeleton
import proofs.«115712_j50027779064181_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER of everything below
variable (V : (c : Dev nD) → (b : Ref sig .tc) → Buf (Elt F) ((c : Thread nD τ).loc b))

/-! # Region 1: the tiled matrix product with bias, its accumulator carried along the reduction axis -/

/-- The offsets of a whole-buffer access are zero. -/
theorem hzA1 : (![0, 0] : Fin 2 → Nat) = fun _ => 0 := funext fun a => by fin_cases a <;> rfl

/-! ## The body's branch conditions -/

/-- The reduction coordinate is 0 (the body's first `scf.if`, the skeleton's scalar chain substituted). -/
abbrev cond1_1 (i : grid1.Coords) : Prop := (Scalar.cmpi .ne (Scalar.extui (Scalar.cmpi .eq (BitVec.ofNat 32 (i 2).val) 0#32)) 0#32) = 1#1
/-- The reduction coordinate is the last (the body's second `scf.if`). -/
abbrev cond1_2 (i : grid1.Coords) : Prop := k1_cond2 i = 1#1

set_option maxHeartbeats 1000000 in
/-- The body at a point where the reduction coordinate is 0: the accumulator, whatever it held, is zeroed and
    then holds the product of the point's two blocks added to zero; the inputs and the output buffer are as they were. -/
theorem sound_kernel1_A (c : Dev nD) (E : Set ℕ) (i : grid1.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : cond1_1 i) (hc2 : ¬cond1_2 i)
    (x : Vec F S512x512 .f32) (w : Vec F S512x512 .bf16) (b : Vec F S1x512 .f32) (o : Vec F S512x512 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 x w (k1_pay1 (F := F)))) -∗ K ⟨⟩))
      ⊢ wp frame (wpE (defs₀ (F := F)) Variants.none c none) E (cc1__matmul_bias_kernel i arg3 harg3 arg4 harg4 arg5 harg5 arg6 harg6 arg7 harg7) K := by
  simp only [cc1__matmul_bias_kernel_eq_skeleton]; unfold cc1__matmul_bias_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero hzA1 inb_S512x512_S512x512_0_0 y⟩)]
  rw [View.canon_cons_unit_zero (S := S512x512) hzA1, View.readCov_unit_zero (S := S512x512) _ hzA1]
  simp only [View.readAt_eq_ld, harg3.read_unread, harg4.read_unread, View.ld_unit_zero (S := S512x512) hzA1]

set_option maxHeartbeats 1000000 in
/-- The body at a point where the reduction coordinate is the last (and not 0): the accumulator, holding `s`, ends holding
    `s` plus the product of the point's two blocks, and the output buffer, whatever it held, ends holding that sum
    plus the bias row on every row; the inputs are as they were. -/
theorem sound_kernel1_C (c : Dev nD) (E : Set ℕ) (i : grid1.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : ¬cond1_1 i) (hc2 : cond1_2 i)
    (x : Vec F S512x512 .f32) (w : Vec F S512x512 .bf16) (b : Vec F S1x512 .f32) (s : Vec F S512x512 .f32)
    (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w s) b) ∗ owns (c : Thread nD τ) arg7 fullShare (k1_pay2 x w s)) -∗ K ⟨⟩))
      ⊢ wp frame (wpE (defs₀ (F := F)) Variants.none c none) E (cc1__matmul_bias_kernel i arg3 harg3 arg4 harg4 arg5 harg5 arg6 harg6 arg7 harg7) K := by
  simp only [cc1__matmul_bias_kernel_eq_skeleton]; unfold cc1__matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero hzA1 inb_S512x512_S512x512_0_0 y⟩)]
    rw [View.canon_cons_unit_zero (S := S512x512) hzA1, View.readCov_unit_zero (S := S512x512) _ hzA1]
    simp only [View.readAt_eq_ld, harg3.read_unread, harg4.read_unread, harg5.read_unread, harg7.read_unread,
      View.ld_unit_zero (S := S512x512) hzA1, View.ld_unit_zero (S := S1x512) hzA1]
  iexists _; isplitr
  swap; · iexact H7
  ipureintro
  rw [View.read_writes_eq_canon _ _ _ (fun y => ⟨_, List.mem_cons_self, View.mem_set_unit_zero hzA1 inb_S512x512_S512x512_0_0 y⟩)]
  rw [View.canon_cons_unit_zero (S := S512x512) hzA1]
  simp only [View.readAt_eq_ld, harg3.read_unread, harg4.read_unread, harg7.read_unread, View.ld_unit_zero (S := S512x512) hzA1]

/-- Over the grid the first condition holds where the point's position is 0 modulo 2 — the reduction axis is the
    innermost —, -/
theorem hcond1_1 : ∀ t : Fin cfg1.N, cond1_1 (grid1.coords t) ↔ t.val % 2 = 0 :=
  (by decide +kernel : ∀ t : Fin grid1.N, cond1_1 (grid1.coords t) ↔ t.val % 2 = 0)
/-- and the second where it is 1. -/
theorem hcond1_2 : ∀ t : Fin cfg1.N, cond1_2 (grid1.coords t) ↔ t.val % 2 = 1 :=
  (by decide +kernel : ∀ t : Fin grid1.N, cond1_2 (grid1.coords t) ↔ t.val % 2 = 1)

/-! ## Where the windows are idle -/

/-- The input windows are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- The output window is idle, and not written back, at every point but the last of the reduction axis; -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- there it is live. -/
theorem liveAt1_3 : ∀ t : Fin cfg1.N, cond1_2 (grid1.coords t) → cfg1.idle 3 (grid1.coords t) = false := by decide +kernel

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the output, point by point -/

/-- The accumulator: the kernel's scratch operand, a whole scoped buffer passed beside the windows. -/
abbrev scM1 : Memref sig .tc .vmem S512x512 .f32 := Memref.whole cc1_scratch0

/-- The class invariant with the accumulator apart, as a memref owned at some contents. -/
theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- THE ACCUMULATION. What the accumulator holds after the body at position `n`: where the reduction coordinate is 0
    the product of the point's blocks added to the zero block, elsewhere added to what the point before left. -/
def acc1 (c : Dev nD) : (n : ℕ) → n < cfg1.N → Vec F S512x512 .f32
  | 0, hn => k1_pay2 (iblk1 V c 0 ⟨0, hn⟩) (iblk1 V c 1 ⟨0, hn⟩) (k1_pay1 (F := F))
  | n + 1, hn =>
    if (n + 1) % 2 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At the first point of a reduction: the product added to zero. -/
theorem acc1_first (c : Dev nD) (t : Fin cfg1.N) (h : t.val % 2 = 0) :
    acc1 V c t.val t.isLt = k1_pay2 (iblk1 V c 0 t) (iblk1 V c 1 t) (k1_pay1 (F := F)) := by
  obtain ⟨n, hn⟩ := t
  cases n with
  | zero => rfl
  | succ n => exact if_pos h

/-- At a later point of a reduction: the product added to what the point before left. -/
theorem acc1_next (c : Dev nD) (t : Fin cfg1.N) (h : ¬t.val % 2 = 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- What the output's staging buffer holds after the body at a point that ends a reduction: the accumulated sum plus
    the bias row. (At the other points the window is idle and this names nothing that is read.) -/
def out1_3 (c : Dev nD) (t : Fin cfg1.N) : Vec F S512x512 .f32 :=
  k1_pay3 (acc1 V c t.val t.isLt) (iblk1 V c 2 t)

/-- The region invariant before position `n`: before the first point the class's; afterwards the accumulator owned at
    what the point before left in it, beside the rest of the scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the pipeline on core `c`: the arrays as the region finds them; after the body each input's buffer
    at its block and the output's at `out1_3`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 V c t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- An input's buffer is handed back at its block. -/
theorem leaves1_0 (c : Dev nD) (t : Fin cfg1.N) :
    (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (st1_2 t) fullShare (iblk1 V c 2 t) := by
  rw [show (dat1 V c).leavesExact 2 t = owns (c : Thread nD τ) (st1_2 t) fullShare ((dat1 V c).after 2 t) from by
    unfold Dat.leavesExact; rw [liveAt1_2 t], after1_2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the position modulo 2 says which case the point is
    in; the invariant hands the body the accumulator at what the point before left (at anything before the first
    point) and takes it back at this point's contents; where the reduction does not end the output's buffer is
    handed back untouched, where it ends it holds the sum plus the bias; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 32 := lt_of_lt_of_eq t.isLt (show cfg1.N = 32 from N_1)
  by_cases h1 : t.val % 2 = 0
  · have h2 : ¬t.val % 2 = 1 := by omega
    rw [Dat.leavesExact_idle (dat1 V c) 3 t (idleAt1_3 t (fun h => h2 ((hcond1_2 t).mp h))) (noFlush1_3 t (fun h => h2 ((hcond1_2 t).mp h)))]
    rw [acc1_first V c t h1]
    by_cases hz : t.val = 0
    · rw [PhiS1_castSucc V c t, PhiS1_zero V c _ _ hz, PhiA1_eq]
      iintro ⟨⟨⟨HS, Hr⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_1 t).mpr h1) (fun h => h2 ((hcond1_2 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_1 t).mpr h1) (fun h => h2 ((hcond1_2 t).mp h)) (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have h2 : t.val % 2 = 1 := by omega
    rw [show (dat1 V c).leavesExact 3 t = owns (c : Thread nD τ) (st1_3 t) fullShare ((dat1 V c).after 3 t) from by
      unfold Dat.leavesExact; rw [liveAt1_3 t ((hcond1_2 t).mpr h2)], after1_3]
    unfold out1_3
    rw [acc1_next V c t h1]
    have hz : t.val ≠ 0 := by omega
    rw [PhiS1_castSucc V c t, PhiS1_pos V c _ _ hz]
    iintro ⟨⟨⟨HS, Hr⟩, Hg⟩, Ho, ⟨%d0, H0⟩, ⟨%d1, H1⟩, ⟨%d2, H2⟩, ⟨%d3, H3⟩⟩
    iapply (sound_kernel1_C c Set.univ (grid1.coords t) _ _ _ _ _ _ _ _ _ _ (fun h => h1 ((hcond1_1 t).mp h)) ((hcond1_2 t).mpr h2) (iblk1 V c 0 t) (iblk1 V c 1 t) (iblk1 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]
    · iexists _; iexact HS
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand
end
-- ==== Proof.KI.Reg2.lean ====
import proofs.«115712_j50027779064181_2_alg».proof.Proof.Gen.KernelIdeal.Launch
import proofs.«115712_j50027779064181_2_alg».proof.Proof.Gen.KernelIdeal.Skeleton
import proofs.«115712_j50027779064181_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER of everything below
variable (V : (c : Dev nD) → (b : Ref sig .tc) → Buf (Elt F) ((c : Thread nD τ).loc b))

/-! # Region 2: the tiled matrix product with bias, its accumulator carried along the reduction axis -/

/-- The offsets of a whole-buffer access are zero. -/
theorem hzA2 : (![0, 0] : Fin 2 → Nat) = fun _ => 0 := funext fun a => by fin_cases a <;> rfl

/-! ## The body's branch conditions -/

/-- The reduction coordinate is 0 (the body's first `scf.if`, the skeleton's scalar chain substituted). -/
abbrev cond2_1 (i : grid2.Coords) : Prop := (Scalar.cmpi .ne (Scalar.extui (Scalar.cmpi .eq (BitVec.ofNat 32 (i 2).val) 0#32)) 0#32) = 1#1
/-- The reduction coordinate is the last (the body's second `scf.if`). -/
abbrev cond2_2 (i : grid2.Coords) : Prop := k2_cond2 i = 1#1

set_option maxHeartbeats 1000000 in
/-- The body at a point where the reduction coordinate is 0 (and not the last): the accumulator, whatever it held, is zeroed and
    then holds the product of the point's two blocks added to zero; the inputs and the output buffer are as they were. -/
theorem sound_kernel2_A (c : Dev nD) (E : Set ℕ) (i : grid2.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : cond2_1 i) (hc2 : ¬cond2_2 i)
    (x : Vec F S512x512 .f32) (w : Vec F S512x512 .bf16) (b : Vec F S1x512 .f32) (o : Vec F S512x512 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k2_pay2 x w (k2_pay1 (F := F)))) -∗ K ⟨⟩))
      ⊢ wp frame (wpE (defs₀ (F := F)) Variants.none c none) E (cc2__matmul_bias_kernel i arg3 harg3 arg4 harg4 arg5 harg5 arg6 harg6 arg7 harg7) K := by
  simp only [cc2__matmul_bias_kernel_eq_skeleton]; unfold cc2__matmul_bias_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero hzA2 inb_S512x512_S512x512_0_0 y⟩)]
  rw [View.canon_cons_unit_zero (S := S512x512) hzA2, View.readCov_unit_zero (S := S512x512) _ hzA2]
  simp only [View.readAt_eq_ld, harg3.read_unread, harg4.read_unread, View.ld_unit_zero (S := S512x512) hzA2]

set_option maxHeartbeats 1000000 in
/-- The body at a point where the reduction coordinate is neither 0 nor the last: the accumulator, holding `s`, ends
    holding `s` plus the product of the point's two blocks; the inputs and the output buffer are as they were. -/
theorem sound_kernel2_B (c : Dev nD) (E : Set ℕ) (i : grid2.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : ¬cond2_1 i) (hc2 : ¬cond2_2 i)
    (x : Vec F S512x512 .f32) (w : Vec F S512x512 .bf16) (b : Vec F S1x512 .f32) (o : Vec F S512x512 .f32) (s : Vec F S512x512 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k2_pay2 x w s)) -∗ K ⟨⟩))
      ⊢ wp frame (wpE (defs₀ (F := F)) Variants.none c none) E (cc2__matmul_bias_kernel i arg3 harg3 arg4 harg4 arg5 harg5 arg6 harg6 arg7 harg7) K := by
  simp only [cc2__matmul_bias_kernel_eq_skeleton]; unfold cc2__matmul_bias_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5; obtain rfl := harg6.eq_unread hf6
  obtain rfl := harg7.eq_unread hf7
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero hzA2 inb_S512x512_S512x512_0_0 y⟩)]
  rw [View.canon_cons_unit_zero (S := S512x512) hzA2]
  simp only [View.readAt_eq_ld, harg3.read_unread, harg4.read_unread, harg7.read_unread, View.ld_unit_zero (S := S512x512) hzA2]

set_option maxHeartbeats 1000000 in
/-- The body at a point where the reduction coordinate is the last: the accumulator, holding `s`, ends holding
    `s` plus the product of the point's two blocks, and the output buffer, whatever it held, ends holding that sum
    plus the bias row on every row; the inputs are as they were. -/
theorem sound_kernel2_C (c : Dev nD) (E : Set ℕ) (i : grid2.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : ¬cond2_1 i) (hc2 : cond2_2 i)
    (x : Vec F S512x512 .f32) (w : Vec F S512x512 .bf16) (b : Vec F S1x512 .f32) (s : Vec F S512x512 .f32)
    (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k2_pay3 (k2_pay2 x w s) b) ∗ owns (c : Thread nD τ) arg7 fullShare (k2_pay2 x w s)) -∗ K ⟨⟩))
      ⊢ wp frame (wpE (defs₀ (F := F)) Variants.none c none) E (cc2__matmul_bias_kernel i arg3 harg3 arg4 harg4 arg5 harg5 arg6 harg6 arg7 harg7) K := by
  simp only [cc2__matmul_bias_kernel_eq_skeleton]; unfold cc2__matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero hzA2 inb_S512x512_S512x512_0_0 y⟩)]
    rw [View.canon_cons_unit_zero (S := S512x512) hzA2, View.readCov_unit_zero (S := S512x512) _ hzA2]
    simp only [View.readAt_eq_ld, harg3.read_unread, harg4.read_unread, harg5.read_unread, harg7.read_unread,
      View.ld_unit_zero (S := S512x512) hzA2, View.ld_unit_zero (S := S1x512) hzA2]
  iexists _; isplitr
  swap; · iexact H7
  ipureintro
  rw [View.read_writes_eq_canon _ _ _ (fun y => ⟨_, List.mem_cons_self, View.mem_set_unit_zero hzA2 inb_S512x512_S512x512_0_0 y⟩)]
  rw [View.canon_cons_unit_zero (S := S512x512) hzA2]
  simp only [View.readAt_eq_ld, harg3.read_unread, harg4.read_unread, harg7.read_unread, View.ld_unit_zero (S := S512x512) hzA2]

/-- Over the grid the first condition holds where the point's position is 0 modulo 4 — the reduction axis is the
    innermost —, -/
theorem hcond2_1 : ∀ t : Fin cfg2.N, cond2_1 (grid2.coords t) ↔ t.val % 4 = 0 :=
  (by decide +kernel : ∀ t : Fin grid2.N, cond2_1 (grid2.coords t) ↔ t.val % 4 = 0)
/-- and the second where it is 3. -/
theorem hcond2_2 : ∀ t : Fin cfg2.N, cond2_2 (grid2.coords t) ↔ t.val % 4 = 3 :=
  (by decide +kernel : ∀ t : Fin grid2.N, cond2_2 (grid2.coords t) ↔ t.val % 4 = 3)

/-! ## Where the windows are idle -/

/-- The input windows are never idle. -/
theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
/-- The output window is idle, and not written back, at every point but the last of the reduction axis; -/
theorem idleAt2_3 : ∀ t : Fin cfg2.N, ¬cond2_2 (grid2.coords t) → cfg2.idle 3 (grid2.coords t) = true := by decide +kernel
theorem noFlush2_3 : ∀ t : Fin cfg2.N, ¬cond2_2 (grid2.coords t) → (cfg2.win 3).flush t = false := by decide +kernel
/-- there it is live. -/
theorem liveAt2_3 : ∀ t : Fin cfg2.N, cond2_2 (grid2.coords t) → cfg2.idle 3 (grid2.coords t) = false := by decide +kernel

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the block
    index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the block
    index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the block
    index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator and the output, point by point -/

/-- The accumulator: the kernel's scratch operand, a whole scoped buffer passed beside the windows. -/
abbrev scM2 : Memref sig .tc .vmem S512x512 .f32 := Memref.whole cc2_scratch0

/-- The class invariant with the accumulator apart, as a memref owned at some contents. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- THE ACCUMULATION. What the accumulator holds after the body at position `n`: where the reduction coordinate is 0
    the product of the point's blocks added to the zero block, elsewhere added to what the point before left. -/
def acc2 (c : Dev nD) : (n : ℕ) → n < cfg2.N → Vec F S512x512 .f32
  | 0, hn => k2_pay2 (iblk2 V c 0 ⟨0, hn⟩) (iblk2 V c 1 ⟨0, hn⟩) (k2_pay1 (F := F))
  | n + 1, hn =>
    if (n + 1) % 4 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

/-- At the first point of a reduction: the product added to zero. -/
theorem acc2_first (c : Dev nD) (t : Fin cfg2.N) (h : t.val % 4 = 0) :
    acc2 V c t.val t.isLt = k2_pay2 (iblk2 V c 0 t) (iblk2 V c 1 t) (k2_pay1 (F := F)) := by
  obtain ⟨n, hn⟩ := t
  cases n with
  | zero => rfl
  | succ n => exact if_pos h

/-- At a later point of a reduction: the product added to what the point before left. -/
theorem acc2_next (c : Dev nD) (t : Fin cfg2.N) (h : ¬t.val % 4 = 0) :
    acc2 V c t.val t.isLt
      = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

/-- What the output's staging buffer holds after the body at a point that ends a reduction: the accumulated sum plus
    the bias row. (At the other points the window is idle and this names nothing that is read.) -/
def out2_3 (c : Dev nD) (t : Fin cfg2.N) : Vec F S512x512 .f32 :=
  k2_pay3 (acc2 V c t.val t.isLt) (iblk2 V c 2 t)

/-- The region invariant before position `n`: before the first point the class's; afterwards the accumulator owned at
    what the point before left in it, beside the rest of the scoped buffers and the generator register. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the pipeline on core `c`: the arrays as the region finds them; after the body each input's buffer
    at its block and the output's at `out2_3`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 V c t := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- An input's buffer is handed back at its block. -/
theorem leaves2_0 (c : Dev nD) (t : Fin cfg2.N) :
    (dat2 V c).leavesExact 0 t = owns (c : Thread nD τ) (st2_0 t) fullShare (iblk2 V c 0 t) := by
  rw [show (dat2 V c).leavesExact 0 t = owns (c : Thread nD τ) (st2_0 t) fullShare ((dat2 V c).after 0 t) from by
    unfold Dat.leavesExact; rw [liveAt2_0 t], after2_0]
theorem leaves2_1 (c : Dev nD) (t : Fin cfg2.N) :
    (dat2 V c).leavesExact 1 t = owns (c : Thread nD τ) (st2_1 t) fullShare (iblk2 V c 1 t) := by
  rw [show (dat2 V c).leavesExact 1 t = owns (c : Thread nD τ) (st2_1 t) fullShare ((dat2 V c).after 1 t) from by
    unfold Dat.leavesExact; rw [liveAt2_1 t], after2_1]
theorem leaves2_2 (c : Dev nD) (t : Fin cfg2.N) :
    (dat2 V c).leavesExact 2 t = owns (c : Thread nD τ) (st2_2 t) fullShare (iblk2 V c 2 t) := by
  rw [show (dat2 V c).leavesExact 2 t = owns (c : Thread nD τ) (st2_2 t) fullShare ((dat2 V c).after 2 t) from by
    unfold Dat.leavesExact; rw [liveAt2_2 t], after2_2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the position modulo 4 says which case the point is
    in; the invariant hands the body the accumulator at what the point before left (at anything before the first
    point) and takes it back at this point's contents; where the reduction does not end the output's buffer is
    handed back untouched, where it ends it holds the sum plus the bias; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 64 := lt_of_lt_of_eq t.isLt (show cfg2.N = 64 from N_2)
  by_cases h1 : t.val % 4 = 0
  · have h2 : ¬t.val % 4 = 3 := by omega
    rw [Dat.leavesExact_idle (dat2 V c) 3 t (idleAt2_3 t (fun h => h2 ((hcond2_2 t).mp h))) (noFlush2_3 t (fun h => h2 ((hcond2_2 t).mp h)))]
    rw [acc2_first V c t h1]
    by_cases hz : t.val = 0
    · rw [PhiS2_castSucc V c t, PhiS2_zero V c _ _ hz, PhiA2_eq]
      iintro ⟨⟨⟨HS, Hr⟩, Hg⟩, Ho, ⟨%d0, H0⟩, ⟨%d1, H1⟩, ⟨%d2, H2⟩, ⟨%d3, H3⟩⟩
      iapply (sound_kernel2_A c Set.univ (grid2.coords t) _ _ _ _ _ _ _ _ _ _ ((hcond2_1 t).mpr h1) (fun h => h2 ((hcond2_2 t).mp h)) (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (sound_kernel2_A c Set.univ (grid2.coords t) _ _ _ _ _ _ _ _ _ _ ((hcond2_1 t).mpr h1) (fun h => h2 ((hcond2_2 t).mp h)) (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · by_cases h2 : t.val % 4 = 3
    · rw [show (dat2 V c).leavesExact 3 t = owns (c : Thread nD τ) (st2_3 t) fullShare ((dat2 V c).after 3 t) from by
        unfold Dat.leavesExact; rw [liveAt2_3 t ((hcond2_2 t).mpr h2)], after2_3]
      unfold out2_3
      rw [acc2_next V c t h1]
      have hz : t.val ≠ 0 := by omega
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (sound_kernel2_C c Set.univ (grid2.coords t) _ _ _ _ _ _ _ _ _ _ (fun h => h1 ((hcond2_1 t).mp h)) ((hcond2_2 t).mpr h2) (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t (fun h => h2 ((hcond2_2 t).mp h))) (noFlush2_3 t (fun h => h2 ((hcond2_2 t).mp h)))]
      rw [acc2_next V c t h1]
      have hz : t.val ≠ 0 := by omega
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (sound_kernel2_B c Set.univ (grid2.coords t) _ _ _ _ _ _ _ _ _ _ (fun h => h1 ((hcond2_1 t).mp h)) (fun h => h2 ((hcond2_2 t).mp h)) (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hr⟩, Hg⟩
  isplitl [HS Hr]
  · isplitl [HS]
    · iexists _; iexact HS
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand
end
-- ==== Proof.KI.Reg3.lean ====
import proofs.«115712_j50027779064181_2_alg».proof.Proof.Gen.KernelIdeal.Launch
import proofs.«115712_j50027779064181_2_alg».proof.Proof.Gen.KernelIdeal.Skeleton
import proofs.«115712_j50027779064181_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER of everything below
variable (V : (c : Dev nD) → (b : Ref sig .tc) → Buf (Elt F) ((c : Thread nD τ).loc b))

/-! # Region 3: the tiled matrix product with bias, its accumulator carried along the reduction axis -/

/-- The offsets of a whole-buffer access are zero. -/
theorem hzA3 : (![0, 0] : Fin 2 → Nat) = fun _ => 0 := funext fun a => by fin_cases a <;> rfl

/-! ## The body's branch conditions -/

/-- The reduction coordinate is 0 (the body's first `scf.if`, the skeleton's scalar chain substituted). -/
abbrev cond3_1 (i : grid3.Coords) : Prop := (Scalar.cmpi .ne (Scalar.extui (Scalar.cmpi .eq (BitVec.ofNat 32 (i 2).val) 0#32)) 0#32) = 1#1
/-- The reduction coordinate is the last (the body's second `scf.if`). -/
abbrev cond3_2 (i : grid3.Coords) : Prop := k3_cond2 i = 1#1

set_option maxHeartbeats 1000000 in
/-- The body at a point where the reduction coordinate is 0 (and not the last): the accumulator, whatever it held, is zeroed and
    then holds the product of the point's two blocks added to zero; the inputs and the output buffer are as they were. -/
theorem sound_kernel3_A (c : Dev nD) (E : Set ℕ) (i : grid3.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : cond3_1 i) (hc2 : ¬cond3_2 i)
    (x : Vec F S512x512 .f32) (w : Vec F S512x512 .bf16) (b : Vec F S1x512 .f32) (o : Vec F S512x512 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k3_pay2 x w (k3_pay1 (F := F)))) -∗ K ⟨⟩))
      ⊢ wp frame (wpE (defs₀ (F := F)) Variants.none c none) E (cc3__matmul_bias_kernel i arg3 harg3 arg4 harg4 arg5 harg5 arg6 harg6 arg7 harg7) K := by
  simp only [cc3__matmul_bias_kernel_eq_skeleton]; unfold cc3__matmul_bias_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero hzA3 inb_S512x512_S512x512_0_0 y⟩)]
  rw [View.canon_cons_unit_zero (S := S512x512) hzA3, View.readCov_unit_zero (S := S512x512) _ hzA3]
  simp only [View.readAt_eq_ld, harg3.read_unread, harg4.read_unread, View.ld_unit_zero (S := S512x512) hzA3]

set_option maxHeartbeats 1000000 in
/-- The body at a point where the reduction coordinate is neither 0 nor the last: the accumulator, holding `s`, ends
    holding `s` plus the product of the point's two blocks; the inputs and the output buffer are as they were. -/
theorem sound_kernel3_B (c : Dev nD) (E : Set ℕ) (i : grid3.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : ¬cond3_1 i) (hc2 : ¬cond3_2 i)
    (x : Vec F S512x512 .f32) (w : Vec F S512x512 .bf16) (b : Vec F S1x512 .f32) (o : Vec F S512x512 .f32) (s : Vec F S512x512 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k3_pay2 x w s)) -∗ K ⟨⟩))
      ⊢ wp frame (wpE (defs₀ (F := F)) Variants.none c none) E (cc3__matmul_bias_kernel i arg3 harg3 arg4 harg4 arg5 harg5 arg6 harg6 arg7 harg7) K := by
  simp only [cc3__matmul_bias_kernel_eq_skeleton]; unfold cc3__matmul_bias_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5; obtain rfl := harg6.eq_unread hf6
  obtain rfl := harg7.eq_unread hf7
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero hzA3 inb_S512x512_S512x512_0_0 y⟩)]
  rw [View.canon_cons_unit_zero (S := S512x512) hzA3]
  simp only [View.readAt_eq_ld, harg3.read_unread, harg4.read_unread, harg7.read_unread, View.ld_unit_zero (S := S512x512) hzA3]

set_option maxHeartbeats 1000000 in
/-- The body at a point where the reduction coordinate is the last: the accumulator, holding `s`, ends holding
    `s` plus the product of the point's two blocks, and the output buffer, whatever it held, ends holding that sum
    plus the bias row on every row; the inputs are as they were. -/
theorem sound_kernel3_C (c : Dev nD) (E : Set ℕ) (i : grid3.Coords)
    (arg3 : Memref sig .tc .vmem S512x512 .f32) (harg3 : arg3.IsWhole) (arg4 : Memref sig .tc .vmem S512x512 .bf16) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc1 : ¬cond3_1 i) (hc2 : cond3_2 i)
    (x : Vec F S512x512 .f32) (w : Vec F S512x512 .bf16) (b : Vec F S1x512 .f32) (s : Vec F S512x512 .f32)
    (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k3_pay3 (k3_pay2 x w s) b) ∗ owns (c : Thread nD τ) arg7 fullShare (k3_pay2 x w s)) -∗ K ⟨⟩))
      ⊢ wp frame (wpE (defs₀ (F := F)) Variants.none c none) E (cc3__matmul_bias_kernel i arg3 harg3 arg4 harg4 arg5 harg5 arg6 harg6 arg7 harg7) K := by
  simp only [cc3__matmul_bias_kernel_eq_skeleton]; unfold cc3__matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc1 | exact hc2)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero hzA3 inb_S512x512_S512x512_0_0 y⟩)]
    rw [View.canon_cons_unit_zero (S := S512x512) hzA3, View.readCov_unit_zero (S := S512x512) _ hzA3]
    simp only [View.readAt_eq_ld, harg3.read_unread, harg4.read_unread, harg5.read_unread, harg7.read_unread,
      View.ld_unit_zero (S := S512x512) hzA3, View.ld_unit_zero (S := S1x512) hzA3]
  iexists _; isplitr
  swap; · iexact H7
  ipureintro
  rw [View.read_writes_eq_canon _ _ _ (fun y => ⟨_, List.mem_cons_self, View.mem_set_unit_zero hzA3 inb_S512x512_S512x512_0_0 y⟩)]
  rw [View.canon_cons_unit_zero (S := S512x512) hzA3]
  simp only [View.readAt_eq_ld, harg3.read_unread, harg4.read_unread, harg7.read_unread, View.ld_unit_zero (S := S512x512) hzA3]

/-- Over the grid the first condition holds where the point's position is 0 modulo 4 — the reduction axis is the
    innermost —, -/
theorem hcond3_1 : ∀ t : Fin cfg3.N, cond3_1 (grid3.coords t) ↔ t.val % 4 = 0 :=
  (by decide +kernel : ∀ t : Fin grid3.N, cond3_1 (grid3.coords t) ↔ t.val % 4 = 0)
/-- and the second where it is 3. -/
theorem hcond3_2 : ∀ t : Fin cfg3.N, cond3_2 (grid3.coords t) ↔ t.val % 4 = 3 :=
  (by decide +kernel : ∀ t : Fin grid3.N, cond3_2 (grid3.coords t) ↔ t.val % 4 = 3)

/-! ## Where the windows are idle -/

/-- The input windows are never idle. -/
theorem liveAt3_0 (t : Fin cfg3.N) : cfg3.idle 0 (grid3.coords t) = false := rfl
theorem liveAt3_1 (t : Fin cfg3.N) : cfg3.idle 1 (grid3.coords t) = false := rfl
theorem liveAt3_2 (t : Fin cfg3.N) : cfg3.idle 2 (grid3.coords t) = false := rfl
/-- The output window is idle, and not written back, at every point but the last of the reduction axis; -/
theorem idleAt3_3 : ∀ t : Fin cfg3.N, ¬cond3_2 (grid3.coords t) → cfg3.idle 3 (grid3.coords t) = true := by decide +kernel
theorem noFlush3_3 : ∀ t : Fin cfg3.N, ¬cond3_2 (grid3.coords t) → (cfg3.win 3).flush t = false := by decide +kernel
/-- there it is live. -/
theorem liveAt3_3 : ∀ t : Fin cfg3.N, cond3_2 (grid3.coords t) → cfg3.idle 3 (grid3.coords t) = false := by decide +kernel

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the block
    index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the block
    index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the block
    index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator and the output, point by point -/

/-- The accumulator: the kernel's scratch operand, a whole scoped buffer passed beside the windows. -/
abbrev scM3 : Memref sig .tc .vmem S512x512 .f32 := Memref.whole cc3_scratch0

/-- The class invariant with the accumulator apart, as a memref owned at some contents. -/
theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- THE ACCUMULATION. What the accumulator holds after the body at position `n`: where the reduction coordinate is 0
    the product of the point's blocks added to the zero block, elsewhere added to what the point before left. -/
def acc3 (c : Dev nD) : (n : ℕ) → n < cfg3.N → Vec F S512x512 .f32
  | 0, hn => k3_pay2 (iblk3 V c 0 ⟨0, hn⟩) (iblk3 V c 1 ⟨0, hn⟩) (k3_pay1 (F := F))
  | n + 1, hn =>
    if (n + 1) % 4 = 0 then k3_pay2 (iblk3 V c 0 ⟨n + 1, hn⟩) (iblk3 V c 1 ⟨n + 1, hn⟩) (k3_pay1 (F := F))
    else k3_pay2 (iblk3 V c 0 ⟨n + 1, hn⟩) (iblk3 V c 1 ⟨n + 1, hn⟩) (acc3 c n (Nat.lt_of_succ_lt hn))

/-- At the first point of a reduction: the product added to zero. -/
theorem acc3_first (c : Dev nD) (t : Fin cfg3.N) (h : t.val % 4 = 0) :
    acc3 V c t.val t.isLt = k3_pay2 (iblk3 V c 0 t) (iblk3 V c 1 t) (k3_pay1 (F := F)) := by
  obtain ⟨n, hn⟩ := t
  cases n with
  | zero => rfl
  | succ n => exact if_pos h

/-- At a later point of a reduction: the product added to what the point before left. -/
theorem acc3_next (c : Dev nD) (t : Fin cfg3.N) (h : ¬t.val % 4 = 0) :
    acc3 V c t.val t.isLt
      = k3_pay2 (iblk3 V c 0 t) (iblk3 V c 1 t) (acc3 V c (t.val - 1) (Nat.lt_of_le_of_lt (Nat.sub_le _ _) t.isLt)) := by
  obtain ⟨n, hn⟩ := t
  cases n with
  | zero => exact absurd (Nat.zero_mod _) h
  | succ n => exact if_neg h

/-- What the output's staging buffer holds after the body at a point that ends a reduction: the accumulated sum plus
    the bias row. (At the other points the window is idle and this names nothing that is read.) -/
def out3_3 (c : Dev nD) (t : Fin cfg3.N) : Vec F S512x512 .f32 :=
  k3_pay3 (acc3 V c t.val t.isLt) (iblk3 V c 2 t)

/-- The region invariant before position `n`: before the first point the class's; afterwards the accumulator owned at
    what the point before left in it, beside the rest of the scoped buffers and the generator register. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of the pipeline on core `c`: the arrays as the region finds them; after the body each input's buffer
    at its block and the output's at `out3_3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 V c t := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- An input's buffer is handed back at its block. -/
theorem leaves3_0 (c : Dev nD) (t : Fin cfg3.N) :
    (dat3 V c).leavesExact 0 t = owns (c : Thread nD τ) (st3_0 t) fullShare (iblk3 V c 0 t) := by
  rw [show (dat3 V c).leavesExact 0 t = owns (c : Thread nD τ) (st3_0 t) fullShare ((dat3 V c).after 0 t) from by
    unfold Dat.leavesExact; rw [liveAt3_0 t], after3_0]
theorem leaves3_1 (c : Dev nD) (t : Fin cfg3.N) :
    (dat3 V c).leavesExact 1 t = owns (c : Thread nD τ) (st3_1 t) fullShare (iblk3 V c 1 t) := by
  rw [show (dat3 V c).leavesExact 1 t = owns (c : Thread nD τ) (st3_1 t) fullShare ((dat3 V c).after 1 t) from by
    unfold Dat.leavesExact; rw [liveAt3_1 t], after3_1]
theorem leaves3_2 (c : Dev nD) (t : Fin cfg3.N) :
    (dat3 V c).leavesExact 2 t = owns (c : Thread nD τ) (st3_2 t) fullShare (iblk3 V c 2 t) := by
  rw [show (dat3 V c).leavesExact 2 t = owns (c : Thread nD τ) (st3_2 t) fullShare ((dat3 V c).after 2 t) from by
    unfold Dat.leavesExact; rw [liveAt3_2 t], after3_2]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' buffers hold their blocks; the position modulo 4 says which case the point is
    in; the invariant hands the body the accumulator at what the point before left (at anything before the first
    point) and takes it back at this point's contents; where the reduction does not end the output's buffer is
    handed back untouched, where it ends it holds the sum plus the bias; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 64 := lt_of_lt_of_eq t.isLt (show cfg3.N = 64 from N_3)
  by_cases h1 : t.val % 4 = 0
  · have h2 : ¬t.val % 4 = 3 := by omega
    rw [Dat.leavesExact_idle (dat3 V c) 3 t (idleAt3_3 t (fun h => h2 ((hcond3_2 t).mp h))) (noFlush3_3 t (fun h => h2 ((hcond3_2 t).mp h)))]
    rw [acc3_first V c t h1]
    by_cases hz : t.val = 0
    · rw [PhiS3_castSucc V c t, PhiS3_zero V c _ _ hz, PhiA3_eq]
      iintro ⟨⟨⟨HS, Hr⟩, Hg⟩, Ho, ⟨%d0, H0⟩, ⟨%d1, H1⟩, ⟨%d2, H2⟩, ⟨%d3, H3⟩⟩
      iapply (sound_kernel3_A c Set.univ (grid3.coords t) _ _ _ _ _ _ _ _ _ _ ((hcond3_1 t).mpr h1) (fun h => h2 ((hcond3_2 t).mp h)) (iblk3 V c 0 t) (iblk3 V c 1 t) (iblk3 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩⟩
      iapply (sound_kernel3_A c Set.univ (grid3.coords t) _ _ _ _ _ _ _ _ _ _ ((hcond3_1 t).mpr h1) (fun h => h2 ((hcond3_2 t).mp h)) (iblk3 V c 0 t) (iblk3 V c 1 t) (iblk3 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · by_cases h2 : t.val % 4 = 3
    · rw [show (dat3 V c).leavesExact 3 t = owns (c : Thread nD τ) (st3_3 t) fullShare ((dat3 V c).after 3 t) from by
        unfold Dat.leavesExact; rw [liveAt3_3 t ((hcond3_2 t).mpr h2)], after3_3]
      unfold out3_3
      rw [acc3_next V c t h1]
      have hz : t.val ≠ 0 := by omega
      rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩⟩
      iapply (sound_kernel3_C c Set.univ (grid3.coords t) _ _ _ _ _ _ _ _ _ _ (fun h => h1 ((hcond3_1 t).mp h)) ((hcond3_2 t).mpr h2) (iblk3 V c 0 t) (iblk3 V c 1 t) (iblk3 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat3 V c) 3 t (idleAt3_3 t (fun h => h2 ((hcond3_2 t).mp h))) (noFlush3_3 t (fun h => h2 ((hcond3_2 t).mp h)))]
      rw [acc3_next V c t h1]
      have hz : t.val ≠ 0 := by omega
      rw [PhiS3_castSucc V c t, PhiS3_pos V c _ _ hz]
      iintro ⟨⟨⟨HS, Hr⟩, Hg⟩, Ho, ⟨%d0, H0⟩, ⟨%d1, H1⟩, ⟨%d2, H2⟩, ⟨%d3, H3⟩⟩
      iapply (sound_kernel3_B c Set.univ (grid3.coords t) _ _ _ _ _ _ _ _ _ _ (fun h => h1 ((hcond3_1 t).mp h)) (fun h => h2 ((hcond3_2 t).mp h)) (iblk3 V c 0 t) (iblk3 V c 1 t) (iblk3 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the class's back: what the accumulator holds is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]
    · iexists _; iexact HS
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.KernelIdeal.Hand
end
-- ==== Proof.KI.Reg4.lean ====
import proofs.«115712_j50027779064181_2_alg».proof.Proof.Gen.KernelIdeal.Launch
import proofs.«115712_j50027779064181_2_alg».proof.Proof.Gen.KernelIdeal.Skeleton
import proofs.«115712_j50027779064181_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a parameter of everything below
variable (V : (c : Dev nD) → (b : Ref sig .tc) → Buf (Elt F) ((c : Thread nD τ).loc b))

/-! # Region 4: the cosine-normalised softmax attention body, at the entry contents `V` -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the pipeline fetched it
    there or not: where it is not fetched its block index has not moved, so the buffer still holds the block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the pipeline fetched it
    there or not: where it is not fetched its block index has not moved, so the buffer still holds the block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the pipeline fetched it
    there or not: where it is not fetched its block index has not moved, so the buffer still holds the block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_q : Rect S512x512 := Rect.unit (s := S512x512) ![0, 0] S512x512.size inb_S512x512_S512x512_0_0
abbrev r4_kv : Rect S2048x512 := Rect.unit (s := S2048x512) ![0, 0] S2048x512.size inb_S2048x512_S2048x512_0_0

/-- The output window's staging buffer after the body, from the three input blocks: its one store, of the
    attention payload over what the three loads read. -/
def out4_3 (x0 : Vec F S512x512 .f32) (x1 : Vec F S2048x512 .f32) (x2 : Vec F S2048x512 .f32) : Vec F S512x512 .f32 :=
  View.canon [⟨r4_q, k4_pay1 (View.ld x0 r4_q) (View.ld x1 r4_kv) (View.ld x2 r4_kv)⟩]

/-- The one store is of the whole buffer, so it covers it. -/
theorem cover4_3 (p0 : Vec F S512x512 .f32) (y : S512x512.Idx) :
    ∃ pc ∈ ([⟨r4_q, p0⟩] : List (View.Piece (Elt F) S512x512 .f32)), y ∈ pc.1.set :=
  View.cover_of_tiled [⟨r4_q, p0⟩] S512x512.size (by rfl) y

set_option maxHeartbeats 4000000 in
/-- The body on whole staging memrefs, the inputs' at read contents `x0 x1 x2` and the output's at anything, runs
    to the continuation holding the inputs' as they were and the output's at `out4_3` of the inputs'. -/
theorem sound_kernel4 (c : Dev nD) (E : Set ℕ) (i : grid4.Coords)
    (arg2 : Memref sig .tc .vmem S512x512 .f32) (harg2 : arg2.IsWhole)
    (arg3 : Memref sig .tc .vmem S2048x512 .f32) (harg3 : arg3.IsWhole)
    (arg4 : Memref sig .tc .vmem S2048x512 .f32) (harg4 : arg4.IsWhole)
    (arg5 : Memref sig .tc .vmem S512x512 .f32) (harg5 : arg5.IsWhole)
    (x0 : Vec F S512x512 .f32) (x1 : Vec F S2048x512 .f32) (x2 : Vec F S2048x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out4_3 x0 x1 x2)) -∗ K ⟨⟩))
      ⊢ wp frame (wpE (defs₀ (F := F)) Variants.none c none) E (cc4__attn_kernel i arg2 harg2 arg3 harg3 arg4 harg4 arg5 harg5) K := by
  simp only [cc4__attn_kernel_eq_skeleton]; unfold cc4__attn_kernel_skel
  simp only [k4_part1_eq_skeleton]; unfold k4_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the region on core `c`: the arrays as the region finds them; after the body at point `t`
    each input's buffer at its block and the output's at `out4_3` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and
    the core's owed count pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- Nothing is carried between points: the invariant is the region's own at both ends. -/
theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Cert.KernelIdeal.Hand
end
-- ==== Proof.KI.Reg5.lean ====
import proofs.«115712_j50027779064181_2_alg».proof.Proof.Gen.KernelIdeal.Launch
import proofs.«115712_j50027779064181_2_alg».proof.Proof.Gen.KernelIdeal.Skeleton
import proofs.«115712_j50027779064181_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a parameter of everything below
variable (V : (c : Dev nD) → (b : Ref sig .tc) → Buf (Elt F) ((c : Thread nD τ).loc b))

/-! # Region 5: the layer normalisation fused into the decode matmul, at the entry contents `V` -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the pipeline fetched it
    there or not: where it is not fetched its block index has not moved, so the buffer still holds the block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the pipeline fetched it
    there or not: where it is not fetched its block index has not moved, so the buffer still holds the block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the pipeline fetched it
    there or not: where it is not fetched its block index has not moved, so the buffer still holds the block. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the pipeline fetched it
    there or not: where it is not fetched its block index has not moved, so the buffer still holds the block. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the pipeline fetched it
    there or not: where it is not fetched its block index has not moved, so the buffer still holds the block. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_a : Rect S512x2048 := Rect.unit (s := S512x2048) ![0, 0] S512x2048.size inb_S512x2048_S512x2048_0_0
abbrev r5_w : Rect S2048x512 := Rect.unit (s := S2048x512) ![0, 0] S2048x512.size inb_S2048x512_S2048x512_0_0
abbrev r5_b : Rect S1x512 := Rect.unit (s := S1x512) ![0, 0] S1x512.size inb_S1x512_S1x512_0_0
abbrev r5_g : Rect S1x2048 := Rect.unit (s := S1x2048) ![0, 0] S1x2048.size inb_S1x2048_S1x2048_0_0
abbrev r5_o : Rect S512x512 := Rect.unit (s := S512x512) ![0, 0] S512x512.size inb_S512x512_S512x512_0_0

/-- The output window's staging buffer after the body, from the five input blocks (activations, weight, bias,
    scale, shift): its one store, of the payload over what the five loads read. -/
def out5_5 (x0 : Vec F S512x2048 .f32) (x1 : Vec F S2048x512 .bf16) (x2 : Vec F S1x512 .f32)
    (x3 : Vec F S1x2048 .f32) (x4 : Vec F S1x2048 .f32) : Vec F S512x512 .f32 :=
  View.canon [⟨r5_o, k5_pay1 (View.ld x0 r5_a) (View.ld x3 r5_g) (View.ld x4 r5_g) (View.ld x1 r5_w) (View.ld x2 r5_b)⟩]

/-- The one store is of the whole buffer, so it covers it. -/
theorem cover5_5 (p0 : Vec F S512x512 .f32) (y : S512x512.Idx) :
    ∃ pc ∈ ([⟨r5_o, p0⟩] : List (View.Piece (Elt F) S512x512 .f32)), y ∈ pc.1.set :=
  View.cover_of_tiled [⟨r5_o, p0⟩] S512x512.size (by rfl) y

set_option maxHeartbeats 4000000 in
/-- The body on whole staging memrefs, the inputs' at read contents `x0 … x4` and the output's at anything, runs
    to the continuation holding the inputs' as they were and the output's at `out5_5` of the inputs'. -/
theorem sound_kernel5 (c : Dev nD) (E : Set ℕ) (i : grid5.Coords)
    (arg2 : Memref sig .tc .vmem S512x2048 .f32) (harg2 : arg2.IsWhole)
    (arg3 : Memref sig .tc .vmem S2048x512 .bf16) (harg3 : arg3.IsWhole)
    (arg4 : Memref sig .tc .vmem S1x512 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S512x512 .f32) (harg7 : arg7.IsWhole)
    (x0 : Vec F S512x2048 .f32) (x1 : Vec F S2048x512 .bf16) (x2 : Vec F S1x512 .f32)
    (x3 : Vec F S1x2048 .f32) (x4 : Vec F S1x2048 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare (out5_5 x0 x1 x2 x3 x4)) -∗ K ⟨⟩))
      ⊢ wp frame (wpE (defs₀ (F := F)) Variants.none c none) E (cc5__decode_ln_kernel i arg2 harg2 arg3 harg3 arg4 harg4 arg5 harg5 arg6 harg6 arg7 harg7) K := by
  simp only [cc5__decode_ln_kernel_eq_skeleton]; unfold cc5__decode_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the region on core `c`: the arrays as the region finds them; after the body at point `t`
    each input's buffer at its block and the output's at `out5_5` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by
  dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and
    the core's owed count pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- Nothing is carried between points: the invariant is the region's own at both ends. -/
theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Cert.KernelIdeal.Hand
end
-- ==== Proof.KI.Reg6.lean ====
/-
  The seventh kernel region: the correlation of normalised key rows with normalised value rows, one head at a time.
  Its grid is (head p, row block i, row block j), 4 x 4 x 4. At a point the body reads the 512 x 512 block of the key
  projection at rows 512 i and columns 512 p, and the 512 x 512 block of the value projection at rows 512 j and columns
  512 p; divides every row of each by the square root of (its sum of squares + 1e-10); and stores the 512 x 512 matrix
  of inner products of the normalised key rows with the normalised value rows as block (p, i, j) of the result.
  Nothing is carried from one point to the next, every access is a whole staging buffer, and the one store covers the
  output's buffer. This module states what the region's buffers hold point by point and proves the body's obligation,
  for any float instance and any contents `V` the region is entered with.
-/
import proofs.«115712_j50027779064181_2_alg».proof.Proof.Gen.KernelIdeal.Launch
import proofs.«115712_j50027779064181_2_alg».proof.Proof.Gen.KernelIdeal.Skeleton
import proofs.«115712_j50027779064181_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks the region reads -/

/-- Window `w`'s block at grid position `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The key window's current staging buffer holds the key block of the point, also at the points where the pipeline
    does not fetch it again (the block index moves only with the head and the first row block), for any proof data
    that reads its array off `V` and whose body leaves that buffer as found. -/
theorem keyBuf6_of {c : Dev nD} (dat : Dat τ (Elt F) Unit ℕ (UR sig nD τ) ℕ cfg6 c) (hA : dat.A 0 = V c (Pipeline.arrRef spec6 0))
    (hkept : ∀ t, dat.after 0 t = iblk6 V c 0 t) (t : Fin cfg6.N) (d) : dat.before 0 t d = iblk6 V c 0 t :=
  (dat.before_in_eq_fetched 0 rfl (fun _ => rfl) (fun _ _ _ => rfl)
      (fun t => by rw [hkept]; unfold Dat.blockOf iblk6; rw [hA]; try rfl) t d).trans
    (by unfold Dat.fetched Dat.blockOf iblk6; rw [hA]; try rfl)

/-- The same for the value window, whose block index moves with the head and the second row block. -/
theorem valBuf6_of {c : Dev nD} (dat : Dat τ (Elt F) Unit ℕ (UR sig nD τ) ℕ cfg6 c) (hA : dat.A 1 = V c (Pipeline.arrRef spec6 1))
    (hkept : ∀ t, dat.after 1 t = iblk6 V c 1 t) (t : Fin cfg6.N) (d) : dat.before 1 t d = iblk6 V c 1 t :=
  (dat.before_in_eq_fetched 1 rfl (fun _ => rfl) (fun _ _ _ => rfl)
      (fun t => by rw [hkept]; unfold Dat.blockOf iblk6; rw [hA]; try rfl) t d).trans
    (by unfold Dat.fetched Dat.blockOf iblk6; rw [hA]; try rfl)

/-! ## What the body stores -/

/-- The rectangle of each of the body's two loads: a whole 512 x 512 staging buffer. -/
abbrev rIn6 : Rect S512x512 := Rect.unit (s := S512x512) ![0, 0] S512x512.size inb_S512x512_S512x512_0_0
/-- The rectangle of its one store: the whole 1 x 512 x 512 staging buffer of the result. -/
abbrev rOut6 : Rect S1x512x512 := Rect.unit (s := S1x512x512) ![0, 0, 0] S1x512x512.size inb_S1x512x512_S1x512x512_0_0_0

/-- The result window's staging buffer after the body, from the key block `k` and the value block `v`: the one stored
    piece, whose value is the body's arithmetic on the two loaded blocks (the skeleton's payload). -/
def corrBlock6 (k v : Vec F S512x512 .f32) : Vec F S1x512x512 .f32 :=
  View.canon [⟨rOut6, k6_pay1 (View.ld k rIn6) (View.ld v rIn6)⟩]

/-- That piece is the whole buffer, so every index of the buffer lies in it. -/
theorem corrCover6 (p : Vec F S1x512x512 .f32) (y : S1x512x512.Idx) :
    ∃ pc ∈ ([⟨rOut6, p⟩] : List (View.Piece (Elt F) S1x512x512 .f32)), y ∈ pc.1.set :=
  View.cover_of_tiled [⟨rOut6, p⟩] S1x512x512.size (by rfl) y

/-! ## The body's triple -/

set_option maxHeartbeats 1000000 in
/-- The body on three whole staging memrefs — the key's holding `k`, the value's holding `v`, the result's holding
    anything — runs to its end leaving the first two as they were and the result's at `corrBlock6 k v`. -/
theorem sound_kernel6 (c : Dev nD) (E : Set ℕ) (i : grid6.Coords)
    (a3 : Memref sig .tc .vmem S512x512 .f32) (h3 : a3.IsWhole) (a4 : Memref sig .tc .vmem S512x512 .f32) (h4 : a4.IsWhole)
    (a5 : Memref sig .tc .vmem S1x512x512 .f32) (h5 : a5.IsWhole)
    (k v : Vec F S512x512 .f32) (K : PUnit → sProp 𝕄) :
    iprop(owns (c : Thread nD τ) a3 fullShare k ∗ owns (c : Thread nD τ) a4 fullShare v ∗ (∃ d, owns (c : Thread nD τ) a5 fullShare d)
        ∗ (iprop(owns (c : Thread nD τ) a3 fullShare k ∗ owns (c : Thread nD τ) a4 fullShare v
            ∗ owns (c : Thread nD τ) a5 fullShare (corrBlock6 k v)) -∗ K ⟨⟩))
      ⊢ wp frame (wpE (defs₀ (F := F)) Variants.none c none) E (cc6__corr_kernel i a3 h3 a4 h4 a5 h5) K := by
  simp only [cc6__corr_kernel_eq_skeleton]; unfold cc6__corr_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (corrCover6 _)

/-! ## The proof data -/

/-- What the pipeline's buffers hold around the body on core `c`: the arrays as the region finds them; after the body at
    position `t` the two input buffers still at their blocks and the result's at `corrBlock6` of those blocks; the
    invariant is the scoped rest beside the generator register, untouched; nothing is owed; every share is whole. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => corrBlock6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
/-- The result block of position `t` is the correlation of that position's key block with its value block. -/
theorem after6_2 (c : Dev nD) (t : Fin cfg6.N) :
    (dat6 V c).after 2 t = corrBlock6 (iblk6 V c 0 t) (iblk6 V c 1 t) := by dsimp only [dat6]

theorem before6_0 (c : Dev nD) (t : Fin cfg6.N) (d) : (dat6 V c).before 0 t d = iblk6 V c 0 t :=
  keyBuf6_of V (dat6 V c) (A_eq6 V c 0) (after6_0 V c) t d
theorem before6_1 (c : Dev nD) (t : Fin cfg6.N) (d) : (dat6 V c).before 1 t d = iblk6 V c 1 t :=
  valBuf6_of V (dat6 V c) (A_eq6 V c 1) (after6_1 V c) t d

/-- The invariant does not move: it is what the launch hands the region, and what the region hands back. -/
theorem hin6 (c : Dev nD) : Pipeline.ΦA spec6 c ⊢ (dat6 V c).Φ 0 := .rfl
theorem hout6 (c : Dev nD) : (dat6 V c).Φ (Fin.last cfg6.N) ⊢ Pipeline.ΦA spec6 c := .rfl

/-! ## The body's obligation at every position -/

/-- What the body is entered with at position `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it leaves. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- At any position the two input memrefs hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Run.lean ====
/- The run of @main through its twelve items: five stretches of host operations (the weights' change of float format, the
  bias and scale vectors set up as rows) and seven kernel regions. Between two items every unscoped buffer of a core is
  held whole at contents named here (bnd0 at launch, bnd12 at the return): a host stretch applies its operations to them; a
  region replaces its windows' arrays by what its write-backs leave and keeps every other buffer. Each region is entered
  with those buffers, the generator register at some state and nothing owed, and is left the same way, so the items chain;
  at the return the machine's memory is read against bnd12. What follows from that: every argument array ends as launched
  (no item writes one), and the two results end at the last write-backs of regions 5 and 6. -/
import proofs.«115712_j50027779064181_2_alg».proof.Proof.Gen.KernelIdeal.Regions
import proofs.«115712_j50027779064181_2_alg».proof.Proof.KI.Reg0
import proofs.«115712_j50027779064181_2_alg».proof.Proof.KI.Reg1
import proofs.«115712_j50027779064181_2_alg».proof.Proof.KI.Reg2
import proofs.«115712_j50027779064181_2_alg».proof.Proof.KI.Reg3
import proofs.«115712_j50027779064181_2_alg».proof.Proof.KI.Reg4
import proofs.«115712_j50027779064181_2_alg».proof.Proof.KI.Reg5
import proofs.«115712_j50027779064181_2_alg».proof.Proof.KI.Reg6
import Idealize.ShloMosaic.Lib.Pipeline.Kit
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the thirteen boundaries -/

/-- A core's buffers at launch. -/
abbrev bnd0 : Dev nD → Valuation τ sig (Elt F) := fun c b => m (c, b)
/-- The same, read at the TensorCore's references. -/
abbrev ent0 : (c : Dev nD) → (b : Ref sig .tc) → Buf (Elt F) ((c : Thread nD τ).loc b) := fun c b => bnd0 m c b

/-- After the host stretch hostOps0: its operations applied. -/
abbrev bnd1 : Dev nD → Valuation τ sig (Elt F) := fun c => StableHlo.after hostOps0 (bnd0 m c)
/-- A buffer the stretch does not write keeps its contents. -/
theorem bnd1_keep (c : Dev nD) (r : Ref sig .tc) (h : r ∉ hostOps0_W) : bnd1 m c r = bnd0 m c r :=
  StableHlo.after_of_writes_sub hostOps0 _ hostOps0_writes h
/-- The same, read at the TensorCore's references. -/
abbrev ent1 : (c : Dev nD) → (b : Ref sig .tc) → Buf (Elt F) ((c : Thread nD τ).loc b) := fun c b => bnd1 m c b

/-- After region 0: its windows' arrays at what the write-backs leave, every other buffer as the region was entered. -/
def bnd2 (c : Dev nD) : Valuation τ sig (Elt F) :=
  Pipeline.withArrays spec0 c (bnd1 m c) fun w => (dat0 (ent1 m) c).arrAt w cfg0.N
theorem bnd2_arr (c : Dev nD) (w : Fin cfg0.W) :
    bnd2 m c (Proc.devRef .tc (Pipeline.arrRef spec0 w)) = (dat0 (ent1 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
/-- Every window of region 0 whose array is not the result main_v6 is an input. -/
theorem inputs0 : ∀ w : Fin cfg0.W, Pipeline.arrRef spec0 w ≠ main_v6 → (cfg0.win w).isOut = false := by decide
/-- Region 0 changes no buffer but its result array: an input window's array is never written back, and a buffer
    that is no window's array is not touched. -/
theorem bnd2_keep (c : Dev nD) (b : Ref sig .tc) (hb : b ≠ main_v6) :
    bnd2 m c (Proc.devRef .tc b) = bnd1 m c (Proc.devRef .tc b) := by
  by_cases h : ∃ w, Pipeline.arrRef spec0 w = b
  · obtain ⟨w, rfl⟩ := h
    exact (bnd2_arr m c w).trans (((dat0 (ent1 m) c).arrAt_in w (inputs0 w hb) _).trans (A_eq0 (ent1 m) c w))
  · exact bnd2_of_ne m c b fun w e => h ⟨w, e⟩
/-- The same, read at the TensorCore's references. -/
abbrev ent2 : (c : Dev nD) → (b : Ref sig .tc) → Buf (Elt F) ((c : Thread nD τ).loc b) := fun c b => bnd2 m c b
theorem hF0 (c : Dev nD) (w : Fin cfg0.W) : (dat0 (ent1 m) c).arrAt w cfg0.N = ent2 m c (Pipeline.arrRef spec0 w) :=
  (bnd2_arr m c w).symm
theorem hrest0 (c : Dev nD) : ∀ b, b ∉ Finset.univ.image (Pipeline.arrRef spec0) → ent2 m c b = ent1 m c b :=
  fun b hb => bnd2_of_ne m c b fun w e => hb (Finset.mem_image.mpr ⟨w, Finset.mem_univ _, e⟩)

/-- After the host stretch hostOps1: its operations applied. -/
abbrev bnd3 : Dev nD → Valuation τ sig (Elt F) := fun c => StableHlo.after hostOps1 (bnd2 m c)
/-- A buffer the stretch does not write keeps its contents. -/
theorem bnd3_keep (c : Dev nD) (r : Ref sig .tc) (h : r ∉ hostOps1_W) : bnd3 m c r = bnd2 m c r :=
  StableHlo.after_of_writes_sub hostOps1 _ hostOps1_writes h
/-- The same, read at the TensorCore's references. -/
abbrev ent3 : (c : Dev nD) → (b : Ref sig .tc) → Buf (Elt F) ((c : Thread nD τ).loc b) := fun c b => bnd3 m c b

/-- After region 1: its windows' arrays at what the write-backs leave, every other buffer as the region was entered. -/
def bnd4 (c : Dev nD) : Valuation τ sig (Elt F) :=
  Pipeline.withArrays spec1 c (bnd3 m c) fun w => (dat1 (ent3 m) c).arrAt w cfg1.N
theorem bnd4_arr (c : Dev nD) (w : Fin cfg1.W) :
    bnd4 m c (Proc.devRef .tc (Pipeline.arrRef spec1 w)) = (dat1 (ent3 m) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m c (Proc.devRef .tc b) = bnd3 m c (Proc.devRef .tc b) := by
  unfold bnd4; exact Pipeline.withArrays_of_ne spec1 c _ _ b hb
/-- Every window of region 1 whose array is not the result main_v8 is an input. -/
theorem inputs1 : ∀ w : Fin cfg1.W, Pipeline.arrRef spec1 w ≠ main_v8 → (cfg1.win w).isOut = false := by decide
/-- Region 1 changes no buffer but its result array: an input window's array is never written back, and a buffer
    that is no window's array is not touched. -/
theorem bnd4_keep (c : Dev nD) (b : Ref sig .tc) (hb : b ≠ main_v8) :
    bnd4 m c (Proc.devRef .tc b) = bnd3 m c (Proc.devRef .tc b) := by
  by_cases h : ∃ w, Pipeline.arrRef spec1 w = b
  · obtain ⟨w, rfl⟩ := h
    exact (bnd4_arr m c w).trans (((dat1 (ent3 m) c).arrAt_in w (inputs1 w hb) _).trans (A_eq1 (ent3 m) c w))
  · exact bnd4_of_ne m c b fun w e => h ⟨w, e⟩
/-- The same, read at the TensorCore's references. -/
abbrev ent4 : (c : Dev nD) → (b : Ref sig .tc) → Buf (Elt F) ((c : Thread nD τ).loc b) := fun c b => bnd4 m c b
theorem hF1 (c : Dev nD) (w : Fin cfg1.W) : (dat1 (ent3 m) c).arrAt w cfg1.N = ent4 m c (Pipeline.arrRef spec1 w) :=
  (bnd4_arr m c w).symm
theorem hrest1 (c : Dev nD) : ∀ b, b ∉ Finset.univ.image (Pipeline.arrRef spec1) → ent4 m c b = ent3 m c b :=
  fun b hb => bnd4_of_ne m c b fun w e => hb (Finset.mem_image.mpr ⟨w, Finset.mem_univ _, e⟩)

/-- After the host stretch hostOps2: its operations applied. -/
abbrev bnd5 : Dev nD → Valuation τ sig (Elt F) := fun c => StableHlo.after hostOps2 (bnd4 m c)
/-- A buffer the stretch does not write keeps its contents. -/
theorem bnd5_keep (c : Dev nD) (r : Ref sig .tc) (h : r ∉ hostOps2_W) : bnd5 m c r = bnd4 m c r :=
  StableHlo.after_of_writes_sub hostOps2 _ hostOps2_writes h
/-- The same, read at the TensorCore's references. -/
abbrev ent5 : (c : Dev nD) → (b : Ref sig .tc) → Buf (Elt F) ((c : Thread nD τ).loc b) := fun c b => bnd5 m c b

/-- After region 2: its windows' arrays at what the write-backs leave, every other buffer as the region was entered. -/
def bnd6 (c : Dev nD) : Valuation τ sig (Elt F) :=
  Pipeline.withArrays spec2 c (bnd5 m c) fun w => (dat2 (ent5 m) c).arrAt w cfg2.N
theorem bnd6_arr (c : Dev nD) (w : Fin cfg2.W) :
    bnd6 m c (Proc.devRef .tc (Pipeline.arrRef spec2 w)) = (dat2 (ent5 m) c).arrAt w cfg2.N := by
  unfold bnd6; exact Pipeline.withArrays_arr spec2 launch2.win.arr_inj c _ _ w
theorem bnd6_of_ne (c : Dev nD) (b : Ref sig .tc) (hb : ∀ w, Pipeline.arrRef spec2 w ≠ b) :
    bnd6 m c (Proc.devRef .tc b) = bnd5 m c (Proc.devRef .tc b) := by
  unfold bnd6; exact Pipeline.withArrays_of_ne spec2 c _ _ b hb
/-- Every window of region 2 whose array is not the result main_v10 is an input. -/
theorem inputs2 : ∀ w : Fin cfg2.W, Pipeline.arrRef spec2 w ≠ main_v10 → (cfg2.win w).isOut = false := by decide
/-- Region 2 changes no buffer but its result array: an input window's array is never written back, and a buffer
    that is no window's array is not touched. -/
theorem bnd6_keep (c : Dev nD) (b : Ref sig .tc) (hb : b ≠ main_v10) :
    bnd6 m c (Proc.devRef .tc b) = bnd5 m c (Proc.devRef .tc b) := by
  by_cases h : ∃ w, Pipeline.arrRef spec2 w = b
  · obtain ⟨w, rfl⟩ := h
    exact (bnd6_arr m c w).trans (((dat2 (ent5 m) c).arrAt_in w (inputs2 w hb) _).trans (A_eq2 (ent5 m) c w))
  · exact bnd6_of_ne m c b fun w e => h ⟨w, e⟩
/-- The same, read at the TensorCore's references. -/
abbrev ent6 : (c : Dev nD) → (b : Ref sig .tc) → Buf (Elt F) ((c : Thread nD τ).loc b) := fun c b => bnd6 m c b
theorem hF2 (c : Dev nD) (w : Fin cfg2.W) : (dat2 (ent5 m) c).arrAt w cfg2.N = ent6 m c (Pipeline.arrRef spec2 w) :=
  (bnd6_arr m c w).symm
theorem hrest2 (c : Dev nD) : ∀ b, b ∉ Finset.univ.image (Pipeline.arrRef spec2) → ent6 m c b = ent5 m c b :=
  fun b hb => bnd6_of_ne m c b fun w e => hb (Finset.mem_image.mpr ⟨w, Finset.mem_univ _, e⟩)

/-- After the host stretch hostOps3: its operations applied. -/
abbrev bnd7 : Dev nD → Valuation τ sig (Elt F) := fun c => StableHlo.after hostOps3 (bnd6 m c)
/-- A buffer the stretch does not write keeps its contents. -/
theorem bnd7_keep (c : Dev nD) (r : Ref sig .tc) (h : r ∉ hostOps3_W) : bnd7 m c r = bnd6 m c r :=
  StableHlo.after_of_writes_sub hostOps3 _ hostOps3_writes h
/-- The same, read at the TensorCore's references. -/
abbrev ent7 : (c : Dev nD) → (b : Ref sig .tc) → Buf (Elt F) ((c : Thread nD τ).loc b) := fun c b => bnd7 m c b

/-- After region 3: its windows' arrays at what the write-backs leave, every other buffer as the region was entered. -/
def bnd8 (c : Dev nD) : Valuation τ sig (Elt F) :=
  Pipeline.withArrays spec3 c (bnd7 m c) fun w => (dat3 (ent7 m) c).arrAt w cfg3.N
theorem bnd8_arr (c : Dev nD) (w : Fin cfg3.W) :
    bnd8 m c (Proc.devRef .tc (Pipeline.arrRef spec3 w)) = (dat3 (ent7 m) c).arrAt w cfg3.N := by
  unfold bnd8; exact Pipeline.withArrays_arr spec3 launch3.win.arr_inj c _ _ w
theorem bnd8_of_ne (c : Dev nD) (b : Ref sig .tc) (hb : ∀ w, Pipeline.arrRef spec3 w ≠ b) :
    bnd8 m c (Proc.devRef .tc b) = bnd7 m c (Proc.devRef .tc b) := by
  unfold bnd8; exact Pipeline.withArrays_of_ne spec3 c _ _ b hb
/-- Every window of region 3 whose array is not the result main_v12 is an input. -/
theorem inputs3 : ∀ w : Fin cfg3.W, Pipeline.arrRef spec3 w ≠ main_v12 → (cfg3.win w).isOut = false := by decide
/-- Region 3 changes no buffer but its result array: an input window's array is never written back, and a buffer
    that is no window's array is not touched. -/
theorem bnd8_keep (c : Dev nD) (b : Ref sig .tc) (hb : b ≠ main_v12) :
    bnd8 m c (Proc.devRef .tc b) = bnd7 m c (Proc.devRef .tc b) := by
  by_cases h : ∃ w, Pipeline.arrRef spec3 w = b
  · obtain ⟨w, rfl⟩ := h
    exact (bnd8_arr m c w).trans (((dat3 (ent7 m) c).arrAt_in w (inputs3 w hb) _).trans (A_eq3 (ent7 m) c w))
  · exact bnd8_of_ne m c b fun w e => h ⟨w, e⟩
/-- The same, read at the TensorCore's references. -/
abbrev ent8 : (c : Dev nD) → (b : Ref sig .tc) → Buf (Elt F) ((c : Thread nD τ).loc b) := fun c b => bnd8 m c b
theorem hF3 (c : Dev nD) (w : Fin cfg3.W) : (dat3 (ent7 m) c).arrAt w cfg3.N = ent8 m c (Pipeline.arrRef spec3 w) :=
  (bnd8_arr m c w).symm
theorem hrest3 (c : Dev nD) : ∀ b, b ∉ Finset.univ.image (Pipeline.arrRef spec3) → ent8 m c b = ent7 m c b :=
  fun b hb => bnd8_of_ne m c b fun w e => hb (Finset.mem_image.mpr ⟨w, Finset.mem_univ _, e⟩)

/-- After region 4: its windows' arrays at what the write-backs leave, every other buffer as the region was entered. -/
def bnd9 (c : Dev nD) : Valuation τ sig (Elt F) :=
  Pipeline.withArrays spec4 c (bnd8 m c) fun w => (dat4 (ent8 m) c).arrAt w cfg4.N
theorem bnd9_arr (c : Dev nD) (w : Fin cfg4.W) :
    bnd9 m c (Proc.devRef .tc (Pipeline.arrRef spec4 w)) = (dat4 (ent8 m) c).arrAt w cfg4.N := by
  unfold bnd9; exact Pipeline.withArrays_arr spec4 launch4.win.arr_inj c _ _ w
theorem bnd9_of_ne (c : Dev nD) (b : Ref sig .tc) (hb : ∀ w, Pipeline.arrRef spec4 w ≠ b) :
    bnd9 m c (Proc.devRef .tc b) = bnd8 m c (Proc.devRef .tc b) := by
  unfold bnd9; exact Pipeline.withArrays_of_ne spec4 c _ _ b hb
/-- Every window of region 4 whose array is not the result main_v13 is an input. -/
theorem inputs4 : ∀ w : Fin cfg4.W, Pipeline.arrRef spec4 w ≠ main_v13 → (cfg4.win w).isOut = false := by decide
/-- Region 4 changes no buffer but its result array: an input window's array is never written back, and a buffer
    that is no window's array is not touched. -/
theorem bnd9_keep (c : Dev nD) (b : Ref sig .tc) (hb : b ≠ main_v13) :
    bnd9 m c (Proc.devRef .tc b) = bnd8 m c (Proc.devRef .tc b) := by
  by_cases h : ∃ w, Pipeline.arrRef spec4 w = b
  · obtain ⟨w, rfl⟩ := h
    exact (bnd9_arr m c w).trans (((dat4 (ent8 m) c).arrAt_in w (inputs4 w hb) _).trans (A_eq4 (ent8 m) c w))
  · exact bnd9_of_ne m c b fun w e => h ⟨w, e⟩
/-- The same, read at the TensorCore's references. -/
abbrev ent9 : (c : Dev nD) → (b : Ref sig .tc) → Buf (Elt F) ((c : Thread nD τ).loc b) := fun c b => bnd9 m c b
theorem hF4 (c : Dev nD) (w : Fin cfg4.W) : (dat4 (ent8 m) c).arrAt w cfg4.N = ent9 m c (Pipeline.arrRef spec4 w) :=
  (bnd9_arr m c w).symm
theorem hrest4 (c : Dev nD) : ∀ b, b ∉ Finset.univ.image (Pipeline.arrRef spec4) → ent9 m c b = ent8 m c b :=
  fun b hb => bnd9_of_ne m c b fun w e => hb (Finset.mem_image.mpr ⟨w, Finset.mem_univ _, e⟩)

/-- After the host stretch hostOps5: its operations applied. -/
abbrev bnd10 : Dev nD → Valuation τ sig (Elt F) := fun c => StableHlo.after hostOps5 (bnd9 m c)
/-- A buffer the stretch does not write keeps its contents. -/
theorem bnd10_keep (c : Dev nD) (r : Ref sig .tc) (h : r ∉ hostOps5_W) : bnd10 m c r = bnd9 m c r :=
  StableHlo.after_of_writes_sub hostOps5 _ hostOps5_writes h
/-- The same, read at the TensorCore's references. -/
abbrev ent10 : (c : Dev nD) → (b : Ref sig .tc) → Buf (Elt F) ((c : Thread nD τ).loc b) := fun c b => bnd10 m c b

/-- After region 5: its windows' arrays at what the write-backs leave, every other buffer as the region was entered. -/
def bnd11 (c : Dev nD) : Valuation τ sig (Elt F) :=
  Pipeline.withArrays spec5 c (bnd10 m c) fun w => (dat5 (ent10 m) c).arrAt w cfg5.N
theorem bnd11_arr (c : Dev nD) (w : Fin cfg5.W) :
    bnd11 m c (Proc.devRef .tc (Pipeline.arrRef spec5 w)) = (dat5 (ent10 m) c).arrAt w cfg5.N := by
  unfold bnd11; exact Pipeline.withArrays_arr spec5 launch5.win.arr_inj c _ _ w
theorem bnd11_of_ne (c : Dev nD) (b : Ref sig .tc) (hb : ∀ w, Pipeline.arrRef spec5 w ≠ b) :
    bnd11 m c (Proc.devRef .tc b) = bnd10 m c (Proc.devRef .tc b) := by
  unfold bnd11; exact Pipeline.withArrays_of_ne spec5 c _ _ b hb
/-- Every window of region 5 whose array is not the result main_v17 is an input. -/
theorem inputs5 : ∀ w : Fin cfg5.W, Pipeline.arrRef spec5 w ≠ main_v17 → (cfg5.win w).isOut = false := by decide
/-- Region 5 changes no buffer but its result array: an input window's array is never written back, and a buffer
    that is no window's array is not touched. -/
theorem bnd11_keep (c : Dev nD) (b : Ref sig .tc) (hb : b ≠ main_v17) :
    bnd11 m c (Proc.devRef .tc b) = bnd10 m c (Proc.devRef .tc b) := by
  by_cases h : ∃ w, Pipeline.arrRef spec5 w = b
  · obtain ⟨w, rfl⟩ := h
    exact (bnd11_arr m c w).trans (((dat5 (ent10 m) c).arrAt_in w (inputs5 w hb) _).trans (A_eq5 (ent10 m) c w))
  · exact bnd11_of_ne m c b fun w e => h ⟨w, e⟩
/-- The same, read at the TensorCore's references. -/
abbrev ent11 : (c : Dev nD) → (b : Ref sig .tc) → Buf (Elt F) ((c : Thread nD τ).loc b) := fun c b => bnd11 m c b
theorem hF5 (c : Dev nD) (w : Fin cfg5.W) : (dat5 (ent10 m) c).arrAt w cfg5.N = ent11 m c (Pipeline.arrRef spec5 w) :=
  (bnd11_arr m c w).symm
theorem hrest5 (c : Dev nD) : ∀ b, b ∉ Finset.univ.image (Pipeline.arrRef spec5) → ent11 m c b = ent10 m c b :=
  fun b hb => bnd11_of_ne m c b fun w e => hb (Finset.mem_image.mpr ⟨w, Finset.mem_univ _, e⟩)

/-- After region 6: its windows' arrays at what the write-backs leave, every other buffer as the region was entered. -/
def bnd12 (c : Dev nD) : Valuation τ sig (Elt F) :=
  Pipeline.withArrays spec6 c (bnd11 m c) fun w => (dat6 (ent11 m) c).arrAt w cfg6.N
theorem bnd12_arr (c : Dev nD) (w : Fin cfg6.W) :
    bnd12 m c (Proc.devRef .tc (Pipeline.arrRef spec6 w)) = (dat6 (ent11 m) c).arrAt w cfg6.N := by
  unfold bnd12; exact Pipeline.withArrays_arr spec6 launch6.win.arr_inj c _ _ w
theorem bnd12_of_ne (c : Dev nD) (b : Ref sig .tc) (hb : ∀ w, Pipeline.arrRef spec6 w ≠ b) :
    bnd12 m c (Proc.devRef .tc b) = bnd11 m c (Proc.devRef .tc b) := by
  unfold bnd12; exact Pipeline.withArrays_of_ne spec6 c _ _ b hb
/-- Every window of region 6 whose array is not the result main_v18 is an input. -/
theorem inputs6 : ∀ w : Fin cfg6.W, Pipeline.arrRef spec6 w ≠ main_v18 → (cfg6.win w).isOut = false := by decide
/-- Region 6 changes no buffer but its result array: an input window's array is never written back, and a buffer
    that is no window's array is not touched. -/
theorem bnd12_keep (c : Dev nD) (b : Ref sig .tc) (hb : b ≠ main_v18) :
    bnd12 m c (Proc.devRef .tc b) = bnd11 m c (Proc.devRef .tc b) := by
  by_cases h : ∃ w, Pipeline.arrRef spec6 w = b
  · obtain ⟨w, rfl⟩ := h
    exact (bnd12_arr m c w).trans (((dat6 (ent11 m) c).arrAt_in w (inputs6 w hb) _).trans (A_eq6 (ent11 m) c w))
  · exact bnd12_of_ne m c b fun w e => h ⟨w, e⟩
/-- The same, read at the TensorCore's references. -/
abbrev ent12 : (c : Dev nD) → (b : Ref sig .tc) → Buf (Elt F) ((c : Thread nD τ).loc b) := fun c b => bnd12 m c b
theorem hF6 (c : Dev nD) (w : Fin cfg6.W) : (dat6 (ent11 m) c).arrAt w cfg6.N = ent12 m c (Pipeline.arrRef spec6 w) :=
  (bnd12_arr m c w).symm
theorem hrest6 (c : Dev nD) : ∀ b, b ∉ Finset.univ.image (Pipeline.arrRef spec6) → ent12 m c b = ent11 m c b :=
  fun b hb => bnd12_of_ne m c b fun w e => hb (Finset.mem_image.mpr ⟨w, Finset.mem_univ _, e⟩)

/-! ## The seven pipelines' proof data, and what rides beside the buffers -/

/-- No pipeline has a prefetched table. -/
abbrev admH : (p : Fin 7) → (pcfgs (F := F) p).Adm := fun p => (cfgs p).toPCfg_adm
/-- Each pipeline's proof data, at the contents its region is entered with. -/
def pdats : (p : Fin 7) → (c : Dev nD) → Dat τ (Elt F) Unit ℕ (UR sig nD τ) ℕ (Pipeline.pin (pcfgs (F := F)) admH p) c
  | ⟨0, _⟩ => fun c => dat0 (ent1 m) c
  | ⟨1, _⟩ => fun c => dat1 (ent3 m) c
  | ⟨2, _⟩ => fun c => dat2 (ent5 m) c
  | ⟨3, _⟩ => fun c => dat3 (ent7 m) c
  | ⟨4, _⟩ => fun c => dat4 (ent8 m) c
  | ⟨5, _⟩ => fun c => dat5 (ent10 m) c
  | ⟨6, _⟩ => fun c => dat6 (ent11 m) c
abbrev vnone : Variants := Variants.none
/-- No core owes another anything: no pair has a level. -/
abbrev Lz : GSem nD τ sig → Finset Unit := fun _ => ∅
abbrev lvz : GSem nD τ sig → Unit → ℕ := fun _ _ => 0
/-- Beside the buffers, through every item: the core's generator register at some state, and the core owing nothing. -/
abbrev Rd (c : Dev nD) : sProp 𝕄 := iprop((∃ r, prngReg c r) ∗ ∃ W, owes (c : Thread nD τ) (0 : CellTallies nD τ sig Unit) W)
/-- A stretch of host operations as an item: from every unscoped buffer at the contents W to the operations applied to them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vnone Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every unscoped buffer at the last boundary's contents, the generator register. -/
abbrev Tend (c : Dev nD) : sProp 𝕄 := iprop(StableHlo.held (c : Thread nD τ) (Pipeline.ucRefs τ sig) (bnd12 m c) ∗ ∃ r, prngReg c r)

/-! ## The regions as items -/

set_option backward.isDefEq.respectTransparency.types false in
/-- Region 0 as an item: entered from every unscoped buffer at bnd1, left at bnd2. Its windows' arrays are split out of
    the unscoped buffers at entry and put back at their final contents at exit; the generator register goes into the
    region's invariant and comes back; nothing is owed; the kernel has no semaphore of its own. -/
def reg0 : Pipeline.RegionSeg (pcfgs (F := F)) admH (pdats m) () defs₀ vnone Lz lvz 0 where
  win := launch0.win.to₀
  block_pos := launch0.block_pos
  stage_whole := launch0.stage_whole
  K := PEmpty
  osem k := k.elim
  ho := Pipeline.OwnSemFacts.none _
  hbody c := (body_obligation0 (ent1 m) c).loose
  hwaits := Pipeline.hwaits_of_owed_zero _ _ _ _ Lz lvz 0 fun _ _ => rfl
  pre c := iprop(StableHlo.held (c : Thread nD τ) (Pipeline.ucRefs τ sig) (bnd1 m c) ∗ Rd c)
  post c := iprop(StableHlo.held (c : Thread nD τ) (Pipeline.ucRefs τ sig) (bnd2 m c) ∗ Rd c)
  X c := iprop(∃ r, prngReg c r)
  Y c := iprop(∃ r, prngReg c r)
  Z c := Pipeline.unscopedRest (Ix := Unit) (Name := ℕ) (U := UR sig nD τ) (Lvl := ℕ) spec0 c (ent1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (ent1 m) c)
    unfold Pipeline.ΦA
    iintro ⟨Hp, -, Hr⟩
    isplitl [Hr]; · iexact Hr
    iexact Hp
  hout c := by
    rw [Pipeline.ownSems0_none]
    refine (hout0 (ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (ent1 m c) (ent2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as an item: entered from every unscoped buffer at bnd3, left at bnd4. Its windows' arrays are split out of
    the unscoped buffers at entry and put back at their final contents at exit; the generator register goes into the
    region's invariant and comes back; nothing is owed; the kernel has no semaphore of its own. -/
def reg1 : Pipeline.RegionSeg (pcfgs (F := F)) admH (pdats m) () defs₀ vnone Lz lvz 1 where
  win := launch1.win.to₀
  block_pos := launch1.block_pos
  stage_whole := launch1.stage_whole
  K := PEmpty
  osem k := k.elim
  ho := Pipeline.OwnSemFacts.none _
  hbody c := (body_obligation1 (ent3 m) c).loose
  hwaits := Pipeline.hwaits_of_owed_zero _ _ _ _ Lz lvz 1 fun _ _ => rfl
  pre c := iprop(StableHlo.held (c : Thread nD τ) (Pipeline.ucRefs τ sig) (bnd3 m c) ∗ Rd c)
  post c := iprop(StableHlo.held (c : Thread nD τ) (Pipeline.ucRefs τ sig) (bnd4 m c) ∗ Rd c)
  X c := iprop(∃ r, prngReg c r)
  Y c := iprop(∃ r, prngReg c r)
  Z c := Pipeline.unscopedRest (Ix := Unit) (Name := ℕ) (U := UR sig nD τ) (Lvl := ℕ) spec1 c (ent3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (ent3 m) c)
    unfold Pipeline.ΦA
    iintro ⟨Hp, -, Hr⟩
    isplitl [Hr]; · iexact Hr
    iexact Hp
  hout c := by
    rw [Pipeline.ownSems0_none]
    refine (hout1 (ent3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (ent3 m c) (ent4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as an item: entered from every unscoped buffer at bnd5, left at bnd6. Its windows' arrays are split out of
    the unscoped buffers at entry and put back at their final contents at exit; the generator register goes into the
    region's invariant and comes back; nothing is owed; the kernel has no semaphore of its own. -/
def reg2 : Pipeline.RegionSeg (pcfgs (F := F)) admH (pdats m) () defs₀ vnone Lz lvz 2 where
  win := launch2.win.to₀
  block_pos := launch2.block_pos
  stage_whole := launch2.stage_whole
  K := PEmpty
  osem k := k.elim
  ho := Pipeline.OwnSemFacts.none _
  hbody c := (body_obligation2 (ent5 m) c).loose
  hwaits := Pipeline.hwaits_of_owed_zero _ _ _ _ Lz lvz 2 fun _ _ => rfl
  pre c := iprop(StableHlo.held (c : Thread nD τ) (Pipeline.ucRefs τ sig) (bnd5 m c) ∗ Rd c)
  post c := iprop(StableHlo.held (c : Thread nD τ) (Pipeline.ucRefs τ sig) (bnd6 m c) ∗ Rd c)
  X c := iprop(∃ r, prngReg c r)
  Y c := iprop(∃ r, prngReg c r)
  Z c := Pipeline.unscopedRest (Ix := Unit) (Name := ℕ) (U := UR sig nD τ) (Lvl := ℕ) spec2 c (ent5 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (hin2 (ent5 m) c)
    unfold Pipeline.ΦA
    iintro ⟨Hp, -, Hr⟩
    isplitl [Hr]; · iexact Hr
    iexact Hp
  hout c := by
    rw [Pipeline.ownSems0_none]
    refine (hout2 (ent5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (ent5 m c) (ent6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as an item: entered from every unscoped buffer at bnd7, left at bnd8. Its windows' arrays are split out of
    the unscoped buffers at entry and put back at their final contents at exit; the generator register goes into the
    region's invariant and comes back; nothing is owed; the kernel has no semaphore of its own. -/
def reg3 : Pipeline.RegionSeg (pcfgs (F := F)) admH (pdats m) () defs₀ vnone Lz lvz 3 where
  win := launch3.win.to₀
  block_pos := launch3.block_pos
  stage_whole := launch3.stage_whole
  K := PEmpty
  osem k := k.elim
  ho := Pipeline.OwnSemFacts.none _
  hbody c := (body_obligation3 (ent7 m) c).loose
  hwaits := Pipeline.hwaits_of_owed_zero _ _ _ _ Lz lvz 3 fun _ _ => rfl
  pre c := iprop(StableHlo.held (c : Thread nD τ) (Pipeline.ucRefs τ sig) (bnd7 m c) ∗ Rd c)
  post c := iprop(StableHlo.held (c : Thread nD τ) (Pipeline.ucRefs τ sig) (bnd8 m c) ∗ Rd c)
  X c := iprop(∃ r, prngReg c r)
  Y c := iprop(∃ r, prngReg c r)
  Z c := Pipeline.unscopedRest (Ix := Unit) (Name := ℕ) (U := UR sig nD τ) (Lvl := ℕ) spec3 c (ent7 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (ent7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from ?_).trans (hin3 (ent7 m) c)
    unfold Pipeline.ΦA
    iintro ⟨Hp, -, Hr⟩
    isplitl [Hr]; · iexact Hr
    iexact Hp
  hout c := by
    rw [Pipeline.ownSems0_none]
    refine (hout3 (ent7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (ent7 m c) (ent8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as an item: entered from every unscoped buffer at bnd8, left at bnd9. Its windows' arrays are split out of
    the unscoped buffers at entry and put back at their final contents at exit; the generator register goes into the
    region's invariant and comes back; nothing is owed; the kernel has no semaphore of its own. -/
def reg4 : Pipeline.RegionSeg (pcfgs (F := F)) admH (pdats m) () defs₀ vnone Lz lvz 4 where
  win := launch4.win.to₀
  block_pos := launch4.block_pos
  stage_whole := launch4.stage_whole
  K := PEmpty
  osem k := k.elim
  ho := Pipeline.OwnSemFacts.none _
  hbody c := (body_obligation4 (ent8 m) c).loose
  hwaits := Pipeline.hwaits_of_owed_zero _ _ _ _ Lz lvz 4 fun _ _ => rfl
  pre c := iprop(StableHlo.held (c : Thread nD τ) (Pipeline.ucRefs τ sig) (bnd8 m c) ∗ Rd c)
  post c := iprop(StableHlo.held (c : Thread nD τ) (Pipeline.ucRefs τ sig) (bnd9 m c) ∗ Rd c)
  X c := iprop(∃ r, prngReg c r)
  Y c := iprop(∃ r, prngReg c r)
  Z c := Pipeline.unscopedRest (Ix := Unit) (Name := ℕ) (U := UR sig nD τ) (Lvl := ℕ) spec4 c (ent8 m c)
  hentry c := by
    rw [Pipeline.ownSems0_none]
    have hsplit := Pipeline.arrays_of_unscopedBufs (p := 4) (pcfgs (F := F)) admH (pdats m) launch4.win launch4.arr_whole c
      ((pdats m 4 c).share_full fun _ => rfl) (ent8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec4 c from ?_).trans (hin4 (ent8 m) c)
    unfold Pipeline.ΦA
    iintro ⟨Hp, -, Hr⟩
    isplitl [Hr]; · iexact Hr
    iexact Hp
  hout c := by
    rw [Pipeline.ownSems0_none]
    refine (hout4 (ent8 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m) ((pdats m 4 c).share_full fun _ => rfl)
      (ent8 m c) (ent9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as an item: entered from every unscoped buffer at bnd10, left at bnd11. Its windows' arrays are split out of
    the unscoped buffers at entry and put back at their final contents at exit; the generator register goes into the
    region's invariant and comes back; nothing is owed; the kernel has no semaphore of its own. -/
def reg5 : Pipeline.RegionSeg (pcfgs (F := F)) admH (pdats m) () defs₀ vnone Lz lvz 5 where
  win := launch5.win.to₀
  block_pos := launch5.block_pos
  stage_whole := launch5.stage_whole
  K := PEmpty
  osem k := k.elim
  ho := Pipeline.OwnSemFacts.none _
  hbody c := (body_obligation5 (ent10 m) c).loose
  hwaits := Pipeline.hwaits_of_owed_zero _ _ _ _ Lz lvz 5 fun _ _ => rfl
  pre c := iprop(StableHlo.held (c : Thread nD τ) (Pipeline.ucRefs τ sig) (bnd10 m c) ∗ Rd c)
  post c := iprop(StableHlo.held (c : Thread nD τ) (Pipeline.ucRefs τ sig) (bnd11 m c) ∗ Rd c)
  X c := iprop(∃ r, prngReg c r)
  Y c := iprop(∃ r, prngReg c r)
  Z c := Pipeline.unscopedRest (Ix := Unit) (Name := ℕ) (U := UR sig nD τ) (Lvl := ℕ) spec5 c (ent10 m c)
  hentry c := by
    rw [Pipeline.ownSems0_none]
    have hsplit := Pipeline.arrays_of_unscopedBufs (p := 5) (pcfgs (F := F)) admH (pdats m) launch5.win launch5.arr_whole c
      ((pdats m 5 c).share_full fun _ => rfl) (ent10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec5 c from ?_).trans (hin5 (ent10 m) c)
    unfold Pipeline.ΦA
    iintro ⟨Hp, -, Hr⟩
    isplitl [Hr]; · iexact Hr
    iexact Hp
  hout c := by
    rw [Pipeline.ownSems0_none]
    refine (hout5 (ent10 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m) ((pdats m 5 c).share_full fun _ => rfl)
      (ent10 m c) (ent11 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as an item: entered from every unscoped buffer at bnd11, left at bnd12. Its windows' arrays are split out of
    the unscoped buffers at entry and put back at their final contents at exit; the generator register goes into the
    region's invariant and comes back; nothing is owed; the kernel has no semaphore of its own. -/
def reg6 : Pipeline.RegionSeg (pcfgs (F := F)) admH (pdats m) () defs₀ vnone Lz lvz 6 where
  win := launch6.win.to₀
  block_pos := launch6.block_pos
  stage_whole := launch6.stage_whole
  K := PEmpty
  osem k := k.elim
  ho := Pipeline.OwnSemFacts.none _
  hbody c := (body_obligation6 (ent11 m) c).loose
  hwaits := Pipeline.hwaits_of_owed_zero _ _ _ _ Lz lvz 6 fun _ _ => rfl
  pre c := iprop(StableHlo.held (c : Thread nD τ) (Pipeline.ucRefs τ sig) (bnd11 m c) ∗ Rd c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (ent11 m c)
  hentry c := by
    rw [Pipeline.ownSems0_none]
    have hsplit := Pipeline.arrays_of_unscopedBufs (p := 6) (pcfgs (F := F)) admH (pdats m) launch6.win launch6.arr_whole c
      ((pdats m 6 c).share_full fun _ => rfl) (ent11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec6 c from ?_).trans (hin6 (ent11 m) c)
    unfold Pipeline.ΦA
    iintro ⟨Hp, -, Hr⟩
    isplitl [Hr]; · iexact Hr
    iexact Hp
  hout c := by
    rw [Pipeline.ownSems0_none]
    refine (hout6 (ent11 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdats m) ((pdats m 6 c).share_full fun _ => rfl)
      (ent11 m c) (ent12 m c) ((pdats m 6 c).arrAt · cfg6.N) (hF6 m c) (hrest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

/-- @main's twelve items in order. -/
abbrev segs : List (Pipeline.Seg (pcfgs (F := F)) admH (pdats m) () defs₀ vnone Lz lvz) :=
  [ .host (hseg hostOps0 hostOps0_sub hostOps0_fresh (bnd0 m)),
    .region (reg0 m),
    .host (hseg hostOps1 hostOps1_sub hostOps1_fresh (bnd2 m)),
    .region (reg1 m),
    .host (hseg hostOps2 hostOps2_sub hostOps2_fresh (bnd4 m)),
    .region (reg2 m),
    .host (hseg hostOps3 hostOps3_sub hostOps3_fresh (bnd6 m)),
    .region (reg3 m),
    .region (reg4 m),
    .host (hseg hostOps5 hostOps5_sub hostOps5_fresh (bnd9 m)),
    .region (reg5 m),
    .region (reg6 m) ]
/-- @main is the run of those items. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    in every final state each unscoped buffer of each core holds the last boundary's contents. -/
theorem run_bufs (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = bnd12 m c b) :=
  Pipeline.θ_run_regions_kit (pcfgs (F := F)) admH (pdats m) () cellOf_inj emb₁ defs₀ vnone Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ Rd c)) (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd12 m c b)
    (hfin := fun c s' => by
      iintro ⟨⟨Hh, -⟩, HSI⟩
      unfold StableHlo.held
      imodintro
      iapply (pointsTo_read_all (Pipeline.ucRefs τ sig) (fun b => (((c : Thread nD τ)).1, b)) (bnd12 m c) s')
      isplitl [Hh] <;> iassumption)
    (hQ := fun _ h => h)

/-! ## What the last boundary holds -/

/-- A buffer that no host stretch writes and that is no region's result ends as launched. -/
theorem bnd12_launch (c : Dev nD) (b : Ref sig .tc) (h0 : b ∉ hostOps0_W) (h1 : b ≠ main_v6) (h2 : b ∉ hostOps1_W) (h3 : b ≠ main_v8)
    (h4 : b ∉ hostOps2_W) (h5 : b ≠ main_v10) (h6 : b ∉ hostOps3_W) (h7 : b ≠ main_v12) (h8 : b ≠ main_v13) (h9 : b ∉ hostOps5_W)
    (h10 : b ≠ main_v17) (h11 : b ≠ main_v18) :
    bnd12 m c (Proc.devRef .tc b) = m ((c : Thread nD τ).loc b) :=
  (bnd12_keep m c b h11).trans <| (bnd11_keep m c b h10).trans <| (bnd10_keep m c b h9).trans <| (bnd9_keep m c b h8).trans <|
  (bnd8_keep m c b h7).trans <| (bnd7_keep m c b h6).trans <| (bnd6_keep m c b h5).trans <| (bnd5_keep m c b h4).trans <|
  (bnd4_keep m c b h3).trans <| (bnd3_keep m c b h2).trans <| (bnd2_keep m c b h1).trans <| (bnd1_keep m c b h0).trans rfl

/-- The first result's array ends at what region 5's write-backs leave in it: region 6 does not touch it. -/
theorem bnd12_out (c : Dev nD) : bnd12 m c (Proc.devRef .tc main_v17) = (dat5 (ent10 m) c).arrAt 5 cfg5.N :=
  (bnd12_keep m c main_v17 (by decide)).trans (bnd11_arr m c 5)
/-- The second result's array ends at what region 6's write-backs leave in it. -/
theorem bnd12_corr (c : Dev nD) : bnd12 m c (Proc.devRef .tc main_v18) = (dat6 (ent11 m) c).arrAt 2 cfg6.N :=
  bnd12_arr m c 2

/-- THE FRAME, with the results named: every execution terminates without a fault, the two results end at the last
    write-backs of regions 5 and 6, and every argument array ends as launched. -/
theorem run_main (ρ : Dev nD → PrngReg) :
    θ_run defs (onTc (τ := τ) (main (F := F))) ⟨m, fun _ => 0, ρ⟩ (fun r => ∀ c : Dev nD,
      r.2.mem ((c.tc : Thread nD τ).loc main_v17) = (dat5 (ent10 m) c).arrAt 5 cfg5.N
      ∧ r.2.mem ((c.tc : Thread nD τ).loc main_v18) = (dat6 (ent11 m) c).arrAt 2 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v17 (by decide))).trans (bnd12_out m c),
     (h c _ (mem_uc main_v18 (by decide))).trans (bnd12_corr m c),
     (h c _ (mem_uc main_arg0 (by decide))).trans (bnd12_launch m c main_arg0 (by decide) (by decide) (by decide) (by decide) (by decide) (by decide) (by decide) (by decide) (by decide) (by decide) (by decide) (by decide)),
     (h c _ (mem_uc main_arg1 (by decide))).trans (bnd12_launch m c main_arg1 (by decide) (by decide) (by decide) (by decide) (by decide) (by decide) (by decide) (by decide) (by decide) (by decide) (by decide) (by decide)),
     (h c _ (mem_uc main_arg2 (by decide))).trans (bnd12_launch m c main_arg2 (by decide) (by decide) (by decide) (by decide) (by decide) (by decide) (by decide) (by decide) (by decide) (by decide) (by decide) (by decide)),
     (h c _ (mem_uc main_arg3 (by decide))).trans (bnd12_launch m c main_arg3 (by decide) (by decide) (by decide) (by decide) (by decide) (by decide) (by decide) (by decide) (by decide) (by decide) (by decide) (by decide)),
     (h c _ (mem_uc main_arg4 (by decide))).trans (bnd12_launch m c main_arg4 (by decide) (by decide) (by decide) (by decide) (by decide) (by decide) (by decide) (by decide) (by decide) (by decide) (by decide) (by decide)),
     (h c _ (mem_uc main_arg5 (by decide))).trans (bnd12_launch m c main_arg5 (by decide) (by decide) (by decide) (by decide) (by decide) (by decide) (by decide) (by decide) (by decide) (by decide) (by decide) (by decide)),
     (h c _ (mem_uc main_arg6 (by decide))).trans (bnd12_launch m c main_arg6 (by decide) (by decide) (by decide) (by decide) (by decide) (by decide) (by decide) (by decide) (by decide) (by decide) (by decide) (by decide)),
     (h c _ (mem_uc main_arg7 (by decide))).trans (bnd12_launch m c main_arg7 (by decide) (by decide) (by decide) (by decide) (by decide) (by decide) (by decide) (by decide) (by decide) (by decide) (by decide) (by decide)),
     (h c _ (mem_uc main_arg8 (by decide))).trans (bnd12_launch m c main_arg8 (by decide) (by decide) (by decide) (by decide) (by decide) (by decide) (by decide) (by decide) (by decide) (by decide) (by decide) (by decide)),
     (h c _ (mem_uc main_arg9 (by decide))).trans (bnd12_launch m c main_arg9 (by decide) (by decide) (by decide) (by decide) (by decide) (by decide) (by decide) (by decide) (by decide) (by decide) (by decide) (by decide)),
     (h c _ (mem_uc main_arg10 (by decide))).trans (bnd12_launch m c main_arg10 (by decide) (by decide) (by decide) (by decide) (by decide) (by decide) (by decide) (by decide) (by decide) (by decide) (by decide) (by decide)),
     (h c _ (mem_uc main_arg11 (by decide))).trans (bnd12_launch m c main_arg11 (by decide) (by decide) (by decide) (by decide) (by decide) (by decide) (by decide) (by decide) (by decide) (by decide) (by decide) (by decide)),
     (h c _ (mem_uc main_arg12 (by decide))).trans (bnd12_launch m c main_arg12 (by decide) (by decide) (by decide) (by decide) (by decide) (by decide) (by decide) (by decide) (by decide) (by decide) (by decide) (by decide))⟩)
    (run_bufs m ρ)

/-- The frame claim's post alone. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2.2) (run_main m ρ)

end Cert.KernelIdeal.Hand

end
-- ==== Proof.RefFrame.lean ====
/-
  The reference program's frame. The reference is a straight-line host program: its run, read back as the
  composition of its operations, ends with every result at the operations' term of the arguments and every
  argument array as launched; the frame claim keeps the second half.
-/
import proofs.«115712_j50027779064181_2_alg».proof.Defs
import proofs.«115712_j50027779064181_2_alg».proof.Proof.Gen.ReferenceIdeal
import proofs.«115712_j50027779064181_2_alg».proof.Proof.Gen.Pre_finite_inputs
import proofs.«115712_j50027779064181_2_alg».proof.Proof.Gen.ReferenceIdeal.Run

noncomputable section

namespace Cert.Proof.RefFrame

open Idealize.ShloMosaic Idealize.ShloMosaic.TcCoe Idealize.SL.Sem

/-- Every weakly fair execution of the reference terminates without a fault and leaves the thirteen argument
    arrays as launched: the run's post with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.KIV.Entry.lean ====
/-
  What each kernel region is entered with. The run names the contents of every unscoped buffer at the thirteen boundaries
  between @main's items; here each region's input arrays, at the boundary the region is entered from, are traced back to
  where they were made: an argument array as launched, a weight after the host's change of float format, a bias or scale
  vector set up as a row, or an earlier region's result, which every item in between keeps.
-/
import proofs.«115712_j50027779064181_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## What each region is entered with

Each region's input arrays, at the boundary it is entered from, read back to where they were made: an argument array as
launched, a weight after the host's change of float format, a bias or scale vector set up as a row, or an earlier region's
result, kept by every item in between. -/

/-! ### The first host stretch: the five weights' change of format and the encoder's bias row -/

theorem host0_v0 (c : Dev nD) :
    (bnd1 m c (Proc.devRef .tc main_v0) : S1024x2048.Idx → Elt F .bf16) = truncf .bf16 (m ((c : Thread nD τ).loc main_arg1)) bitsLt_bf16_f32 := by
  show StableHlo.after hostOps0 (bnd0 m c) (Proc.devRef .tc main_v0) = _
  after_results; all_goals rfl
theorem host0_v1 (c : Dev nD) :
    (bnd1 m c (Proc.devRef .tc main_v1) : S1024x2048.Idx → Elt F .bf16) = truncf .bf16 (m ((c : Thread nD τ).loc main_arg3)) bitsLt_bf16_f32 := by
  show StableHlo.after hostOps0 (bnd0 m c) (Proc.devRef .tc main_v1) = _
  after_results; all_goals rfl
theorem host0_v2 (c : Dev nD) :
    (bnd1 m c (Proc.devRef .tc main_v2) : S2048x2048.Idx → Elt F .bf16) = truncf .bf16 (m ((c : Thread nD τ).loc main_arg5)) bitsLt_bf16_f32 := by
  show StableHlo.after hostOps0 (bnd0 m c) (Proc.devRef .tc main_v2) = _
  after_results; all_goals rfl
theorem host0_v3 (c : Dev nD) :
    (bnd1 m c (Proc.devRef .tc main_v3) : S2048x2048.Idx → Elt F .bf16) = truncf .bf16 (m ((c : Thread nD τ).loc main_arg7)) bitsLt_bf16_f32 := by
  show StableHlo.after hostOps0 (bnd0 m c) (Proc.devRef .tc main_v3) = _
  after_results; all_goals rfl
theorem host0_v4 (c : Dev nD) :
    (bnd1 m c (Proc.devRef .tc main_v4) : S2048x1024.Idx → Elt F .bf16) = truncf .bf16 (m ((c : Thread nD τ).loc main_arg11)) bitsLt_bf16_f32 := by
  show StableHlo.after hostOps0 (bnd0 m c) (Proc.devRef .tc main_v4) = _
  after_results; all_goals rfl
theorem host0_v5 (c : Dev nD) :
    (bnd1 m c (Proc.devRef .tc main_v5) : S1x2048.Idx → Elt F .f32) = shapeCast S1x2048 (m ((c : Thread nD τ).loc main_arg2)) shapeCasts_S2048_S1x2048 := by
  show StableHlo.after hostOps0 (bnd0 m c) (Proc.devRef .tc main_v5) = _
  after_results; all_goals rfl

/-! ### The later host stretches: one bias or scale vector each, set up as a row. The vector is an argument, still as
    launched when the stretch reads it. -/

theorem arg4_at2 (c : Dev nD) : bnd2 m c (Proc.devRef .tc main_arg4) = m ((c : Thread nD τ).loc main_arg4) := (bnd2_keep m c main_arg4 (by decide)).trans <| (bnd1_keep m c main_arg4 (by decide)).trans <| rfl
theorem arg6_at4 (c : Dev nD) : bnd4 m c (Proc.devRef .tc main_arg6) = m ((c : Thread nD τ).loc main_arg6) := (bnd4_keep m c main_arg6 (by decide)).trans <| (bnd3_keep m c main_arg6 (by decide)).trans <| (bnd2_keep m c main_arg6 (by decide)).trans <| (bnd1_keep m c main_arg6 (by decide)).trans <| rfl
theorem arg8_at6 (c : Dev nD) : bnd6 m c (Proc.devRef .tc main_arg8) = m ((c : Thread nD τ).loc main_arg8) := (bnd6_keep m c main_arg8 (by decide)).trans <| (bnd5_keep m c main_arg8 (by decide)).trans <| (bnd4_keep m c main_arg8 (by decide)).trans <| (bnd3_keep m c main_arg8 (by decide)).trans <| (bnd2_keep m c main_arg8 (by decide)).trans <| (bnd1_keep m c main_arg8 (by decide)).trans <| rfl
theorem arg12_at9 (c : Dev nD) : bnd9 m c (Proc.devRef .tc main_arg12) = m ((c : Thread nD τ).loc main_arg12) := (bnd9_keep m c main_arg12 (by decide)).trans <| (bnd8_keep m c main_arg12 (by decide)).trans <| (bnd7_keep m c main_arg12 (by decide)).trans <| (bnd6_keep m c main_arg12 (by decide)).trans <| (bnd5_keep m c main_arg12 (by decide)).trans <| (bnd4_keep m c main_arg12 (by decide)).trans <| (bnd3_keep m c main_arg12 (by decide)).trans <| (bnd2_keep m c main_arg12 (by decide)).trans <| (bnd1_keep m c main_arg12 (by decide)).trans <| rfl
theorem arg9_at9 (c : Dev nD) : bnd9 m c (Proc.devRef .tc main_arg9) = m ((c : Thread nD τ).loc main_arg9) := (bnd9_keep m c main_arg9 (by decide)).trans <| (bnd8_keep m c main_arg9 (by decide)).trans <| (bnd7_keep m c main_arg9 (by decide)).trans <| (bnd6_keep m c main_arg9 (by decide)).trans <| (bnd5_keep m c main_arg9 (by decide)).trans <| (bnd4_keep m c main_arg9 (by decide)).trans <| (bnd3_keep m c main_arg9 (by decide)).trans <| (bnd2_keep m c main_arg9 (by decide)).trans <| (bnd1_keep m c main_arg9 (by decide)).trans <| rfl
theorem arg10_at9 (c : Dev nD) : bnd9 m c (Proc.devRef .tc main_arg10) = m ((c : Thread nD τ).loc main_arg10) := (bnd9_keep m c main_arg10 (by decide)).trans <| (bnd8_keep m c main_arg10 (by decide)).trans <| (bnd7_keep m c main_arg10 (by decide)).trans <| (bnd6_keep m c main_arg10 (by decide)).trans <| (bnd5_keep m c main_arg10 (by decide)).trans <| (bnd4_keep m c main_arg10 (by decide)).trans <| (bnd3_keep m c main_arg10 (by decide)).trans <| (bnd2_keep m c main_arg10 (by decide)).trans <| (bnd1_keep m c main_arg10 (by decide)).trans <| rfl

theorem host1_v7 (c : Dev nD) :
    (bnd3 m c (Proc.devRef .tc main_v7) : S1x2048.Idx → Elt F .f32) = shapeCast S1x2048 (m ((c : Thread nD τ).loc main_arg4)) shapeCasts_S2048_S1x2048 := by
  rw [← arg4_at2 m c]
  show StableHlo.after hostOps1 (bnd2 m c) (Proc.devRef .tc main_v7) = _
  after_results; all_goals rfl
theorem host2_v9 (c : Dev nD) :
    (bnd5 m c (Proc.devRef .tc main_v9) : S1x2048.Idx → Elt F .f32) = shapeCast S1x2048 (m ((c : Thread nD τ).loc main_arg6)) shapeCasts_S2048_S1x2048 := by
  rw [← arg6_at4 m c]
  show StableHlo.after hostOps2 (bnd4 m c) (Proc.devRef .tc main_v9) = _
  after_results; all_goals rfl
theorem host3_v11 (c : Dev nD) :
    (bnd7 m c (Proc.devRef .tc main_v11) : S1x2048.Idx → Elt F .f32) = shapeCast S1x2048 (m ((c : Thread nD τ).loc main_arg8)) shapeCasts_S2048_S1x2048 := by
  rw [← arg8_at6 m c]
  show StableHlo.after hostOps3 (bnd6 m c) (Proc.devRef .tc main_v11) = _
  after_results; all_goals rfl
theorem host5_v14 (c : Dev nD) :
    (bnd10 m c (Proc.devRef .tc main_v14) : S1x1024.Idx → Elt F .f32) = shapeCast S1x1024 (m ((c : Thread nD τ).loc main_arg12)) shapeCasts_S1024_S1x1024 := by
  rw [← arg12_at9 m c]
  show StableHlo.after hostOps5 (bnd9 m c) (Proc.devRef .tc main_v14) = _
  after_results; all_goals rfl
theorem host5_v15 (c : Dev nD) :
    (bnd10 m c (Proc.devRef .tc main_v15) : S1x2048.Idx → Elt F .f32) = shapeCast S1x2048 (m ((c : Thread nD τ).loc main_arg9)) shapeCasts_S2048_S1x2048 := by
  rw [← arg9_at9 m c]
  show StableHlo.after hostOps5 (bnd9 m c) (Proc.devRef .tc main_v15) = _
  after_results; all_goals rfl
theorem host5_v16 (c : Dev nD) :
    (bnd10 m c (Proc.devRef .tc main_v16) : S1x2048.Idx → Elt F .f32) = shapeCast S1x2048 (m ((c : Thread nD τ).loc main_arg10)) shapeCasts_S2048_S1x2048 := by
  rw [← arg10_at9 m c]
  show StableHlo.after hostOps5 (bnd9 m c) (Proc.devRef .tc main_v16) = _
  after_results; all_goals rfl

/-! ### Region by region -/

/-- Region 0 (the encoder): the input as launched, the encoder's weight in the narrow format, its bias as a row. -/
theorem in0_x (c : Dev nD) : ent1 m c main_arg0 = m ((c : Thread nD τ).loc main_arg0) := (bnd1_keep m c main_arg0 (by decide)).trans <| rfl
theorem in0_w (c : Dev nD) : ent1 m c main_v0 = truncf .bf16 (m ((c : Thread nD τ).loc main_arg1)) bitsLt_bf16_f32 := host0_v0 m c
theorem in0_b (c : Dev nD) : ent1 m c main_v5 = shapeCast S1x2048 (m ((c : Thread nD τ).loc main_arg2)) shapeCasts_S2048_S1x2048 := host0_v5 m c

/-- Region 1 (the query projection): the input, the query weight, its bias row. -/
theorem in1_x (c : Dev nD) : ent3 m c main_arg0 = m ((c : Thread nD τ).loc main_arg0) := (bnd3_keep m c main_arg0 (by decide)).trans <| (bnd2_keep m c main_arg0 (by decide)).trans <| (bnd1_keep m c main_arg0 (by decide)).trans <| rfl
theorem in1_w (c : Dev nD) : ent3 m c main_v1 = truncf .bf16 (m ((c : Thread nD τ).loc main_arg3)) bitsLt_bf16_f32 := (bnd3_keep m c main_v1 (by decide)).trans <| (bnd2_keep m c main_v1 (by decide)).trans <| host0_v1 m c
theorem in1_b (c : Dev nD) : ent3 m c main_v7 = shapeCast S1x2048 (m ((c : Thread nD τ).loc main_arg4)) shapeCasts_S2048_S1x2048 := host1_v7 m c

/-- Region 2 (the key projection): the encoder's result, the key weight, its bias row. -/
theorem in2_h (c : Dev nD) : ent5 m c main_v6 = (dat0 (ent1 m) c).arrAt 3 cfg0.N := (bnd5_keep m c main_v6 (by decide)).trans <| (bnd4_keep m c main_v6 (by decide)).trans <| (bnd3_keep m c main_v6 (by decide)).trans <| bnd2_arr m c 3
theorem in2_w (c : Dev nD) : ent5 m c main_v2 = truncf .bf16 (m ((c : Thread nD τ).loc main_arg5)) bitsLt_bf16_f32 := (bnd5_keep m c main_v2 (by decide)).trans <| (bnd4_keep m c main_v2 (by decide)).trans <| (bnd3_keep m c main_v2 (by decide)).trans <| (bnd2_keep m c main_v2 (by decide)).trans <| host0_v2 m c
theorem in2_b (c : Dev nD) : ent5 m c main_v9 = shapeCast S1x2048 (m ((c : Thread nD τ).loc main_arg6)) shapeCasts_S2048_S1x2048 := host2_v9 m c

/-- Region 3 (the value projection): the encoder's result, the value weight, its bias row. -/
theorem in3_h (c : Dev nD) : ent7 m c main_v6 = (dat0 (ent1 m) c).arrAt 3 cfg0.N := (bnd7_keep m c main_v6 (by decide)).trans <| (bnd6_keep m c main_v6 (by decide)).trans <| (bnd5_keep m c main_v6 (by decide)).trans <| (bnd4_keep m c main_v6 (by decide)).trans <| (bnd3_keep m c main_v6 (by decide)).trans <| bnd2_arr m c 3
theorem in3_w (c : Dev nD) : ent7 m c main_v3 = truncf .bf16 (m ((c : Thread nD τ).loc main_arg7)) bitsLt_bf16_f32 := (bnd7_keep m c main_v3 (by decide)).trans <| (bnd6_keep m c main_v3 (by decide)).trans <| (bnd5_keep m c main_v3 (by decide)).trans <| (bnd4_keep m c main_v3 (by decide)).trans <| (bnd3_keep m c main_v3 (by decide)).trans <| (bnd2_keep m c main_v3 (by decide)).trans <| host0_v3 m c
theorem in3_b (c : Dev nD) : ent7 m c main_v11 = shapeCast S1x2048 (m ((c : Thread nD τ).loc main_arg8)) shapeCasts_S2048_S1x2048 := host3_v11 m c

/-- Region 4 (the attention): the three projections. -/
theorem in4_q (c : Dev nD) : ent8 m c main_v8 = (dat1 (ent3 m) c).arrAt 3 cfg1.N := (bnd8_keep m c main_v8 (by decide)).trans <| (bnd7_keep m c main_v8 (by decide)).trans <| (bnd6_keep m c main_v8 (by decide)).trans <| (bnd5_keep m c main_v8 (by decide)).trans <| bnd4_arr m c 3
theorem in4_k (c : Dev nD) : ent8 m c main_v10 = (dat2 (ent5 m) c).arrAt 3 cfg2.N := (bnd8_keep m c main_v10 (by decide)).trans <| (bnd7_keep m c main_v10 (by decide)).trans <| bnd6_arr m c 3
theorem in4_v (c : Dev nD) : ent8 m c main_v12 = (dat3 (ent7 m) c).arrAt 3 cfg3.N := bnd8_arr m c 3

/-- Region 5 (the normalisation and the decoder): the attention's result, the decoder's weight, its bias, the scale and
    the shift as rows. -/
theorem in5_a (c : Dev nD) : ent10 m c main_v13 = (dat4 (ent8 m) c).arrAt 3 cfg4.N := (bnd10_keep m c main_v13 (by decide)).trans <| bnd9_arr m c 3
theorem in5_w (c : Dev nD) : ent10 m c main_v4 = truncf .bf16 (m ((c : Thread nD τ).loc main_arg11)) bitsLt_bf16_f32 := (bnd10_keep m c main_v4 (by decide)).trans <| (bnd9_keep m c main_v4 (by decide)).trans <| (bnd8_keep m c main_v4 (by decide)).trans <| (bnd7_keep m c main_v4 (by decide)).trans <| (bnd6_keep m c main_v4 (by decide)).trans <| (bnd5_keep m c main_v4 (by decide)).trans <| (bnd4_keep m c main_v4 (by decide)).trans <| (bnd3_keep m c main_v4 (by decide)).trans <| (bnd2_keep m c main_v4 (by decide)).trans <| host0_v4 m c
theorem in5_b (c : Dev nD) : ent10 m c main_v14 = shapeCast S1x1024 (m ((c : Thread nD τ).loc main_arg12)) shapeCasts_S1024_S1x1024 := host5_v14 m c
theorem in5_g (c : Dev nD) : ent10 m c main_v15 = shapeCast S1x2048 (m ((c : Thread nD τ).loc main_arg9)) shapeCasts_S2048_S1x2048 := host5_v15 m c
theorem in5_s (c : Dev nD) : ent10 m c main_v16 = shapeCast S1x2048 (m ((c : Thread nD τ).loc main_arg10)) shapeCasts_S2048_S1x2048 := host5_v16 m c

/-- Region 6 (the correlation): the key and value projections. -/
theorem in6_k (c : Dev nD) : ent11 m c main_v10 = (dat2 (ent5 m) c).arrAt 3 cfg2.N := (bnd11_keep m c main_v10 (by decide)).trans <| (bnd10_keep m c main_v10 (by decide)).trans <| (bnd9_keep m c main_v10 (by decide)).trans <| (bnd8_keep m c main_v10 (by decide)).trans <| (bnd7_keep m c main_v10 (by decide)).trans <| bnd6_arr m c 3
theorem in6_v (c : Dev nD) : ent11 m c main_v12 = (dat3 (ent7 m) c).arrAt 3 cfg3.N := (bnd11_keep m c main_v12 (by decide)).trans <| (bnd10_keep m c main_v12 (by decide)).trans <| (bnd9_keep m c main_v12 (by decide)).trans <| bnd8_arr m c 3

end Cert.KernelIdeal.Hand

end
-- ==== Proof.LibBlockedSum.lean ====
/-
  GENERAL lemmas: a contraction accumulated block by block is the whole contraction.

  A sum over `K * b` indices, cut into `K` consecutive blocks of width `b`, is the sum of the blocks' sums
  (`sum_blocks`: the index `k * b + i` of block `k`, place `i`, runs through `Fin (K * b)` exactly once). An
  accumulator that starts at `0 + p 0` and adds `p (k + 1)` at step `k + 1` holds the sum of `p 0 … p k` after step
  `k` (`acc_eq_sum_range`). Together (`blocked_acc`): after the last block the accumulator is the whole sum.

  Everything is stated over an additive commutative monoid, so it holds on the extended reals with no finiteness
  hypothesis (the sum of extended reals is associative and commutative, the infinities included).

  The instances at literal extents — two and four blocks of width 512, the whole sum over `Fin 1024` and over
  `Fin 2048` — are stated separately, with the whole sum's index type spelt as the literal, so that they apply to a
  goal written over `Fin 1024` / `Fin 2048` without unfolding a product of numerals.
-/
import Mathlib.Algebra.BigOperators.Fin
import Mathlib.Algebra.BigOperators.Group.Finset.Basic
import Mathlib.Logic.Equiv.Fin.Basic

namespace Cert.Bridge

open scoped BigOperators

variable {M : Type*} [AddCommMonoid M]

/-! ## The general statements -/

/-- Place `i` of block `k` is an index of the whole: `k * b + i < K * b`. -/
theorem blk_lt {K b : ℕ} (k : Fin K) (i : Fin b) : k.val * b + i.val < K * b :=
  calc k.val * b + i.val < k.val * b + b := Nat.add_lt_add_left i.2 _
    _ = (k.val + 1) * b := (Nat.succ_mul _ _).symm
    _ ≤ K * b := Nat.mul_le_mul_right _ k.2

/-- The sum of the `K` blocks' sums is the whole sum: `(k, i) ↦ k * b + i` is a bijection of
    `Fin K × Fin b` with `Fin (K * b)`. -/
theorem sum_blocks (K b : ℕ) (f : Fin (K * b) → M) :
    ∑ k : Fin K, ∑ i : Fin b, f ⟨k.val * b + i.val, blk_lt k i⟩ = ∑ j : Fin (K * b), f j := by
  rw [← (finProdFinEquiv (m := K) (n := b)).sum_comp f, Fintype.sum_prod_type]
  refine Fintype.sum_congr _ _ fun k => Fintype.sum_congr _ _ fun i => congrArg f (Fin.ext ?_)
  show k.val * b + i.val = i.val + b * k.val
  rw [Nat.mul_comm, Nat.add_comm]

/-- An accumulator started at `0 + p 0` that adds `p (k + 1)` at step `k + 1` holds `p 0 + … + p k` after step `k`. -/
theorem acc_eq_sum_range (p acc : ℕ → M) (h0 : acc 0 = 0 + p 0) (hs : ∀ k, acc (k + 1) = acc k + p (k + 1))
    (k : ℕ) : acc k = ∑ k' ∈ Finset.range (k + 1), p k' := by
  induction k with
  | zero => rw [h0, zero_add, Finset.sum_range_one]
  | succ n ih => rw [hs, ih, Finset.sum_range_succ _ (n + 1)]

/-- Blockwise accumulation of a contraction over `(K + 1) * b` indices in `K + 1` blocks of width `b`: if the
    `k`-th partial product `P k` is the sum of `f` over block `k`, and the accumulator starts at `0 + P 0` and adds
    `P (k + 1)` at step `k + 1`, then after the last step (`k = K`) it is the whole sum of `f`. -/
theorem blocked_acc (K b : ℕ) (f : Fin ((K + 1) * b) → M) (P acc : ℕ → M)
    (hP : ∀ k : Fin (K + 1), P k.val = ∑ i : Fin b, f ⟨k.val * b + i.val, blk_lt k i⟩)
    (h0 : acc 0 = 0 + P 0) (hs : ∀ k, acc (k + 1) = acc k + P (k + 1)) :
    acc K = ∑ j : Fin ((K + 1) * b), f j := by
  rw [acc_eq_sum_range P acc h0 hs K, ← sum_blocks (K + 1) b f, ← Fin.sum_univ_eq_sum_range]
  exact Fintype.sum_congr _ _ hP

/-! ## Two blocks of width 512: the whole sum over `Fin 1024` -/

/-- Place `i` of block `k` of two blocks of width 512, as an index of `Fin 1024`. -/
def at1024 (k : Fin 2) (i : Fin 512) : Fin 1024 := ⟨k.val * 512 + i.val, blk_lt (K := 2) (b := 512) k i⟩

@[simp] theorem at1024_val (k : Fin 2) (i : Fin 512) : (at1024 k i).val = k.val * 512 + i.val := rfl

/-- Two blocks of width 512 make the sum over `Fin 1024`. -/
theorem sum_blocks_1024 (f : Fin 1024 → M) :
    (∑ i : Fin 512, f (at1024 0 i)) + ∑ i : Fin 512, f (at1024 1 i) = ∑ j : Fin 1024, f j := by
  have h := sum_blocks (M := M) 2 512 f
  rw [Fin.sum_univ_two] at h
  exact h

/-- The accumulated form at two blocks: from a zero accumulator, `0 + p 0 + p 1` with `p k` the sum of `f` over
    block `k` is the sum of `f` over `Fin 1024`. The blocks' entries are given as a function `p k i` with the
    index relation as a hypothesis on VALUES (`j = k * 512 + i`), so that any spelling of the block's index applies. -/
theorem blocked_sum_1024 (f : Fin 1024 → M) (p : Fin 2 → Fin 512 → M)
    (hp : ∀ (k : Fin 2) (i : Fin 512) (j : Fin 1024), j.val = k.val * 512 + i.val → p k i = f j) :
    0 + (∑ i : Fin 512, p 0 i) + ∑ i : Fin 512, p 1 i = ∑ j : Fin 1024, f j := by
  rw [zero_add, ← sum_blocks_1024 f]
  congr 1 <;> exact Fintype.sum_congr _ _ fun i => hp _ i _ rfl

/-- The same with named accumulator states: `a0 = 0 + p 0`, `a1 = a0 + p 1`; then `a1` is the whole sum. -/
theorem blocked_acc_1024 (f : Fin 1024 → M) (p : Fin 2 → Fin 512 → M)
    (hp : ∀ (k : Fin 2) (i : Fin 512) (j : Fin 1024), j.val = k.val * 512 + i.val → p k i = f j)
    (a0 a1 : M) (h0 : a0 = 0 + ∑ i : Fin 512, p 0 i) (h1 : a1 = a0 + ∑ i : Fin 512, p 1 i) :
    a1 = ∑ j : Fin 1024, f j := by
  rw [h1, h0]; exact blocked_sum_1024 f p hp

/-! ## Four blocks of width 512: the whole sum over `Fin 2048` -/

/-- Place `i` of block `k` of four blocks of width 512, as an index of `Fin 2048`. -/
def at2048 (k : Fin 4) (i : Fin 512) : Fin 2048 := ⟨k.val * 512 + i.val, blk_lt (K := 4) (b := 512) k i⟩

@[simp] theorem at2048_val (k : Fin 4) (i : Fin 512) : (at2048 k i).val = k.val * 512 + i.val := rfl

/-- Four blocks of width 512 make the sum over `Fin 2048`. -/
theorem sum_blocks_2048 (f : Fin 2048 → M) :
    (∑ i : Fin 512, f (at2048 0 i)) + (∑ i : Fin 512, f (at2048 1 i)) + (∑ i : Fin 512, f (at2048 2 i))
      + ∑ i : Fin 512, f (at2048 3 i) = ∑ j : Fin 2048, f j := by
  have h := sum_blocks (M := M) 4 512 f
  rw [Fin.sum_univ_four] at h
  exact h

/-- The accumulated form at four blocks: `0 + p 0 + p 1 + p 2 + p 3`, each `p k` the sum of `f` over block `k`, is the
    sum of `f` over `Fin 2048`. The index relation is a hypothesis on VALUES (`j = k * 512 + i`). -/
theorem blocked_sum_2048 (f : Fin 2048 → M) (p : Fin 4 → Fin 512 → M)
    (hp : ∀ (k : Fin 4) (i : Fin 512) (j : Fin 2048), j.val = k.val * 512 + i.val → p k i = f j) :
    0 + (∑ i : Fin 512, p 0 i) + (∑ i : Fin 512, p 1 i) + (∑ i : Fin 512, p 2 i) + ∑ i : Fin 512, p 3 i
      = ∑ j : Fin 2048, f j := by
  rw [zero_add, ← sum_blocks_2048 f]
  congr 1
  · congr 1
    · congr 1 <;> exact Fintype.sum_congr _ _ fun i => hp _ i _ rfl
    · exact Fintype.sum_congr _ _ fun i => hp _ i _ rfl
  · exact Fintype.sum_congr _ _ fun i => hp _ i _ rfl

/-- The same with named accumulator states `a0 … a3`; then `a3` is the whole sum. -/
theorem blocked_acc_2048 (f : Fin 2048 → M) (p : Fin 4 → Fin 512 → M)
    (hp : ∀ (k : Fin 4) (i : Fin 512) (j : Fin 2048), j.val = k.val * 512 + i.val → p k i = f j)
    (a0 a1 a2 a3 : M) (h0 : a0 = 0 + ∑ i : Fin 512, p 0 i) (h1 : a1 = a0 + ∑ i : Fin 512, p 1 i)
    (h2 : a2 = a1 + ∑ i : Fin 512, p 2 i) (h3 : a3 = a2 + ∑ i : Fin 512, p 3 i) :
    a3 = ∑ j : Fin 2048, f j := by
  rw [h3, h2, h1, h0]; exact blocked_sum_2048 f p hp

end Cert.Bridge
-- ==== Proof.Val.DenseFns.lean ====
/-
  THE DENSE LAYERS as functions of their input ARRAYS, on the extended reals: from `X` [R, K], weights `W` [K, N] and
  a bias ROW `b` [1, N],

      denseFn X W b (n, c)     = (∑ k, X (n, k) * W (k, c)) + b (0, c)
      denseTanhFn X W b (n, c) = tanh (denseFn X W b (n, c)).

  The arrays are plain functions from a literal shape's indices to the extended reals, so the same statement reads an
  array of any float format (a change of format is the identity on the extended reals and stays out of these
  functions). `rowFn v` is a vector [N] as the row [1, N] it is reshaped to.

  The functions are stated once over the extents `R`, `K`, `N` read off the arrays' types; what a proof uses are the
  readings at coordinates, stated at the literal extents met here — a contraction over 1024 and over 2048 — and, for a
  contraction accumulated in blocks of 512 from a zero accumulator with the bias added after the last block, the
  statement that this is `denseFn` at the index (two blocks for 1024, four for 2048), with no finiteness hypothesis.
-/
import Idealize.ShloMosaic.PureOps.Ideal
import Idealize.ShloMosaic.Lib.ValueIdx
import proofs.«115712_j50027779064181_2_alg».proof.Proof.LibBlockedSum

noncomputable section

namespace Cert.Bridge

open Idealize.ShloMosaic Idealize.ShloMosaic.ValueIdx
open scoped BigOperators

/-- A rank-2 array of extended reals with `r` rows and `c` columns. -/
abbrev Mat (r c : Nat) : Type := (⟨2, ![r, c]⟩ : Shape).Idx → EReal

/-- A rank-1 array of extended reals of length `n`. -/
abbrev Vec1 (n : Nat) : Type := (⟨1, ![n]⟩ : Shape).Idx → EReal

/-- A vector [N] as the row [1, N] it is reshaped to. -/
def rowFn {N : Nat} (v : Vec1 N) : Mat 1 N := fun j => v (ix1 (j 1))

/-- The row read at its column. -/
theorem rowFn_ix2 {N : Nat} (v : Vec1 N) (z : Fin 1) (c : Fin N) : rowFn v (ix2 z c) = v (ix1 c) := rfl

/-- A dense layer: `X · W` plus the bias row, at every index. -/
def denseFn {R K N : Nat} (X : Mat R K) (W : Mat K N) (b : Mat 1 N) : Mat R N :=
  fun j => (∑ k : Fin K, X (ix2 (j 0) k) * W (ix2 k (j 1))) + b (ix2 (0 : Fin 1) (j 1))

/-- A dense layer under the hyperbolic tangent. -/
def denseTanhFn {R K N : Nat} (X : Mat R K) (W : Mat K N) (b : Mat 1 N) : Mat R N :=
  fun j => Ideal.tanh (denseFn X W b j)

/-! ## At coordinates -/

/-- `denseFn` at row `n`, column `c`. -/
theorem denseFn_ix2 {R K N : Nat} (X : Mat R K) (W : Mat K N) (b : Mat 1 N) (n : Fin R) (c : Fin N) :
    denseFn X W b (ix2 n c) = (∑ k : Fin K, X (ix2 n k) * W (ix2 k c)) + b (ix2 (0 : Fin 1) c) := rfl

/-- `denseTanhFn` at row `n`, column `c`. -/
theorem denseTanhFn_ix2 {R K N : Nat} (X : Mat R K) (W : Mat K N) (b : Mat 1 N) (n : Fin R) (c : Fin N) :
    denseTanhFn X W b (ix2 n c)
      = Ideal.tanh ((∑ k : Fin K, X (ix2 n k) * W (ix2 k c)) + b (ix2 (0 : Fin 1) c)) := rfl

/-- `denseTanhFn` is `tanh` of `denseFn`, index by index. -/
theorem denseTanhFn_apply {R K N : Nat} (X : Mat R K) (W : Mat K N) (b : Mat 1 N) (j : (⟨2, ![R, N]⟩ : Shape).Idx) :
    denseTanhFn X W b j = Ideal.tanh (denseFn X W b j) := rfl

/-- The contraction over 1024, at literal extents: [2048, 1024] · [1024, 2048]. -/
theorem denseFn_ix2_1024 (X : Mat 2048 1024) (W : Mat 1024 2048) (b : Mat 1 2048) (n c : Fin 2048) :
    denseFn X W b (ix2 n c) = (∑ k : Fin 1024, X (ix2 n k) * W (ix2 k c)) + b (ix2 (0 : Fin 1) c) := rfl

/-- The contraction over 2048, at literal extents: [2048, 2048] · [2048, 2048]. -/
theorem denseFn_ix2_2048 (X : Mat 2048 2048) (W : Mat 2048 2048) (b : Mat 1 2048) (n c : Fin 2048) :
    denseFn X W b (ix2 n c) = (∑ k : Fin 2048, X (ix2 n k) * W (ix2 k c)) + b (ix2 (0 : Fin 1) c) := rfl

/-! ## A contraction accumulated in blocks of 512, then the bias -/

/-- Two blocks of 512 from a zero accumulator, then the bias row: `denseFn` at `(n, c)` for a contraction over 1024.
    `p k i` is the product at place `i` of block `k`; the hypothesis relates the block's place to the contraction index
    by VALUE (`j = k * 512 + i`), so any spelling of the block's index applies. -/
theorem denseFn_of_blocks_1024 {R N : Nat} (X : Mat R 1024) (W : Mat 1024 N) (b : Mat 1 N) (n : Fin R) (c : Fin N)
    (p : Fin 2 → Fin 512 → EReal)
    (hp : ∀ (k : Fin 2) (i : Fin 512) (j : Fin 1024), j.val = k.val * 512 + i.val →
      p k i = X (ix2 n j) * W (ix2 j c)) :
    (0 + (∑ i : Fin 512, p 0 i) + ∑ i : Fin 512, p 1 i) + b (ix2 (0 : Fin 1) c) = denseFn X W b (ix2 n c) := by
  rw [blocked_sum_1024 (fun j => X (ix2 n j) * W (ix2 j c)) p hp]; rfl

/-- Four blocks of 512 from a zero accumulator, then the bias row: `denseFn` at `(n, c)` for a contraction over 2048. -/
theorem denseFn_of_blocks_2048 {R N : Nat} (X : Mat R 2048) (W : Mat 2048 N) (b : Mat 1 N) (n : Fin R) (c : Fin N)
    (p : Fin 4 → Fin 512 → EReal)
    (hp : ∀ (k : Fin 4) (i : Fin 512) (j : Fin 2048), j.val = k.val * 512 + i.val →
      p k i = X (ix2 n j) * W (ix2 j c)) :
    (0 + (∑ i : Fin 512, p 0 i) + (∑ i : Fin 512, p 1 i) + (∑ i : Fin 512, p 2 i) + ∑ i : Fin 512, p 3 i)
      + b (ix2 (0 : Fin 1) c) = denseFn X W b (ix2 n c) := by
  rw [blocked_sum_2048 (fun j => X (ix2 n j) * W (ix2 j c)) p hp]; rfl

/-- The same under `tanh`, two blocks. -/
theorem denseTanhFn_of_blocks_1024 {R N : Nat} (X : Mat R 1024) (W : Mat 1024 N) (b : Mat 1 N) (n : Fin R) (c : Fin N)
    (p : Fin 2 → Fin 512 → EReal)
    (hp : ∀ (k : Fin 2) (i : Fin 512) (j : Fin 1024), j.val = k.val * 512 + i.val →
      p k i = X (ix2 n j) * W (ix2 j c)) :
    Ideal.tanh ((0 + (∑ i : Fin 512, p 0 i) + ∑ i : Fin 512, p 1 i) + b (ix2 (0 : Fin 1) c))
      = denseTanhFn X W b (ix2 n c) :=
  congrArg Ideal.tanh (denseFn_of_blocks_1024 X W b n c p hp)

/-- The same under `tanh`, four blocks. -/
theorem denseTanhFn_of_blocks_2048 {R N : Nat} (X : Mat R 2048) (W : Mat 2048 N) (b : Mat 1 N) (n : Fin R) (c : Fin N)
    (p : Fin 4 → Fin 512 → EReal)
    (hp : ∀ (k : Fin 4) (i : Fin 512) (j : Fin 2048), j.val = k.val * 512 + i.val →
      p k i = X (ix2 n j) * W (ix2 j c)) :
    Ideal.tanh ((0 + (∑ i : Fin 512, p 0 i) + (∑ i : Fin 512, p 1 i) + (∑ i : Fin 512, p 2 i) + ∑ i : Fin 512, p 3 i)
      + b (ix2 (0 : Fin 1) c)) = denseTanhFn X W b (ix2 n c) :=
  congrArg Ideal.tanh (denseFn_of_blocks_2048 X W b n c p hp)

end Cert.Bridge

end
-- ==== Proof.LibContract.lean ====
/-
  Two contractions read at an index, at the ideal values, as plain sums over the contracted coordinate.

  A matrix product `[M, K] × [K, N]` accumulated into a zero splat (a kernel's `tpu.matmul`) is, at `(p, f)`,
  `Σ_k l[p, k] · r[k, f]`; a stack of rows `[A, B, K]` contracted with one matrix `[K, N]` on its last axis (a host
  `dot_general`, what `einsum('gck,kf->gcf')` lowers to) is, at `(g, b, f)`, `Σ_k l[g, b, k] · r[k, f]`. The dimension
  numbers are taken as a record whose six axis lists are the literal ones and whose well-formedness proof is ANY proof:
  a printed record with those lists is such a record by unfolding, whatever proof it carries.
-/
import Idealize.ShloMosaic.PureOps.Ideal.Laws
import Idealize.ShloMosaic.Lib.ValueIdx

noncomputable section

open scoped BigOperators

namespace Cert.LibContract

open Idealize.ShloMosaic Idealize.ShloMosaic.ValueIdx

/-! ## A matrix product -/

/-- The dimension numbers of `[M, K] × [K, N] → [M, N]`: the left operand contracted on its columns, the right on its
    rows. -/
abbrev matDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Mat
variable {M K N : Nat} (wf : DotDims.WF ⟨2, ![M, K]⟩ ⟨2, ![K, N]⟩ ⟨2, ![M, N]⟩ [1] [0] [0] [1] [] [])

/-- The left operand's row is the result's row. -/
theorem mat_lhs_0 (i : (⟨2, ![M, N]⟩ : Shape).Idx) (q : (matDims M K N wf).contr.Idx) :
    ((matDims M K N wf).lhsIdx i q 0).val = (i 0).val := by
  unfold DotDims.lhsIdx
  rw [dif_neg (show ¬(0 : Fin 2) ∈ (matDims M K N wf).lhsBatch from List.not_mem_nil),
    dif_pos (show (0 : Fin 2) ∈ (matDims M K N wf).lhsNonContracting from List.mem_singleton.mpr rfl)]
  rfl

/-- The left operand's column is the contracted coordinate. -/
theorem mat_lhs_1 (i : (⟨2, ![M, N]⟩ : Shape).Idx) (q : (matDims M K N wf).contr.Idx) :
    ((matDims M K N wf).lhsIdx i q 1).val = (q ⟨0, Nat.one_pos⟩).val :=
  (matDims M K N wf).lhsIdx_val_of_single rfl i q

/-- The right operand's row is the contracted coordinate. -/
theorem mat_rhs_0 (i : (⟨2, ![M, N]⟩ : Shape).Idx) (q : (matDims M K N wf).contr.Idx) :
    ((matDims M K N wf).rhsIdx i q 0).val = (q ⟨0, Nat.one_pos⟩).val :=
  (matDims M K N wf).rhsIdx_val_of_single rfl i q

/-- The right operand's column is the result's column. -/
theorem mat_rhs_1 (i : (⟨2, ![M, N]⟩ : Shape).Idx) (q : (matDims M K N wf).contr.Idx) :
    ((matDims M K N wf).rhsIdx i q 1).val = (i 1).val := by
  unfold DotDims.rhsIdx
  rw [dif_neg (show ¬(1 : Fin 2) ∈ (matDims M K N wf).rhsBatch from List.not_mem_nil),
    dif_pos (show (1 : Fin 2) ∈ (matDims M K N wf).rhsNonContracting from List.mem_singleton.mpr rfl)]
  rfl

/-- A matrix product into the zero splat, at `(p, f)`: the sum over `k` of `l[p, k] · r[k, f]`. -/
theorem matmul_zero_apply {φ₁ φ₂ : FTy} (prec : Option ContractPrecision) (l : FVec Ideal ⟨2, ![M, K]⟩ φ₁)
    (r : FVec Ideal ⟨2, ![K, N]⟩ φ₂) (p : Fin M) (f : Fin N) :
    matmul (matDims M K N wf) prec l r (constant (F := Ideal) ⟨2, ![M, N]⟩ .f32 0x00000000#32) (ix2 p f)
      = ∑ k : Fin K, l (ix2 p k) * r (ix2 k f) := by
  show FloatOps.matmul (matDims M K N wf) prec l r _ (ix2 p f) = _
  rw [Ideal.matmul_constant_zero_apply, ← Equiv.sum_comp (contrEquiv1 (matDims M K N wf) K rfl rfl).symm]
  refine Finset.sum_congr rfl fun k _ => ?_
  have hk := contrEquiv1_symm_val (matDims M K N wf) K rfl rfl k
  have el : (matDims M K N wf).lhsIdx (ix2 p f) ((contrEquiv1 (matDims M K N wf) K rfl rfl).symm k) = ix2 p k :=
    funext fun a => Fin.ext (by
      match a with
      | ⟨0, _⟩ => exact mat_lhs_0 wf _ _
      | ⟨1, _⟩ => exact (mat_lhs_1 wf _ _).trans hk)
  have er : (matDims M K N wf).rhsIdx (ix2 p f) ((contrEquiv1 (matDims M K N wf) K rfl rfl).symm k) = ix2 k f :=
    funext fun a => Fin.ext (by
      match a with
      | ⟨0, _⟩ => exact (mat_rhs_0 wf _ _).trans hk
      | ⟨1, _⟩ => exact mat_rhs_1 wf _ _)
  rw [el, er]

end Mat

/-! ## A stack of rows against one matrix -/

/-- The dimension numbers of `[A, B, K] × [K, N] → [A, B, N]`: the left operand contracted on its last axis, the right on
    its rows, no batch axis. -/
abbrev rowsDims (A B K N : Nat)
    (wf : DotDims.WF ⟨3, ![A, B, K]⟩ ⟨2, ![K, N]⟩ ⟨3, ![A, B, N]⟩ [2] [0] [0, 1] [1] [] []) :
    DotDims ⟨3, ![A, B, K]⟩ ⟨2, ![K, N]⟩ ⟨3, ![A, B, N]⟩ where
  lhsContracting := [2]
  rhsContracting := [0]
  lhsNonContracting := [0, 1]
  rhsNonContracting := [1]
  lhsBatch := []
  rhsBatch := []
  wf := wf

section Rows
variable {A B K N : Nat} (wf : DotDims.WF ⟨3, ![A, B, K]⟩ ⟨2, ![K, N]⟩ ⟨3, ![A, B, N]⟩ [2] [0] [0, 1] [1] [] [])

theorem rows_lhs_0 (i : (⟨3, ![A, B, N]⟩ : Shape).Idx) (q : (rowsDims A B K N wf).contr.Idx) :
    ((rowsDims A B K N wf).lhsIdx i q 0).val = (i 0).val := by
  unfold DotDims.lhsIdx
  rw [dif_neg (show ¬(0 : Fin 3) ∈ (rowsDims A B K N wf).lhsBatch from List.not_mem_nil),
    dif_pos (show (0 : Fin 3) ∈ (rowsDims A B K N wf).lhsNonContracting from List.mem_cons_self)]
  rfl

theorem rows_lhs_1 (i : (⟨3, ![A, B, N]⟩ : Shape).Idx) (q : (rowsDims A B K N wf).contr.Idx) :
    ((rowsDims A B K N wf).lhsIdx i q 1).val = (i 1).val := by
  unfold DotDims.lhsIdx
  rw [dif_neg (show ¬(1 : Fin 3) ∈ (rowsDims A B K N wf).lhsBatch from List.not_mem_nil),
    dif_pos (show (1 : Fin 3) ∈ (rowsDims A B K N wf).lhsNonContracting from List.mem_cons_of_mem _ (List.mem_singleton.mpr rfl))]
  rfl

theorem rows_lhs_2 (i : (⟨3, ![A, B, N]⟩ : Shape).Idx) (q : (rowsDims A B K N wf).contr.Idx) :
    ((rowsDims A B K N wf).lhsIdx i q 2).val = (q ⟨0, Nat.one_pos⟩).val :=
  (rowsDims A B K N wf).lhsIdx_val_of_single rfl i q

theorem rows_rhs_0 (i : (⟨3, ![A, B, N]⟩ : Shape).Idx) (q : (rowsDims A B K N wf).contr.Idx) :
    ((rowsDims A B K N wf).rhsIdx i q 0).val = (q ⟨0, Nat.one_pos⟩).val :=
  (rowsDims A B K N wf).rhsIdx_val_of_single rfl i q

theorem rows_rhs_1 (i : (⟨3, ![A, B, N]⟩ : Shape).Idx) (q : (rowsDims A B K N wf).contr.Idx) :
    ((rowsDims A B K N wf).rhsIdx i q 1).val = (i 2).val := by
  unfold DotDims.rhsIdx
  rw [dif_neg (show ¬(1 : Fin 2) ∈ (rowsDims A B K N wf).rhsBatch from List.not_mem_nil),
    dif_pos (show (1 : Fin 2) ∈ (rowsDims A B K N wf).rhsNonContracting from List.mem_singleton.mpr rfl)]
  rfl

/-- The host's contraction of a stack of rows with one matrix, at `(g, b, f)`: the sum over `k` of
    `l[g, b, k] · r[k, f]`. -/
theorem dotGeneral_rows_apply {φ₁ φ₂ : FTy} (prec : Option ContractPrecision) (l : FVec Ideal ⟨3, ![A, B, K]⟩ φ₁)
    (r : FVec Ideal ⟨2, ![K, N]⟩ φ₂) (g : Fin A) (b : Fin B) (f : Fin N) :
    Host.dotGeneral (rowsDims A B K N wf) prec l r (ix3 g b f) = ∑ k : Fin K, l (ix3 g b k) * r (ix2 k f) := by
  show FloatOps.dotGeneral (rowsDims A B K N wf) prec _ l r (ix3 g b f) = _
  rw [Ideal.dotGeneral_apply, ← Equiv.sum_comp (contrEquiv1 (rowsDims A B K N wf) K rfl rfl).symm]
  refine Finset.sum_congr rfl fun k _ => ?_
  have hk := contrEquiv1_symm_val (rowsDims A B K N wf) K rfl rfl k
  have el : (rowsDims A B K N wf).lhsIdx (ix3 g b f) ((contrEquiv1 (rowsDims A B K N wf) K rfl rfl).symm k) = ix3 g b k :=
    funext fun a => Fin.ext (by
      match a with
      | ⟨0, _⟩ => exact rows_lhs_0 wf _ _
      | ⟨1, _⟩ => exact rows_lhs_1 wf _ _
      | ⟨2, _⟩ => exact (rows_lhs_2 wf _ _).trans hk)
  have er : (rowsDims A B K N wf).rhsIdx (ix3 g b f) ((contrEquiv1 (rowsDims A B K N wf) K rfl rfl).symm k) = ix2 k f :=
    funext fun a => Fin.ext (by
      match a with
      | ⟨0, _⟩ => exact (rows_rhs_0 wf _ _).trans hk
      | ⟨1, _⟩ => exact rows_rhs_1 wf _ _)
  rw [el, er]

end Rows

end Cert.LibContract

end
-- ==== Proof.KIV.Val0.lean ====
import proofs.«115712_j50027779064181_2_alg».proof.Proof.KI.Reg0
import proofs.«115712_j50027779064181_2_alg».proof.Proof.Val.DenseFns
import proofs.«115712_j50027779064181_2_alg».proof.Proof.LibContract
import Idealize.ShloMosaic.Lib.ValueIdx
import Idealize.ShloMosaic.Lib.ValueLayout
import Idealize.ShloMosaic.Lib.Pipeline.Value
set_option maxRecDepth 16384
noncomputable section
namespace Cert.KernelIdeal.HandVal
open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators
-- the TensorCore's buffer contents when the region is entered
variable (V : (c : Dev nD) → (b : Ref sig .tc) → Buf (Elt Ideal) ((c : Thread nD τ).loc b))

/-- Place `i` of contraction block `k` as an index of the whole contracted axis. -/
def jj0 (k : Fin 2) (i : Fin 512) : Fin 1024 := ⟨k.val * 512 + i.val, by have := k.isLt; have := i.isLt; omega⟩

/-- The left operand's array and the right operand's, as the region finds them, typed as arrays of extended reals. -/
abbrev XA0 (c : Dev nD) : (⟨2, ![2048, 1024]⟩ : Shape).Idx → EReal := V c main_arg0
abbrev WA0 (c : Dev nD) : (⟨2, ![1024, 2048]⟩ : Shape).Idx → EReal := V c main_v0

/-! # Region 0: what the result array holds after the run

The region computes a matrix product in blocks of 512 along the contracted axis, accumulated from zero, and at the
last block adds the bias row and applies tanh. Read index by index on the extended reals this is the dense layer of
the arrays the windows stage. -/

/-! ## The stored values at an index -/

/-- The zero block. -/
theorem pay1_apply0 (y : S512x512.Idx) : k0_pay1 (F := Ideal) y = 0 := by
  unfold k0_pay1
  simp only [shapeCast_self, broadcast_apply]
  exact Ideal.ofBits_zero_f32

/-- The accumulation step: what the accumulator held plus the product of the two blocks (the rounding of the operands to
    bf16 is the identity on the extended reals). -/
theorem pay2_apply0 (x : FVec Ideal S512x512 .f32) (w : FVec Ideal S512x512 .bf16) (s : FVec Ideal S512x512 .f32) (p f : Fin 512) :
    k0_pay2 x w s (ix2 p f) = s (ix2 p f) + ∑ k : Fin 512, x (ix2 p k) * w (ix2 k f) := by
  unfold k0_pay2
  simp only [shapeCast_self, addf_apply]
  congr 1
  exact Cert.LibContract.matmul_zero_apply dot_S512x512_S512x512_S512x512_1_0_0_1_n_n_wf none _ _ p f

/-- The final step: the accumulated sum plus the bias row's entry of the column, under tanh. -/
theorem pay3_apply0 (s : FVec Ideal S512x512 .f32) (b : FVec Ideal S1x512 .f32) (p f : Fin 512) :
    k0_pay3 (F := Ideal) s b (ix2 p f) = Ideal.tanh (s (ix2 p f) + b (ix2 (0 : Fin 1) f)) := by
  unfold k0_pay3
  simp only [shapeCast_self]
  show Ideal.tanh (addf s (broadcastTo S512x512 b broadcasts_S1x512_S512x512) (ix2 p f)) = _
  rw [addf_apply, broadcastTo_1b_ab_apply]

/-! ## Where a point's blocks sit in their arrays -/

/-- The grid is (row block, column block, contraction block), the last innermost: at position `t` the windows' block
    indices, in closed form — decided over the grid. -/
theorem idx0 : ∀ t : Fin cfg0.N,
    win0_0.index t 0 = t.val / 8 ∧ win0_0.index t 1 = t.val % 2 ∧
    win0_1.index t 0 = t.val % 2 ∧ win0_1.index t 1 = t.val / 2 % 4 ∧
    win0_2.index t 0 = 0 ∧ win0_2.index t 1 = t.val / 2 % 4 ∧
    win0_3.index t 0 = t.val / 8 ∧ win0_3.index t 1 = t.val / 2 % 4 :=
  (by decide +kernel : ∀ t : Fin grid0.N,
    win0_0.index t 0 = t.val / 8 ∧ win0_0.index t 1 = t.val % 2 ∧
    win0_1.index t 0 = t.val % 2 ∧ win0_1.index t 1 = t.val / 2 % 4 ∧
    win0_2.index t 0 = 0 ∧ win0_2.index t 1 = t.val / 2 % 4 ∧
    win0_3.index t 0 = t.val / 8 ∧ win0_3.index t 1 = t.val / 2 % 4)

/-- The left operand's block at a point, read at `(p, k)`: the array at the block's offsets plus `(p, k)`. -/
theorem iblk0_0_apply (c : Dev nD) (t : Fin cfg0.N) (p k : Fin 512) (n : Fin 2048) (j : Fin 1024)
    (hn : n.val = win0_0.index t 0 * 512 + p.val) (hj : j.val = win0_0.index t 1 * 512 + k.val) :
    (iblk0 V c 0 t : FVec Ideal S512x512 .f32) (ix2 p k) = V c main_arg0 (ix2 n j) := by
  unfold iblk0
  rw [View.read_apply]
  show V c main_arg0 _ = V c main_arg0 _
  congr 1
  funext a
  apply Fin.ext
  match a with
  | ⟨0, _⟩ => show win0_0.index t 0 * 512 + 1 * p.val = n.val; omega
  | ⟨1, _⟩ => show win0_0.index t 1 * 512 + 1 * k.val = j.val; omega

/-- The right operand's block at a point, read at `(k, f)`. -/
theorem iblk0_1_apply (c : Dev nD) (t : Fin cfg0.N) (k f : Fin 512) (j : Fin 1024) (cc : Fin 2048)
    (hj : j.val = win0_1.index t 0 * 512 + k.val) (hc : cc.val = win0_1.index t 1 * 512 + f.val) :
    (iblk0 V c 1 t : FVec Ideal S512x512 .bf16) (ix2 k f) = V c main_v0 (ix2 j cc) := by
  unfold iblk0
  rw [View.read_apply]
  show V c main_v0 _ = V c main_v0 _
  congr 1
  funext a
  apply Fin.ext
  match a with
  | ⟨0, _⟩ => show win0_1.index t 0 * 512 + 1 * k.val = j.val; omega
  | ⟨1, _⟩ => show win0_1.index t 1 * 512 + 1 * f.val = cc.val; omega

/-- The bias row's block at a point, read at `(0, f)`. -/
theorem iblk0_2_apply (c : Dev nD) (t : Fin cfg0.N) (f : Fin 512) (cc : Fin 2048)
    (h0 : win0_2.index t 0 = 0) (hc : cc.val = win0_2.index t 1 * 512 + f.val) :
    (iblk0 V c 2 t : FVec Ideal S1x512 .f32) (ix2 (0 : Fin 1) f) = V c main_v5 (ix2 (0 : Fin 1) cc) := by
  unfold iblk0
  rw [View.read_apply]
  show V c main_v5 _ = V c main_v5 _
  congr 1
  funext a
  apply Fin.ext
  match a with
  | ⟨0, _⟩ => show win0_2.index t 0 * 1 + 1 * 0 = 0; omega
  | ⟨1, _⟩ => show win0_2.index t 1 * 512 + 1 * f.val = cc.val; omega

/-! ## The flushed block is the dense layer's block -/

/-- At a point that ends a reduction the block written back is that block of the dense layer: the accumulation unrolled
    over the 2 points of the reduction, each block read where its window's index puts it, and the blocks' partial
    sums added in order from zero are the whole contraction. -/
theorem flushed0 (c : Dev nD) (t : Fin cfg0.N) (hf : (cfg0.win 3).flush t = true) :
    (dat0 (F := Ideal) V c).flushed 3 t
      = ((cfg0.win 3).blk t).view.read (Elt Ideal) (Cert.Bridge.denseTanhFn (V c main_arg0) (V c main_v0) (V c main_v5)) := by
  have h1 : t.val % 2 = 1 := (flush0_3 t).mp hf
  have hN : t.val < 32 := lt_of_lt_of_eq t.isLt N_0
  funext y
  show (dat0 (F := Ideal) V c).after 3 t y = _
  rw [after0_3]; unfold out0_3
  rw [acc0_next V c t (by omega),
    acc0_first V c ⟨t.val - 1, by omega⟩ (by dsimp only; omega)]
  rw [View.read_apply]
  obtain ⟨p, f, rfl⟩ : ∃ p f : Fin 512, y = ix2 p f := ⟨y 0, y 1, eq_ix2 y⟩
  rw [pay3_apply0, pay2_apply0, pay2_apply0, pay1_apply0]
  show Ideal.tanh _ = Cert.Bridge.denseTanhFn (V c main_arg0) (V c main_v0) (V c main_v5) _
  have hp := p.isLt; have hf' := f.isLt
  have e : ((cfg0.win 3).blk t).view.emb (ix2 p f) = ix2 (⟨t.val / 8 * 512 + p.val, by omega⟩ : Fin 2048) (⟨t.val / 2 % 4 * 512 + f.val, by omega⟩ : Fin 2048) :=
    funext fun a => Fin.ext (by
      match a with
      | ⟨0, _⟩ => show win0_3.index t 0 * 512 + 1 * p.val = t.val / 8 * 512 + p.val; rw [(idx0 t).2.2.2.2.2.2.1]; omega
      | ⟨1, _⟩ => show win0_3.index t 1 * 512 + 1 * f.val = t.val / 2 % 4 * 512 + f.val; rw [(idx0 t).2.2.2.2.2.2.2]; omega)
  rw [e]
  refine Eq.trans ?_ (Cert.Bridge.denseTanhFn_of_blocks_1024 (V c main_arg0) (V c main_v0) (V c main_v5) (⟨t.val / 8 * 512 + p.val, by omega⟩ : Fin 2048) (⟨t.val / 2 % 4 * 512 + f.val, by omega⟩ : Fin 2048)
    (fun k i => XA0 V c (ix2 (⟨t.val / 8 * 512 + p.val, by omega⟩ : Fin 2048) (jj0 k i)) * WA0 V c (ix2 (jj0 k i) (⟨t.val / 2 % 4 * 512 + f.val, by omega⟩ : Fin 2048)))
    (fun k i j hj => by rw [show jj0 k i = j from Fin.ext hj.symm]))
  refine congrArg Ideal.tanh (congrArg₂ (· + ·) (congrArg₂ (· + ·) (congrArg₂ (· + ·) rfl (Finset.sum_congr rfl fun i _ => ?_)) (Finset.sum_congr rfl fun i _ => ?_)) ?_)
  · rw [iblk0_0_apply V c ⟨t.val - 1, by omega⟩ p i (⟨t.val / 8 * 512 + p.val, by omega⟩ : Fin 2048) (jj0 0 i)
        (by have h := (idx0 ⟨t.val - 1, by omega⟩).1; revert h; (try dsimp only); intro h; show t.val / 8 * 512 + p.val = _; omega)
        (by have h := (idx0 ⟨t.val - 1, by omega⟩).2.1; revert h; (try dsimp only); intro h; show 0 * 512 + i.val = _; omega),
      iblk0_1_apply V c ⟨t.val - 1, by omega⟩ i f (jj0 0 i) (⟨t.val / 2 % 4 * 512 + f.val, by omega⟩ : Fin 2048)
        (by have h := (idx0 ⟨t.val - 1, by omega⟩).2.2.1; revert h; (try dsimp only); intro h; show 0 * 512 + i.val = _; omega)
        (by have h := (idx0 ⟨t.val - 1, by omega⟩).2.2.2.1; revert h; (try dsimp only); intro h; show t.val / 2 % 4 * 512 + f.val = _; omega)]
  · rw [iblk0_0_apply V c t p i (⟨t.val / 8 * 512 + p.val, by omega⟩ : Fin 2048) (jj0 1 i)
        (by have h := (idx0 t).1; revert h; (try dsimp only); intro h; show t.val / 8 * 512 + p.val = _; omega)
        (by have h := (idx0 t).2.1; revert h; (try dsimp only); intro h; show 1 * 512 + i.val = _; omega),
      iblk0_1_apply V c t i f (jj0 1 i) (⟨t.val / 2 % 4 * 512 + f.val, by omega⟩ : Fin 2048)
        (by have h := (idx0 t).2.2.1; revert h; (try dsimp only); intro h; show 1 * 512 + i.val = _; omega)
        (by have h := (idx0 t).2.2.2.1; revert h; (try dsimp only); intro h; show t.val / 2 % 4 * 512 + f.val = _; omega)]
  · exact iblk0_2_apply V c t f _ (idx0 t).2.2.2.2.1
      (by have h := (idx0 t).2.2.2.2.2.1; revert h; (try dsimp only); intro h; show t.val / 2 % 4 * 512 + f.val = _; omega)

/-- Every index of the result array lies in the block of the point that ends the reduction of its row block and column
    block. -/
theorem cover0 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 2048 := (i 0).isLt
  have h1 : (i 1 : Nat) < 2048 := (i 1).isLt
  have hN : cfg0.N = 32 := N_0
  have hT : (i 0 : Nat) / 512 * 8 + (i 1 : Nat) / 512 * 2 + 1 < cfg0.N := by rw [hN]; omega
  refine ⟨⟨_, hT⟩, (flush0_3 _).mpr (by dsimp only; omega), ?_⟩
  show i ∈ ((View.whole main_v6).slice (win0_3.rect ⟨_, hT⟩)).set
  rw [View.set_slice_whole, Rect.mem_set_unit]
  intro a
  match a with
  | ⟨0, _⟩ =>
    show win0_3.index ⟨_, hT⟩ 0 * 512 ≤ (i 0 : Nat) ∧ (i 0 : Nat) < win0_3.index ⟨_, hT⟩ 0 * 512 + 512
    have h := (idx0 ⟨_, hT⟩).2.2.2.2.2.2.1; revert h; (try dsimp only); intro h; omega
  | ⟨1, _⟩ =>
    show win0_3.index ⟨_, hT⟩ 1 * 512 ≤ (i 1 : Nat) ∧ (i 1 : Nat) < win0_3.index ⟨_, hT⟩ 1 * 512 + 512
    have h := (idx0 ⟨_, hT⟩).2.2.2.2.2.2.2; revert h; (try dsimp only); intro h; omega

/-- THE RESULT: after the run the region's result array holds the dense layer under tanh of the arrays its windows
    stage. -/
theorem final0 (c : Dev nD) :
    (dat0 (F := Ideal) V c).arrAt 3 cfg0.N = Cert.Bridge.denseTanhFn (V c main_arg0) (V c main_v0) (V c main_v5) :=
  (dat0 (F := Ideal) V c).arrAt_eq_of_cover 3 _ (flushed0 V c) (cover0 c)

end Cert.KernelIdeal.HandVal
end
-- ==== Proof.KIV.Val1.lean ====
import proofs.«115712_j50027779064181_2_alg».proof.Proof.KI.Reg1
import proofs.«115712_j50027779064181_2_alg».proof.Proof.Val.DenseFns
import proofs.«115712_j50027779064181_2_alg».proof.Proof.LibContract
import Idealize.ShloMosaic.Lib.ValueIdx
import Idealize.ShloMosaic.Lib.ValueLayout
import Idealize.ShloMosaic.Lib.Pipeline.Value
set_option maxRecDepth 16384
noncomputable section
namespace Cert.KernelIdeal.HandVal
open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators
-- the TensorCore's buffer contents when the region is entered
variable (V : (c : Dev nD) → (b : Ref sig .tc) → Buf (Elt Ideal) ((c : Thread nD τ).loc b))

/-- Place `i` of contraction block `k` as an index of the whole contracted axis. -/
def jj1 (k : Fin 2) (i : Fin 512) : Fin 1024 := ⟨k.val * 512 + i.val, by have := k.isLt; have := i.isLt; omega⟩

/-- The left operand's array and the right operand's, as the region finds them, typed as arrays of extended reals. -/
abbrev XA1 (c : Dev nD) : (⟨2, ![2048, 1024]⟩ : Shape).Idx → EReal := V c main_arg0
abbrev WA1 (c : Dev nD) : (⟨2, ![1024, 2048]⟩ : Shape).Idx → EReal := V c main_v1

/-! # Region 1: what the result array holds after the run

The region computes a matrix product in blocks of 512 along the contracted axis, accumulated from zero, and at the
last block adds the bias row. Read index by index on the extended reals this is the dense layer of
the arrays the windows stage. -/

/-! ## The stored values at an index -/

/-- The zero block. -/
theorem pay1_apply1 (y : S512x512.Idx) : k1_pay1 (F := Ideal) y = 0 := by
  unfold k1_pay1
  simp only [shapeCast_self, broadcast_apply]
  exact Ideal.ofBits_zero_f32

/-- The accumulation step: what the accumulator held plus the product of the two blocks (the rounding of the operands to
    bf16 is the identity on the extended reals). -/
theorem pay2_apply1 (x : FVec Ideal S512x512 .f32) (w : FVec Ideal S512x512 .bf16) (s : FVec Ideal S512x512 .f32) (p f : Fin 512) :
    k1_pay2 x w s (ix2 p f) = s (ix2 p f) + ∑ k : Fin 512, x (ix2 p k) * w (ix2 k f) := by
  unfold k1_pay2
  simp only [shapeCast_self, addf_apply]
  congr 1
  exact Cert.LibContract.matmul_zero_apply dot_S512x512_S512x512_S512x512_1_0_0_1_n_n_wf none _ _ p f

/-- The final step: the accumulated sum plus the bias row's entry of the column. -/
theorem pay3_apply1 (s : FVec Ideal S512x512 .f32) (b : FVec Ideal S1x512 .f32) (p f : Fin 512) :
    k1_pay3 (F := Ideal) s b (ix2 p f) = s (ix2 p f) + b (ix2 (0 : Fin 1) f) := by
  unfold k1_pay3
  simp only [shapeCast_self]
  show addf s (broadcastTo S512x512 b broadcasts_S1x512_S512x512) (ix2 p f) = _
  rw [addf_apply, broadcastTo_1b_ab_apply]

/-! ## Where a point's blocks sit in their arrays -/

/-- The grid is (row block, column block, contraction block), the last innermost: at position `t` the windows' block
    indices, in closed form — decided over the grid. -/
theorem idx1 : ∀ t : Fin cfg1.N,
    win1_0.index t 0 = t.val / 8 ∧ win1_0.index t 1 = t.val % 2 ∧
    win1_1.index t 0 = t.val % 2 ∧ win1_1.index t 1 = t.val / 2 % 4 ∧
    win1_2.index t 0 = 0 ∧ win1_2.index t 1 = t.val / 2 % 4 ∧
    win1_3.index t 0 = t.val / 8 ∧ win1_3.index t 1 = t.val / 2 % 4 :=
  (by decide +kernel : ∀ t : Fin grid1.N,
    win1_0.index t 0 = t.val / 8 ∧ win1_0.index t 1 = t.val % 2 ∧
    win1_1.index t 0 = t.val % 2 ∧ win1_1.index t 1 = t.val / 2 % 4 ∧
    win1_2.index t 0 = 0 ∧ win1_2.index t 1 = t.val / 2 % 4 ∧
    win1_3.index t 0 = t.val / 8 ∧ win1_3.index t 1 = t.val / 2 % 4)

/-- The left operand's block at a point, read at `(p, k)`: the array at the block's offsets plus `(p, k)`. -/
theorem iblk1_0_apply (c : Dev nD) (t : Fin cfg1.N) (p k : Fin 512) (n : Fin 2048) (j : Fin 1024)
    (hn : n.val = win1_0.index t 0 * 512 + p.val) (hj : j.val = win1_0.index t 1 * 512 + k.val) :
    (iblk1 V c 0 t : FVec Ideal S512x512 .f32) (ix2 p k) = V c main_arg0 (ix2 n j) := by
  unfold iblk1
  rw [View.read_apply]
  show V c main_arg0 _ = V c main_arg0 _
  congr 1
  funext a
  apply Fin.ext
  match a with
  | ⟨0, _⟩ => show win1_0.index t 0 * 512 + 1 * p.val = n.val; omega
  | ⟨1, _⟩ => show win1_0.index t 1 * 512 + 1 * k.val = j.val; omega

/-- The right operand's block at a point, read at `(k, f)`. -/
theorem iblk1_1_apply (c : Dev nD) (t : Fin cfg1.N) (k f : Fin 512) (j : Fin 1024) (cc : Fin 2048)
    (hj : j.val = win1_1.index t 0 * 512 + k.val) (hc : cc.val = win1_1.index t 1 * 512 + f.val) :
    (iblk1 V c 1 t : FVec Ideal S512x512 .bf16) (ix2 k f) = V c main_v1 (ix2 j cc) := by
  unfold iblk1
  rw [View.read_apply]
  show V c main_v1 _ = V c main_v1 _
  congr 1
  funext a
  apply Fin.ext
  match a with
  | ⟨0, _⟩ => show win1_1.index t 0 * 512 + 1 * k.val = j.val; omega
  | ⟨1, _⟩ => show win1_1.index t 1 * 512 + 1 * f.val = cc.val; omega

/-- The bias row's block at a point, read at `(0, f)`. -/
theorem iblk1_2_apply (c : Dev nD) (t : Fin cfg1.N) (f : Fin 512) (cc : Fin 2048)
    (h0 : win1_2.index t 0 = 0) (hc : cc.val = win1_2.index t 1 * 512 + f.val) :
    (iblk1 V c 2 t : FVec Ideal S1x512 .f32) (ix2 (0 : Fin 1) f) = V c main_v7 (ix2 (0 : Fin 1) cc) := by
  unfold iblk1
  rw [View.read_apply]
  show V c main_v7 _ = V c main_v7 _
  congr 1
  funext a
  apply Fin.ext
  match a with
  | ⟨0, _⟩ => show win1_2.index t 0 * 1 + 1 * 0 = 0; omega
  | ⟨1, _⟩ => show win1_2.index t 1 * 512 + 1 * f.val = cc.val; omega

/-! ## The flushed block is the dense layer's block -/

/-- At a point that ends a reduction the block written back is that block of the dense layer: the accumulation unrolled
    over the 2 points of the reduction, each block read where its window's index puts it, and the blocks' partial
    sums added in order from zero are the whole contraction. -/
theorem flushed1 (c : Dev nD) (t : Fin cfg1.N) (hf : (cfg1.win 3).flush t = true) :
    (dat1 (F := Ideal) V c).flushed 3 t
      = ((cfg1.win 3).blk t).view.read (Elt Ideal) (Cert.Bridge.denseFn (V c main_arg0) (V c main_v1) (V c main_v7)) := by
  have h1 : t.val % 2 = 1 := (flush1_3 t).mp hf
  have hN : t.val < 32 := lt_of_lt_of_eq t.isLt N_1
  funext y
  show (dat1 (F := Ideal) V c).after 3 t y = _
  rw [after1_3]; unfold out1_3
  rw [acc1_next V c t (by omega),
    acc1_first V c ⟨t.val - 1, by omega⟩ (by dsimp only; omega)]
  rw [View.read_apply]
  obtain ⟨p, f, rfl⟩ : ∃ p f : Fin 512, y = ix2 p f := ⟨y 0, y 1, eq_ix2 y⟩
  rw [pay3_apply1, pay2_apply1, pay2_apply1, pay1_apply1]
  show _ = Cert.Bridge.denseFn (V c main_arg0) (V c main_v1) (V c main_v7) _
  have hp := p.isLt; have hf' := f.isLt
  have e : ((cfg1.win 3).blk t).view.emb (ix2 p f) = ix2 (⟨t.val / 8 * 512 + p.val, by omega⟩ : Fin 2048) (⟨t.val / 2 % 4 * 512 + f.val, by omega⟩ : Fin 2048) :=
    funext fun a => Fin.ext (by
      match a with
      | ⟨0, _⟩ => show win1_3.index t 0 * 512 + 1 * p.val = t.val / 8 * 512 + p.val; rw [(idx1 t).2.2.2.2.2.2.1]; omega
      | ⟨1, _⟩ => show win1_3.index t 1 * 512 + 1 * f.val = t.val / 2 % 4 * 512 + f.val; rw [(idx1 t).2.2.2.2.2.2.2]; omega)
  rw [e]
  refine Eq.trans ?_ (Cert.Bridge.denseFn_of_blocks_1024 (V c main_arg0) (V c main_v1) (V c main_v7) (⟨t.val / 8 * 512 + p.val, by omega⟩ : Fin 2048) (⟨t.val / 2 % 4 * 512 + f.val, by omega⟩ : Fin 2048)
    (fun k i => XA1 V c (ix2 (⟨t.val / 8 * 512 + p.val, by omega⟩ : Fin 2048) (jj1 k i)) * WA1 V c (ix2 (jj1 k i) (⟨t.val / 2 % 4 * 512 + f.val, by omega⟩ : Fin 2048)))
    (fun k i j hj => by rw [show jj1 k i = j from Fin.ext hj.symm]))
  refine congrArg₂ (· + ·) (congrArg₂ (· + ·) (congrArg₂ (· + ·) rfl (Finset.sum_congr rfl fun i _ => ?_)) (Finset.sum_congr rfl fun i _ => ?_)) ?_
  · rw [iblk1_0_apply V c ⟨t.val - 1, by omega⟩ p i (⟨t.val / 8 * 512 + p.val, by omega⟩ : Fin 2048) (jj1 0 i)
        (by have h := (idx1 ⟨t.val - 1, by omega⟩).1; revert h; (try dsimp only); intro h; show t.val / 8 * 512 + p.val = _; omega)
        (by have h := (idx1 ⟨t.val - 1, by omega⟩).2.1; revert h; (try dsimp only); intro h; show 0 * 512 + i.val = _; omega),
      iblk1_1_apply V c ⟨t.val - 1, by omega⟩ i f (jj1 0 i) (⟨t.val / 2 % 4 * 512 + f.val, by omega⟩ : Fin 2048)
        (by have h := (idx1 ⟨t.val - 1, by omega⟩).2.2.1; revert h; (try dsimp only); intro h; show 0 * 512 + i.val = _; omega)
        (by have h := (idx1 ⟨t.val - 1, by omega⟩).2.2.2.1; revert h; (try dsimp only); intro h; show t.val / 2 % 4 * 512 + f.val = _; omega)]
  · rw [iblk1_0_apply V c t p i (⟨t.val / 8 * 512 + p.val, by omega⟩ : Fin 2048) (jj1 1 i)
        (by have h := (idx1 t).1; revert h; (try dsimp only); intro h; show t.val / 8 * 512 + p.val = _; omega)
        (by have h := (idx1 t).2.1; revert h; (try dsimp only); intro h; show 1 * 512 + i.val = _; omega),
      iblk1_1_apply V c t i f (jj1 1 i) (⟨t.val / 2 % 4 * 512 + f.val, by omega⟩ : Fin 2048)
        (by have h := (idx1 t).2.2.1; revert h; (try dsimp only); intro h; show 1 * 512 + i.val = _; omega)
        (by have h := (idx1 t).2.2.2.1; revert h; (try dsimp only); intro h; show t.val / 2 % 4 * 512 + f.val = _; omega)]
  · exact iblk1_2_apply V c t f _ (idx1 t).2.2.2.2.1
      (by have h := (idx1 t).2.2.2.2.2.1; revert h; (try dsimp only); intro h; show t.val / 2 % 4 * 512 + f.val = _; omega)

/-- Every index of the result array lies in the block of the point that ends the reduction of its row block and column
    block. -/
theorem cover1 (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0 : Nat) < 2048 := (i 0).isLt
  have h1 : (i 1 : Nat) < 2048 := (i 1).isLt
  have hN : cfg1.N = 32 := N_1
  have hT : (i 0 : Nat) / 512 * 8 + (i 1 : Nat) / 512 * 2 + 1 < cfg1.N := by rw [hN]; omega
  refine ⟨⟨_, hT⟩, (flush1_3 _).mpr (by dsimp only; omega), ?_⟩
  show i ∈ ((View.whole main_v8).slice (win1_3.rect ⟨_, hT⟩)).set
  rw [View.set_slice_whole, Rect.mem_set_unit]
  intro a
  match a with
  | ⟨0, _⟩ =>
    show win1_3.index ⟨_, hT⟩ 0 * 512 ≤ (i 0 : Nat) ∧ (i 0 : Nat) < win1_3.index ⟨_, hT⟩ 0 * 512 + 512
    have h := (idx1 ⟨_, hT⟩).2.2.2.2.2.2.1; revert h; (try dsimp only); intro h; omega
  | ⟨1, _⟩ =>
    show win1_3.index ⟨_, hT⟩ 1 * 512 ≤ (i 1 : Nat) ∧ (i 1 : Nat) < win1_3.index ⟨_, hT⟩ 1 * 512 + 512
    have h := (idx1 ⟨_, hT⟩).2.2.2.2.2.2.2; revert h; (try dsimp only); intro h; omega

/-- THE RESULT: after the run the region's result array holds the dense layer of the arrays its windows
    stage. -/
theorem final1 (c : Dev nD) :
    (dat1 (F := Ideal) V c).arrAt 3 cfg1.N = Cert.Bridge.denseFn (V c main_arg0) (V c main_v1) (V c main_v7) :=
  (dat1 (F := Ideal) V c).arrAt_eq_of_cover 3 _ (flushed1 V c) (cover1 c)

end Cert.KernelIdeal.HandVal
end
-- ==== Proof.KIV.Val2.lean ====
import proofs.«115712_j50027779064181_2_alg».proof.Proof.KI.Reg2
import proofs.«115712_j50027779064181_2_alg».proof.Proof.Val.DenseFns
import proofs.«115712_j50027779064181_2_alg».proof.Proof.LibContract
import Idealize.ShloMosaic.Lib.ValueIdx
import Idealize.ShloMosaic.Lib.ValueLayout
import Idealize.ShloMosaic.Lib.Pipeline.Value
set_option maxRecDepth 16384
noncomputable section
namespace Cert.KernelIdeal.HandVal
open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators
-- the TensorCore's buffer contents when the region is entered
variable (V : (c : Dev nD) → (b : Ref sig .tc) → Buf (Elt Ideal) ((c : Thread nD τ).loc b))

/-- Place `i` of contraction block `k` as an index of the whole contracted axis. -/
def jj2 (k : Fin 4) (i : Fin 512) : Fin 2048 := ⟨k.val * 512 + i.val, by have := k.isLt; have := i.isLt; omega⟩

/-- The left operand's array and the right operand's, as the region finds them, typed as arrays of extended reals. -/
abbrev XA2 (c : Dev nD) : (⟨2, ![2048, 2048]⟩ : Shape).Idx → EReal := V c main_v6
abbrev WA2 (c : Dev nD) : (⟨2, ![2048, 2048]⟩ : Shape).Idx → EReal := V c main_v2

/-! # Region 2: what the result array holds after the run

The region computes a matrix product in blocks of 512 along the contracted axis, accumulated from zero, and at the
last block adds the bias row. Read index by index on the extended reals this is the dense layer of
the arrays the windows stage. -/

/-! ## The stored values at an index -/

/-- The zero block. -/
theorem pay1_apply2 (y : S512x512.Idx) : k2_pay1 (F := Ideal) y = 0 := by
  unfold k2_pay1
  simp only [shapeCast_self, broadcast_apply]
  exact Ideal.ofBits_zero_f32

/-- The accumulation step: what the accumulator held plus the product of the two blocks (the rounding of the operands to
    bf16 is the identity on the extended reals). -/
theorem pay2_apply2 (x : FVec Ideal S512x512 .f32) (w : FVec Ideal S512x512 .bf16) (s : FVec Ideal S512x512 .f32) (p f : Fin 512) :
    k2_pay2 x w s (ix2 p f) = s (ix2 p f) + ∑ k : Fin 512, x (ix2 p k) * w (ix2 k f) := by
  unfold k2_pay2
  simp only [shapeCast_self, addf_apply]
  congr 1
  exact Cert.LibContract.matmul_zero_apply dot_S512x512_S512x512_S512x512_1_0_0_1_n_n_wf none _ _ p f

/-- The final step: the accumulated sum plus the bias row's entry of the column. -/
theorem pay3_apply2 (s : FVec Ideal S512x512 .f32) (b : FVec Ideal S1x512 .f32) (p f : Fin 512) :
    k2_pay3 (F := Ideal) s b (ix2 p f) = s (ix2 p f) + b (ix2 (0 : Fin 1) f) := by
  unfold k2_pay3
  simp only [shapeCast_self]
  show addf s (broadcastTo S512x512 b broadcasts_S1x512_S512x512) (ix2 p f) = _
  rw [addf_apply, broadcastTo_1b_ab_apply]

/-! ## Where a point's blocks sit in their arrays -/

/-- The grid is (row block, column block, contraction block), the last innermost: at position `t` the windows' block
    indices, in closed form — decided over the grid. -/
theorem idx2 : ∀ t : Fin cfg2.N,
    win2_0.index t 0 = t.val / 16 ∧ win2_0.index t 1 = t.val % 4 ∧
    win2_1.index t 0 = t.val % 4 ∧ win2_1.index t 1 = t.val / 4 % 4 ∧
    win2_2.index t 0 = 0 ∧ win2_2.index t 1 = t.val / 4 % 4 ∧
    win2_3.index t 0 = t.val / 16 ∧ win2_3.index t 1 = t.val / 4 % 4 :=
  (by decide +kernel : ∀ t : Fin grid2.N,
    win2_0.index t 0 = t.val / 16 ∧ win2_0.index t 1 = t.val % 4 ∧
    win2_1.index t 0 = t.val % 4 ∧ win2_1.index t 1 = t.val / 4 % 4 ∧
    win2_2.index t 0 = 0 ∧ win2_2.index t 1 = t.val / 4 % 4 ∧
    win2_3.index t 0 = t.val / 16 ∧ win2_3.index t 1 = t.val / 4 % 4)

/-- The left operand's block at a point, read at `(p, k)`: the array at the block's offsets plus `(p, k)`. -/
theorem iblk2_0_apply (c : Dev nD) (t : Fin cfg2.N) (p k : Fin 512) (n : Fin 2048) (j : Fin 2048)
    (hn : n.val = win2_0.index t 0 * 512 + p.val) (hj : j.val = win2_0.index t 1 * 512 + k.val) :
    (iblk2 V c 0 t : FVec Ideal S512x512 .f32) (ix2 p k) = V c main_v6 (ix2 n j) := by
  unfold iblk2
  rw [View.read_apply]
  show V c main_v6 _ = V c main_v6 _
  congr 1
  funext a
  apply Fin.ext
  match a with
  | ⟨0, _⟩ => show win2_0.index t 0 * 512 + 1 * p.val = n.val; omega
  | ⟨1, _⟩ => show win2_0.index t 1 * 512 + 1 * k.val = j.val; omega

/-- The right operand's block at a point, read at `(k, f)`. -/
theorem iblk2_1_apply (c : Dev nD) (t : Fin cfg2.N) (k f : Fin 512) (j : Fin 2048) (cc : Fin 2048)
    (hj : j.val = win2_1.index t 0 * 512 + k.val) (hc : cc.val = win2_1.index t 1 * 512 + f.val) :
    (iblk2 V c 1 t : FVec Ideal S512x512 .bf16) (ix2 k f) = V c main_v2 (ix2 j cc) := by
  unfold iblk2
  rw [View.read_apply]
  show V c main_v2 _ = V c main_v2 _
  congr 1
  funext a
  apply Fin.ext
  match a with
  | ⟨0, _⟩ => show win2_1.index t 0 * 512 + 1 * k.val = j.val; omega
  | ⟨1, _⟩ => show win2_1.index t 1 * 512 + 1 * f.val = cc.val; omega

/-- The bias row's block at a point, read at `(0, f)`. -/
theorem iblk2_2_apply (c : Dev nD) (t : Fin cfg2.N) (f : Fin 512) (cc : Fin 2048)
    (h0 : win2_2.index t 0 = 0) (hc : cc.val = win2_2.index t 1 * 512 + f.val) :
    (iblk2 V c 2 t : FVec Ideal S1x512 .f32) (ix2 (0 : Fin 1) f) = V c main_v9 (ix2 (0 : Fin 1) cc) := by
  unfold iblk2
  rw [View.read_apply]
  show V c main_v9 _ = V c main_v9 _
  congr 1
  funext a
  apply Fin.ext
  match a with
  | ⟨0, _⟩ => show win2_2.index t 0 * 1 + 1 * 0 = 0; omega
  | ⟨1, _⟩ => show win2_2.index t 1 * 512 + 1 * f.val = cc.val; omega

/-! ## The flushed block is the dense layer's block -/

/-- At a point that ends a reduction the block written back is that block of the dense layer: the accumulation unrolled
    over the 4 points of the reduction, each block read where its window's index puts it, and the blocks' partial
    sums added in order from zero are the whole contraction. -/
theorem flushed2 (c : Dev nD) (t : Fin cfg2.N) (hf : (cfg2.win 3).flush t = true) :
    (dat2 (F := Ideal) V c).flushed 3 t
      = ((cfg2.win 3).blk t).view.read (Elt Ideal) (Cert.Bridge.denseFn (V c main_v6) (V c main_v2) (V c main_v9)) := by
  have h1 : t.val % 4 = 3 := (flush2_3 t).mp hf
  have hN : t.val < 64 := lt_of_lt_of_eq t.isLt N_2
  funext y
  show (dat2 (F := Ideal) V c).after 3 t y = _
  rw [after2_3]; unfold out2_3
  rw [acc2_next V c t (by omega),
    acc2_next V c ⟨t.val - 1, by omega⟩ (by dsimp only; omega),
    acc2_next V c ⟨t.val - 1 - 1, by omega⟩ (by dsimp only; omega),
    acc2_first V c ⟨t.val - 1 - 1 - 1, by omega⟩ (by dsimp only; omega)]
  rw [View.read_apply]
  obtain ⟨p, f, rfl⟩ : ∃ p f : Fin 512, y = ix2 p f := ⟨y 0, y 1, eq_ix2 y⟩
  rw [pay3_apply2, pay2_apply2, pay2_apply2, pay2_apply2, pay2_apply2, pay1_apply2]
  show _ = Cert.Bridge.denseFn (V c main_v6) (V c main_v2) (V c main_v9) _
  have hp := p.isLt; have hf' := f.isLt
  have e : ((cfg2.win 3).blk t).view.emb (ix2 p f) = ix2 (⟨t.val / 16 * 512 + p.val, by omega⟩ : Fin 2048) (⟨t.val / 4 % 4 * 512 + f.val, by omega⟩ : Fin 2048) :=
    funext fun a => Fin.ext (by
      match a with
      | ⟨0, _⟩ => show win2_3.index t 0 * 512 + 1 * p.val = t.val / 16 * 512 + p.val; rw [(idx2 t).2.2.2.2.2.2.1]; omega
      | ⟨1, _⟩ => show win2_3.index t 1 * 512 + 1 * f.val = t.val / 4 % 4 * 512 + f.val; rw [(idx2 t).2.2.2.2.2.2.2]; omega)
  rw [e]
  refine Eq.trans ?_ (Cert.Bridge.denseFn_of_blocks_2048 (V c main_v6) (V c main_v2) (V c main_v9) (⟨t.val / 16 * 512 + p.val, by omega⟩ : Fin 2048) (⟨t.val / 4 % 4 * 512 + f.val, by omega⟩ : Fin 2048)
    (fun k i => XA2 V c (ix2 (⟨t.val / 16 * 512 + p.val, by omega⟩ : Fin 2048) (jj2 k i)) * WA2 V c (ix2 (jj2 k i) (⟨t.val / 4 % 4 * 512 + f.val, by omega⟩ : Fin 2048)))
    (fun k i j hj => by rw [show jj2 k i = j from Fin.ext hj.symm]))
  refine congrArg₂ (· + ·) (congrArg₂ (· + ·) (congrArg₂ (· + ·) (congrArg₂ (· + ·) (congrArg₂ (· + ·) rfl (Finset.sum_congr rfl fun i _ => ?_)) (Finset.sum_congr rfl fun i _ => ?_)) (Finset.sum_congr rfl fun i _ => ?_)) (Finset.sum_congr rfl fun i _ => ?_)) ?_
  · rw [iblk2_0_apply V c ⟨t.val - 1 - 1 - 1, by omega⟩ p i (⟨t.val / 16 * 512 + p.val, by omega⟩ : Fin 2048) (jj2 0 i)
        (by have h := (idx2 ⟨t.val - 1 - 1 - 1, by omega⟩).1; revert h; (try dsimp only); intro h; show t.val / 16 * 512 + p.val = _; omega)
        (by have h := (idx2 ⟨t.val - 1 - 1 - 1, by omega⟩).2.1; revert h; (try dsimp only); intro h; show 0 * 512 + i.val = _; omega),
      iblk2_1_apply V c ⟨t.val - 1 - 1 - 1, by omega⟩ i f (jj2 0 i) (⟨t.val / 4 % 4 * 512 + f.val, by omega⟩ : Fin 2048)
        (by have h := (idx2 ⟨t.val - 1 - 1 - 1, by omega⟩).2.2.1; revert h; (try dsimp only); intro h; show 0 * 512 + i.val = _; omega)
        (by have h := (idx2 ⟨t.val - 1 - 1 - 1, by omega⟩).2.2.2.1; revert h; (try dsimp only); intro h; show t.val / 4 % 4 * 512 + f.val = _; omega)]
  · rw [iblk2_0_apply V c ⟨t.val - 1 - 1, by omega⟩ p i (⟨t.val / 16 * 512 + p.val, by omega⟩ : Fin 2048) (jj2 1 i)
        (by have h := (idx2 ⟨t.val - 1 - 1, by omega⟩).1; revert h; (try dsimp only); intro h; show t.val / 16 * 512 + p.val = _; omega)
        (by have h := (idx2 ⟨t.val - 1 - 1, by omega⟩).2.1; revert h; (try dsimp only); intro h; show 1 * 512 + i.val = _; omega),
      iblk2_1_apply V c ⟨t.val - 1 - 1, by omega⟩ i f (jj2 1 i) (⟨t.val / 4 % 4 * 512 + f.val, by omega⟩ : Fin 2048)
        (by have h := (idx2 ⟨t.val - 1 - 1, by omega⟩).2.2.1; revert h; (try dsimp only); intro h; show 1 * 512 + i.val = _; omega)
        (by have h := (idx2 ⟨t.val - 1 - 1, by omega⟩).2.2.2.1; revert h; (try dsimp only); intro h; show t.val / 4 % 4 * 512 + f.val = _; omega)]
  · rw [iblk2_0_apply V c ⟨t.val - 1, by omega⟩ p i (⟨t.val / 16 * 512 + p.val, by omega⟩ : Fin 2048) (jj2 2 i)
        (by have h := (idx2 ⟨t.val - 1, by omega⟩).1; revert h; (try dsimp only); intro h; show t.val / 16 * 512 + p.val = _; omega)
        (by have h := (idx2 ⟨t.val - 1, by omega⟩).2.1; revert h; (try dsimp only); intro h; show 2 * 512 + i.val = _; omega),
      iblk2_1_apply V c ⟨t.val - 1, by omega⟩ i f (jj2 2 i) (⟨t.val / 4 % 4 * 512 + f.val, by omega⟩ : Fin 2048)
        (by have h := (idx2 ⟨t.val - 1, by omega⟩).2.2.1; revert h; (try dsimp only); intro h; show 2 * 512 + i.val = _; omega)
        (by have h := (idx2 ⟨t.val - 1, by omega⟩).2.2.2.1; revert h; (try dsimp only); intro h; show t.val / 4 % 4 * 512 + f.val = _; omega)]
  · rw [iblk2_0_apply V c t p i (⟨t.val / 16 * 512 + p.val, by omega⟩ : Fin 2048) (jj2 3 i)
        (by have h := (idx2 t).1; revert h; (try dsimp only); intro h; show t.val / 16 * 512 + p.val = _; omega)
        (by have h := (idx2 t).2.1; revert h; (try dsimp only); intro h; show 3 * 512 + i.val = _; omega),
      iblk2_1_apply V c t i f (jj2 3 i) (⟨t.val / 4 % 4 * 512 + f.val, by omega⟩ : Fin 2048)
        (by have h := (idx2 t).2.2.1; revert h; (try dsimp only); intro h; show 3 * 512 + i.val = _; omega)
        (by have h := (idx2 t).2.2.2.1; revert h; (try dsimp only); intro h; show t.val / 4 % 4 * 512 + f.val = _; omega)]
  · exact iblk2_2_apply V c t f _ (idx2 t).2.2.2.2.1
      (by have h := (idx2 t).2.2.2.2.2.1; revert h; (try dsimp only); intro h; show t.val / 4 % 4 * 512 + f.val = _; omega)

/-- Every index of the result array lies in the block of the point that ends the reduction of its row block and column
    block. -/
theorem cover2 (c : Dev nD) (i : ((cfg2.win 3).arr.view.loc (c.tc : Thread nD τ)).2.ty.Idx) :
    ∃ t : Fin cfg2.N, (cfg2.win 3).flush t = true ∧ i ∈ ((cfg2.win 3).blk t).view.set := by
  have h0 : (i 0 : Nat) < 2048 := (i 0).isLt
  have h1 : (i 1 : Nat) < 2048 := (i 1).isLt
  have hN : cfg2.N = 64 := N_2
  have hT : (i 0 : Nat) / 512 * 16 + (i 1 : Nat) / 512 * 4 + 3 < cfg2.N := by rw [hN]; omega
  refine ⟨⟨_, hT⟩, (flush2_3 _).mpr (by dsimp only; omega), ?_⟩
  show i ∈ ((View.whole main_v10).slice (win2_3.rect ⟨_, hT⟩)).set
  rw [View.set_slice_whole, Rect.mem_set_unit]
  intro a
  match a with
  | ⟨0, _⟩ =>
    show win2_3.index ⟨_, hT⟩ 0 * 512 ≤ (i 0 : Nat) ∧ (i 0 : Nat) < win2_3.index ⟨_, hT⟩ 0 * 512 + 512
    have h := (idx2 ⟨_, hT⟩).2.2.2.2.2.2.1; revert h; (try dsimp only); intro h; omega
  | ⟨1, _⟩ =>
    show win2_3.index ⟨_, hT⟩ 1 * 512 ≤ (i 1 : Nat) ∧ (i 1 : Nat) < win2_3.index ⟨_, hT⟩ 1 * 512 + 512
    have h := (idx2 ⟨_, hT⟩).2.2.2.2.2.2.2; revert h; (try dsimp only); intro h; omega

/-- THE RESULT: after the run the region's result array holds the dense layer of the arrays its windows
    stage. -/
theorem final2 (c : Dev nD) :
    (dat2 (F := Ideal) V c).arrAt 3 cfg2.N = Cert.Bridge.denseFn (V c main_v6) (V c main_v2) (V c main_v9) :=
  (dat2 (F := Ideal) V c).arrAt_eq_of_cover 3 _ (flushed2 V c) (cover2 c)

end Cert.KernelIdeal.HandVal
end
-- ==== Proof.KIV.Val3.lean ====
import proofs.«115712_j50027779064181_2_alg».proof.Proof.KI.Reg3
import proofs.«115712_j50027779064181_2_alg».proof.Proof.Val.DenseFns
import proofs.«115712_j50027779064181_2_alg».proof.Proof.LibContract
import Idealize.ShloMosaic.Lib.ValueIdx
import Idealize.ShloMosaic.Lib.ValueLayout
import Idealize.ShloMosaic.Lib.Pipeline.Value
set_option maxRecDepth 16384
noncomputable section
namespace Cert.KernelIdeal.HandVal
open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators
-- the TensorCore's buffer contents when the region is entered
variable (V : (c : Dev nD) → (b : Ref sig .tc) → Buf (Elt Ideal) ((c : Thread nD τ).loc b))

/-- Place `i` of contraction block `k` as an index of the whole contracted axis. -/
def jj3 (k : Fin 4) (i : Fin 512) : Fin 2048 := ⟨k.val * 512 + i.val, by have := k.isLt; have := i.isLt; omega⟩

/-- The left operand's array and the right operand's, as the region finds them, typed as arrays of extended reals. -/
abbrev XA3 (c : Dev nD) : (⟨2, ![2048, 2048]⟩ : Shape).Idx → EReal := V c main_v6
abbrev WA3 (c : Dev nD) : (⟨2, ![2048, 2048]⟩ : Shape).Idx → EReal := V c main_v3

/-! # Region 3: what the result array holds after the run

The region computes a matrix product in blocks of 512 along the contracted axis, accumulated from zero, and at the
last block adds the bias row. Read index by index on the extended reals this is the dense layer of
the arrays the windows stage. -/

/-! ## The stored values at an index -/

/-- The zero block. -/
theorem pay1_apply3 (y : S512x512.Idx) : k3_pay1 (F := Ideal) y = 0 := by
  unfold k3_pay1
  simp only [shapeCast_self, broadcast_apply]
  exact Ideal.ofBits_zero_f32

/-- The accumulation step: what the accumulator held plus the product of the two blocks (the rounding of the operands to
    bf16 is the identity on the extended reals). -/
theorem pay2_apply3 (x : FVec Ideal S512x512 .f32) (w : FVec Ideal S512x512 .bf16) (s : FVec Ideal S512x512 .f32) (p f : Fin 512) :
    k3_pay2 x w s (ix2 p f) = s (ix2 p f) + ∑ k : Fin 512, x (ix2 p k) * w (ix2 k f) := by
  unfold k3_pay2
  simp only [shapeCast_self, addf_apply]
  congr 1
  exact Cert.LibContract.matmul_zero_apply dot_S512x512_S512x512_S512x512_1_0_0_1_n_n_wf none _ _ p f

/-- The final step: the accumulated sum plus the bias row's entry of the column. -/
theorem pay3_apply3 (s : FVec Ideal S512x512 .f32) (b : FVec Ideal S1x512 .f32) (p f : Fin 512) :
    k3_pay3 (F := Ideal) s b (ix2 p f) = s (ix2 p f) + b (ix2 (0 : Fin 1) f) := by
  unfold k3_pay3
  simp only [shapeCast_self]
  show addf s (broadcastTo S512x512 b broadcasts_S1x512_S512x512) (ix2 p f) = _
  rw [addf_apply, broadcastTo_1b_ab_apply]

/-! ## Where a point's blocks sit in their arrays -/

/-- The grid is (row block, column block, contraction block), the last innermost: at position `t` the windows' block
    indices, in closed form — decided over the grid. -/
theorem idx3 : ∀ t : Fin cfg3.N,
    win3_0.index t 0 = t.val / 16 ∧ win3_0.index t 1 = t.val % 4 ∧
    win3_1.index t 0 = t.val % 4 ∧ win3_1.index t 1 = t.val / 4 % 4 ∧
    win3_2.index t 0 = 0 ∧ win3_2.index t 1 = t.val / 4 % 4 ∧
    win3_3.index t 0 = t.val / 16 ∧ win3_3.index t 1 = t.val / 4 % 4 :=
  (by decide +kernel : ∀ t : Fin grid3.N,
    win3_0.index t 0 = t.val / 16 ∧ win3_0.index t 1 = t.val % 4 ∧
    win3_1.index t 0 = t.val % 4 ∧ win3_1.index t 1 = t.val / 4 % 4 ∧
    win3_2.index t 0 = 0 ∧ win3_2.index t 1 = t.val / 4 % 4 ∧
    win3_3.index t 0 = t.val / 16 ∧ win3_3.index t 1 = t.val / 4 % 4)

/-- The left operand's block at a point, read at `(p, k)`: the array at the block's offsets plus `(p, k)`. -/
theorem iblk3_0_apply (c : Dev nD) (t : Fin cfg3.N) (p k : Fin 512) (n : Fin 2048) (j : Fin 2048)
    (hn : n.val = win3_0.index t 0 * 512 + p.val) (hj : j.val = win3_0.index t 1 * 512 + k.val) :
    (iblk3 V c 0 t : FVec Ideal S512x512 .f32) (ix2 p k) = V c main_v6 (ix2 n j) := by
  unfold iblk3
  rw [View.read_apply]
  show V c main_v6 _ = V c main_v6 _
  congr 1
  funext a
  apply Fin.ext
  match a with
  | ⟨0, _⟩ => show win3_0.index t 0 * 512 + 1 * p.val = n.val; omega
  | ⟨1, _⟩ => show win3_0.index t 1 * 512 + 1 * k.val = j.val; omega

/-- The right operand's block at a point, read at `(k, f)`. -/
theorem iblk3_1_apply (c : Dev nD) (t : Fin cfg3.N) (k f : Fin 512) (j : Fin 2048) (cc : Fin 2048)
    (hj : j.val = win3_1.index t 0 * 512 + k.val) (hc : cc.val = win3_1.index t 1 * 512 + f.val) :
    (iblk3 V c 1 t : FVec Ideal S512x512 .bf16) (ix2 k f) = V c main_v3 (ix2 j cc) := by
  unfold iblk3
  rw [View.read_apply]
  show V c main_v3 _ = V c main_v3 _
  congr 1
  funext a
  apply Fin.ext
  match a with
  | ⟨0, _⟩ => show win3_1.index t 0 * 512 + 1 * k.val = j.val; omega
  | ⟨1, _⟩ => show win3_1.index t 1 * 512 + 1 * f.val = cc.val; omega

/-- The bias row's block at a point, read at `(0, f)`. -/
theorem iblk3_2_apply (c : Dev nD) (t : Fin cfg3.N) (f : Fin 512) (cc : Fin 2048)
    (h0 : win3_2.index t 0 = 0) (hc : cc.val = win3_2.index t 1 * 512 + f.val) :
    (iblk3 V c 2 t : FVec Ideal S1x512 .f32) (ix2 (0 : Fin 1) f) = V c main_v11 (ix2 (0 : Fin 1) cc) := by
  unfold iblk3
  rw [View.read_apply]
  show V c main_v11 _ = V c main_v11 _
  congr 1
  funext a
  apply Fin.ext
  match a with
  | ⟨0, _⟩ => show win3_2.index t 0 * 1 + 1 * 0 = 0; omega
  | ⟨1, _⟩ => show win3_2.index t 1 * 512 + 1 * f.val = cc.val; omega

/-! ## The flushed block is the dense layer's block -/

/-- At a point that ends a reduction the block written back is that block of the dense layer: the accumulation unrolled
    over the 4 points of the reduction, each block read where its window's index puts it, and the blocks' partial
    sums added in order from zero are the whole contraction. -/
theorem flushed3 (c : Dev nD) (t : Fin cfg3.N) (hf : (cfg3.win 3).flush t = true) :
    (dat3 (F := Ideal) V c).flushed 3 t
      = ((cfg3.win 3).blk t).view.read (Elt Ideal) (Cert.Bridge.denseFn (V c main_v6) (V c main_v3) (V c main_v11)) := by
  have h1 : t.val % 4 = 3 := (flush3_3 t).mp hf
  have hN : t.val < 64 := lt_of_lt_of_eq t.isLt N_3
  funext y
  show (dat3 (F := Ideal) V c).after 3 t y = _
  rw [after3_3]; unfold out3_3
  rw [acc3_next V c t (by omega),
    acc3_next V c ⟨t.val - 1, by omega⟩ (by dsimp only; omega),
    acc3_next V c ⟨t.val - 1 - 1, by omega⟩ (by dsimp only; omega),
    acc3_first V c ⟨t.val - 1 - 1 - 1, by omega⟩ (by dsimp only; omega)]
  rw [View.read_apply]
  obtain ⟨p, f, rfl⟩ : ∃ p f : Fin 512, y = ix2 p f := ⟨y 0, y 1, eq_ix2 y⟩
  rw [pay3_apply3, pay2_apply3, pay2_apply3, pay2_apply3, pay2_apply3, pay1_apply3]
  show _ = Cert.Bridge.denseFn (V c main_v6) (V c main_v3) (V c main_v11) _
  have hp := p.isLt; have hf' := f.isLt
  have e : ((cfg3.win 3).blk t).view.emb (ix2 p f) = ix2 (⟨t.val / 16 * 512 + p.val, by omega⟩ : Fin 2048) (⟨t.val / 4 % 4 * 512 + f.val, by omega⟩ : Fin 2048) :=
    funext fun a => Fin.ext (by
      match a with
      | ⟨0, _⟩ => show win3_3.index t 0 * 512 + 1 * p.val = t.val / 16 * 512 + p.val; rw [(idx3 t).2.2.2.2.2.2.1]; omega
      | ⟨1, _⟩ => show win3_3.index t 1 * 512 + 1 * f.val = t.val / 4 % 4 * 512 + f.val; rw [(idx3 t).2.2.2.2.2.2.2]; omega)
  rw [e]
  refine Eq.trans ?_ (Cert.Bridge.denseFn_of_blocks_2048 (V c main_v6) (V c main_v3) (V c main_v11) (⟨t.val / 16 * 512 + p.val, by omega⟩ : Fin 2048) (⟨t.val / 4 % 4 * 512 + f.val, by omega⟩ : Fin 2048)
    (fun k i => XA3 V c (ix2 (⟨t.val / 16 * 512 + p.val, by omega⟩ : Fin 2048) (jj3 k i)) * WA3 V c (ix2 (jj3 k i) (⟨t.val / 4 % 4 * 512 + f.val, by omega⟩ : Fin 2048)))
    (fun k i j hj => by rw [show jj3 k i = j from Fin.ext hj.symm]))
  refine congrArg₂ (· + ·) (congrArg₂ (· + ·) (congrArg₂ (· + ·) (congrArg₂ (· + ·) (congrArg₂ (· + ·) rfl (Finset.sum_congr rfl fun i _ => ?_)) (Finset.sum_congr rfl fun i _ => ?_)) (Finset.sum_congr rfl fun i _ => ?_)) (Finset.sum_congr rfl fun i _ => ?_)) ?_
  · rw [iblk3_0_apply V c ⟨t.val - 1 - 1 - 1, by omega⟩ p i (⟨t.val / 16 * 512 + p.val, by omega⟩ : Fin 2048) (jj3 0 i)
        (by have h := (idx3 ⟨t.val - 1 - 1 - 1, by omega⟩).1; revert h; (try dsimp only); intro h; show t.val / 16 * 512 + p.val = _; omega)
        (by have h := (idx3 ⟨t.val - 1 - 1 - 1, by omega⟩).2.1; revert h; (try dsimp only); intro h; show 0 * 512 + i.val = _; omega),
      iblk3_1_apply V c ⟨t.val - 1 - 1 - 1, by omega⟩ i f (jj3 0 i) (⟨t.val / 4 % 4 * 512 + f.val, by omega⟩ : Fin 2048)
        (by have h := (idx3 ⟨t.val - 1 - 1 - 1, by omega⟩).2.2.1; revert h; (try dsimp only); intro h; show 0 * 512 + i.val = _; omega)
        (by have h := (idx3 ⟨t.val - 1 - 1 - 1, by omega⟩).2.2.2.1; revert h; (try dsimp only); intro h; show t.val / 4 % 4 * 512 + f.val = _; omega)]
  · rw [iblk3_0_apply V c ⟨t.val - 1 - 1, by omega⟩ p i (⟨t.val / 16 * 512 + p.val, by omega⟩ : Fin 2048) (jj3 1 i)
        (by have h := (idx3 ⟨t.val - 1 - 1, by omega⟩).1; revert h; (try dsimp only); intro h; show t.val / 16 * 512 + p.val = _; omega)
        (by have h := (idx3 ⟨t.val - 1 - 1, by omega⟩).2.1; revert h; (try dsimp only); intro h; show 1 * 512 + i.val = _; omega),
      iblk3_1_apply V c ⟨t.val - 1 - 1, by omega⟩ i f (jj3 1 i) (⟨t.val / 4 % 4 * 512 + f.val, by omega⟩ : Fin 2048)
        (by have h := (idx3 ⟨t.val - 1 - 1, by omega⟩).2.2.1; revert h; (try dsimp only); intro h; show 1 * 512 + i.val = _; omega)
        (by have h := (idx3 ⟨t.val - 1 - 1, by omega⟩).2.2.2.1; revert h; (try dsimp only); intro h; show t.val / 4 % 4 * 512 + f.val = _; omega)]
  · rw [iblk3_0_apply V c ⟨t.val - 1, by omega⟩ p i (⟨t.val / 16 * 512 + p.val, by omega⟩ : Fin 2048) (jj3 2 i)
        (by have h := (idx3 ⟨t.val - 1, by omega⟩).1; revert h; (try dsimp only); intro h; show t.val / 16 * 512 + p.val = _; omega)
        (by have h := (idx3 ⟨t.val - 1, by omega⟩).2.1; revert h; (try dsimp only); intro h; show 2 * 512 + i.val = _; omega),
      iblk3_1_apply V c ⟨t.val - 1, by omega⟩ i f (jj3 2 i) (⟨t.val / 4 % 4 * 512 + f.val, by omega⟩ : Fin 2048)
        (by have h := (idx3 ⟨t.val - 1, by omega⟩).2.2.1; revert h; (try dsimp only); intro h; show 2 * 512 + i.val = _; omega)
        (by have h := (idx3 ⟨t.val - 1, by omega⟩).2.2.2.1; revert h; (try dsimp only); intro h; show t.val / 4 % 4 * 512 + f.val = _; omega)]
  · rw [iblk3_0_apply V c t p i (⟨t.val / 16 * 512 + p.val, by omega⟩ : Fin 2048) (jj3 3 i)
        (by have h := (idx3 t).1; revert h; (try dsimp only); intro h; show t.val / 16 * 512 + p.val = _; omega)
        (by have h := (idx3 t).2.1; revert h; (try dsimp only); intro h; show 3 * 512 + i.val = _; omega),
      iblk3_1_apply V c t i f (jj3 3 i) (⟨t.val / 4 % 4 * 512 + f.val, by omega⟩ : Fin 2048)
        (by have h := (idx3 t).2.2.1; revert h; (try dsimp only); intro h; show 3 * 512 + i.val = _; omega)
        (by have h := (idx3 t).2.2.2.1; revert h; (try dsimp only); intro h; show t.val / 4 % 4 * 512 + f.val = _; omega)]
  · exact iblk3_2_apply V c t f _ (idx3 t).2.2.2.2.1
      (by have h := (idx3 t).2.2.2.2.2.1; revert h; (try dsimp only); intro h; show t.val / 4 % 4 * 512 + f.val = _; omega)

/-- Every index of the result array lies in the block of the point that ends the reduction of its row block and column
    block. -/
theorem cover3 (c : Dev nD) (i : ((cfg3.win 3).arr.view.loc (c.tc : Thread nD τ)).2.ty.Idx) :
    ∃ t : Fin cfg3.N, (cfg3.win 3).flush t = true ∧ i ∈ ((cfg3.win 3).blk t).view.set := by
  have h0 : (i 0 : Nat) < 2048 := (i 0).isLt
  have h1 : (i 1 : Nat) < 2048 := (i 1).isLt
  have hN : cfg3.N = 64 := N_3
  have hT : (i 0 : Nat) / 512 * 16 + (i 1 : Nat) / 512 * 4 + 3 < cfg3.N := by rw [hN]; omega
  refine ⟨⟨_, hT⟩, (flush3_3 _).mpr (by dsimp only; omega), ?_⟩
  show i ∈ ((View.whole main_v12).slice (win3_3.rect ⟨_, hT⟩)).set
  rw [View.set_slice_whole, Rect.mem_set_unit]
  intro a
  match a with
  | ⟨0, _⟩ =>
    show win3_3.index ⟨_, hT⟩ 0 * 512 ≤ (i 0 : Nat) ∧ (i 0 : Nat) < win3_3.index ⟨_, hT⟩ 0 * 512 + 512
    have h := (idx3 ⟨_, hT⟩).2.2.2.2.2.2.1; revert h; (try dsimp only); intro h; omega
  | ⟨1, _⟩ =>
    show win3_3.index ⟨_, hT⟩ 1 * 512 ≤ (i 1 : Nat) ∧ (i 1 : Nat) < win3_3.index ⟨_, hT⟩ 1 * 512 + 512
    have h := (idx3 ⟨_, hT⟩).2.2.2.2.2.2.2; revert h; (try dsimp only); intro h; omega

/-- THE RESULT: after the run the region's result array holds the dense layer of the arrays its windows
    stage. -/
theorem final3 (c : Dev nD) :
    (dat3 (F := Ideal) V c).arrAt 3 cfg3.N = Cert.Bridge.denseFn (V c main_v6) (V c main_v3) (V c main_v11) :=
  (dat3 (F := Ideal) V c).arrAt_eq_of_cover 3 _ (flushed3 V c) (cover3 c)

end Cert.KernelIdeal.HandVal
end
-- ==== Proof.Val.RegionFns.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Mathlib
import proofs.«115712_j50027779064181_2_alg».proof.Proof.Val.DenseFns

/-! The three regions that carry nothing between grid points, each as ONE function from its input arrays to its
    result array, index by index over literal shapes at the exact instance (a float is an extended real, every
    operation the textbook one). Every float literal stays the word the programs print. No program is imported. -/

noncomputable section

namespace Cert.Bridge

open Idealize.ShloMosaic Idealize.ShloMosaic.ValueIdx
open scoped BigOperators

/-- A stack of matrices of extended reals over literal extents (a matrix is the dense layers' `Mat`). -/
abbrev Cube (a b c : ℕ) : Type := (⟨3, ![a, b, c]⟩ : Shape).Idx → EReal

/-! ## The literals -/

/-- 1e-10 as an f32 word: what is added under a square root and to a softmax denominator. -/
def normEps : EReal := Ideal.ofBits .f32 0x2EDBE6FF#32
/-- 1/sqrt 512 as an f32 word: the scale of the attention scores. -/
def scoreScale : EReal := Ideal.ofBits .f32 0x3D3504F3#32
/-- The f32 word of minus infinity: where a row maximum starts. -/
def negInf : EReal := Ideal.ofBits .f32 0xFF800000#32
/-- 2048 as an f32 word: the width a layer-normalised row's sums are divided by. -/
def width2048 : EReal := Ideal.ofBits .f32 0x45000000#32
/-- 1e-5 as an f32 word: what is added to the variance. -/
def lnEps : EReal := Ideal.ofBits .f32 0x3727C5AC#32

/-! ## Heads -/

/-- Lane `d` of head `p`: column `512 p + d` of a 2048-lane row. -/
def headLane (p : Fin 4) (d : Fin 512) : Fin 2048 :=
  ⟨512 * p.val + d.val, by have := p.isLt; have := d.isLt; omega⟩

theorem headLane_val (p : Fin 4) (d : Fin 512) : (headLane p d).val = 512 * p.val + d.val := rfl

/-- The regularised length of head `p`'s slice of row `n`: the square root of its sum of squares plus `normEps`. -/
def headNorm (X : Mat 2048 2048) (p : Fin 4) (n : Fin 2048) : EReal :=
  Ideal.sqrt ((∑ d : Fin 512, X (ix2 n (headLane p d)) * X (ix2 n (headLane p d))) + normEps)

/-- Entry `d` of head `p`'s slice of row `n`, divided by that length. -/
def headUnit (X : Mat 2048 2048) (p : Fin 4) (n : Fin 2048) (d : Fin 512) : EReal :=
  Ideal.div (X (ix2 n (headLane p d))) (headNorm X p n)

/-! ## The per-head correlation matrix -/

/-- At `(p, n, m)`: the inner product of row `n` of the first array with row `m` of the second, both cut to head
    `p` and divided by their regularised lengths. -/
def corrFn (K Vv : Mat 2048 2048) : Cube 4 2048 2048 := fun i =>
  ∑ d : Fin 512, headUnit K (i 0) (i 1) d * headUnit Vv (i 0) (i 2) d

theorem corrFn_apply (K Vv : Mat 2048 2048) (p : Fin 4) (n m : Fin 2048) :
    corrFn K Vv (ix3 p n m) = ∑ d : Fin 512, headUnit K p n d * headUnit Vv p m d := rfl

/-! ## The cosine-normalised softmax attention -/

/-- The score of query row `n` against key row `m` in head `p`: the inner product of the two unit slices, scaled. -/
def score (Q K : Mat 2048 2048) (p : Fin 4) (n m : Fin 2048) : EReal :=
  (∑ d : Fin 512, headUnit Q p n d * headUnit K p m d) * scoreScale

/-- The largest score of query row `n` in head `p`: `max` folded over the 2048 key rows from minus infinity. -/
def scoreMax (Q K : Mat 2048 2048) (p : Fin 4) (n : Fin 2048) : EReal :=
  (Finset.univ : Finset (Fin 2048)).fold max negInf (fun m => score Q K p n m)

/-- The unnormalised softmax weight of key row `m` for query row `n` in head `p`. -/
def weight (Q K : Mat 2048 2048) (p : Fin 4) (n m : Fin 2048) : EReal :=
  Ideal.exp (score Q K p n m - scoreMax Q K p n)

/-- Lane `d` of head `p` of the attended row `n`: the weighted sum of the value rows' head slices over the sum of the
    weights plus `normEps`. -/
def attnHead (Q K Vv : Mat 2048 2048) (p : Fin 4) (n : Fin 2048) (d : Fin 512) : EReal :=
  Ideal.div (∑ m : Fin 2048, weight Q K p n m * Vv (ix2 m (headLane p d)))
    ((∑ m : Fin 2048, weight Q K p n m) + normEps)

/-- At `(n, j)`: lane `j mod 512` of head `j / 512` of the attended row `n`. -/
def attnFn (Q K Vv : Mat 2048 2048) : Mat 2048 2048 := fun i =>
  attnHead Q K Vv ⟨(i 1).val / 512, by have := idx2_lt1 i; omega⟩ (i 0) ⟨(i 1).val % 512, Nat.mod_lt _ (by decide)⟩

theorem attnFn_apply (Q K Vv : Mat 2048 2048) (n : Fin 2048) (p : Fin 4) (d : Fin 512) :
    attnFn Q K Vv (ix2 n (headLane p d)) = attnHead Q K Vv p n d := by
  have hp := p.isLt; have hd := d.isLt
  show attnHead Q K Vv ⟨(headLane p d).val / 512, _⟩ n ⟨(headLane p d).val % 512, _⟩ = _
  congr 1
  · exact Fin.ext (by show (512 * p.val + d.val) / 512 = p.val; omega)
  · exact Fin.ext (by show (512 * p.val + d.val) % 512 = d.val; omega)

/-! ## The layer normalisation fused into the decode layer, in the kernel's arrangement -/

/-- The mean of row `n`: its sum divided by the width. -/
def rowMean (A : Mat 2048 2048) (n : Fin 2048) : EReal :=
  Ideal.div (∑ j : Fin 2048, A (ix2 n j)) width2048

/-- The variance of row `n`: the sum of squared deviations from the mean, divided by the width. -/
def rowVar (A : Mat 2048 2048) (n : Fin 2048) : EReal :=
  Ideal.div (∑ j : Fin 2048, (A (ix2 n j) - rowMean A n) * (A (ix2 n j) - rowMean A n)) width2048

/-- Entry `j` of the normalised row `n`: the scale times the deviation, times the reciprocal square root of the
    variance plus `lnEps`, plus the shift. -/
def lnRow (A : Mat 2048 2048) (g beta : Mat 1 2048) (n j : Fin 2048) : EReal :=
  g (ix2 (0 : Fin 1) j) * (A (ix2 n j) - rowMean A n) * Ideal.rsqrt (rowVar A n + lnEps) + beta (ix2 (0 : Fin 1) j)

/-- At `(n, k)`: the hyperbolic tangent of the normalised row `n` against column `k` of the weight, plus the bias. -/
def decodeFn (A : Mat 2048 2048) (W : Mat 2048 1024) (b : Mat 1 1024) (g beta : Mat 1 2048) : Mat 2048 1024 := fun i =>
  Ideal.tanh ((∑ j : Fin 2048, lnRow A g beta (i 0) j * W (ix2 j (i 1))) + b (ix2 (0 : Fin 1) (i 1)))

theorem decodeFn_apply (A : Mat 2048 2048) (W : Mat 2048 1024) (b : Mat 1 1024) (g beta : Mat 1 2048)
    (n : Fin 2048) (k : Fin 1024) :
    decodeFn A W b g beta (ix2 n k)
      = Ideal.tanh ((∑ j : Fin 2048, lnRow A g beta n j * W (ix2 j k)) + b (ix2 (0 : Fin 1) k)) := rfl

end Cert.Bridge

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.Val.Readings.lean ====
import proofs.«115712_j50027779064181_2_alg».proof.Proof.Val.RegionFns
import proofs.«115712_j50027779064181_2_alg».proof.Proof.LibLayout
import proofs.«115712_j50027779064181_2_alg».proof.Proof.LibContract
import Idealize.ShloMosaic.Lib.ValueIdx
import Idealize.ShloMosaic.Lib.ValueLayout
import Idealize.ShloMosaic.Lib.Pipeline.Value

/-! Readings shared by the correlation and the attention regions: a block of 512 lanes divided, row by row, by the
    regularised length of the row, read at an index; and such a row seen as a head's slice of a row of a whole array.
    No program is imported. -/

noncomputable section

namespace Cert.Bridge
open Idealize.ShloMosaic Idealize.ShloMosaic.ValueIdx
open Cert.LibLayout Cert.LibContract
open scoped BigOperators

/-- The regularised length of row `r` of a block of 512 lanes. -/
def rowNorm {n : ℕ} (x : (⟨2, ![n, 512]⟩ : Shape).Idx → EReal) (r : Fin n) : EReal :=
  Ideal.sqrt ((∑ d : Fin 512, x (ix2 r d) * x (ix2 r d)) + normEps)

/-- A block divided, row by row, by the square root of the row's sum of squares plus the constant, read at (r, d). -/
theorem cosineRow_apply {n : ℕ} (x : FVec Ideal ⟨2, ![n, 512]⟩ .f32)
    (hc : (⟨2, ![n, 512]⟩ : Shape).ShapeCasts ⟨2, ![n, 512]⟩) (hr : Shape.Reduces ⟨2, ![n, 512]⟩ [1] ⟨1, ![n]⟩)
    (hφ : FKind.Formats .f32) (hacc : (0x00000000#32 : BitVec 32) = FKind.add.neutral .f32 hφ)
    (hcol : (⟨1, ![n]⟩ : Shape).ShapeCasts ⟨2, ![n, 1]⟩) (hb : (⟨2, ![n, 1]⟩ : Shape).Broadcasts ⟨2, ![n, 512]⟩)
    (r : Fin n) (d : Fin 512) :
    divf (shapeCast ⟨2, ![n, 512]⟩ x hc)
        (broadcastTo ⟨2, ![n, 512]⟩
          (sqrt (addf (shapeCast ⟨2, ![n, 1]⟩
              (multiReduction .add [1] ⟨1, ![n]⟩ (mulf (shapeCast ⟨2, ![n, 512]⟩ x hc) (shapeCast ⟨2, ![n, 512]⟩ x hc)) 0x00000000#32 hr hφ hacc) hcol)
            (broadcast ⟨2, ![n, 1]⟩ (FloatOps.ofBits .f32 0x2EDBE6FF#32)))) hb) (ix2 r d)
      = Ideal.div (x (ix2 r d)) (rowNorm x r) := by
  rw [divf_apply, shapeCast_self, broadcastTo_a1_ab_apply]
  show Ideal.div _ (Ideal.sqrt (shapeCast ⟨2, ![n, 1]⟩ _ hcol (ix2 r (0 : Fin 1)) + _)) = _
  rw [shapeCast_a_a1_apply, laneSum_apply]
  rfl

/-- A row of a block that is head `p`'s slice of row `n` of an array has that slice's length. -/
theorem rowNorm_of_block {a : ℕ} (X : Mat 2048 2048) (x : (⟨2, ![a, 512]⟩ : Shape).Idx → EReal) (p : Fin 4) (n : Fin 2048) (r : Fin a)
    (hx : ∀ d, x (ix2 r d) = X (ix2 n (headLane p d))) : rowNorm x r = headNorm X p n := by
  unfold rowNorm headNorm
  simp only [hx]

/-- and its entries over that length are the slice's unit entries. -/
theorem unit_of_block {a : ℕ} (X : Mat 2048 2048) (x : (⟨2, ![a, 512]⟩ : Shape).Idx → EReal) (p : Fin 4) (n : Fin 2048) (r : Fin a)
    (hx : ∀ d, x (ix2 r d) = X (ix2 n (headLane p d))) (d : Fin 512) :
    Ideal.div (x (ix2 r d)) (rowNorm x r) = headUnit X p n d := by
  unfold headUnit
  rw [rowNorm_of_block X x p n r hx, hx]

end Cert.Bridge

end
-- ==== Proof.KIV.Val4.lean ====
import proofs.«115712_j50027779064181_2_alg».proof.Proof.KI.Reg4
import proofs.«115712_j50027779064181_2_alg».proof.Proof.Val.Readings
set_option maxRecDepth 16384
noncomputable section

/-! The value of the attention region at the exact instance: what its result array holds after the region, as one
    function of the three arrays it reads. First the readings the body needs beyond the shared ones (a row maximum,
    the exponentials' row sums, the two products), over abstract blocks; then the body's payload at an index, what
    each point writes back, and the array. -/

namespace Cert.Bridge
open Idealize.ShloMosaic Idealize.ShloMosaic.ValueIdx
open Cert.LibLayout Cert.LibContract
open scoped BigOperators

/-- A float maximum over the lane axis of a matrix, read at row `r` at the exact instance: `max` folded over the row's
    entries from the value of the accumulator's word. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max (Ideal.ofBits .f32 0xFF800000#32) (fun k => v (ix2 r k)) :=
  (Ideal.multiReduction_maximumf_single v 0xFF800000#32 h hφ hacc (ix1 r)).trans
    (congrArg (Finset.fold max (Ideal.ofBits .f32 0xFF800000#32) · (Finset.univ : Finset (Fin b)))
      (funext fun k => congrArg v (lift_row h r k)))

/-- The score of row `r` of a query block against row `m` of a key block: the inner product of the two unit rows, scaled. -/
def blkScore (q : Mat 512 512) (k : Mat 2048 512) (r : Fin 512) (m : Fin 2048) : EReal :=
  (∑ d : Fin 512, Ideal.div (q (ix2 r d)) (rowNorm q r) * Ideal.div (k (ix2 m d)) (rowNorm k m)) * scoreScale
/-- Its largest value over the key block's rows. -/
def blkMax (q : Mat 512 512) (k : Mat 2048 512) (r : Fin 512) : EReal :=
  (Finset.univ : Finset (Fin 2048)).fold max negInf (fun m => blkScore q k r m)
/-- The unnormalised softmax weight. -/
def blkWeight (q : Mat 512 512) (k : Mat 2048 512) (r : Fin 512) (m : Fin 2048) : EReal :=
  Ideal.exp (blkScore q k r m - blkMax q k r)
/-- The attended entry: the weighted sum of the value block's column over the sum of the weights plus the constant. -/
def blkAttn (q : Mat 512 512) (k v : Mat 2048 512) (r d : Fin 512) : EReal :=
  Ideal.div (∑ m : Fin 2048, blkWeight q k r m * v (ix2 m d)) ((∑ m : Fin 2048, blkWeight q k r m) + normEps)

/-- A matrix product into the zero splat, then scaled by a constant, read at (p, f). -/
theorem scaledMatmul_apply {M K N : ℕ} (wf : DotDims.WF ⟨2, ![M, K]⟩ ⟨2, ![K, N]⟩ ⟨2, ![M, N]⟩ [1] [0] [0] [1] [] [])
    {φ₁ φ₂ : FTy} (l : FVec Ideal ⟨2, ![M, K]⟩ φ₁) (rT : FVec Ideal ⟨2, ![K, N]⟩ φ₂) (c : Ideal .f32) (p : Fin M) (f : Fin N) :
    mulf (matmul (matDims M K N wf) none l rT (constant (F := Ideal) ⟨2, ![M, N]⟩ .f32 0x00000000#32)) (broadcast ⟨2, ![M, N]⟩ c) (ix2 p f)
      = (∑ k : Fin K, l (ix2 p k) * rT (ix2 k f)) * c := by
  rw [mulf_apply, broadcast_apply, matmul_zero_apply]

/-- The exponential of a matrix minus, row by row, the row's maximum, read at (r, m). -/
theorem expSubRowMax_apply {a b : ℕ} (s : FVec Ideal ⟨2, ![a, b]⟩ .f32) (hr : Shape.Reduces ⟨2, ![a, b]⟩ [1] ⟨1, ![a]⟩)
    (hφ : FKind.Formats .f32) (hacc : (0xFF800000#32 : BitVec 32) = FKind.maximumf.neutral .f32 hφ)
    (hcol : (⟨1, ![a]⟩ : Shape).ShapeCasts ⟨2, ![a, 1]⟩) (hb : (⟨2, ![a, 1]⟩ : Shape).Broadcasts ⟨2, ![a, b]⟩)
    (r : Fin a) (m : Fin b) :
    exp (subf s (broadcastTo ⟨2, ![a, b]⟩ (shapeCast ⟨2, ![a, 1]⟩ (multiReduction .maximumf [1] ⟨1, ![a]⟩ s 0xFF800000#32 hr hφ hacc) hcol) hb)) (ix2 r m)
      = Ideal.exp (s (ix2 r m) - (Finset.univ : Finset (Fin b)).fold max (Ideal.ofBits .f32 0xFF800000#32) (fun k => s (ix2 r k))) := by
  show Ideal.exp (s (ix2 r m) - broadcastTo ⟨2, ![a, b]⟩ _ hb (ix2 r m)) = _
  rw [broadcastTo_a1_ab_apply, shapeCast_a_a1_apply, laneMax_apply]

/-- A column of row sums plus a constant, spread over lanes, read at (r, d). -/
theorem rowSumPlus_apply {a b n : ℕ} (e : FVec Ideal ⟨2, ![a, b]⟩ .f32) (hr : Shape.Reduces ⟨2, ![a, b]⟩ [1] ⟨1, ![a]⟩)
    (hφ : FKind.Formats .f32) (hacc : (0x00000000#32 : BitVec 32) = FKind.add.neutral .f32 hφ)
    (hcol : (⟨1, ![a]⟩ : Shape).ShapeCasts ⟨2, ![a, 1]⟩) (hb : (⟨2, ![a, 1]⟩ : Shape).Broadcasts ⟨2, ![a, n]⟩)
    (c : Ideal .f32) (r : Fin a) (d : Fin n) :
    broadcastTo ⟨2, ![a, n]⟩ (addf (shapeCast ⟨2, ![a, 1]⟩ (multiReduction .add [1] ⟨1, ![a]⟩ e 0x00000000#32 hr hφ hacc) hcol)
        (broadcast ⟨2, ![a, 1]⟩ c)) hb (ix2 r d)
      = (∑ m : Fin b, e (ix2 r m)) + c := by
  rw [broadcastTo_a1_ab_apply, addf_apply, shapeCast_a_a1_apply, laneSum_apply, broadcast_apply]

/-- The softmax of a score matrix applied to a value matrix, read at (r, d), over factors named by hypotheses: the
    scores of row `r` (`Sf`) and column `d` of the values (`vf`). -/
theorem softmaxAV_apply {a b n : ℕ}
    (wf : DotDims.WF ⟨2, ![a, b]⟩ ⟨2, ![b, n]⟩ ⟨2, ![a, n]⟩ [1] [0] [0] [1] [] [])
    (s : FVec Ideal ⟨2, ![a, b]⟩ .f32) (v : FVec Ideal ⟨2, ![b, n]⟩ .bf16)
    (hr : Shape.Reduces ⟨2, ![a, b]⟩ [1] ⟨1, ![a]⟩) (hφ : FKind.Formats .f32)
    (haccM : (0xFF800000#32 : BitVec 32) = FKind.maximumf.neutral .f32 hφ)
    (haccA : (0x00000000#32 : BitVec 32) = FKind.add.neutral .f32 hφ)
    (hcol : (⟨1, ![a]⟩ : Shape).ShapeCasts ⟨2, ![a, 1]⟩)
    (hbM : (⟨2, ![a, 1]⟩ : Shape).Broadcasts ⟨2, ![a, b]⟩) (hbN : (⟨2, ![a, 1]⟩ : Shape).Broadcasts ⟨2, ![a, n]⟩)
    (hlt : FTy.bf16.bits < FTy.f32.bits) (c : Ideal .f32)
    (r : Fin a) (d : Fin n) (Sf vf : Fin b → EReal)
    (hS : ∀ m, s (ix2 r m) = Sf m) (hv : ∀ m, v (ix2 m d) = vf m) :
    divf (matmul (matDims a b n wf) none
            (truncf .bf16 (exp (subf s (broadcastTo ⟨2, ![a, b]⟩ (shapeCast ⟨2, ![a, 1]⟩ (multiReduction .maximumf [1] ⟨1, ![a]⟩ s 0xFF800000#32 hr hφ haccM) hcol) hbM))) hlt)
            v (constant (F := Ideal) ⟨2, ![a, n]⟩ .f32 0x00000000#32))
         (broadcastTo ⟨2, ![a, n]⟩ (addf (shapeCast ⟨2, ![a, 1]⟩
              (multiReduction .add [1] ⟨1, ![a]⟩
                (exp (subf s (broadcastTo ⟨2, ![a, b]⟩ (shapeCast ⟨2, ![a, 1]⟩ (multiReduction .maximumf [1] ⟨1, ![a]⟩ s 0xFF800000#32 hr hφ haccM) hcol) hbM)))
                0x00000000#32 hr hφ haccA) hcol)
            (broadcast ⟨2, ![a, 1]⟩ c)) hbN) (ix2 r d)
      = Ideal.div (∑ m : Fin b, Ideal.exp (Sf m - (Finset.univ : Finset (Fin b)).fold max (Ideal.ofBits .f32 0xFF800000#32) Sf) * vf m)
          ((∑ m : Fin b, Ideal.exp (Sf m - (Finset.univ : Finset (Fin b)).fold max (Ideal.ofBits .f32 0xFF800000#32) Sf)) + c) := by
  have hSf : (fun k => s (ix2 r k)) = Sf := funext hS
  have hE : ∀ m : Fin b, exp (subf s (broadcastTo ⟨2, ![a, b]⟩ (shapeCast ⟨2, ![a, 1]⟩ (multiReduction .maximumf [1] ⟨1, ![a]⟩ s 0xFF800000#32 hr hφ haccM) hcol) hbM)) (ix2 r m)
      = Ideal.exp (Sf m - (Finset.univ : Finset (Fin b)).fold max (Ideal.ofBits .f32 0xFF800000#32) Sf) := fun m => by
    rw [expSubRowMax_apply, hS, hSf]
  rw [divf_apply, rowSumPlus_apply, matmul_zero_apply]
  simp only [truncf_apply, hE, hv]

/-- A block score is the arrays' score when the query block's row is head `p`'s slice of row `n` and the key block is
    head `p`'s slice of every row. -/
theorem score_of_blocks (Q K : Mat 2048 2048) (q : Mat 512 512) (k : Mat 2048 512) (p : Fin 4) (n : Fin 2048) (r : Fin 512)
    (hq : ∀ d, q (ix2 r d) = Q (ix2 n (headLane p d))) (hk : ∀ m d, k (ix2 m d) = K (ix2 m (headLane p d))) (m : Fin 2048) :
    blkScore q k r m = score Q K p n m := by
  unfold blkScore score
  refine congrArg (· * _) (Finset.sum_congr rfl fun d _ => ?_)
  rw [unit_of_block Q q p n r hq d, unit_of_block K k p m m (hk m) d]

/-- and then the attended block entry is the arrays' attended entry. -/
theorem attn_of_blocks (Q K Vv : Mat 2048 2048) (q : Mat 512 512) (k v : Mat 2048 512) (p : Fin 4) (n : Fin 2048) (r d : Fin 512)
    (hq : ∀ d, q (ix2 r d) = Q (ix2 n (headLane p d))) (hk : ∀ m d, k (ix2 m d) = K (ix2 m (headLane p d)))
    (hv : ∀ m d, v (ix2 m d) = Vv (ix2 m (headLane p d))) :
    blkAttn q k v r d = attnHead Q K Vv p n d := by
  unfold blkAttn attnHead blkWeight weight blkMax scoreMax
  simp only [score_of_blocks Q K q k p n r hq hk, hv]

end Cert.Bridge

namespace Cert.KernelIdeal.HandVal
open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open Cert.LibLayout Cert.LibContract Cert.Bridge
open scoped BigOperators

/-- The body's payload at an index: row `r` of the query block attends over the key block's rows to column `d` of the
    value block. -/
theorem k4_pay1_apply (x0 : Vec Ideal S512x512 .f32) (x1 x2 : Vec Ideal S2048x512 .f32) (r d : Fin 512) :
    k4_pay1 x0 x1 x2 (ix2 r d) = blkAttn x0 x1 x2 r d := by
  unfold k4_pay1
  dsimp only
  refine (softmaxAV_apply dot_S512x2048_S2048x512_S512x512_1_0_0_1_n_n_wf _ _ _ _ _ _ _ _ _ _ _ r d
    (fun m => blkScore x0 x1 r m) (fun m => x2 (ix2 m d)) (fun m => ?_) (fun m => ?_)).trans rfl
  · refine (scaledMatmul_apply dot_S512x512_S512x2048_S512x2048_1_0_0_1_n_n_wf _ _ _ r m).trans ?_
    unfold blkScore
    refine congrArg (· * _) (Finset.sum_congr rfl fun k _ => ?_)
    rw [truncf_apply, transpose_ix2_apply, truncf_apply]
    exact congrArg₂ (· * ·) (cosineRow_apply x0 _ _ _ _ _ _ r k) (cosineRow_apply x1 _ _ _ _ _ _ m k)
  · rw [truncf_apply, shapeCast_self]

variable (V : (c : Dev nD) → (b : Ref sig .tc) → Buf (Elt Ideal) ((c : Thread nD τ).loc b))

theorem zeros2_4 : (![0, 0] : Fin 2 → Nat) = fun _ => 0 := funext fun a => by fin_cases a <;> rfl

/-- The block index maps, decided over the grid: the query's block is the result's; the key's and the value's are the
    whole rows of the result's head; and the result's stay in range. -/
theorem blockIdx4 : ∀ t : Fin cfg4.N,
    win4_0.index t (0 : Fin 2) = win4_3.index t (0 : Fin 2) ∧ win4_0.index t (1 : Fin 2) = win4_3.index t (1 : Fin 2)
    ∧ win4_1.index t (0 : Fin 2) = 0 ∧ win4_1.index t (1 : Fin 2) = win4_3.index t (1 : Fin 2)
    ∧ win4_2.index t (0 : Fin 2) = 0 ∧ win4_2.index t (1 : Fin 2) = win4_3.index t (1 : Fin 2)
    ∧ win4_3.index t (0 : Fin 2) ≤ 3 ∧ win4_3.index t (1 : Fin 2) ≤ 3 :=
  (by decide +kernel : ∀ t : Fin grid4.N, _)

/-- What point `t` writes back is block `t` of the attention of the three arrays as the region finds them. -/
theorem flushed4_eq (c : Dev nD) (t : Fin cfg4.N) :
    (dat4 (F := Ideal) V c).flushed 3 t
      = ((cfg4.win 3).blk t).view.read (Elt Ideal) (attnFn (V c main_v8) (V c main_v10) (V c main_v12)) := by
  show (cfg4.win 3).cut (grid4.coords t) ((dat4 V c).after 3 t) = _
  rw [after4_3]
  unfold out4_3
  rw [View.canon_unit_zero zeros2_4]
  simp only [View.ld_unit_zero (S := S512x512) zeros2_4, View.ld_unit_zero (S := S2048x512) zeros2_4]
  obtain ⟨e0, e1, e2, e3, e4, e5, b0, b1⟩ := blockIdx4 t
  funext j
  obtain ⟨r, d, rfl⟩ : ∃ (r d : Fin 512), j = ix2 r d := ⟨j 0, j 1, eq_ix2 j⟩
  show k4_pay1 (iblk4 V c 0 t) (iblk4 V c 1 t) (iblk4 V c 2 t) (ix2 r d)
      = attnFn (V c main_v8) (V c main_v10) (V c main_v12) (((cfg4.win 3).blk t).view.emb (ix2 r d))
  refine (k4_pay1_apply _ _ _ r d).trans ?_
  have hp : win4_3.index t (1 : Fin 2) < 4 := by omega
  have hn : win4_3.index t (0 : Fin 2) * 512 + r.val < 2048 := by have := r.isLt; omega
  have hemb : ((cfg4.win 3).blk t).view.emb (ix2 r d)
      = ix2 (⟨win4_3.index t (0 : Fin 2) * 512 + r.val, hn⟩ : Fin 2048) (headLane ⟨win4_3.index t (1 : Fin 2), hp⟩ d) := by
    refine funext fun a => Fin.ext ?_
    match a with
    | ⟨0, _⟩ => show win4_3.index t (0 : Fin 2) * 512 + 1 * r.val = win4_3.index t (0 : Fin 2) * 512 + r.val; omega
    | ⟨1, _⟩ => show win4_3.index t (1 : Fin 2) * 512 + 1 * d.val = 512 * win4_3.index t (1 : Fin 2) + d.val; omega
  rw [hemb, attnFn_apply]
  refine attn_of_blocks (V c main_v8) (V c main_v10) (V c main_v12) (iblk4 V c 0 t) (iblk4 V c 1 t) (iblk4 V c 2 t) _ _ r d
    (fun d' => ?_) (fun m d' => ?_) (fun m d' => ?_)
  · show V c main_v8 (((cfg4.win 0).blk t).view.emb (ix2 r d')) = V c main_v8 _
    refine congrArg _ (funext fun a => Fin.ext ?_)
    match a with
    | ⟨0, _⟩ => show win4_0.index t (0 : Fin 2) * 512 + 1 * r.val = win4_3.index t (0 : Fin 2) * 512 + r.val; omega
    | ⟨1, _⟩ => show win4_0.index t (1 : Fin 2) * 512 + 1 * d'.val = 512 * win4_3.index t (1 : Fin 2) + d'.val; omega
  · show V c main_v10 (((cfg4.win 1).blk t).view.emb (ix2 m d')) = V c main_v10 _
    refine congrArg _ (funext fun a => Fin.ext ?_)
    match a with
    | ⟨0, _⟩ => show win4_1.index t (0 : Fin 2) * 2048 + 1 * m.val = m.val; omega
    | ⟨1, _⟩ => show win4_1.index t (1 : Fin 2) * 512 + 1 * d'.val = 512 * win4_3.index t (1 : Fin 2) + d'.val; omega
  · show V c main_v12 (((cfg4.win 2).blk t).view.emb (ix2 m d')) = V c main_v12 _
    refine congrArg _ (funext fun a => Fin.ext ?_)
    match a with
    | ⟨0, _⟩ => show win4_2.index t (0 : Fin 2) * 2048 + 1 * m.val = m.val; omega
    | ⟨1, _⟩ => show win4_2.index t (1 : Fin 2) * 512 + 1 * d'.val = 512 * win4_3.index t (1 : Fin 2) + d'.val; omega

/-- An index of the result array is in point `t`'s block iff each coordinate is in the block's range on its axis. -/
theorem mem_blk4 (t : Fin cfg4.N) (i : S2048x2048.Idx) :
    i ∈ ((cfg4.win 3).blk t).view.set ↔ ∀ a : Fin 2, win4_3.index t a * S512x512.size a ≤ (i a).val
      ∧ (i a).val < win4_3.index t a * S512x512.size a + S512x512.size a := by
  show i ∈ ((View.whole main_v13).slice (win4_3.rect t)).set ↔ _
  rw [View.set_slice_whole, Rect.mem_set_unit]
  exact Iff.rfl

/-- Every block of the result is some point's: the point of row block `q0` and head `q1`. -/
theorem blockOnto4 : ∀ (q0 q1 : Fin 4), ∃ t : Fin cfg4.N, win4_3.index t = ![q0.val, q1.val] :=
  (by decide +kernel : ∀ (q0 q1 : Fin 4), ∃ t : Fin grid4.N, win4_3.index t = ![q0.val, q1.val])

/-- The blocks written back cover the result array: index (n, j) lies in the block (n / 512, j / 512). -/
theorem cover4 (i : S2048x2048.Idx) :
    ∃ t : Fin cfg4.N, (cfg4.win 3).flush t = true ∧ i ∈ ((cfg4.win 3).blk t).view.set := by
  have h0 : (i 0).val < 2048 := (i 0).isLt
  have h1 : (i 1).val < 2048 := (i 1).isLt
  obtain ⟨t, ht⟩ := blockOnto4 ⟨(i 0).val / 512, by omega⟩ ⟨(i 1).val / 512, by omega⟩
  have q0 : win4_3.index t (0 : Fin 2) = (i 0).val / 512 := congrFun ht 0
  have q1 : win4_3.index t (1 : Fin 2) = (i 1).val / 512 := congrFun ht 1
  refine ⟨t, flush4_3 t, ?_⟩
  rw [mem_blk4]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 512 ≤ (i 1).val ∧ (i 1).val < win4_3.index t (1 : Fin 2) * 512 + 512; omega

/-- The result array after the region: the attention of the three input arrays as the region finds them. -/
theorem final4 (c : Dev nD) :
    (dat4 (F := Ideal) V c).arrAt 3 cfg4.N = Cert.Bridge.attnFn (V c main_v8) (V c main_v10) (V c main_v12) :=
  (dat4 (F := Ideal) V c).arrAt_eq_of_cover 3 (Cert.Bridge.attnFn (V c main_v8) (V c main_v10) (V c main_v12))
    (fun t _ => flushed4_eq V c t) cover4

end Cert.KernelIdeal.HandVal
end
-- ==== Proof.KIV.Val5.lean ====
import proofs.«115712_j50027779064181_2_alg».proof.Proof.KI.Reg5
import proofs.«115712_j50027779064181_2_alg».proof.Proof.Val.Readings
set_option maxRecDepth 16384
noncomputable section

/-! The value of the region that fuses a layer normalisation into the decode layer, at the exact instance: what its
    result array holds after the region, as one function of the five arrays it reads. First the readings of the body's
    operations over abstract blocks (the mean spread over the lanes, the normalised row, the product plus bias through
    tanh); then the body's payload at an index, what each point writes back, and the array. -/

namespace Cert.Bridge
open Idealize.ShloMosaic Idealize.ShloMosaic.ValueIdx
open Cert.LibLayout Cert.LibContract
open scoped BigOperators

/-- The column of row sums over a constant, spread over the lanes: what a layer normalisation subtracts. -/
abbrev meanLanes {a b : ℕ} (x : FVec Ideal ⟨2, ![a, b]⟩ .f32) (hr : Shape.Reduces ⟨2, ![a, b]⟩ [1] ⟨1, ![a]⟩)
    (hφ : FKind.Formats .f32) (hacc : (0x00000000#32 : BitVec 32) = FKind.add.neutral .f32 hφ)
    (hcol : (⟨1, ![a]⟩ : Shape).ShapeCasts ⟨2, ![a, 1]⟩) (hb : (⟨2, ![a, 1]⟩ : Shape).Broadcasts ⟨2, ![a, b]⟩)
    (cw : Ideal .f32) : FVec Ideal ⟨2, ![a, b]⟩ .f32 :=
  broadcastTo ⟨2, ![a, b]⟩ (divf (shapeCast ⟨2, ![a, 1]⟩ (multiReduction .add [1] ⟨1, ![a]⟩ x 0x00000000#32 hr hφ hacc) hcol)
    (broadcast ⟨2, ![a, 1]⟩ cw)) hb

theorem meanLanes_apply {a b : ℕ} (x : FVec Ideal ⟨2, ![a, b]⟩ .f32) (hr : Shape.Reduces ⟨2, ![a, b]⟩ [1] ⟨1, ![a]⟩)
    (hφ : FKind.Formats .f32) (hacc : (0x00000000#32 : BitVec 32) = FKind.add.neutral .f32 hφ)
    (hcol : (⟨1, ![a]⟩ : Shape).ShapeCasts ⟨2, ![a, 1]⟩) (hb : (⟨2, ![a, 1]⟩ : Shape).Broadcasts ⟨2, ![a, b]⟩)
    (cw : Ideal .f32) (r : Fin a) (j : Fin b) :
    meanLanes x hr hφ hacc hcol hb cw (ix2 r j) = Ideal.div (∑ k : Fin b, x (ix2 r k)) cw := by
  show broadcastTo ⟨2, ![a, b]⟩ _ hb (ix2 r j) = _
  rw [broadcastTo_a1_ab_apply, divf_apply, shapeCast_a_a1_apply, laneSum_apply, broadcast_apply]

/-- A layer-normalised row in the arrangement scale * deviation * rsqrt (variance + constant) + shift, read at (r, j). -/
theorem layerNormRow_apply {a b : ℕ} (x : FVec Ideal ⟨2, ![a, b]⟩ .f32) (g beta : FVec Ideal ⟨2, ![1, b]⟩ .f32)
    (hr : Shape.Reduces ⟨2, ![a, b]⟩ [1] ⟨1, ![a]⟩)
    (hφ : FKind.Formats .f32) (hacc : (0x00000000#32 : BitVec 32) = FKind.add.neutral .f32 hφ)
    (hcol : (⟨1, ![a]⟩ : Shape).ShapeCasts ⟨2, ![a, 1]⟩) (hb : (⟨2, ![a, 1]⟩ : Shape).Broadcasts ⟨2, ![a, b]⟩)
    (hbg : (⟨2, ![1, b]⟩ : Shape).Broadcasts ⟨2, ![a, b]⟩) (cw ce : Ideal .f32) (r : Fin a) (j : Fin b) :
    addf (mulf (mulf (broadcastTo ⟨2, ![a, b]⟩ g hbg) (subf x (meanLanes x hr hφ hacc hcol hb cw)))
        (broadcastTo ⟨2, ![a, b]⟩
          (rsqrt (addf (divf (shapeCast ⟨2, ![a, 1]⟩
              (multiReduction .add [1] ⟨1, ![a]⟩
                (mulf (subf x (meanLanes x hr hφ hacc hcol hb cw)) (subf x (meanLanes x hr hφ hacc hcol hb cw)))
                0x00000000#32 hr hφ hacc) hcol) (broadcast ⟨2, ![a, 1]⟩ cw)) (broadcast ⟨2, ![a, 1]⟩ ce))) hb))
      (broadcastTo ⟨2, ![a, b]⟩ beta hbg) (ix2 r j)
      = g (ix2 (0 : Fin 1) j) * (x (ix2 r j) - Ideal.div (∑ k : Fin b, x (ix2 r k)) cw)
          * Ideal.rsqrt (Ideal.div (∑ k : Fin b, (x (ix2 r k) - Ideal.div (∑ k' : Fin b, x (ix2 r k')) cw)
              * (x (ix2 r k) - Ideal.div (∑ k' : Fin b, x (ix2 r k')) cw)) cw + ce)
        + beta (ix2 (0 : Fin 1) j) := by
  have hdev : ∀ k : Fin b, subf x (meanLanes x hr hφ hacc hcol hb cw) (ix2 r k)
      = x (ix2 r k) - Ideal.div (∑ k' : Fin b, x (ix2 r k')) cw := fun k => by
    rw [subf_apply, meanLanes_apply]
  rw [addf_apply, mulf_apply, mulf_apply, broadcastTo_1b_ab_apply, broadcastTo_1b_ab_apply, hdev, broadcastTo_a1_ab_apply]
  show _ * _ * Ideal.rsqrt (Ideal.div (shapeCast ⟨2, ![a, 1]⟩ _ hcol (ix2 r (0 : Fin 1))) cw + ce) + _ = _
  rw [shapeCast_a_a1_apply, laneSum_apply]
  simp only [mulf_apply, hdev]

/-- A product with a bf16-rounded left operand into the zero splat, plus a bias row, through tanh, read at (p, f), over
    the left operand's row named by a hypothesis. -/
theorem denseBiasTanh_apply {M K N : ℕ} (wf : DotDims.WF ⟨2, ![M, K]⟩ ⟨2, ![K, N]⟩ ⟨2, ![M, N]⟩ [1] [0] [0] [1] [] [])
    (y : FVec Ideal ⟨2, ![M, K]⟩ .f32) (w : FVec Ideal ⟨2, ![K, N]⟩ .bf16) (bias : FVec Ideal ⟨2, ![1, N]⟩ .f32)
    (hlt : FTy.bf16.bits < FTy.f32.bits) (hbb : (⟨2, ![1, N]⟩ : Shape).Broadcasts ⟨2, ![M, N]⟩)
    (p : Fin M) (f : Fin N) (Yf : Fin K → EReal) (hY : ∀ k, y (ix2 p k) = Yf k) :
    tanh (addf (matmul (matDims M K N wf) none (truncf .bf16 y hlt) w (constant (F := Ideal) ⟨2, ![M, N]⟩ .f32 0x00000000#32))
        (broadcastTo ⟨2, ![M, N]⟩ bias hbb)) (ix2 p f)
      = Ideal.tanh ((∑ k : Fin K, Yf k * w (ix2 k f)) + bias (ix2 (0 : Fin 1) f)) := by
  show Ideal.tanh (matmul (matDims M K N wf) none (truncf .bf16 y hlt) w _ (ix2 p f) + broadcastTo ⟨2, ![M, N]⟩ bias hbb (ix2 p f)) = _
  rw [matmul_zero_apply, broadcastTo_1b_ab_apply]
  simp only [truncf_apply, hY]

/-- The mean, the variance, the normalised entry and the decoded entry of a block of rows of 2048 lanes. -/
def lnMean {n : ℕ} (a : Mat n 2048) (r : Fin n) : EReal := Ideal.div (∑ j : Fin 2048, a (ix2 r j)) width2048
def lnVar {n : ℕ} (a : Mat n 2048) (r : Fin n) : EReal :=
  Ideal.div (∑ j : Fin 2048, (a (ix2 r j) - lnMean a r) * (a (ix2 r j) - lnMean a r)) width2048
def lnEntry {n : ℕ} (a : Mat n 2048) (g beta : Mat 1 2048) (r : Fin n) (j : Fin 2048) : EReal :=
  g (ix2 (0 : Fin 1) j) * (a (ix2 r j) - lnMean a r) * Ideal.rsqrt (lnVar a r + lnEps) + beta (ix2 (0 : Fin 1) j)
def blkDecode (a : Mat 512 2048) (w : Mat 2048 512) (b : Mat 1 512) (g beta : Mat 1 2048) (r c : Fin 512) : EReal :=
  Ideal.tanh ((∑ j : Fin 2048, lnEntry a g beta r j * w (ix2 j c)) + b (ix2 (0 : Fin 1) c))

/-- The decoded block entry is the arrays' decoded entry when the activation block's row is a row of the array, the weight
    block's column a column of the weight, the bias block's entry that column's bias, and the scale and shift rows the
    arrays' rows. -/
theorem decode_of_blocks (A : Mat 2048 2048) (W : Mat 2048 1024) (B : Mat 1 1024) (G Be : Mat 1 2048)
    (a : Mat 512 2048) (w : Mat 2048 512) (b : Mat 1 512) (g be : Mat 1 2048)
    (i : (⟨2, ![2048, 1024]⟩ : Shape).Idx) (r c : Fin 512)
    (ha : ∀ j, a (ix2 r j) = A (ix2 (i 0) j)) (hw : ∀ j, w (ix2 j c) = W (ix2 j (i 1)))
    (hb : b (ix2 (0 : Fin 1) c) = B (ix2 (0 : Fin 1) (i 1)))
    (hg : ∀ j, g (ix2 (0 : Fin 1) j) = G (ix2 (0 : Fin 1) j)) (hbe : ∀ j, be (ix2 (0 : Fin 1) j) = Be (ix2 (0 : Fin 1) j)) :
    blkDecode a w b g be r c = decodeFn A W B G Be i := by
  have hm : lnMean a r = rowMean A (i 0) := by unfold lnMean rowMean; simp only [ha]
  have hv : lnVar a r = rowVar A (i 0) := by unfold lnVar rowVar; simp only [ha, hm]
  unfold blkDecode decodeFn lnEntry lnRow
  simp only [ha, hw, hb, hg, hbe, hm, hv]

end Cert.Bridge

namespace Cert.KernelIdeal.HandVal
open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open Cert.LibLayout Cert.LibContract Cert.Bridge
open scoped BigOperators

/-- The body's payload at an index: row `r` of the activation block, layer-normalised, against column `c` of the weight
    block, plus the bias, through tanh. -/
theorem k5_pay1_apply (x0 : Vec Ideal S512x2048 .f32) (x3 x4 : Vec Ideal S1x2048 .f32) (x1 : Vec Ideal S2048x512 .bf16)
    (x2 : Vec Ideal S1x512 .f32) (r c : Fin 512) :
    k5_pay1 x0 x3 x4 x1 x2 (ix2 r c) = blkDecode x0 x1 x2 x3 x4 r c := by
  unfold k5_pay1
  dsimp only
  simp only [shapeCast_self]
  refine (denseBiasTanh_apply dot_S512x2048_S2048x512_S512x512_1_0_0_1_n_n_wf _ _ _ _ _ r c
    (fun j => lnEntry x0 x3 x4 r j) (fun j => ?_)).trans rfl
  exact layerNormRow_apply x0 x3 x4 _ _ _ _ _ _ _ _ r j

variable (V : (c : Dev nD) → (b : Ref sig .tc) → Buf (Elt Ideal) ((c : Thread nD τ).loc b))

theorem zeros2_5 : (![0, 0] : Fin 2 → Nat) = fun _ => 0 := funext fun a => by fin_cases a <;> rfl

/-- The block index maps, decided over the grid: the activations' block is the result's row block, whole rows; the
    weight's and the bias's are the result's column block; the scale and the shift are the one block of their rows;
    and the result's stay in range. -/
theorem blockIdx5 : ∀ t : Fin cfg5.N,
    win5_0.index t (0 : Fin 2) = win5_5.index t (0 : Fin 2) ∧ win5_0.index t (1 : Fin 2) = 0
    ∧ win5_1.index t (0 : Fin 2) = 0 ∧ win5_1.index t (1 : Fin 2) = win5_5.index t (1 : Fin 2)
    ∧ win5_2.index t (0 : Fin 2) = 0 ∧ win5_2.index t (1 : Fin 2) = win5_5.index t (1 : Fin 2)
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 3 ∧ win5_5.index t (1 : Fin 2) ≤ 1 :=
  (by decide +kernel : ∀ t : Fin grid5.N, _)

/-- What point `t` writes back is block `t` of the decode of the five arrays as the region finds them. -/
theorem flushed5_eq (c : Dev nD) (t : Fin cfg5.N) :
    (dat5 (F := Ideal) V c).flushed 5 t
      = ((cfg5.win 5).blk t).view.read (Elt Ideal)
          (decodeFn (V c main_v13) (V c main_v4) (V c main_v14) (V c main_v15) (V c main_v16)) := by
  show (cfg5.win 5).cut (grid5.coords t) ((dat5 V c).after 5 t) = _
  rw [after5_5]
  unfold out5_5
  rw [View.canon_unit_zero zeros2_5]
  simp only [View.ld_unit_zero (S := S512x2048) zeros2_5, View.ld_unit_zero (S := S2048x512) zeros2_5,
    View.ld_unit_zero (S := S1x512) zeros2_5, View.ld_unit_zero (S := S1x2048) zeros2_5]
  obtain ⟨e0, e1, e2, e3, e4, e5, e6, e7, e8, e9, b0, b1⟩ := blockIdx5 t
  funext j
  obtain ⟨r, cc, rfl⟩ : ∃ (r cc : Fin 512), j = ix2 r cc := ⟨j 0, j 1, eq_ix2 j⟩
  show k5_pay1 (iblk5 V c 0 t) (iblk5 V c 3 t) (iblk5 V c 4 t) (iblk5 V c 1 t) (iblk5 V c 2 t) (ix2 r cc)
      = decodeFn (V c main_v13) (V c main_v4) (V c main_v14) (V c main_v15) (V c main_v16)
          (((cfg5.win 5).blk t).view.emb (ix2 r cc))
  refine (k5_pay1_apply _ _ _ _ _ r cc).trans ?_
  refine decode_of_blocks (V c main_v13) (V c main_v4) (V c main_v14) (V c main_v15) (V c main_v16)
    (iblk5 V c 0 t) (iblk5 V c 1 t) (iblk5 V c 2 t) (iblk5 V c 3 t) (iblk5 V c 4 t) _ r cc
    (fun j => ?_) (fun j => ?_) ?_ (fun j => ?_) (fun j => ?_)
  · show V c main_v13 (((cfg5.win 0).blk t).view.emb (ix2 r j)) = V c main_v13 _
    refine congrArg _ (funext fun a => Fin.ext ?_)
    match a with
    | ⟨0, _⟩ => show win5_0.index t (0 : Fin 2) * 512 + 1 * r.val = win5_5.index t (0 : Fin 2) * 512 + 1 * r.val; omega
    | ⟨1, _⟩ => show win5_0.index t (1 : Fin 2) * 2048 + 1 * j.val = j.val; omega
  · show V c main_v4 (((cfg5.win 1).blk t).view.emb (ix2 j cc)) = V c main_v4 _
    refine congrArg _ (funext fun a => Fin.ext ?_)
    match a with
    | ⟨0, _⟩ => show win5_1.index t (0 : Fin 2) * 2048 + 1 * j.val = j.val; omega
    | ⟨1, _⟩ => show win5_1.index t (1 : Fin 2) * 512 + 1 * cc.val = win5_5.index t (1 : Fin 2) * 512 + 1 * cc.val; omega
  · show V c main_v14 (((cfg5.win 2).blk t).view.emb (ix2 (0 : Fin 1) cc)) = V c main_v14 _
    refine congrArg _ (funext fun a => Fin.ext ?_)
    match a with
    | ⟨0, _⟩ => show win5_2.index t (0 : Fin 2) * 1 + 1 * 0 = 0; omega
    | ⟨1, _⟩ => show win5_2.index t (1 : Fin 2) * 512 + 1 * cc.val = win5_5.index t (1 : Fin 2) * 512 + 1 * cc.val; omega
  · show V c main_v15 (((cfg5.win 3).blk t).view.emb (ix2 (0 : Fin 1) j)) = V c main_v15 _
    refine congrArg _ (funext fun a => Fin.ext ?_)
    match a with
    | ⟨0, _⟩ => show win5_3.index t (0 : Fin 2) * 1 + 1 * 0 = 0; omega
    | ⟨1, _⟩ => show win5_3.index t (1 : Fin 2) * 2048 + 1 * j.val = j.val; omega
  · show V c main_v16 (((cfg5.win 4).blk t).view.emb (ix2 (0 : Fin 1) j)) = V c main_v16 _
    refine congrArg _ (funext fun a => Fin.ext ?_)
    match a with
    | ⟨0, _⟩ => show win5_4.index t (0 : Fin 2) * 1 + 1 * 0 = 0; omega
    | ⟨1, _⟩ => show win5_4.index t (1 : Fin 2) * 2048 + 1 * j.val = j.val; omega

/-- An index of the result array is in point `t`'s block iff each coordinate is in the block's range on its axis. -/
theorem mem_blk5 (t : Fin cfg5.N) (i : S2048x1024.Idx) :
    i ∈ ((cfg5.win 5).blk t).view.set ↔ ∀ a : Fin 2, win5_5.index t a * S512x512.size a ≤ (i a).val
      ∧ (i a).val < win5_5.index t a * S512x512.size a + S512x512.size a := by
  show i ∈ ((View.whole main_v17).slice (win5_5.rect t)).set ↔ _
  rw [View.set_slice_whole, Rect.mem_set_unit]
  exact Iff.rfl

/-- Every block of the result is some point's: the point of row block `q0` and column block `q1`. -/
theorem blockOnto5 : ∀ (q0 : Fin 4) (q1 : Fin 2), ∃ t : Fin cfg5.N, win5_5.index t = ![q0.val, q1.val] :=
  (by decide +kernel : ∀ (q0 : Fin 4) (q1 : Fin 2), ∃ t : Fin grid5.N, win5_5.index t = ![q0.val, q1.val])

/-- The blocks written back cover the result array: index (n, k) lies in the block (n / 512, k / 512). -/
theorem cover5 (i : S2048x1024.Idx) :
    ∃ t : Fin cfg5.N, (cfg5.win 5).flush t = true ∧ i ∈ ((cfg5.win 5).blk t).view.set := by
  have h0 : (i 0).val < 2048 := (i 0).isLt
  have h1 : (i 1).val < 1024 := (i 1).isLt
  obtain ⟨t, ht⟩ := blockOnto5 ⟨(i 0).val / 512, by omega⟩ ⟨(i 1).val / 512, by omega⟩
  have q0 : win5_5.index t (0 : Fin 2) = (i 0).val / 512 := congrFun ht 0
  have q1 : win5_5.index t (1 : Fin 2) = (i 1).val / 512 := congrFun ht 1
  refine ⟨t, flush5_5 t, ?_⟩
  rw [mem_blk5]
  intro a
  match a with
  | ⟨0, _⟩ => show win5_5.index t (0 : Fin 2) * 512 ≤ (i 0).val ∧ (i 0).val < win5_5.index t (0 : Fin 2) * 512 + 512; omega
  | ⟨1, _⟩ => show win5_5.index t (1 : Fin 2) * 512 ≤ (i 1).val ∧ (i 1).val < win5_5.index t (1 : Fin 2) * 512 + 512; omega

/-- The result array after the region: the decode of the five input arrays as the region finds them. -/
theorem final5 (c : Dev nD) :
    (dat5 (F := Ideal) V c).arrAt 5 cfg5.N
      = Cert.Bridge.decodeFn (V c main_v13) (V c main_v4) (V c main_v14) (V c main_v15) (V c main_v16) :=
  (dat5 (F := Ideal) V c).arrAt_eq_of_cover 5
    (Cert.Bridge.decodeFn (V c main_v13) (V c main_v4) (V c main_v14) (V c main_v15) (V c main_v16))
    (fun t _ => flushed5_eq V c t) cover5

end Cert.KernelIdeal.HandVal
end
-- ==== Proof.KIV.Val6.lean ====
import proofs.«115712_j50027779064181_2_alg».proof.Proof.KI.Reg6
import proofs.«115712_j50027779064181_2_alg».proof.Proof.Val.Readings
set_option maxRecDepth 16384
noncomputable section

/-! The value of the per-head correlation region at the exact instance: what its result array holds after the region,
    as one function of the two arrays it reads. -/

namespace Cert.Bridge
open Idealize.ShloMosaic Idealize.ShloMosaic.ValueIdx
open scoped BigOperators

/-- The inner product of two unit rows of blocks is the correlation of the arrays at the index whose rows and head the
    blocks' rows are slices of. -/
theorem corr_of_blocks (K Vv : Mat 2048 2048) (k v : Mat 512 512) (i : (⟨3, ![4, 2048, 2048]⟩ : Shape).Idx) (r c : Fin 512)
    (hk : ∀ d, k (ix2 r d) = K (ix2 (i 1) (headLane (i 0) d)))
    (hv : ∀ d, v (ix2 c d) = Vv (ix2 (i 2) (headLane (i 0) d))) :
    ∑ d : Fin 512, Ideal.div (k (ix2 r d)) (rowNorm k r) * Ideal.div (v (ix2 c d)) (rowNorm v c) = corrFn K Vv i := by
  unfold corrFn
  refine Finset.sum_congr rfl fun d _ => ?_
  rw [unit_of_block K k (i 0) (i 1) r hk d, unit_of_block Vv v (i 0) (i 2) c hv d]

end Cert.Bridge

namespace Cert.KernelIdeal.HandVal
open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open Cert.LibLayout Cert.LibContract Cert.Bridge
open scoped BigOperators

variable (V : (c : Dev nD) → (b : Ref sig .tc) → Buf (Elt Ideal) ((c : Thread nD τ).loc b))

theorem zeros2_6 : (![0, 0] : Fin 2 → Nat) = fun _ => 0 := funext fun a => by fin_cases a <;> rfl
theorem zeros3_6 : (![0, 0, 0] : Fin 3 → Nat) = fun _ => 0 := funext fun a => by fin_cases a <;> rfl

/-- The body's payload at an index: the inner product of row `r` of the first block with row `c` of the second, each
    divided by its regularised length. -/
theorem k6_pay1_apply (x0 x1 : Vec Ideal S512x512 .f32) (u : Fin 1) (r c : Fin 512) :
    k6_pay1 x0 x1 (ix3 u r c)
      = ∑ d : Fin 512, Ideal.div (x0 (ix2 r d)) (rowNorm x0 r) * Ideal.div (x1 (ix2 c d)) (rowNorm x1 c) := by
  unfold k6_pay1
  dsimp only
  rw [shapeCast_ab_1ab_apply]
  refine (matmul_zero_apply dot_S512x512_S512x512_S512x512_1_0_0_1_n_n_wf none _ _ r c).trans ?_
  refine Finset.sum_congr rfl fun d _ => ?_
  rw [truncf_apply, transpose_ix2_apply, truncf_apply]
  exact congrArg₂ (· * ·) (cosineRow_apply x0 _ _ _ _ _ _ r d) (cosineRow_apply x1 _ _ _ _ _ _ c d)

/-- The block index maps, decided over the grid: the first input's block is (row block, head) = the result's
    (second, first) block coordinates, the second input's is (third, first); and the result's stay in range. -/
theorem blockIdx6 : ∀ t : Fin cfg6.N,
    win6_0.index t (0 : Fin 2) = win6_2.index t (1 : Fin 3) ∧ win6_0.index t (1 : Fin 2) = win6_2.index t (0 : Fin 3)
    ∧ win6_1.index t (0 : Fin 2) = win6_2.index t (2 : Fin 3) ∧ win6_1.index t (1 : Fin 2) = win6_2.index t (0 : Fin 3)
    ∧ win6_2.index t (0 : Fin 3) ≤ 3 ∧ win6_2.index t (1 : Fin 3) ≤ 3 ∧ win6_2.index t (2 : Fin 3) ≤ 3 :=
  (by decide +kernel : ∀ t : Fin grid6.N, _)

/-- What point `t` writes back is block `t` of the correlation of the two arrays as the region finds them. -/
theorem flushed6_eq (c : Dev nD) (t : Fin cfg6.N) :
    (dat6 (F := Ideal) V c).flushed 2 t
      = ((cfg6.win 2).blk t).view.read (Elt Ideal) (corrFn (V c main_v10) (V c main_v12)) := by
  show (cfg6.win 2).cut (grid6.coords t) ((dat6 V c).after 2 t) = _
  rw [after6_2]
  unfold corrBlock6
  rw [View.canon_unit_zero zeros3_6]
  simp only [View.ld_unit_zero (S := S512x512) zeros2_6]
  obtain ⟨e0, e1, e2, e3, b0, b1, b2⟩ := blockIdx6 t
  funext j
  obtain ⟨u, r, cc, rfl⟩ : ∃ (u : Fin 1) (r cc : Fin 512), j = ix3 u r cc := ⟨j 0, j 1, j 2, eq_ix3 j⟩
  have hu : u.val = 0 := by have := u.isLt; omega
  show k6_pay1 (iblk6 V c 0 t) (iblk6 V c 1 t) (ix3 u r cc)
      = corrFn (V c main_v10) (V c main_v12) (((cfg6.win 2).blk t).view.emb (ix3 u r cc))
  refine (k6_pay1_apply _ _ u r cc).trans ?_
  refine corr_of_blocks (V c main_v10) (V c main_v12) (iblk6 V c 0 t) (iblk6 V c 1 t) _ r cc (fun d => ?_) (fun d => ?_)
  · show V c main_v10 (((cfg6.win 0).blk t).view.emb (ix2 r d)) = V c main_v10 _
    refine congrArg _ (funext fun a => Fin.ext ?_)
    match a with
    | ⟨0, _⟩ =>
      show win6_0.index t (0 : Fin 2) * 512 + 1 * r.val = win6_2.index t (1 : Fin 3) * 512 + 1 * r.val
      omega
    | ⟨1, _⟩ =>
      show win6_0.index t (1 : Fin 2) * 512 + 1 * d.val = 512 * (win6_2.index t (0 : Fin 3) * 1 + 1 * u.val) + d.val
      omega
  · show V c main_v12 (((cfg6.win 1).blk t).view.emb (ix2 cc d)) = V c main_v12 _
    refine congrArg _ (funext fun a => Fin.ext ?_)
    match a with
    | ⟨0, _⟩ =>
      show win6_1.index t (0 : Fin 2) * 512 + 1 * cc.val = win6_2.index t (2 : Fin 3) * 512 + 1 * cc.val
      omega
    | ⟨1, _⟩ =>
      show win6_1.index t (1 : Fin 2) * 512 + 1 * d.val = 512 * (win6_2.index t (0 : Fin 3) * 1 + 1 * u.val) + d.val
      omega

/-- An index of the result array is in point `t`'s block iff each coordinate is in the block's range on its axis. -/
theorem mem_blk6 (t : Fin cfg6.N) (i : S4x2048x2048.Idx) :
    i ∈ ((cfg6.win 2).blk t).view.set ↔ ∀ a : Fin 3, win6_2.index t a * S1x512x512.size a ≤ (i a).val
      ∧ (i a).val < win6_2.index t a * S1x512x512.size a + S1x512x512.size a := by
  show i ∈ ((View.whole main_v18).slice (win6_2.rect t)).set ↔ _
  rw [View.set_slice_whole, Rect.mem_set_unit]
  exact Iff.rfl

/-- Every block of the result is some point's: the point of head `q0`, row block `q1`, column block `q2`. -/
theorem blockOnto6 : ∀ (q0 q1 q2 : Fin 4), ∃ t : Fin cfg6.N, win6_2.index t = ![q0.val, q1.val, q2.val] :=
  (by decide +kernel : ∀ (q0 q1 q2 : Fin 4), ∃ t : Fin grid6.N, win6_2.index t = ![q0.val, q1.val, q2.val])

/-- The blocks written back cover the result array: index (p, n, m) lies in the block (p, n / 512, m / 512). -/
theorem cover6 (i : S4x2048x2048.Idx) :
    ∃ t : Fin cfg6.N, (cfg6.win 2).flush t = true ∧ i ∈ ((cfg6.win 2).blk t).view.set := by
  have h0 : (i 0).val < 4 := (i 0).isLt
  have h1 : (i 1).val < 2048 := (i 1).isLt
  have h2 : (i 2).val < 2048 := (i 2).isLt
  obtain ⟨t, ht⟩ := blockOnto6 ⟨(i 0).val, h0⟩ ⟨(i 1).val / 512, by omega⟩ ⟨(i 2).val / 512, by omega⟩
  have q0 : win6_2.index t (0 : Fin 3) = (i 0).val := congrFun ht 0
  have q1 : win6_2.index t (1 : Fin 3) = (i 1).val / 512 := congrFun ht 1
  have q2 : win6_2.index t (2 : Fin 3) = (i 2).val / 512 := congrFun ht 2
  refine ⟨t, flush6_2 t, ?_⟩
  rw [mem_blk6]
  intro a
  match a with
  | ⟨0, _⟩ => show win6_2.index t (0 : Fin 3) * 1 ≤ (i 0).val ∧ (i 0).val < win6_2.index t (0 : Fin 3) * 1 + 1; omega
  | ⟨1, _⟩ => show win6_2.index t (1 : Fin 3) * 512 ≤ (i 1).val ∧ (i 1).val < win6_2.index t (1 : Fin 3) * 512 + 512; omega
  | ⟨2, _⟩ => show win6_2.index t (2 : Fin 3) * 512 ≤ (i 2).val ∧ (i 2).val < win6_2.index t (2 : Fin 3) * 512 + 512; omega

/-- The result array after the region: the per-head correlation of the two input arrays as the region finds them. -/
theorem final6 (c : Dev nD) :
    (dat6 (F := Ideal) V c).arrAt 2 cfg6.N = Cert.Bridge.corrFn (V c main_v10) (V c main_v12) :=
  (dat6 (F := Ideal) V c).arrAt_eq_of_cover 2 (Cert.Bridge.corrFn (V c main_v10) (V c main_v12))
    (fun t _ => flushed6_eq V c t) cover6

end Cert.KernelIdeal.HandVal
end
-- ==== Proof.Val.Spec.lean ====
/-
  THE SPECIFICATION: the two results — the decoded array [2048, 1024] and the per-head correlation [4, 2048, 2048] —
  each as ONE function of the thirteen argument arrays, on the extended reals. It imports no program: it composes the
  dense layers (`denseFn`, `denseTanhFn`: a product with the weights plus the bias as a row) with the
  cosine-normalised attention (`attnFn`), the layer normalisation fused into the decoder (`decodeFn`) and the
  correlation of the unit head slices (`corrFn`):

      specH    = tanh (x · We + be)                       the encoded latent
      specQ    = x · Wq + bq                              the queries
      specK    = specH · Wk + bk,  specV = specH · Wv + bv   the keys and the values
      specA    = attnFn specQ specK specV                 the attended rows, four heads side by side
      specOut  = decodeFn specA Wd bd g beta              the first result
      specCorr = corrFn specK specV                       the second result

  The biases, the gain and the offset are vectors [N]; they enter as the rows [1, N] they are reshaped to (`rowFn`).
  Every function takes the thirteen arrays in the order of the programs' arguments:
  x, We, be, Wq, bq, Wk, bk, Wv, bv, g, beta, Wd, bd.
-/
import proofs.«115712_j50027779064181_2_alg».proof.Proof.Val.DenseFns
import proofs.«115712_j50027779064181_2_alg».proof.Proof.Val.RegionFns

noncomputable section

namespace Cert.Bridge

open Idealize.ShloMosaic Idealize.ShloMosaic.ValueIdx

variable (x : Mat 2048 1024) (We : Mat 1024 2048) (be : Vec1 2048) (Wq : Mat 1024 2048) (bq : Vec1 2048)
  (Wk : Mat 2048 2048) (bk : Vec1 2048) (Wv : Mat 2048 2048) (bv : Vec1 2048) (g beta : Vec1 2048)
  (Wd : Mat 2048 1024) (bd : Vec1 1024)

/-- The encoded latent: `tanh (x · We + be)`. -/
def specH (x : Mat 2048 1024) (We : Mat 1024 2048) (be : Vec1 2048) (_Wq : Mat 1024 2048) (_bq : Vec1 2048)
    (_Wk : Mat 2048 2048) (_bk : Vec1 2048) (_Wv : Mat 2048 2048) (_bv : Vec1 2048) (_g _beta : Vec1 2048)
    (_Wd : Mat 2048 1024) (_bd : Vec1 1024) : Mat 2048 2048 :=
  denseTanhFn x We (rowFn be)

/-- The query projection of the input rows: `x · Wq + bq`. -/
def specQ (x : Mat 2048 1024) (_We : Mat 1024 2048) (_be : Vec1 2048) (Wq : Mat 1024 2048) (bq : Vec1 2048)
    (_Wk : Mat 2048 2048) (_bk : Vec1 2048) (_Wv : Mat 2048 2048) (_bv : Vec1 2048) (_g _beta : Vec1 2048)
    (_Wd : Mat 2048 1024) (_bd : Vec1 1024) : Mat 2048 2048 :=
  denseFn x Wq (rowFn bq)

/-- The key projection of the latent: `specH · Wk + bk`. -/
def specK : Mat 2048 2048 :=
  denseFn (specH x We be Wq bq Wk bk Wv bv g beta Wd bd) Wk (rowFn bk)

/-- The value projection of the latent: `specH · Wv + bv`. -/
def specV : Mat 2048 2048 :=
  denseFn (specH x We be Wq bq Wk bk Wv bv g beta Wd bd) Wv (rowFn bv)

/-- The attended rows, the four heads side by side. -/
def specA : Mat 2048 2048 :=
  attnFn (specQ x We be Wq bq Wk bk Wv bv g beta Wd bd) (specK x We be Wq bq Wk bk Wv bv g beta Wd bd)
    (specV x We be Wq bq Wk bk Wv bv g beta Wd bd)

/-- The first result: the normalised attended rows through the decoder. -/
def specOut : Mat 2048 1024 :=
  decodeFn (specA x We be Wq bq Wk bk Wv bv g beta Wd bd) Wd (rowFn bd) (rowFn g) (rowFn beta)

/-- The second result: the correlation of the unit key and value slices of each head. -/
def specCorr : Cube 4 2048 2048 :=
  corrFn (specK x We be Wq bq Wk bk Wv bv g beta Wd bd) (specV x We be Wq bq Wk bk Wv bv g beta Wd bd)

end Cert.Bridge

end
-- ==== Proof.LibColumns.lean ====
/-
  GENERAL LEMMAS: host broadcasts of a per-row statistic read at coordinates, for any extents a (rows) and b (lanes).

  * column_apply: an [a] vector set up as a column [a, 1] (broadcast_in_dim, dims = [0]) reads, at (p, 0), entry p;
  * spread_apply: a column [a, 1] spread over b lanes (broadcast_in_dim, dims = [0, 1]) reads, at (p, j), the column's
    entry of row p;
  * row_vec_apply: an [n] vector cast to a row [1, n] reads, at (0, j), entry j.
  The well-formedness proof of each operation is a variable, so the lemmas apply to any program's spelling.
-/
import Idealize.ShloMosaic.Lib.ValueLayout
import Idealize.ShloMosaic.Lib.Pipeline.Value

noncomputable section

namespace Cert.LibColumns

open Idealize.ShloMosaic Idealize.ShloMosaic.ValueIdx

variable {α : Type}

/-- A vector set up as a column reads, at (p, 0), the vector's entry p. -/
theorem column_apply {a : ℕ} (h : (⟨1, ![a]⟩ : Shape).BroadcastsInDim ⟨2, ![a, 1]⟩ ![0])
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun ax => match ax with
    | ⟨0, _⟩ => by
      show p.val = if a = 1 then 0 else p.val
      split
      · have := p.isLt; omega
      · rfl)

/-- A column spread over the lanes reads, at (p, j), the column's entry of row p. -/
theorem spread_apply {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) :=
  broadcastInDim_apply _ h v (ix2 p j) (ix2 p (0 : Fin 1)) (fun ax => match ax with
    | ⟨0, _⟩ => by
      show p.val = if a = 1 then 0 else p.val
      split
      · have := p.isLt; omega
      · rfl
    | ⟨1, _⟩ => by show (0 : ℕ) = if (1 : ℕ) = 1 then 0 else j.val; rw [if_pos rfl])

/-- A vector cast to a one-row matrix reads, at (0, j), the vector's entry j: both list their entries in the same order. -/
theorem row_vec_apply {n : ℕ} (h : (⟨1, ![n]⟩ : Shape).ShapeCasts ⟨2, ![1, n]⟩) (x : (⟨1, ![n]⟩ : Shape).Idx → α) (j : Fin n) :
    shapeCast ⟨2, ![1, n]⟩ x h (ix2 (0 : Fin 1) j) = x (ix1 j) :=
  shapeCast_apply x h _ _ (by
    rw [Shape.rowMajor_val_two, Shape.rowMajor_val_one]
    show j.val = 0 * n + j.val
    omega)

end Cert.LibColumns

end
-- ==== Proof.Val.Printed.lean ====
/-
  Two facts about the kernel program's HOST operations, at the exact instance, in the printed program's own shape names.

  A change of float format is the identity on the extended reals: narrowing an f32 array to bf16 gives the same
  function of the index (the weights the host narrows before the dense layers are, as arrays of extended reals, the
  weights themselves).

  A vector [N] reshaped to the row [1, N] is `rowFn` of the vector: the row at (0, j) is the vector's entry j (both
  list their entries in the same order). Stated for the two casts the program prints, [2048] → [1, 2048] and
  [1024] → [1, 1024].
-/
import proofs.«115712_j50027779064181_2_alg».proof.KernelIdeal
import proofs.«115712_j50027779064181_2_alg».proof.Proof.Val.DenseFns
import proofs.«115712_j50027779064181_2_alg».proof.Proof.LibColumns
import Idealize.ShloMosaic.Lib.ValueIdx
import Idealize.ShloMosaic.Lib.Pipeline.Value

noncomputable section

namespace Cert.Bridge.Printed

open Idealize.ShloMosaic Idealize.ShloMosaic.ValueIdx Cert.Bridge Cert.KernelIdeal Cert.KernelIdeal.Facts₀ Cert.KernelIdeal.Facts

/-! ## A change of format is the identity -/

/-- Narrowing an f32 array to bf16 at the exact instance is the array itself, as a function of the index. -/
theorem truncf_id {S : Shape} (a : FVec Ideal S .f32) (h : FTy.bits .bf16 < FTy.bits .f32) :
    (truncf .bf16 a h : S.Idx → EReal) = a := rfl

/-- The same at an index. -/
theorem truncf_bf16_apply {S : Shape} (a : FVec Ideal S .f32) (h : FTy.bits .bf16 < FTy.bits .f32) (i : S.Idx) :
    truncf .bf16 a h i = a i := rfl

/-- Widening a bf16 array to f32 at the exact instance is the array itself. -/
theorem extf_f32_eq {S : Shape} (a : FVec Ideal S .bf16) (h : FTy.bits .bf16 < FTy.bits .f32) :
    (extf .f32 a h : S.Idx → EReal) = a := rfl

/-! ## A vector reshaped to a row -/

variable [Cert.KernelIdeal.Facts]

/-- The printed cast [2048] → [1, 2048] is `rowFn`. -/
theorem row2048 (a : FVec Ideal S2048 .f32) :
    shapeCast S1x2048 a shapeCasts_S2048_S1x2048 = rowFn a := by
  funext j
  obtain ⟨z, c, rfl⟩ : ∃ (z : Fin 1) (c : Fin 2048), j = ix2 z c := ⟨j 0, j 1, eq_ix2 j⟩
  obtain rfl : z = 0 := Subsingleton.elim _ _
  exact Cert.LibColumns.row_vec_apply shapeCasts_S2048_S1x2048 a c

/-- The printed cast [1024] → [1, 1024] is `rowFn`. -/
theorem row1024 (a : FVec Ideal S1024 .f32) :
    shapeCast S1x1024 a shapeCasts_S1024_S1x1024 = rowFn a := by
  funext j
  obtain ⟨z, c, rfl⟩ : ∃ (z : Fin 1) (c : Fin 1024), j = ix2 z c := ⟨j 0, j 1, eq_ix2 j⟩
  obtain rfl : z = 0 := Subsingleton.elim _ _
  exact Cert.LibColumns.row_vec_apply shapeCasts_S1024_S1x1024 a c

end Cert.Bridge.Printed

end
-- ==== Proof.KIV.Compose.lean ====
/-
  The kernel program's two results as functions of its thirteen arguments. Each region's result array is its region's
  function of the arrays the region was entered with (Val0 … Val6); each of those arrays is an argument, a weight after
  the host's change of float format (the identity on extended reals), a vector set up as a row, or an earlier region's
  result (Entry.lean). Substituting one into the other from the last region back to the first gives the specification:
  the encoder feeds the key and value projections, the three projections feed the attention, the attention feeds the
  normalisation and the decoder; the key and value projections feed the correlation.
-/
import proofs.«115712_j50027779064181_2_alg».proof.Proof.KIV.Entry
import proofs.«115712_j50027779064181_2_alg».proof.Proof.KIV.Val0
import proofs.«115712_j50027779064181_2_alg».proof.Proof.KIV.Val1
import proofs.«115712_j50027779064181_2_alg».proof.Proof.KIV.Val2
import proofs.«115712_j50027779064181_2_alg».proof.Proof.KIV.Val3
import proofs.«115712_j50027779064181_2_alg».proof.Proof.KIV.Val4
import proofs.«115712_j50027779064181_2_alg».proof.Proof.KIV.Val5
import proofs.«115712_j50027779064181_2_alg».proof.Proof.KIV.Val6
import proofs.«115712_j50027779064181_2_alg».proof.Proof.Val.Spec
import proofs.«115712_j50027779064181_2_alg».proof.Proof.Val.Printed

set_option maxRecDepth 16384

noncomputable section

namespace Cert.KernelIdeal.HandVal

open Cert.KernelIdeal Cert.KernelIdeal.Gen Cert.KernelIdeal.Hand Cert.Bridge
open Idealize.ShloMosaic Idealize.ShloMosaic.TcCoe
open Idealize.ShloMosaic.Pipeline (Dat)

variable (m : (ℓ : Loc nD τ sig) → Buf (Elt Ideal) ℓ)

/-- The encoder's result: tanh of the input times the encoder's weight plus its bias. -/
theorem enc_eq (c : Dev nD) : (dat0 (F := Ideal) (ent1 m) c).arrAt 3 cfg0.N
    = specH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [final0, in0_x, in0_w, in0_b, Printed.truncf_id, Printed.row2048]; rfl

/-- The query projection. -/
theorem query_eq (c : Dev nD) : (dat1 (F := Ideal) (ent3 m) c).arrAt 3 cfg1.N
    = specQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [final1, in1_x, in1_w, in1_b, Printed.truncf_id, Printed.row2048]; rfl

/-- The key projection, of the encoder's result. -/
theorem key_eq (c : Dev nD) : (dat2 (F := Ideal) (ent5 m) c).arrAt 3 cfg2.N
    = specK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [final2, in2_h, in2_w, in2_b, enc_eq, Printed.truncf_id, Printed.row2048]; rfl

/-- The value projection, of the encoder's result. -/
theorem value_eq (c : Dev nD) : (dat3 (F := Ideal) (ent7 m) c).arrAt 3 cfg3.N
    = specV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [final3, in3_h, in3_w, in3_b, enc_eq, Printed.truncf_id, Printed.row2048]; rfl

/-- The attention, of the three projections. -/
theorem attn_eq (c : Dev nD) : (dat4 (F := Ideal) (ent8 m) c).arrAt 3 cfg4.N
    = specA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [final4, in4_q, in4_k, in4_v, query_eq, key_eq, value_eq]; rfl

/-- The first result: the normalisation and the decoder, of the attention. -/
theorem out_eq (c : Dev nD) : (dat5 (F := Ideal) (ent10 m) c).arrAt 5 cfg5.N
    = specOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [final5, in5_a, in5_w, in5_b, in5_g, in5_s, attn_eq, Printed.truncf_id, Printed.row1024, Printed.row2048, Printed.row2048]; rfl

/-- The second result: the correlation, of the key and value projections. -/
theorem corr_eq (c : Dev nD) : (dat6 (F := Ideal) (ent11 m) c).arrAt 2 cfg6.N
    = specCorr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [final6, in6_k, in6_v, key_eq, value_eq]; rfl

end Cert.KernelIdeal.HandVal

end
-- ==== Proof.LibDense.lean ====
/-
  GENERAL LEMMAS: one dense layer, and the rectifier after it, read at an index on extended reals — in the two spellings a
  kernel and a host program give them. Nothing here mentions a program; the extents R (rows), K (contracted) and N
  (columns) are arbitrary.

  * affine, relu: a dense layer and the rectifier on ONE row, as plain functions Fin K → EReal ↦ Fin N → EReal.
  * ix2_of_val, ix1_of_val: an index with known coordinates is the index built from them.
  * contraction_rows: a contraction of axis 1 of an [R, K] array with axis 0 of a [K, N] array (no batch axes), read at
    (p, j), is the sum over k : Fin K of l (p, k) · r (k, j); the dimension record enters only through four coordinate
    facts about its operand indices (for a printed record: two by rfl-style unfolding, two by
    DotDims.lhsIdx_val_of_single / rhsIdx_val_of_single) and the rank and extent of its contraction shape (both rfl).
  * tile_affine: the kernel's spelling — tpu.matmul of the activations and weights, each rounded to bf16 on the way in
    (the identity on extended reals), into a zero accumulator, plus a [1, N] bias row cast to its own shape and broadcast
    down the R rows — at (p, j) is affine of row p.
  * host_affine: the host's spelling — dot_general plus an [N] bias vector broadcast to [1, N] and then to [R, N] — at
    (p, j) is affine of row p.
  * relu_tile, relu_host: a maximum against the zero word, splat from a scalar (kernel) or broadcast from a rank-0
    constant (host), at (p, j) is relu of row p.
  No law of extended-real arithmetic beyond reindexing a finite sum is used, so none of these needs finite inputs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx
open scoped BigOperators

/-- One dense layer on a row: j ↦ (∑ k, h k · W (k, j)) + b j. -/
def affine {K N : ℕ} (W : (⟨2, ![K, N]⟩ : Shape).Idx → EReal) (b : Fin N → EReal) (h : Fin K → EReal) : Fin N → EReal :=
  fun j => (∑ k : Fin K, h k * W (ix2 k j)) + b j

/-- The rectifier on a row: each entry's maximum with the value of the zero word (kept as the word: both programs
    print the same word, so it is never evaluated). -/
def relu {N : ℕ} (v : Fin N → EReal) : Fin N → EReal :=
  fun j => max (v j) (Ideal.ofBits .f32 0x00000000#32)

/-- A rank-2 index with known coordinates is the index built from them. -/
theorem ix2_of_val {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index with a known coordinate is the index built from it. -/
theorem ix1_of_val {n : ℕ} (f : (⟨1, ![n]⟩ : Shape).Idx) (a : Fin n) (h0 : (f 0).val = a.val) : f = ix1 a :=
  funext fun d => Fin.ext (by
    match d with
    | ⟨0, _⟩ => exact h0)

/-- A contraction of axis 1 of an [R, K] array with axis 0 of a [K, N] array (no batch axes), read at (p, j), is the
    sum over k : Fin K of l (p, k) · r (k, j): the record's operand indices are named by hl0 ... hr1, and its one-axis
    contraction index is Fin K (contrEquiv1). -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (l : (⟨2, ![R, K]⟩ : Shape).Idx → EReal) (r : (⟨2, ![K, N]⟩ : Shape).Idx → EReal) (p : Fin R) (j : Fin N) :
    ∑ q : d.contr.Idx, l (d.lhsIdx (ix2 p j) q) * r (d.rhsIdx (ix2 p j) q) = ∑ k : Fin K, l (ix2 p k) * r (ix2 k j) := by
  rw [← Equiv.sum_comp (contrEquiv1 d K hrank hsize).symm]
  refine Finset.sum_congr rfl fun k _ => ?_
  have hk := contrEquiv1_symm_val d K hrank hsize k
  have el : d.lhsIdx (ix2 p j) ((contrEquiv1 d K hrank hsize).symm k) = ix2 p k :=
    ix2_of_val _ p k (hl0 _ _) ((hl1 _ _).trans hk)
  have er : d.rhsIdx (ix2 p j) ((contrEquiv1 d K hrank hsize).symm k) = ix2 k j :=
    ix2_of_val _ k j ((hr0 _ _).trans hk) (hr1 _ _)
  rw [el, er]

/-- ONE DENSE LAYER AS A KERNEL SPELLS IT, read at (p, j): the matrix unit's product of the activations and the weights
    (both rounded to bf16 on the way in: the identity here) into a zero accumulator, plus the bias, a [1, N] row cast to
    its own shape and broadcast down the R rows — is affine of the weights, the bias row and row p of the activations. -/
theorem tile_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨2, ![1, N]⟩ .f32)
    (hlt : FTy.bf16.bits < FTy.f32.bits)
    (hsc : (⟨2, ![1, N]⟩ : Shape).ShapeCasts ⟨2, ![1, N]⟩) (hbc : (⟨2, ![1, N]⟩ : Shape).Broadcasts ⟨2, ![R, N]⟩)
    (p : Fin R) (j : Fin N) :
    addf (matmul d none (truncf .bf16 h hlt) (truncf .bf16 W hlt) (constant (F := Ideal) ⟨2, ![R, N]⟩ .f32 0x00000000#32))
        (broadcastTo ⟨2, ![R, N]⟩ (shapeCast ⟨2, ![1, N]⟩ b hsc) hbc) (ix2 p j)
      = affine W (fun j => b (ix2 (0 : Fin 1) j)) (fun k => h (ix2 p k)) j := by
  rw [addf_apply, shapeCast_self, broadcastTo_1b_ab_apply]
  refine congrArg (· + b (ix2 (0 : Fin 1) j)) ?_
  refine (Ideal.matmul_constant_zero_apply d none (truncf .bf16 h hlt) (truncf .bf16 W hlt) (ix2 p j)).trans ?_
  exact contraction_rows d hrank hsize hl0 hl1 hr0 hr1 h W p j

/-- ONE DENSE LAYER AS THE HOST SPELLS IT, read at (p, j): dot_general of the activations and the weights plus the bias, an
    [N] vector broadcast to [1, N] and then down the R rows — is affine of the weights, the bias and row p. -/
theorem host_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1])
    (p : Fin R) (j : Fin N) :
    addf (Host.dotGeneral d none h W)
        (broadcastInDim ⟨2, ![R, N]⟩ ![0, 1] hb2 (broadcastInDim ⟨2, ![1, N]⟩ ![1] hb1 b)) (ix2 p j)
      = affine W (fun j => b (ix1 j)) (fun k => h (ix2 p k)) j := by
  rw [addf_apply]
  have e2 : broadcastInDim ⟨2, ![R, N]⟩ ![0, 1] hb2 (broadcastInDim ⟨2, ![1, N]⟩ ![1] hb1 b) (ix2 p j)
      = broadcastInDim ⟨2, ![1, N]⟩ ![1] hb1 b (ix2 (0 : Fin 1) j) :=
    broadcastInDim_apply _ hb2 _ (ix2 p j) (ix2 (0 : Fin 1) j) (fun a => match a with
      | ⟨0, _⟩ => by show (0 : ℕ) = if (1 : ℕ) = 1 then 0 else p.val; rw [if_pos rfl]
      | ⟨1, _⟩ => by
        show j.val = if N = 1 then 0 else j.val
        split
        · have := j.isLt; omega
        · rfl)
  have e1 : broadcastInDim ⟨2, ![1, N]⟩ ![1] hb1 b (ix2 (0 : Fin 1) j) = b (ix1 j) :=
    broadcastInDim_apply _ hb1 b (ix2 (0 : Fin 1) j) (ix1 j) (fun a => match a with
      | ⟨0, _⟩ => by
        show j.val = if N = 1 then 0 else j.val
        split
        · have := j.isLt; omega
        · rfl)
  rw [e2, e1]
  refine congrArg (· + b (ix1 j)) ?_
  refine (Ideal.dotGeneral_apply d none .single h W (ix2 p j)).trans ?_
  exact contraction_rows d hrank hsize hl0 hl1 hr0 hr1 h W p j

/-- The rectifier as a kernel spells it: a maximum against the splat of the zero word, read at (p, j), is the rectifier of
    row p at j. -/
theorem relu_tile {R N : ℕ} (a : FVec Ideal ⟨2, ![R, N]⟩ .f32) (p : Fin R) (j : Fin N) :
    maximumf a (broadcast ⟨2, ![R, N]⟩ (Scalar.ofBits (F := Ideal) .f32 0x00000000#32)) (ix2 p j)
      = relu (fun j => a (ix2 p j)) j := rfl

/-- The rectifier as the host spells it: a maximum against the zero constant, a scalar broadcast to the whole shape, read
    at (p, j), is the rectifier of row p at j. -/
theorem relu_host {R N : ℕ} (a : FVec Ideal ⟨2, ![R, N]⟩ .f32) (hb : (⟨0, ![]⟩ : Shape).BroadcastsInDim ⟨2, ![R, N]⟩ ![])
    (p : Fin R) (j : Fin N) :
    maximumf a (broadcastInDim ⟨2, ![R, N]⟩ ![] hb (constant (F := Ideal) ⟨0, ![]⟩ .f32 0x00000000#32)) (ix2 p j)
      = relu (fun j => a (ix2 p j)) j := by
  rw [maximumf_apply, broadcastInDim_apply _ hb _ (ix2 p j) ix0 (fun a => a.elim0)]
  rfl

end Cert.Dense

end
-- ==== Proof.Val.RefDense.lean ====
/-
  The reference's dense layers read as functions of their arrays. Each of the host's five dense layers is a
  `dot_general` contracting the left operand's columns with the right operand's rows, plus a bias VECTOR broadcast first
  to a row [1, N] and then down the rows; read at an index this is `(∑ k, X (n, k) * W (k, c)) + b c`, the function
  `denseFn X W (rowFn b)` of the arrays (and `denseTanhFn` under the hyperbolic tangent). The three shapes met: a
  contraction over 1024 into [2048, 2048] (the encoder and the query projection), over 2048 into [2048, 2048] (the key
  and value projections) and over 2048 into [2048, 1024] (the decoder). The encoded latent — the reference's first
  named intermediate — is `denseTanhFn x We (rowFn be)`.
-/
import proofs.«115712_j50027779064181_2_alg».proof.Proof.Gen.ReferenceIdeal.Run
import proofs.«115712_j50027779064181_2_alg».proof.Proof.Val.DenseFns
import proofs.«115712_j50027779064181_2_alg».proof.Proof.LibDense
import proofs.«115712_j50027779064181_2_alg».proof.Proof.LibContract

noncomputable section

namespace Cert.RefValue

open Cert.ReferenceIdeal Cert.ReferenceIdeal.Gen Cert.ReferenceIdeal.Value Idealize.ShloMosaic Idealize.ShloMosaic.TcCoe
  Idealize.ShloMosaic.ValueIdx Cert.Bridge
open scoped BigOperators

/-! ## Contraction over 1024 into [2048, 2048] -/

/-- The printed dimension record of the [2048, 1024] · [1024, 2048] product is the plain matrix product's. -/
theorem dotA_eq : dot_S2048x1024_S1024x2048_S2048x2048_1_0_0_1_n_n
    = Cert.LibContract.matDims 2048 1024 2048 dot_S2048x1024_S1024x2048_S2048x2048_1_0_0_1_n_n_wf := rfl

/-- The host's dense layer [2048, 1024] · [1024, 2048] plus the bias vector broadcast to a row and down the rows is
    `denseFn` of the arrays and the bias as a row. -/
theorem denseA_host (x : FVec Ideal S2048x1024 .f32) (W : FVec Ideal S1024x2048 .f32) (b : FVec Ideal S2048 .f32) :
    addf (Host.dotGeneral dot_S2048x1024_S1024x2048_S2048x2048_1_0_0_1_n_n none x W)
        (broadcastInDim S2048x2048 ![0, 1] bcast_S1x2048_S2048x2048_0_1 (broadcastInDim S1x2048 ![1] bcast_S2048_S1x2048_1 b))
      = denseFn x W (rowFn b) := by
  funext j
  obtain ⟨n, c, rfl⟩ : ∃ (n : Fin 2048) (c : Fin 2048), j = ix2 n c := ⟨j 0, j 1, eq_ix2 j⟩
  rw [dotA_eq]
  rw [Cert.Dense.host_affine (Cert.LibContract.matDims 2048 1024 2048 dot_S2048x1024_S1024x2048_S2048x2048_1_0_0_1_n_n_wf) rfl rfl
    (Cert.LibContract.mat_lhs_0 _) (Cert.LibContract.mat_lhs_1 _) (Cert.LibContract.mat_rhs_0 _) (Cert.LibContract.mat_rhs_1 _)]
  rfl

/-- The same under the host's `tanh`. -/
theorem denseTanhA_host (x : FVec Ideal S2048x1024 .f32) (W : FVec Ideal S1024x2048 .f32) (b : FVec Ideal S2048 .f32) :
    Host.tanh (addf (Host.dotGeneral dot_S2048x1024_S1024x2048_S2048x2048_1_0_0_1_n_n none x W)
        (broadcastInDim S2048x2048 ![0, 1] bcast_S1x2048_S2048x2048_0_1 (broadcastInDim S1x2048 ![1] bcast_S2048_S1x2048_1 b)))
      = denseTanhFn x W (rowFn b) := by
  rw [denseA_host]; rfl

/-! ## Contraction over 2048 into [2048, 2048] -/

/-- The printed dimension record of the [2048, 2048] · [2048, 2048] product is the plain matrix product's. -/
theorem dotB_eq : dot_S2048x2048_S2048x2048_S2048x2048_1_0_0_1_n_n
    = Cert.LibContract.matDims 2048 2048 2048 dot_S2048x2048_S2048x2048_S2048x2048_1_0_0_1_n_n_wf := rfl

/-- The host's dense layer [2048, 2048] · [2048, 2048] plus the bias vector broadcast to a row and down the rows is
    `denseFn` of the arrays and the bias as a row. -/
theorem denseB_host (x : FVec Ideal S2048x2048 .f32) (W : FVec Ideal S2048x2048 .f32) (b : FVec Ideal S2048 .f32) :
    addf (Host.dotGeneral dot_S2048x2048_S2048x2048_S2048x2048_1_0_0_1_n_n none x W)
        (broadcastInDim S2048x2048 ![0, 1] bcast_S1x2048_S2048x2048_0_1 (broadcastInDim S1x2048 ![1] bcast_S2048_S1x2048_1 b))
      = denseFn x W (rowFn b) := by
  funext j
  obtain ⟨n, c, rfl⟩ : ∃ (n : Fin 2048) (c : Fin 2048), j = ix2 n c := ⟨j 0, j 1, eq_ix2 j⟩
  rw [dotB_eq]
  rw [Cert.Dense.host_affine (Cert.LibContract.matDims 2048 2048 2048 dot_S2048x2048_S2048x2048_S2048x2048_1_0_0_1_n_n_wf) rfl rfl
    (Cert.LibContract.mat_lhs_0 _) (Cert.LibContract.mat_lhs_1 _) (Cert.LibContract.mat_rhs_0 _) (Cert.LibContract.mat_rhs_1 _)]
  rfl

/-- The same under the host's `tanh`. -/
theorem denseTanhB_host (x : FVec Ideal S2048x2048 .f32) (W : FVec Ideal S2048x2048 .f32) (b : FVec Ideal S2048 .f32) :
    Host.tanh (addf (Host.dotGeneral dot_S2048x2048_S2048x2048_S2048x2048_1_0_0_1_n_n none x W)
        (broadcastInDim S2048x2048 ![0, 1] bcast_S1x2048_S2048x2048_0_1 (broadcastInDim S1x2048 ![1] bcast_S2048_S1x2048_1 b)))
      = denseTanhFn x W (rowFn b) := by
  rw [denseB_host]; rfl

/-! ## Contraction over 2048 into [2048, 1024] -/

/-- The printed dimension record of the [2048, 2048] · [2048, 1024] product is the plain matrix product's. -/
theorem dotD_eq : dot_S2048x2048_S2048x1024_S2048x1024_1_0_0_1_n_n
    = Cert.LibContract.matDims 2048 2048 1024 dot_S2048x2048_S2048x1024_S2048x1024_1_0_0_1_n_n_wf := rfl

/-- The host's dense layer [2048, 2048] · [2048, 1024] plus the bias vector broadcast to a row and down the rows is
    `denseFn` of the arrays and the bias as a row. -/
theorem denseD_host (x : FVec Ideal S2048x2048 .f32) (W : FVec Ideal S2048x1024 .f32) (b : FVec Ideal S1024 .f32) :
    addf (Host.dotGeneral dot_S2048x2048_S2048x1024_S2048x1024_1_0_0_1_n_n none x W)
        (broadcastInDim S2048x1024 ![0, 1] bcast_S1x1024_S2048x1024_0_1 (broadcastInDim S1x1024 ![1] bcast_S1024_S1x1024_1 b))
      = denseFn x W (rowFn b) := by
  funext j
  obtain ⟨n, c, rfl⟩ : ∃ (n : Fin 2048) (c : Fin 1024), j = ix2 n c := ⟨j 0, j 1, eq_ix2 j⟩
  rw [dotD_eq]
  rw [Cert.Dense.host_affine (Cert.LibContract.matDims 2048 2048 1024 dot_S2048x2048_S2048x1024_S2048x1024_1_0_0_1_n_n_wf) rfl rfl
    (Cert.LibContract.mat_lhs_0 _) (Cert.LibContract.mat_lhs_1 _) (Cert.LibContract.mat_rhs_0 _) (Cert.LibContract.mat_rhs_1 _)]
  rfl

/-- The same under the host's `tanh`. -/
theorem denseTanhD_host (x : FVec Ideal S2048x2048 .f32) (W : FVec Ideal S2048x1024 .f32) (b : FVec Ideal S1024 .f32) :
    Host.tanh (addf (Host.dotGeneral dot_S2048x2048_S2048x1024_S2048x1024_1_0_0_1_n_n none x W)
        (broadcastInDim S2048x1024 ![0, 1] bcast_S1x1024_S2048x1024_0_1 (broadcastInDim S1x1024 ![1] bcast_S1024_S1x1024_1 b)))
      = denseTanhFn x W (rowFn b) := by
  rw [denseD_host]; rfl

/-! ## The encoded latent -/

/-- The reference's encoded latent is `denseTanhFn` of the input rows, the encoder's weights and its bias as a row. -/
theorem v4_eq (V0 : Valuation τ sig (Elt Ideal)) :
    res_main_v4 (F := Ideal) V0
      = denseTanhFn (V0 (Proc.devRef .tc main_arg0) : FVec Ideal S2048x1024 .f32)
          (V0 (Proc.devRef .tc main_arg1) : FVec Ideal S1024x2048 .f32)
          (rowFn (V0 (Proc.devRef .tc main_arg2) : FVec Ideal S2048 .f32)) :=
  denseTanhA_host _ _ _

end Cert.RefValue

end
-- ==== Proof.Val.RefHost.lean ====
/-
  The reference's host operations read at coordinates, on the extended reals, over VARIABLE arrays of the printed
  literal shapes. Nothing here is specific to the values flowing through: each lemma says what one operation (or a
  fixed pair of layout operations) computes at an index.

  * heads: a [2048, 2048] array reshaped to [2048, 4, 512] and transposed to [4, 2048, 512] reads, at (p, n, e), the
    array at row n, column 512 p + e; and back: a [4, 2048, 512] stack transposed and reshaped to [2048, 2048] reads,
    at row n and column 512 p + e, the stack at (p, n, e).
  * sums: the host's add-reduction from the zero word over the last axis is the plain sum over that axis.
  * maximum: the host's max-reduction from the word of minus infinity over the last axis is `max` folded over that axis.
  * keepdims: a reduced array set up as a column (a unit last axis), a scalar constant spread over a shape, and a column
    spread over the lanes.
  * the two batched products: rows with rows over the 512 lanes, and weights with value rows over the 2048 keys.
-/
import proofs.«115712_j50027779064181_2_alg».proof.Proof.Gen.ReferenceIdeal.Run
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Value Idealize.ShloMosaic Idealize.ShloMosaic.TcCoe
  Idealize.ShloMosaic.ValueIdx
open scoped BigOperators

/-! ## Heads -/

/-- Splitting the 2048 columns into 4 heads of 512 lanes and bringing the head axis to the front: entry (p, n, e) is
    the array at row n and the column `c` with `c = 512 p + e`. -/
theorem heads_apply (m : FVec Ideal S2048x2048 .f32) (p : Fin 4) (n : Fin 2048) (e : Fin 512) (c : Fin 2048)
    (hc : c.val = 512 * p.val + e.val) :
    transpose S4x2048x512 [1, 0, 2] (shapeCast S2048x4x512 m shapeCasts_S2048x2048_S2048x4x512)
        transposes_S2048x4x512_S4x2048x512_1_0_2 (ix3 p n e)
      = m (ix2 n c) := by
  rw [transpose_apply [1, 0, 2] _ transposes_S2048x4x512_S4x2048x512_1_0_2 (ix3 p n e) (ix3 n p e)
    (fun b => match b with | ⟨0, _⟩ => rfl | ⟨1, _⟩ => rfl | ⟨2, _⟩ => rfl)]
  exact shapeCast_apply m _ _ _ (by
    rw [Shape.rowMajor_val_two, Shape.rowMajor_val_three]
    show n.val * 2048 + c.val = (n.val * 4 + p.val) * 512 + e.val
    omega)

/-- Putting the heads back side by side: row n, column `c = 512 p + e` of the merged array is entry (p, n, e). -/
theorem merge_apply (t : FVec Ideal S4x2048x512 .f32) (p : Fin 4) (n : Fin 2048) (e : Fin 512) (c : Fin 2048)
    (hc : c.val = 512 * p.val + e.val) :
    shapeCast S2048x2048 (transpose S2048x4x512 [1, 0, 2] t transposes_S4x2048x512_S2048x4x512_1_0_2)
        shapeCasts_S2048x4x512_S2048x2048 (ix2 n c)
      = t (ix3 p n e) := by
  rw [shapeCast_apply _ shapeCasts_S2048x4x512_S2048x2048 (ix2 n c) (ix3 n p e) (by
    rw [Shape.rowMajor_val_two, Shape.rowMajor_val_three]
    show (n.val * 4 + p.val) * 512 + e.val = n.val * 2048 + c.val
    omega)]
  exact transpose_apply [1, 0, 2] t transposes_S4x2048x512_S2048x4x512_1_0_2 (ix3 n p e) (ix3 p n e)
    (fun b => match b with | ⟨0, _⟩ => rfl | ⟨1, _⟩ => rfl | ⟨2, _⟩ => rfl)

/-! ## Sums over the last axis -/

/-- The sum over the 512 lanes of a head's row. -/
theorem rsum_lanes_apply (t : FVec Ideal S4x2048x512 .f32) (p : Fin 4) (n : Fin 2048) :
    Host.reduceAdd t (constant S_ .f32 0x00000000#32) reducesTo_S4x2048x512_S4x2048_d2 h_S_ (ix2 p n)
      = ∑ e : Fin 512, t (ix3 p n e) := by
  have hR : S4x2048x512.Reduces [2] S4x2048 := by decide
  show Ideal.hostReduceAdd reducesTo_S4x2048x512_S4x2048_d2 t (Ideal.ofBits .f32 0x00000000#32) (ix2 p n) = _
  rw [Ideal.hostReduceAdd_single reducesTo_S4x2048x512_S4x2048_d2 hR, Ideal.ofBits_zero_f32, zero_add]
  exact Finset.sum_congr rfl fun e _ => congrArg t (funext fun c => Fin.ext (by
    match c with | ⟨0, _⟩ => rfl | ⟨1, _⟩ => rfl | ⟨2, _⟩ => rfl))

/-- The sum over the 2048 keys of a head's query row. -/
theorem rsum_keys_apply (t : FVec Ideal S4x2048x2048 .f32) (p : Fin 4) (n : Fin 2048) :
    Host.reduceAdd t (constant S_ .f32 0x00000000#32) reducesTo_S4x2048x2048_S4x2048_d2 h_S_ (ix2 p n)
      = ∑ m : Fin 2048, t (ix3 p n m) := by
  have hR : S4x2048x2048.Reduces [2] S4x2048 := by decide
  show Ideal.hostReduceAdd reducesTo_S4x2048x2048_S4x2048_d2 t (Ideal.ofBits .f32 0x00000000#32) (ix2 p n) = _
  rw [Ideal.hostReduceAdd_single reducesTo_S4x2048x2048_S4x2048_d2 hR, Ideal.ofBits_zero_f32, zero_add]
  exact Finset.sum_congr rfl fun e _ => congrArg t (funext fun c => Fin.ext (by
    match c with | ⟨0, _⟩ => rfl | ⟨1, _⟩ => rfl | ⟨2, _⟩ => rfl))

/-- The sum over the 2048 features of a row. -/
theorem rsum_row_apply (t : FVec Ideal S2048x2048 .f32) (n : Fin 2048) :
    Host.reduceAdd t (constant S_ .f32 0x00000000#32) reducesTo_S2048x2048_S2048_d1 h_S_ (ix1 n)
      = ∑ j : Fin 2048, t (ix2 n j) := by
  have hR : S2048x2048.Reduces [1] S2048 := by decide
  show Ideal.hostReduceAdd reducesTo_S2048x2048_S2048_d1 t (Ideal.ofBits .f32 0x00000000#32) (ix1 n) = _
  rw [Ideal.hostReduceAdd_single reducesTo_S2048x2048_S2048_d1 hR, Ideal.ofBits_zero_f32, zero_add]
  exact Finset.sum_congr rfl fun e _ => congrArg t (funext fun c => Fin.ext (by
    match c with | ⟨0, _⟩ => rfl | ⟨1, _⟩ => rfl))

/-! ## The maximum over the last axis -/

/-- The largest of a query row's 2048 scores: `max` folded from the word of minus infinity. -/
theorem rmax_keys_apply (x : FVec Ideal S4x2048x2048 .f32) (p : Fin 4) (n : Fin 2048) :
    Host.reduce FloatOps.maximumf x (constant S_ .f32 0xFF800000#32) reducesTo_S4x2048x2048_S4x2048_d2 h_S_ (ix2 p n)
      = (Finset.univ : Finset (Fin 2048)).fold max (Ideal.ofBits .f32 0xFF800000#32) (fun m => x (ix3 p n m)) := by
  have hR : S4x2048x2048.Reduces [2] S4x2048 := by decide
  rw [Host.reduce_eq_fold_single FloatOps.maximumf x _ reducesTo_S4x2048x2048_S4x2048_d2 hR h_S_ (ix2 p n)]
  have e : (x ∘ hR.lift (ix2 p n)) = fun m : Fin 2048 => x (ix3 p n m) :=
    funext fun m => congrArg x (funext fun c => Fin.ext (by
      match c with | ⟨0, _⟩ => rfl | ⟨1, _⟩ => rfl | ⟨2, _⟩ => rfl))
  rw [e]
  rfl

/-! ## Keepdims columns, splats and spreads -/

/-- A [4, 2048] array set up as a column [4, 2048, 1]. -/
theorem col3_apply (s : FVec Ideal S4x2048 .f32) (p : Fin 4) (n : Fin 2048) (z : Fin 1) :
    broadcastInDim S4x2048x1 ![0, 1] bcast_S4x2048_S4x2048x1_0_1 s (ix3 p n z) = s (ix2 p n) :=
  broadcastInDim_apply _ bcast_S4x2048_S4x2048x1_0_1 s (ix3 p n z) (ix2 p n) (fun a => match a with
    | ⟨0, _⟩ => rfl
    | ⟨1, _⟩ => rfl)

/-- A column [4, 2048, 1] spread over the 512 lanes. -/
theorem spread_lanes_apply (g : FVec Ideal S4x2048x1 .f32) (p : Fin 4) (n : Fin 2048) (e : Fin 512) :
    broadcastInDim S4x2048x512 ![0, 1, 2] bcast_S4x2048x1_S4x2048x512_0_1_2 g (ix3 p n e) = g (ix3 p n (0 : Fin 1)) :=
  broadcastInDim_apply _ bcast_S4x2048x1_S4x2048x512_0_1_2 g (ix3 p n e) (ix3 p n (0 : Fin 1)) (fun a => match a with
    | ⟨0, _⟩ => rfl
    | ⟨1, _⟩ => rfl
    | ⟨2, _⟩ => rfl)

/-- A column [4, 2048, 1] spread over the 2048 keys. -/
theorem spread_keys_apply (g : FVec Ideal S4x2048x1 .f32) (p : Fin 4) (n : Fin 2048) (m : Fin 2048) :
    broadcastInDim S4x2048x2048 ![0, 1, 2] bcast_S4x2048x1_S4x2048x2048_0_1_2 g (ix3 p n m) = g (ix3 p n (0 : Fin 1)) :=
  broadcastInDim_apply _ bcast_S4x2048x1_S4x2048x2048_0_1_2 g (ix3 p n m) (ix3 p n (0 : Fin 1)) (fun a => match a with
    | ⟨0, _⟩ => rfl
    | ⟨1, _⟩ => rfl
    | ⟨2, _⟩ => rfl)

/-- A scalar constant spread over [4, 2048, 1]. -/
theorem splat_col3_apply (w : BitVec 32) (j : S4x2048x1.Idx) :
    broadcastInDim S4x2048x1 ![] bcast_S_S4x2048x1 (constant (F := Ideal) S_ .f32 w) j = Ideal.ofBits .f32 w :=
  broadcastInDim_apply _ bcast_S_S4x2048x1 (constant (F := Ideal) S_ .f32 w) j ix0 (fun a => a.elim0)

/-- A scalar constant spread over [4, 2048, 2048]. -/
theorem splat_keys_apply (w : BitVec 32) (j : S4x2048x2048.Idx) :
    broadcastInDim S4x2048x2048 ![] bcast_S_S4x2048x2048 (constant (F := Ideal) S_ .f32 w) j = Ideal.ofBits .f32 w :=
  broadcastInDim_apply _ bcast_S_S4x2048x2048 (constant (F := Ideal) S_ .f32 w) j ix0 (fun a => a.elim0)

/-- A [2048] array set up as a column [2048, 1]. -/
theorem col2_apply (s : FVec Ideal S2048 .f32) (n : Fin 2048) (z : Fin 1) :
    broadcastInDim S2048x1 ![0] bcast_S2048_S2048x1_0 s (ix2 n z) = s (ix1 n) :=
  broadcastInDim_apply _ bcast_S2048_S2048x1_0 s (ix2 n z) (ix1 n) (fun a => match a with
    | ⟨0, _⟩ => rfl)

/-- A column [2048, 1] spread over the 2048 features. -/
theorem spread_row_apply (g : FVec Ideal S2048x1 .f32) (n j : Fin 2048) :
    broadcastInDim S2048x2048 ![0, 1] bcast_S2048x1_S2048x2048_0_1 g (ix2 n j) = g (ix2 n (0 : Fin 1)) :=
  broadcastInDim_apply _ bcast_S2048x1_S2048x2048_0_1 g (ix2 n j) (ix2 n (0 : Fin 1)) (fun a => match a with
    | ⟨0, _⟩ => rfl
    | ⟨1, _⟩ => rfl)

/-- A scalar constant spread over [2048, 1]. -/
theorem splat_col2_apply (w : BitVec 32) (j : S2048x1.Idx) :
    broadcastInDim S2048x1 ![] bcast_S_S2048x1 (constant (F := Ideal) S_ .f32 w) j = Ideal.ofBits .f32 w :=
  broadcastInDim_apply _ bcast_S_S2048x1 (constant (F := Ideal) S_ .f32 w) j ix0 (fun a => a.elim0)

/-- A vector [2048] set up as a row [1, 2048] and spread down the 2048 rows. -/
theorem row_down_apply (v : FVec Ideal S2048 .f32) (n j : Fin 2048) :
    broadcastInDim S2048x2048 ![0, 1] bcast_S1x2048_S2048x2048_0_1 (broadcastInDim S1x2048 ![1] bcast_S2048_S1x2048_1 v)
        (ix2 n j) = v (ix1 j) := by
  rw [broadcastInDim_apply _ bcast_S1x2048_S2048x2048_0_1 _ (ix2 n j) (ix2 (0 : Fin 1) j) (fun a => match a with
    | ⟨0, _⟩ => rfl
    | ⟨1, _⟩ => rfl)]
  exact broadcastInDim_apply _ bcast_S2048_S1x2048_1 v (ix2 (0 : Fin 1) j) (ix1 j) (fun a => match a with
    | ⟨0, _⟩ => rfl)

/-! ## The batched product of rows with rows over the 512 lanes -/

theorem dl_l0 (j : S4x2048x2048.Idx) (k : (dot_S4x2048x512_S4x2048x512_S4x2048x2048_2_2_1_1_0_0).contr.Idx) : ((dot_S4x2048x512_S4x2048x512_S4x2048x2048_2_2_1_1_0_0).lhsIdx j k 0).val = (j 0).val := by
  unfold DotDims.lhsIdx
  rw [dif_pos (show (0 : Fin 3) ∈ (dot_S4x2048x512_S4x2048x512_S4x2048x2048_2_2_1_1_0_0).lhsBatch from List.mem_singleton.mpr rfl)]
  rfl

theorem dl_l1 (j : S4x2048x2048.Idx) (k : (dot_S4x2048x512_S4x2048x512_S4x2048x2048_2_2_1_1_0_0).contr.Idx) : ((dot_S4x2048x512_S4x2048x512_S4x2048x2048_2_2_1_1_0_0).lhsIdx j k 1).val = (j 1).val := by
  unfold DotDims.lhsIdx
  rw [dif_neg (show ¬(1 : Fin 3) ∈ (dot_S4x2048x512_S4x2048x512_S4x2048x2048_2_2_1_1_0_0).lhsBatch from by decide),
    dif_pos (show (1 : Fin 3) ∈ (dot_S4x2048x512_S4x2048x512_S4x2048x2048_2_2_1_1_0_0).lhsNonContracting from List.mem_singleton.mpr rfl)]
  rfl

theorem dl_l2 (j : S4x2048x2048.Idx) (k : (dot_S4x2048x512_S4x2048x512_S4x2048x2048_2_2_1_1_0_0).contr.Idx) : ((dot_S4x2048x512_S4x2048x512_S4x2048x2048_2_2_1_1_0_0).lhsIdx j k 2).val = (k ⟨0, Nat.one_pos⟩).val :=
  (dot_S4x2048x512_S4x2048x512_S4x2048x2048_2_2_1_1_0_0).lhsIdx_val_of_single rfl j k

theorem dl_r0 (j : S4x2048x2048.Idx) (k : (dot_S4x2048x512_S4x2048x512_S4x2048x2048_2_2_1_1_0_0).contr.Idx) : ((dot_S4x2048x512_S4x2048x512_S4x2048x2048_2_2_1_1_0_0).rhsIdx j k 0).val = (j 0).val := by
  unfold DotDims.rhsIdx
  rw [dif_pos (show (0 : Fin 3) ∈ (dot_S4x2048x512_S4x2048x512_S4x2048x2048_2_2_1_1_0_0).rhsBatch from List.mem_singleton.mpr rfl)]
  rfl

theorem dl_r1 (j : S4x2048x2048.Idx) (k : (dot_S4x2048x512_S4x2048x512_S4x2048x2048_2_2_1_1_0_0).contr.Idx) : ((dot_S4x2048x512_S4x2048x512_S4x2048x2048_2_2_1_1_0_0).rhsIdx j k 1).val = (j 2).val := by
  unfold DotDims.rhsIdx
  rw [dif_neg (show ¬(1 : Fin 3) ∈ (dot_S4x2048x512_S4x2048x512_S4x2048x2048_2_2_1_1_0_0).rhsBatch from by decide),
    dif_pos (show (1 : Fin 3) ∈ (dot_S4x2048x512_S4x2048x512_S4x2048x2048_2_2_1_1_0_0).rhsNonContracting from List.mem_singleton.mpr rfl)]
  rfl

theorem dl_r2 (j : S4x2048x2048.Idx) (k : (dot_S4x2048x512_S4x2048x512_S4x2048x2048_2_2_1_1_0_0).contr.Idx) : ((dot_S4x2048x512_S4x2048x512_S4x2048x2048_2_2_1_1_0_0).rhsIdx j k 2).val = (k ⟨0, Nat.one_pos⟩).val :=
  (dot_S4x2048x512_S4x2048x512_S4x2048x2048_2_2_1_1_0_0).rhsIdx_val_of_single rfl j k

/-- Head p's product of row n of the left stack with row m of the right stack, over the 512 lanes. -/
theorem bdot_lanes_apply (l r : FVec Ideal S4x2048x512 .f32) (p : Fin 4) (n m : Fin 2048) :
    Host.dotGeneral dot_S4x2048x512_S4x2048x512_S4x2048x2048_2_2_1_1_0_0 none l r (ix3 p n m) = ∑ e : Fin 512, l (ix3 p n e) * r (ix3 p m e) := by
  refine (Ideal.dotGeneral_apply dot_S4x2048x512_S4x2048x512_S4x2048x2048_2_2_1_1_0_0 none .single l r (ix3 p n m)).trans ?_
  rw [← Equiv.sum_comp (contrEquiv1 dot_S4x2048x512_S4x2048x512_S4x2048x2048_2_2_1_1_0_0 512 rfl rfl).symm]
  refine Finset.sum_congr rfl fun e _ => ?_
  have hk := contrEquiv1_symm_val dot_S4x2048x512_S4x2048x512_S4x2048x2048_2_2_1_1_0_0 512 rfl rfl e
  have el : (dot_S4x2048x512_S4x2048x512_S4x2048x2048_2_2_1_1_0_0).lhsIdx (ix3 p n m) ((contrEquiv1 dot_S4x2048x512_S4x2048x512_S4x2048x2048_2_2_1_1_0_0 512 rfl rfl).symm e) = ix3 p n e :=
    funext fun a => Fin.ext (by
      match a with
      | ⟨0, _⟩ => exact dl_l0 _ _
      | ⟨1, _⟩ => exact dl_l1 _ _
      | ⟨2, _⟩ => exact (dl_l2 _ _).trans hk)
  have er : (dot_S4x2048x512_S4x2048x512_S4x2048x2048_2_2_1_1_0_0).rhsIdx (ix3 p n m) ((contrEquiv1 dot_S4x2048x512_S4x2048x512_S4x2048x2048_2_2_1_1_0_0 512 rfl rfl).symm e) = ix3 p m e :=
    funext fun a => Fin.ext (by
      match a with
      | ⟨0, _⟩ => exact dl_r0 _ _
      | ⟨1, _⟩ => exact dl_r1 _ _
      | ⟨2, _⟩ => exact (dl_r2 _ _).trans hk)
  rw [el, er]

/-! ## The batched product of weights with value rows over the 2048 keys -/

theorem dk_l0 (j : S4x2048x512.Idx) (k : (dot_S4x2048x2048_S4x2048x512_S4x2048x512_2_1_1_2_0_0).contr.Idx) : ((dot_S4x2048x2048_S4x2048x512_S4x2048x512_2_1_1_2_0_0).lhsIdx j k 0).val = (j 0).val := by
  unfold DotDims.lhsIdx
  rw [dif_pos (show (0 : Fin 3) ∈ (dot_S4x2048x2048_S4x2048x512_S4x2048x512_2_1_1_2_0_0).lhsBatch from List.mem_singleton.mpr rfl)]
  rfl

theorem dk_l1 (j : S4x2048x512.Idx) (k : (dot_S4x2048x2048_S4x2048x512_S4x2048x512_2_1_1_2_0_0).contr.Idx) : ((dot_S4x2048x2048_S4x2048x512_S4x2048x512_2_1_1_2_0_0).lhsIdx j k 1).val = (j 1).val := by
  unfold DotDims.lhsIdx
  rw [dif_neg (show ¬(1 : Fin 3) ∈ (dot_S4x2048x2048_S4x2048x512_S4x2048x512_2_1_1_2_0_0).lhsBatch from by decide),
    dif_pos (show (1 : Fin 3) ∈ (dot_S4x2048x2048_S4x2048x512_S4x2048x512_2_1_1_2_0_0).lhsNonContracting from List.mem_singleton.mpr rfl)]
  rfl

theorem dk_l2 (j : S4x2048x512.Idx) (k : (dot_S4x2048x2048_S4x2048x512_S4x2048x512_2_1_1_2_0_0).contr.Idx) : ((dot_S4x2048x2048_S4x2048x512_S4x2048x512_2_1_1_2_0_0).lhsIdx j k 2).val = (k ⟨0, Nat.one_pos⟩).val :=
  (dot_S4x2048x2048_S4x2048x512_S4x2048x512_2_1_1_2_0_0).lhsIdx_val_of_single rfl j k

theorem dk_r0 (j : S4x2048x512.Idx) (k : (dot_S4x2048x2048_S4x2048x512_S4x2048x512_2_1_1_2_0_0).contr.Idx) : ((dot_S4x2048x2048_S4x2048x512_S4x2048x512_2_1_1_2_0_0).rhsIdx j k 0).val = (j 0).val := by
  unfold DotDims.rhsIdx
  rw [dif_pos (show (0 : Fin 3) ∈ (dot_S4x2048x2048_S4x2048x512_S4x2048x512_2_1_1_2_0_0).rhsBatch from List.mem_singleton.mpr rfl)]
  rfl

theorem dk_r1 (j : S4x2048x512.Idx) (k : (dot_S4x2048x2048_S4x2048x512_S4x2048x512_2_1_1_2_0_0).contr.Idx) : ((dot_S4x2048x2048_S4x2048x512_S4x2048x512_2_1_1_2_0_0).rhsIdx j k 1).val = (k ⟨0, Nat.one_pos⟩).val :=
  (dot_S4x2048x2048_S4x2048x512_S4x2048x512_2_1_1_2_0_0).rhsIdx_val_of_single rfl j k

theorem dk_r2 (j : S4x2048x512.Idx) (k : (dot_S4x2048x2048_S4x2048x512_S4x2048x512_2_1_1_2_0_0).contr.Idx) : ((dot_S4x2048x2048_S4x2048x512_S4x2048x512_2_1_1_2_0_0).rhsIdx j k 2).val = (j 2).val := by
  unfold DotDims.rhsIdx
  rw [dif_neg (show ¬(2 : Fin 3) ∈ (dot_S4x2048x2048_S4x2048x512_S4x2048x512_2_1_1_2_0_0).rhsBatch from by decide),
    dif_pos (show (2 : Fin 3) ∈ (dot_S4x2048x2048_S4x2048x512_S4x2048x512_2_1_1_2_0_0).rhsNonContracting from List.mem_singleton.mpr rfl)]
  rfl

/-- Head p's product of the weights' row n with the value stack's lane e, over the 2048 keys. -/
theorem bdot_keys_apply (l : FVec Ideal S4x2048x2048 .f32) (r : FVec Ideal S4x2048x512 .f32) (p : Fin 4) (n : Fin 2048)
    (e : Fin 512) :
    Host.dotGeneral dot_S4x2048x2048_S4x2048x512_S4x2048x512_2_1_1_2_0_0 none l r (ix3 p n e) = ∑ m : Fin 2048, l (ix3 p n m) * r (ix3 p m e) := by
  refine (Ideal.dotGeneral_apply dot_S4x2048x2048_S4x2048x512_S4x2048x512_2_1_1_2_0_0 none .single l r (ix3 p n e)).trans ?_
  rw [← Equiv.sum_comp (contrEquiv1 dot_S4x2048x2048_S4x2048x512_S4x2048x512_2_1_1_2_0_0 2048 rfl rfl).symm]
  refine Finset.sum_congr rfl fun m _ => ?_
  have hk := contrEquiv1_symm_val dot_S4x2048x2048_S4x2048x512_S4x2048x512_2_1_1_2_0_0 2048 rfl rfl m
  have el : (dot_S4x2048x2048_S4x2048x512_S4x2048x512_2_1_1_2_0_0).lhsIdx (ix3 p n e) ((contrEquiv1 dot_S4x2048x2048_S4x2048x512_S4x2048x512_2_1_1_2_0_0 2048 rfl rfl).symm m) = ix3 p n m :=
    funext fun a => Fin.ext (by
      match a with
      | ⟨0, _⟩ => exact dk_l0 _ _
      | ⟨1, _⟩ => exact dk_l1 _ _
      | ⟨2, _⟩ => exact (dk_l2 _ _).trans hk)
  have er : (dot_S4x2048x2048_S4x2048x512_S4x2048x512_2_1_1_2_0_0).rhsIdx (ix3 p n e) ((contrEquiv1 dot_S4x2048x2048_S4x2048x512_S4x2048x512_2_1_1_2_0_0 2048 rfl rfl).symm m) = ix3 p m e :=
    funext fun a => Fin.ext (by
      match a with
      | ⟨0, _⟩ => exact dk_r0 _ _
      | ⟨1, _⟩ => exact (dk_r1 _ _).trans hk
      | ⟨2, _⟩ => exact dk_r2 _ _)
  rw [el, er]

end Cert.RefValue

end
-- ==== Proof.LibRsqrtDiv.lean ====
/-
  GENERAL lemmas on the extended reals, at the exact (Ideal) reading of float operations, for a normalisation
  written two ways: a product with the reciprocal square root, `x * rsqrt v`, against a quotient by the square
  root, `x / sqrt v`. For every extended real `x` and every `v > 0` (`v = ⊤` included) the two are one value:
  at a positive real `v` both are `x · (√v)⁻¹`, and at `v = ⊤` both are `x · 0`. No finiteness of `x` is needed.

  With it, the facts that make the argument of the square root positive with NO finiteness hypothesis on the data:
  a square `x * x` is non-negative for every extended real (the infinities' squares are `⊤`), a finite sum of
  non-negatives is non-negative, a quotient of a non-negative by a positive real literal is non-negative, and a
  non-negative plus a positive real literal is positive. The two literals met in a layer normalisation over 2048
  features are read here once: `2048.0` (pattern `0x45000000`) denotes the real `2048`, and `1e-5` (pattern
  `0x3727C5AC`) and `1e-10` (pattern `0x2EDBE6FF`) denote positive reals (dyadic rationals; only their sign is used).

  Nothing here mentions a program: the statements are over `EReal` and the library's scalar operations
  `Ideal.rsqrt`, `Ideal.sqrt`, `Ideal.div`, with the `FloatOps` spellings (a kernel's `mulf` / `rsqrt`, the host's
  `hostDivf` / `hostUnary .sqrt`) as corollaries.
-/
import Idealize.ShloMosaic.PureOps.Ideal
import Idealize.ShloMosaic.PureOps.Ideal.Laws

noncomputable section

namespace Cert.Bridge

open Idealize.ShloMosaic

/-! ## The product with a reciprocal square root is the quotient by the square root -/

/-- For `0 < v` (`v = ⊤` allowed) and every extended real `x`: `x * rsqrt v = x / sqrt v`. At a positive real both
    sides are `x · (√v)⁻¹` (the square root of a positive real is not zero, so the quotient is the product with the
    inverse); at `⊤` the reciprocal square root is `0` and the inverse of `√⊤ = ⊤` is `0`. -/
theorem mul_rsqrt_eq_div_sqrt (x v : EReal) (hv : 0 < v) :
    x * Ideal.rsqrt v = Ideal.div x (Ideal.sqrt v) := by
  induction v using EReal.rec with
  | bot => exact absurd hv (not_lt.2 bot_le)
  | top =>
    rw [Ideal.rsqrt_top, Ideal.sqrt_top, Ideal.div, if_neg (by simp), EReal.inv_top]
  | coe r =>
    have hr : 0 < r := EReal.coe_pos.1 hv
    have hs : Real.sqrt r ≠ 0 := (Real.sqrt_pos.2 hr).ne'
    rw [Ideal.rsqrt_coe, if_neg (not_lt.2 hr.le), if_neg hr.ne', Ideal.sqrt_coe, if_neg (not_lt.2 hr.le),
      Ideal.div, if_neg (EReal.coe_ne_zero.2 hs), EReal.coe_inv]

/-- The same law in the spelling of the operations: a kernel's `mulf x (rsqrt v)` against the host's
    `hostDivf x (hostUnary .sqrt v)`, at any float format. -/
theorem mulf_rsqrt_eq_hostDivf_sqrt {φ : FTy} (x v : Ideal φ) (hv : (0 : EReal) < v) :
    FloatOps.mulf x (FloatOps.rsqrt v) = FloatOps.hostDivf x (FloatOps.hostUnary .sqrt v) :=
  mul_rsqrt_eq_div_sqrt x v hv

/-- The same law with the kernel's own quotient and square root on the right. -/
theorem mulf_rsqrt_eq_divf_sqrt {φ : FTy} (x v : Ideal φ) (hv : (0 : EReal) < v) :
    FloatOps.mulf x (FloatOps.rsqrt v) = FloatOps.divf x (FloatOps.sqrt v) :=
  mul_rsqrt_eq_div_sqrt x v hv

/-- The host's reciprocal square root is the same function: `x * hostUnary .rsqrt v = x / sqrt v`. -/
theorem mulf_hostRsqrt_eq_hostDivf_sqrt {φ : FTy} (x v : Ideal φ) (hv : (0 : EReal) < v) :
    FloatOps.mulf x (FloatOps.hostUnary .rsqrt v) = FloatOps.hostDivf x (FloatOps.hostUnary .sqrt v) :=
  mul_rsqrt_eq_div_sqrt x v hv

/-! ## Non-negativity without finiteness -/

/-- A square is non-negative on the extended reals: the infinities' squares are `⊤`. -/
theorem mul_self_nonneg (x : EReal) : 0 ≤ x * x :=
  EReal.mul_nonneg_iff.2 ((le_total 0 x).imp (fun h => ⟨h, h⟩) (fun h => ⟨h, h⟩))

/-- A finite sum of non-negative extended reals is non-negative. -/
theorem sum_nonneg {ι : Type*} (s : Finset ι) (f : ι → EReal) (h : ∀ i ∈ s, 0 ≤ f i) : 0 ≤ ∑ i ∈ s, f i :=
  Finset.sum_nonneg h

/-- A finite sum of squares is non-negative, whatever the terms (no finiteness). -/
theorem sum_mul_self_nonneg {ι : Type*} (s : Finset ι) (f : ι → EReal) : 0 ≤ ∑ i ∈ s, f i * f i :=
  Finset.sum_nonneg fun i _ => mul_self_nonneg (f i)

/-- A non-negative extended real divided by a positive real is non-negative (`⊤` stays `⊤`). -/
theorem div_coe_nonneg {s : EReal} (hs : 0 ≤ s) {c : ℝ} (hc : 0 < c) : 0 ≤ Ideal.div s (c : EReal) := by
  rw [Ideal.div, if_neg (EReal.coe_ne_zero.2 hc.ne')]
  exact EReal.mul_nonneg hs (EReal.inv_nonneg_of_nonneg (EReal.coe_nonneg.2 hc.le))

/-- A non-negative extended real plus a positive real is positive (`⊤` stays `⊤`). -/
theorem add_coe_pos {s : EReal} (hs : 0 ≤ s) {c : ℝ} (hc : 0 < c) : 0 < s + (c : EReal) := by
  rw [add_comm]
  exact EReal.add_pos_of_pos_of_nonneg (EReal.coe_pos.2 hc) hs

/-! ## The literals -/

/-- The pattern `0x45000000` denotes the real `2048`. -/
theorem ofBits_2048 : Ideal.ofBits .f32 0x45000000#32 = ((2048 : ℝ) : EReal) := by
  simp [Ideal.ofBits, Ideal.ieee, -EReal.coe_mul]; norm_num

/-- The pattern `0x3727C5AC` (the float nearest `1e-5`) denotes a positive real. -/
theorem ofBits_1em5_pos : ∃ c : ℝ, 0 < c ∧ Ideal.ofBits .f32 0x3727C5AC#32 = (c : EReal) := by
  refine ⟨_, ?_, by simp [Ideal.ofBits, Ideal.ieee, -EReal.coe_mul]; rfl⟩
  positivity

/-- The pattern `0x2EDBE6FF` (the float nearest `1e-10`) denotes a positive real. -/
theorem ofBits_1em10_pos : ∃ c : ℝ, 0 < c ∧ Ideal.ofBits .f32 0x2EDBE6FF#32 = (c : EReal) := by
  refine ⟨_, ?_, by simp [Ideal.ofBits, Ideal.ieee, -EReal.coe_mul]; rfl⟩
  positivity

/-- `0 ≤ s → 0 ≤ s / 2048.0`, the divisor the literal `0x45000000`. -/
theorem div_2048_nonneg {s : EReal} (hs : 0 ≤ s) : 0 ≤ Ideal.div s (Ideal.ofBits .f32 0x45000000#32) := by
  rw [ofBits_2048]; exact div_coe_nonneg hs (by norm_num)

/-- `0 ≤ s → 0 < s + 1e-5`, the addend the literal `0x3727C5AC`. -/
theorem add_1em5_pos {s : EReal} (hs : 0 ≤ s) : 0 < s + Ideal.ofBits .f32 0x3727C5AC#32 := by
  obtain ⟨c, hc, e⟩ := ofBits_1em5_pos
  rw [e]; exact add_coe_pos hs hc

/-- `0 ≤ s → 0 < s + 1e-10`, the addend the literal `0x2EDBE6FF`. -/
theorem add_1em10_pos {s : EReal} (hs : 0 ≤ s) : 0 < s + Ideal.ofBits .f32 0x2EDBE6FF#32 := by
  obtain ⟨c, hc, e⟩ := ofBits_1em10_pos
  rw [e]; exact add_coe_pos hs hc

/-! ## The variance of a row is non-negative, its normaliser's argument positive -/

/-- For any finite family of extended reals `d i` (the centred entries of a row), `(∑ d i * d i) / 2048 + 1e-5` is
    positive: the argument of the square root in a layer normalisation over 2048 features, with no finiteness
    hypothesis. -/
theorem var_add_eps_pos {ι : Type*} (s : Finset ι) (d : ι → EReal) :
    0 < Ideal.div (∑ i ∈ s, d i * d i) (Ideal.ofBits .f32 0x45000000#32) + Ideal.ofBits .f32 0x3727C5AC#32 :=
  add_1em5_pos (div_2048_nonneg (sum_mul_self_nonneg s d))

end Cert.Bridge

end
-- ==== Proof.Val.RefStages.lean ====
/-
  The reference's groups of host operations as functions of their input arrays, on the extended reals. Each lemma
  takes VARIABLE arrays and says that one group of the reference's operations — written exactly as the reference's
  composed term writes it — is one of the ingredients of the specification:

    headsFn X    the [4, 2048, 512] stack of a [2048, 2048] array's heads (head p, lane e is column 512 p + e)
    unitFn X     that stack's rows over their regularised lengths (`headUnit`)
    scoreFn Q K  the scaled products of unit query rows with unit key rows (`score`)
    weightFn Q K their exponentials below the row maximum (`weight`)
    attnFn Q K V the weighted value rows over the weights' sum, the heads side by side again
    meanFn A, cenFn A   a row's mean as a column, and the centred rows
    lnFn A g b   the normalised rows. Here the reference divides by the square root of the variance plus 1e-5 where
                 `lnRow` multiplies by the reciprocal square root; the two agree because that argument is positive
                 whatever the data (a sum of squares over 2048 plus a positive literal): no finiteness is needed.
-/
import proofs.«115712_j50027779064181_2_alg».proof.Proof.Val.RefDense
import proofs.«115712_j50027779064181_2_alg».proof.Proof.Val.RefHost
import proofs.«115712_j50027779064181_2_alg».proof.Proof.Val.RegionFns
import proofs.«115712_j50027779064181_2_alg».proof.Proof.LibRsqrtDiv

noncomputable section

namespace Cert.RefValue

open Cert.ReferenceIdeal Cert.ReferenceIdeal.Gen Cert.ReferenceIdeal.Value Idealize.ShloMosaic Idealize.ShloMosaic.TcCoe
  Idealize.ShloMosaic.ValueIdx Cert.Bridge
open scoped BigOperators

/-! ## Heads and unit rows -/

/-- The head stack of a [2048, 2048] array: entry (p, n, e) is row n, column 512 p + e. -/
def headsFn (X : Mat 2048 2048) : FVec Ideal S4x2048x512 .f32 := fun i => X (ix2 (i 1) (headLane (i 0) (i 2)))

/-- The head stack's rows over their regularised lengths. -/
def unitFn (X : Mat 2048 2048) : FVec Ideal S4x2048x512 .f32 := fun i => headUnit X (i 0) (i 1) (i 2)

/-- Reshaping to [2048, 4, 512] and bringing the head axis to the front is the head stack. -/
theorem heads_host (m : FVec Ideal S2048x2048 .f32) :
    transpose S4x2048x512 [1, 0, 2] (shapeCast S2048x4x512 m shapeCasts_S2048x2048_S2048x4x512)
        transposes_S2048x4x512_S4x2048x512_1_0_2 = headsFn m := by
  funext j
  obtain ⟨p, n, e, rfl⟩ : ∃ (p : Fin 4) (n : Fin 2048) (e : Fin 512), j = ix3 p n e := ⟨j 0, j 1, j 2, eq_ix3 j⟩
  exact heads_apply m p n e (headLane p e) rfl

/-- A quotient by a column spread over the 512 lanes, at coordinates. -/
theorem divf_spread (t : FVec Ideal S4x2048x512 .f32) (g : FVec Ideal S4x2048x1 .f32) (p : Fin 4) (n : Fin 2048)
    (e : Fin 512) :
    Host.divf t (broadcastInDim S4x2048x512 ![0, 1, 2] bcast_S4x2048x1_S4x2048x512_0_1_2 g) (ix3 p n e)
      = Ideal.div (t (ix3 p n e)) (g (ix3 p n (0 : Fin 1))) :=
  congrArg (Ideal.div (t (ix3 p n e))) (spread_lanes_apply g p n e)

/-- A [4, 2048] array as a column plus a constant, at coordinates. -/
theorem add_col_splat (s : FVec Ideal S4x2048 .f32) (w : BitVec 32) (p : Fin 4) (n : Fin 2048) (z : Fin 1) :
    addf (broadcastInDim S4x2048x1 ![0, 1] bcast_S4x2048_S4x2048x1_0_1 s)
        (broadcastInDim S4x2048x1 ![] bcast_S_S4x2048x1 (constant S_ .f32 w)) (ix3 p n z)
      = s (ix2 p n) + Ideal.ofBits .f32 w := by
  show broadcastInDim S4x2048x1 ![0, 1] bcast_S4x2048_S4x2048x1_0_1 s (ix3 p n z)
    + broadcastInDim S4x2048x1 ![] bcast_S_S4x2048x1 (constant (F := Ideal) S_ .f32 w) (ix3 p n z) = _
  rw [col3_apply, splat_col3_apply]

/-- Its square root. -/
theorem sqrt_col_splat (s : FVec Ideal S4x2048 .f32) (w : BitVec 32) (p : Fin 4) (n : Fin 2048) (z : Fin 1) :
    Host.sqrt (addf (broadcastInDim S4x2048x1 ![0, 1] bcast_S4x2048_S4x2048x1_0_1 s)
        (broadcastInDim S4x2048x1 ![] bcast_S_S4x2048x1 (constant S_ .f32 w))) (ix3 p n z)
      = Ideal.sqrt (s (ix2 p n) + Ideal.ofBits .f32 w) :=
  congrArg Ideal.sqrt (add_col_splat s w p n z)

/-- A stack's rows over their regularised lengths, at coordinates. -/
theorem unit_host_apply (t : FVec Ideal S4x2048x512 .f32) (p : Fin 4) (n : Fin 2048) (e : Fin 512) :
    Host.divf t (broadcastInDim S4x2048x512 ![0, 1, 2] bcast_S4x2048x1_S4x2048x512_0_1_2
        (Host.sqrt (addf (broadcastInDim S4x2048x1 ![0, 1] bcast_S4x2048_S4x2048x1_0_1
            (Host.reduceAdd (mulf t t) (constant S_ .f32 0x00000000#32) reducesTo_S4x2048x512_S4x2048_d2 h_S_))
          (broadcastInDim S4x2048x1 ![] bcast_S_S4x2048x1 (constant S_ .f32 0x2EDBE6FF#32))))) (ix3 p n e)
      = Ideal.div (t (ix3 p n e))
          (Ideal.sqrt ((∑ d : Fin 512, t (ix3 p n d) * t (ix3 p n d)) + Ideal.ofBits .f32 0x2EDBE6FF#32)) := by
  rw [divf_spread, sqrt_col_splat, rsum_lanes_apply]
  rfl

/-- The head stack's rows over their lengths are the unit rows. -/
theorem unit_host (X : Mat 2048 2048) :
    Host.divf (headsFn X) (broadcastInDim S4x2048x512 ![0, 1, 2] bcast_S4x2048x1_S4x2048x512_0_1_2
        (Host.sqrt (addf (broadcastInDim S4x2048x1 ![0, 1] bcast_S4x2048_S4x2048x1_0_1
            (Host.reduceAdd (mulf (headsFn X) (headsFn X)) (constant S_ .f32 0x00000000#32) reducesTo_S4x2048x512_S4x2048_d2 h_S_))
          (broadcastInDim S4x2048x1 ![] bcast_S_S4x2048x1 (constant S_ .f32 0x2EDBE6FF#32))))) = unitFn X := by
  funext j
  obtain ⟨p, n, e, rfl⟩ : ∃ (p : Fin 4) (n : Fin 2048) (e : Fin 512), j = ix3 p n e := ⟨j 0, j 1, j 2, eq_ix3 j⟩
  rw [unit_host_apply]
  rfl

/-! ## The correlation -/

/-- The batched product of unit key rows with unit value rows is the correlation. -/
theorem corr_host (K V : Mat 2048 2048) :
    Host.dotGeneral dot_S4x2048x512_S4x2048x512_S4x2048x2048_2_2_1_1_0_0 none (unitFn K) (unitFn V) = corrFn K V := by
  funext j
  obtain ⟨p, n, m, rfl⟩ : ∃ (p : Fin 4) (n m : Fin 2048), j = ix3 p n m := ⟨j 0, j 1, j 2, eq_ix3 j⟩
  rw [bdot_lanes_apply]
  rfl

/-! ## Scores, weights and the attended rows -/

/-- The scaled products of unit query rows with unit key rows. -/
def scoreFn (Q K : Mat 2048 2048) : FVec Ideal S4x2048x2048 .f32 := fun i => score Q K (i 0) (i 1) (i 2)

/-- Their exponentials below the row maximum. -/
def weightFn (Q K : Mat 2048 2048) : FVec Ideal S4x2048x2048 .f32 := fun i => weight Q K (i 0) (i 1) (i 2)

theorem score_host (Q K : Mat 2048 2048) :
    mulf (Host.dotGeneral dot_S4x2048x512_S4x2048x512_S4x2048x2048_2_2_1_1_0_0 none (unitFn Q) (unitFn K))
        (broadcastInDim S4x2048x2048 ![] bcast_S_S4x2048x2048 (constant S_ .f32 0x3D3504F3#32))
      = scoreFn Q K := by
  funext j
  obtain ⟨p, n, m, rfl⟩ : ∃ (p : Fin 4) (n m : Fin 2048), j = ix3 p n m := ⟨j 0, j 1, j 2, eq_ix3 j⟩
  show Host.dotGeneral dot_S4x2048x512_S4x2048x512_S4x2048x2048_2_2_1_1_0_0 none (unitFn Q) (unitFn K) (ix3 p n m)
    * broadcastInDim S4x2048x2048 ![] bcast_S_S4x2048x2048 (constant (F := Ideal) S_ .f32 0x3D3504F3#32) (ix3 p n m) = _
  rw [bdot_lanes_apply, splat_keys_apply]
  rfl

theorem weight_host (Q K : Mat 2048 2048) :
    Host.exp (subf (scoreFn Q K) (broadcastInDim S4x2048x2048 ![0, 1, 2] bcast_S4x2048x1_S4x2048x2048_0_1_2
        (broadcastInDim S4x2048x1 ![0, 1] bcast_S4x2048_S4x2048x1_0_1
          (Host.reduce FloatOps.maximumf (scoreFn Q K) (constant S_ .f32 0xFF800000#32) reducesTo_S4x2048x2048_S4x2048_d2 h_S_))))
      = weightFn Q K := by
  funext j
  obtain ⟨p, n, m, rfl⟩ : ∃ (p : Fin 4) (n m : Fin 2048), j = ix3 p n m := ⟨j 0, j 1, j 2, eq_ix3 j⟩
  show Ideal.exp (scoreFn Q K (ix3 p n m) - broadcastInDim S4x2048x2048 ![0, 1, 2] bcast_S4x2048x1_S4x2048x2048_0_1_2
        (broadcastInDim S4x2048x1 ![0, 1] bcast_S4x2048_S4x2048x1_0_1
          (Host.reduce FloatOps.maximumf (scoreFn Q K) (constant S_ .f32 0xFF800000#32) reducesTo_S4x2048x2048_S4x2048_d2 h_S_))
        (ix3 p n m)) = _
  rw [spread_keys_apply, col3_apply, rmax_keys_apply]
  rfl

theorem attn_host (Q K V : Mat 2048 2048) :
    shapeCast S2048x2048 (transpose S2048x4x512 [1, 0, 2]
        (Host.divf (Host.dotGeneral dot_S4x2048x2048_S4x2048x512_S4x2048x512_2_1_1_2_0_0 none (weightFn Q K) (headsFn V))
          (broadcastInDim S4x2048x512 ![0, 1, 2] bcast_S4x2048x1_S4x2048x512_0_1_2
            (addf (broadcastInDim S4x2048x1 ![0, 1] bcast_S4x2048_S4x2048x1_0_1
                (Host.reduceAdd (weightFn Q K) (constant S_ .f32 0x00000000#32) reducesTo_S4x2048x2048_S4x2048_d2 h_S_))
              (broadcastInDim S4x2048x1 ![] bcast_S_S4x2048x1 (constant S_ .f32 0x2EDBE6FF#32)))))
        transposes_S4x2048x512_S2048x4x512_1_0_2) shapeCasts_S2048x4x512_S2048x2048
      = attnFn Q K V := by
  funext j
  obtain ⟨n, l, rfl⟩ : ∃ (n l : Fin 2048), j = ix2 n l := ⟨j 0, j 1, eq_ix2 j⟩
  rw [merge_apply _ (⟨l.val / 512, by omega⟩ : Fin 4) n (⟨l.val % 512, Nat.mod_lt _ (by decide)⟩ : Fin 512) l
    (by show l.val = 512 * (l.val / 512) + l.val % 512; omega)]
  rw [divf_spread, add_col_splat, bdot_keys_apply, rsum_keys_apply]
  rfl

/-! ## The layer normalisation -/

/-- A row's mean, as a column. -/
def meanFn (A : Mat 2048 2048) : FVec Ideal S2048x1 .f32 := fun i => rowMean A (i 0)

/-- The centred rows. -/
def cenFn (A : Mat 2048 2048) : FVec Ideal S2048x2048 .f32 := fun i => A i - rowMean A (i 0)

/-- The normalised rows, from the gain and the offset as vectors. -/
def lnFn (A : Mat 2048 2048) (g beta : Vec1 2048) : FVec Ideal S2048x2048 .f32 :=
  fun i => lnRow A (rowFn g) (rowFn beta) (i 0) (i 1)

/-- A [2048] array as a column over a constant, at coordinates. -/
theorem div_col_splat (s : FVec Ideal S2048 .f32) (w : BitVec 32) (n : Fin 2048) (z : Fin 1) :
    Host.divf (broadcastInDim S2048x1 ![0] bcast_S2048_S2048x1_0 s)
        (broadcastInDim S2048x1 ![] bcast_S_S2048x1 (constant S_ .f32 w)) (ix2 n z)
      = Ideal.div (s (ix1 n)) (Ideal.ofBits .f32 w) := by
  show Ideal.div (broadcastInDim S2048x1 ![0] bcast_S2048_S2048x1_0 s (ix2 n z))
    (broadcastInDim S2048x1 ![] bcast_S_S2048x1 (constant (F := Ideal) S_ .f32 w) (ix2 n z)) = _
  rw [col2_apply, splat_col2_apply]

theorem mean_host (A : FVec Ideal S2048x2048 .f32) :
    Host.divf (broadcastInDim S2048x1 ![0] bcast_S2048_S2048x1_0
        (Host.reduceAdd A (constant S_ .f32 0x00000000#32) reducesTo_S2048x2048_S2048_d1 h_S_))
      (broadcastInDim S2048x1 ![] bcast_S_S2048x1 (constant S_ .f32 0x45000000#32)) = meanFn A := by
  funext j
  obtain ⟨n, z, rfl⟩ : ∃ (n : Fin 2048) (z : Fin 1), j = ix2 n z := ⟨j 0, j 1, eq_ix2 j⟩
  rw [div_col_splat, rsum_row_apply]
  rfl

theorem cen_host (A : FVec Ideal S2048x2048 .f32) :
    subf A (broadcastInDim S2048x2048 ![0, 1] bcast_S2048x1_S2048x2048_0_1 (meanFn A)) = cenFn A := by
  funext j
  obtain ⟨n, c, rfl⟩ : ∃ (n c : Fin 2048), j = ix2 n c := ⟨j 0, j 1, eq_ix2 j⟩
  show A (ix2 n c) - broadcastInDim S2048x2048 ![0, 1] bcast_S2048x1_S2048x2048_0_1 (meanFn A) (ix2 n c) = _
  rw [spread_row_apply]
  rfl

/-- The reference's normalised rows — the gain times the centred row OVER the square root of the variance plus 1e-5,
    plus the offset — are `lnFn`, which multiplies by the reciprocal square root: the argument is positive. -/
theorem ln_host (A : FVec Ideal S2048x2048 .f32) (g beta : FVec Ideal S2048 .f32) :
    addf (Host.divf (mulf (broadcastInDim S2048x2048 ![0, 1] bcast_S1x2048_S2048x2048_0_1 (broadcastInDim S1x2048 ![1] bcast_S2048_S1x2048_1 g))
          (subf A (broadcastInDim S2048x2048 ![0, 1] bcast_S2048x1_S2048x2048_0_1 (meanFn A))))
        (broadcastInDim S2048x2048 ![0, 1] bcast_S2048x1_S2048x2048_0_1
          (Host.sqrt (addf (Host.divf (broadcastInDim S2048x1 ![0] bcast_S2048_S2048x1_0
                (Host.reduceAdd (mulf (cenFn A) (cenFn A)) (constant S_ .f32 0x00000000#32) reducesTo_S2048x2048_S2048_d1 h_S_))
              (broadcastInDim S2048x1 ![] bcast_S_S2048x1 (constant S_ .f32 0x45000000#32)))
            (broadcastInDim S2048x1 ![] bcast_S_S2048x1 (constant S_ .f32 0x3727C5AC#32))))))
      (broadcastInDim S2048x2048 ![0, 1] bcast_S1x2048_S2048x2048_0_1 (broadcastInDim S1x2048 ![1] bcast_S2048_S1x2048_1 beta))
      = lnFn A g beta := by
  funext j
  obtain ⟨n, c, rfl⟩ : ∃ (n c : Fin 2048), j = ix2 n c := ⟨j 0, j 1, eq_ix2 j⟩
  rw [cen_host]
  show Ideal.div (broadcastInDim S2048x2048 ![0, 1] bcast_S1x2048_S2048x2048_0_1 (broadcastInDim S1x2048 ![1] bcast_S2048_S1x2048_1 g) (ix2 n c)
        * cenFn A (ix2 n c))
      (broadcastInDim S2048x2048 ![0, 1] bcast_S2048x1_S2048x2048_0_1
          (Host.sqrt (addf (Host.divf (broadcastInDim S2048x1 ![0] bcast_S2048_S2048x1_0
                (Host.reduceAdd (mulf (cenFn A) (cenFn A)) (constant S_ .f32 0x00000000#32) reducesTo_S2048x2048_S2048_d1 h_S_))
              (broadcastInDim S2048x1 ![] bcast_S_S2048x1 (constant S_ .f32 0x45000000#32)))
            (broadcastInDim S2048x1 ![] bcast_S_S2048x1 (constant S_ .f32 0x3727C5AC#32)))) (ix2 n c))
    + broadcastInDim S2048x2048 ![0, 1] bcast_S1x2048_S2048x2048_0_1 (broadcastInDim S1x2048 ![1] bcast_S2048_S1x2048_1 beta) (ix2 n c) = _
  rw [row_down_apply, row_down_apply, spread_row_apply]
  show Ideal.div (g (ix1 c) * cenFn A (ix2 n c))
      (Ideal.sqrt (Host.divf (broadcastInDim S2048x1 ![0] bcast_S2048_S2048x1_0
                (Host.reduceAdd (mulf (cenFn A) (cenFn A)) (constant S_ .f32 0x00000000#32) reducesTo_S2048x2048_S2048_d1 h_S_))
              (broadcastInDim S2048x1 ![] bcast_S_S2048x1 (constant S_ .f32 0x45000000#32)) (ix2 n (0 : Fin 1))
            + broadcastInDim S2048x1 ![] bcast_S_S2048x1 (constant (F := Ideal) S_ .f32 0x3727C5AC#32) (ix2 n (0 : Fin 1))))
    + beta (ix1 c) = _
  rw [div_col_splat, splat_col2_apply, rsum_row_apply]
  exact congrArg (· + beta (ix1 c))
    (mul_rsqrt_eq_div_sqrt (g (ix1 c) * (A (ix2 n c) - rowMean A n)) _
      (var_add_eps_pos Finset.univ fun c' : Fin 2048 => A (ix2 n c') - rowMean A n)).symm

end Cert.RefValue

end
-- ==== Proof.Val.RefIsSpec.lean ====
/-
  THE REFERENCE IS THE SPECIFICATION. The reference program's run ends with each result at the composed term of its
  host operations over the launch arrays. Here each named intermediate of that term, and then each of the two
  results, is identified with the specification's function of the thirteen argument arrays:

      the encoded latent            specH
      the query / key / value head stacks   the head stacks of specQ / specK / specV
      the unit key rows             the unit rows of specK
      the scores and the weights    `score` and `weight` of specQ and specK
      the attended rows             specA
      their row means and the centred rows
      the first result              specOut
      the second result             specCorr

  Every step rewrites one group of host operations by its reading as a function of arrays; the one step that is not
  a re-indexing is the layer normalisation's quotient by a square root against the specification's product with a
  reciprocal square root, which agree because the variance plus 1e-5 is positive whatever the data.
  The statements are over a variable valuation `V0` of the program's buffers (the launch contents in the run's post).
-/
import proofs.«115712_j50027779064181_2_alg».proof.Proof.Val.RefStages
import proofs.«115712_j50027779064181_2_alg».proof.Proof.Val.Spec

noncomputable section

namespace Cert.RefValue

open Cert.ReferenceIdeal Cert.ReferenceIdeal.Gen Cert.ReferenceIdeal.Value Idealize.ShloMosaic Idealize.ShloMosaic.TcCoe
  Idealize.ShloMosaic.ValueIdx Cert.Bridge
open scoped BigOperators

/-- A function of the thirteen arrays, at a valuation's thirteen argument arrays in the program's order. -/
abbrev at13 {β : Type}
    (f : Mat 2048 1024 → Mat 1024 2048 → Vec1 2048 → Mat 1024 2048 → Vec1 2048 → Mat 2048 2048 → Vec1 2048 →
      Mat 2048 2048 → Vec1 2048 → Vec1 2048 → Vec1 2048 → Mat 2048 1024 → Vec1 1024 → β)
    (V0 : Valuation τ sig (Elt Ideal)) : β :=
  f (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))

variable (V0 : Valuation τ sig (Elt Ideal))

/-- The encoded latent. -/
theorem v4_is : res_main_v4 (F := Ideal) V0 = at13 specH V0 := v4_eq V0

/-- The queries' head stack. -/
theorem v10_is : res_main_v10 (F := Ideal) V0 = headsFn (at13 specQ V0) := by
  unfold res_main_v10
  rw [denseA_host]
  exact heads_host _

/-- The keys' head stack. -/
theorem v16_is : res_main_v16 (F := Ideal) V0 = headsFn (at13 specK V0) := by
  unfold res_main_v16
  rw [denseB_host, v4_is]
  exact heads_host _

/-- The values' head stack. -/
theorem v22_is : res_main_v22 (F := Ideal) V0 = headsFn (at13 specV V0) := by
  unfold res_main_v22
  rw [denseB_host, v4_is]
  exact heads_host _

/-- The unit key rows. -/
theorem v38_is : res_main_v38 (F := Ideal) V0 = unitFn (at13 specK V0) := by
  unfold res_main_v38
  rw [v16_is]
  exact unit_host _

/-- The scores. -/
theorem v41_is : res_main_v41 (F := Ideal) V0 = scoreFn (at13 specQ V0) (at13 specK V0) := by
  unfold res_main_v41
  rw [v10_is, v38_is, unit_host]
  exact score_host _ _

/-- The weights. -/
theorem v46_is : res_main_v46 (F := Ideal) V0 = weightFn (at13 specQ V0) (at13 specK V0) := by
  unfold res_main_v46
  rw [v41_is]
  exact weight_host _ _

/-- The attended rows. -/
theorem v55_is : res_main_v55 (F := Ideal) V0 = at13 specA V0 := by
  unfold res_main_v55
  rw [v46_is, v22_is]
  exact attn_host _ _ _

/-- Their means, as a column. -/
theorem v59_is : res_main_v59 (F := Ideal) V0 = meanFn (at13 specA V0) := by
  unfold res_main_v59
  rw [v55_is]
  exact mean_host _

/-- The centred rows. -/
theorem v61_is : res_main_v61 (F := Ideal) V0 = cenFn (at13 specA V0) := by
  unfold res_main_v61
  rw [v55_is, v59_is]
  exact cen_host _

/-- THE SECOND RESULT: the reference's term for the correlation is `specCorr` of the thirteen argument arrays. -/
theorem corr_is_spec :
    Host.dotGeneral dot_S4x2048x512_S4x2048x512_S4x2048x2048_2_2_1_1_0_0 none (res_main_v38 V0) (Host.divf (res_main_v22 V0) (broadcastInDim S4x2048x512 ![0, 1, 2] bcast_S4x2048x1_S4x2048x512_0_1_2 (Host.sqrt (addf (broadcastInDim S4x2048x1 ![0, 1] bcast_S4x2048_S4x2048x1_0_1 (Host.reduceAdd (mulf (res_main_v22 V0) (res_main_v22 V0)) (constant S_ .f32 0x00000000#32) reducesTo_S4x2048x512_S4x2048_d2 h_S_)) (broadcastInDim S4x2048x1 ![] bcast_S_S4x2048x1 (constant S_ .f32 0x2EDBE6FF#32))))))
      = specCorr (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  rw [v38_is, v22_is, unit_host]
  exact corr_host _ _

/-- THE FIRST RESULT: the reference's term for the decoded array is `specOut` of the thirteen argument arrays. -/
theorem out_is_spec :
    Host.tanh (addf (Host.dotGeneral (φ₂ := .f32) dot_S2048x2048_S2048x1024_S2048x1024_1_0_0_1_n_n none (addf (Host.divf (mulf (broadcastInDim S2048x2048 ![0, 1] bcast_S1x2048_S2048x2048_0_1 (broadcastInDim S1x2048 ![1] bcast_S2048_S1x2048_1 (V0 (Proc.devRef .tc main_arg9)))) (subf (res_main_v55 V0) (broadcastInDim S2048x2048 ![0, 1] bcast_S2048x1_S2048x2048_0_1 (res_main_v59 V0)))) (broadcastInDim S2048x2048 ![0, 1] bcast_S2048x1_S2048x2048_0_1 (Host.sqrt (addf (Host.divf (broadcastInDim S2048x1 ![0] bcast_S2048_S2048x1_0 (Host.reduceAdd (mulf (res_main_v61 V0) (res_main_v61 V0)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x3727C5AC#32)))))) (broadcastInDim S2048x2048 ![0, 1] bcast_S1x2048_S2048x2048_0_1 (broadcastInDim S1x2048 ![1] bcast_S2048_S1x2048_1 (V0 (Proc.devRef .tc main_arg10))))) (V0 (Proc.devRef .tc main_arg11))) (broadcastInDim S2048x1024 ![0, 1] bcast_S1x1024_S2048x1024_0_1 (broadcastInDim S1x1024 ![1] bcast_S1024_S1x1024_1 (V0 (Proc.devRef .tc main_arg12)))))
      = specOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  rw [v61_is, v59_is, v55_is, ln_host, denseTanhD_host]
  rfl

end Cert.RefValue

end
-- ==== Proof.Algebraic.lean ====
/-
  The two idealized programs end with equal results. Both results are one function of the thirteen argument arrays, the
  specification (Val/Spec.lean): the encoder, the three projections, the cosine attention of four heads, the layer
  normalisation with the decoder, and the correlation of normalised keys with normalised values, each as a function of
  whole arrays. On the kernel's side each region's result array is its region's function of the arrays the region was
  entered with (the blocks the grid points write back cover the array, and a contraction accumulated over column blocks
  is the whole contraction), and those arrays are traced back to the arguments; on the reference's side the host
  operations are read one at a time. The one place where the two spell a quantity differently is the layer
  normalisation: a product with the reciprocal square root of (variance + 1e-5) against a quotient by its square root,
  equal because a variance is never negative, so the sum is positive, at infinity too.
-/
import proofs.«115712_j50027779064181_2_alg».proof.Defs
import proofs.«115712_j50027779064181_2_alg».proof.Proof.Gen.KernelIdeal
import proofs.«115712_j50027779064181_2_alg».proof.Proof.Gen.ReferenceIdeal
import proofs.«115712_j50027779064181_2_alg».proof.Proof.Gen.Pre_finite_inputs
import proofs.«115712_j50027779064181_2_alg».proof.Proof.Gen.ReferenceIdeal.Run
import proofs.«115712_j50027779064181_2_alg».proof.Proof.KIV.Compose
import proofs.«115712_j50027779064181_2_alg».proof.Proof.Val.RefIsSpec

noncomputable section

namespace Cert.Proof.Algebraic

open Idealize.ShloMosaic Idealize.ShloMosaic.TcCoe Idealize.SL.Sem

/-- From memories that agree on the thirteen arguments both programs run to the end, the kernel's two results and the
    reference's two results at the specification's two functions of the arguments. -/
theorem algebraic : Cert.algebraic_KernelIdeal_ReferenceIdeal := by
  intro m ρ m' ρ' _ hagree
  refine ⟨fun c => Cert.Bridge.specOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Bridge.specCorr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.HandVal.out_eq m c), (h c).2.1.trans (Cert.KernelIdeal.HandVal.corr_eq m c), (h c).2.2⟩)
      (Cert.KernelIdeal.Hand.run_main (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.RefValue.out_is_spec]
      obtain ⟨h0, h1, h2, h3, h4, h5, h6, h7, h8, h9, h10, h11, h12⟩ := hagree c
      beta_reduce
      rw [← h0, ← h1, ← h2, ← h3, ← h4, ← h5, ← h6, ← h7, ← h8, ← h9, ← h10, ← h11, ← h12]
    · rw [Cert.RefValue.corr_is_spec]
      obtain ⟨h0, h1, h2, h3, h4, h5, h6, h7, h8, h9, h10, h11, h12⟩ := hagree c
      beta_reduce
      rw [← h0, ← h1, ← h2, ← h3, ← h4, ← h5, ← h6, ← h7, ← h8, ← h9, ← h10, ← h11, ← h12]

end Cert.Proof.Algebraic

end
-- ==== Proof.lean ====
/- The proof of `Cert.Claim`: the three frames, the idealization's ledger (empty), and the equality of results.
   The word-level kernel program and its idealization are one text read at two float instances, so their frames are one
   argument (Proof/K/, Proof/KI/): each of the seven kernel regions runs its body at every grid point from the blocks
   the pipeline staged, the four dense layers carrying a 512 x 512 accumulator across their column-block axis, and the
   regions chain through @main's host operations with every unscoped buffer's contents named at each boundary
   (Run.lean); no item writes an argument array. The reference is a straight-line host program and its frame is its
   run read back (Proof/RefFrame.lean). The results' equality at the ideal instance is Proof/Algebraic.lean. -/
import proofs.«115712_j50027779064181_2_alg».proof.Defs
import proofs.«115712_j50027779064181_2_alg».proof.Proof.Gen.Kernel
import proofs.«115712_j50027779064181_2_alg».proof.Proof.Gen.KernelIdeal
import proofs.«115712_j50027779064181_2_alg».proof.Proof.Gen.ReferenceIdeal
import proofs.«115712_j50027779064181_2_alg».proof.Proof.Gen.Pre_finite_inputs
import proofs.«115712_j50027779064181_2_alg».proof.Proof.K.Run
import proofs.«115712_j50027779064181_2_alg».proof.Proof.KI.Run
import proofs.«115712_j50027779064181_2_alg».proof.Proof.RefFrame
import proofs.«115712_j50027779064181_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Proof.RefFrame.frame_ri,
    trivial,
    Cert.Proof.Algebraic.algebraic⟩

end Cert.Proof

end
